-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16 .f32) (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : FVec F S128x16 .f32) (main_arg2 : FVec F S16 .f32) (main_arg3 : FVec F S16 .f32) (main_arg4 : FVec F S16 .f32) (main_arg5 : FVec F S16x8 .f32) (main_arg6 : FVec F S8 .f32) (main_arg7 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S100000x128 : Shape := ⟨2, ![100000, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S100000x1 : Shape := ⟨2, ![100000, 1]⟩
abbrev S3300000x16 : Shape := ⟨2, ![3300000, 16]⟩
abbrev S1x16 : Shape := ⟨2, ![1, 16]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S5000 : Shape := ⟨1, ![5000]⟩
abbrev S5000x1 : Shape := ⟨2, ![5000, 1]⟩

abbrev nBuf : Space → Nat
  | .hbm => 91
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S2x3200000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x16, .f32⟩
  | .hbm, ⟨30, _⟩ => ⟨S100000x1, .f32⟩
  | .hbm, ⟨31, _⟩ => ⟨S100000x16, .f32⟩
  | .hbm, ⟨32, _⟩ => ⟨S100000x16, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000x16, .f32⟩
  | .hbm, ⟨42, _⟩ => ⟨S_, .f32⟩
  | .hbm, ⟨43, _⟩ => ⟨S100000x16, .f32⟩
  | .hbm, ⟨44, _⟩ => ⟨S3300000x1, .i32⟩
  | .hbm, ⟨45, _⟩ => ⟨S100000x16, .f32⟩
  | .hbm, ⟨46, _⟩ => ⟨S100000x1, .f32⟩
  | .hbm, ⟨47, _⟩ => ⟨S100000x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | .hbm, ⟨52, _⟩ => ⟨S1x16, .f32⟩
  | .hbm, ⟨53, _⟩ => ⟨S1x16, .f32⟩
  | .hbm, ⟨54, _⟩ => ⟨S_, .f32⟩
  | .hbm, ⟨55, _⟩ => ⟨S1x16, .f32⟩
  | .hbm, ⟨56, _⟩ => ⟨S1x16, .f32⟩
  | .hbm, ⟨57, _⟩ => ⟨S_, .f32⟩
  | .hbm, ⟨58, _⟩ => ⟨S1x16, .f32⟩
  | .hbm, ⟨59, _⟩ => ⟨S1x16, .f32⟩
  | .hbm, ⟨60, _⟩ => ⟨S1x16, .f32⟩
  | .hbm, ⟨61, _⟩ => ⟨S1x16, .f32⟩
  | .hbm, ⟨62, _⟩ => ⟨S_, .f32⟩
  | .hbm, ⟨63, _⟩ => ⟨S1x16, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S100000x8, .f32⟩
  | .hbm, ⟨68, _⟩ => ⟨S100000x1, .f32⟩
  | .hbm, ⟨69, _⟩ => ⟨S100000x8, .f32⟩
  | .hbm, ⟨70, _⟩ => ⟨S100000x8, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S100000x1, .f32⟩
  | .hbm, ⟨85, _⟩ => ⟨S100000x8, .f32⟩
  | .hbm, ⟨86, _⟩ => ⟨S100000x8, .f32⟩
  | .hbm, ⟨87, _⟩ => ⟨S1x8, .f32⟩
  | .hbm, ⟨88, _⟩ => ⟨S100000x8, .f32⟩
  | .hbm, ⟨89, _⟩ => ⟨S100000x8, .f32⟩
  | .hbm, ⟨90, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S16x8, .f32⟩
  | .local _ .vmem, ⟨18, _⟩ => ⟨S5000x8, .f32⟩
  | .local _ .vmem, ⟨19, _⟩ => ⟨S5000x8, .f32⟩
  | .local _ .vmem, ⟨20, _⟩ => ⟨S5000x8, .f32⟩
  | .local _ .vmem, ⟨21, _⟩ => ⟨S5000x8, .f32⟩
  | .local _ .vmem, ⟨22, _⟩ => ⟨S5000x8, .f32⟩
  | .local _ .vmem, ⟨23, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem6_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S5000x16_S5000x16 : S5000x16.ShapeCasts S5000x16
  reduces_S5000x16_S16 : S5000x16.Reduces [0] S16
  shapeCasts_S16_S1x16 : S16.ShapeCasts S1x16
  bcast_S_S1x16 : S_.BroadcastsInDim S1x16 (![] : Fin 0 → Fin S1x16.rank)
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  bcast_S100000x1_S100000x8_0_1 : S100000x1.BroadcastsInDim S100000x8 (![0, 1] : Fin 2 → Fin S100000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S5000x8_S5000x8 : S5000x8.ShapeCasts S5000x8
  reduces_S5000x8_S5000 : S5000x8.Reduces [1] S5000
  shapeCasts_S5000_S5000x1 : S5000.ShapeCasts S5000x1
  broadcasts_S5000x1_S5000x8 : S5000x1.Broadcasts S5000x8
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x8.size a ≤ S16x8.size a
  hwx2_5 : ∀ i : grid2.Coords, EltTy.bits .f32 = 32 ∨ (Rect.block (s := S16x8) S16x8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x8.size a ≤ S100000x8.size a
  hwx2_6 : ∀ i : grid2.Coords, EltTy.bits .f32 = 32 ∨ (Rect.block (s := S100000x8) S5000x8.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S100000x8.size a
  hwx3_1 : ∀ i : grid3.Coords, EltTy.bits .f32 = 32 ∨ (Rect.block (s := S100000x8) S5000x8.size (cc3_transform_1 i) (hinb3_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35_0) S1x16.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35_1) S1x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S16x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x8.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x8.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S2x3200000 : Shape := ⟨2, ![2, 3200000]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16, .f32⟩
  | 4 => ⟨S16, .f32⟩
  | 5 => ⟨S16x8, .f32⟩
  | 6 => ⟨S8, .f32⟩
  | 7 => ⟨S2x3200000, .i32⟩
  | 8 => ⟨S100000x16, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S16, .f32⟩
  | 70 => ⟨S_, .f32⟩
  | 71 => ⟨S16, .f32⟩
  | 72 => ⟨S16, .f32⟩
  | 73 => ⟨S_, .i32⟩
  | 74 => ⟨S_, .f32⟩
  | 75 => ⟨S16, .f32⟩
  | 76 => ⟨S1x16, .f32⟩
  | 77 => ⟨S_, .f32⟩
  | 78 => ⟨S1x16, .f32⟩
  | 79 => ⟨S1x16, .f32⟩
  | 80 => ⟨S100000x16, .f32⟩
  | 81 => ⟨S100000x16, .f32⟩
  | 82 => ⟨S100000x16, .f32⟩
  | 83 => ⟨S_, .f32⟩
  | 84 => ⟨S_, .f32⟩
  | 85 => ⟨S_, .f32⟩
  | 86 => ⟨S_, .f32⟩
  | 87 => ⟨S16, .f32⟩
  | 88 => ⟨S16, .f32⟩
  | 89 => ⟨S16, .f32⟩
  | 90 => ⟨S_, .f32⟩
  | 91 => ⟨S_, .i1⟩
  | 92 => ⟨S_, .f32⟩
  | 93 => ⟨S_, .f32⟩
  | 94 => ⟨S16, .f32⟩
  | 95 => ⟨S16, .f32⟩
  | 96 => ⟨S1x16, .f32⟩
  | 97 => ⟨S100000x16, .f32⟩
  | 98 => ⟨S100000x16, .f32⟩
  | 99 => ⟨S_, .f32⟩
  | 100 => ⟨S16, .f32⟩
  | 101 => ⟨S16, .f32⟩
  | 102 => ⟨S16, .f32⟩
  | 103 => ⟨S1x16, .f32⟩
  | 104 => ⟨S100000x16, .f32⟩
  | 105 => ⟨S100000x16, .f32⟩
  | 106 => ⟨S1x16, .f32⟩
  | 107 => ⟨S100000x16, .f32⟩
  | 108 => ⟨S100000x16, .f32⟩
  | 109 => ⟨S1x16, .f32⟩
  | 110 => ⟨S100000x16, .f32⟩
  | 111 => ⟨S100000x16, .f32⟩
  | 112 => ⟨S_, .f32⟩
  | 113 => ⟨S100000x16, .f32⟩
  | 114 => ⟨S100000x16, .f32⟩
  | 115 => ⟨S100000x8, .f32⟩
  | 116 => ⟨S100000, .i32⟩
  | 117 => ⟨S1x3200000, .i32⟩
  | 118 => ⟨S3200000, .i32⟩
  | 119 => ⟨S3300000, .i32⟩
  | 120 => ⟨S1x3200000, .i32⟩
  | 121 => ⟨S3200000, .i32⟩
  | 122 => ⟨S3300000, .i32⟩
  | 123 => ⟨S_, .f32⟩
  | 124 => ⟨S3300000, .f32⟩
  | 125 => ⟨S_, .f32⟩
  | 126 => ⟨S100000, .f32⟩
  | 127 => ⟨S3300000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S100000, .f32⟩
  | 5 => ⟨S_, .f32⟩
  | 6 => ⟨S_, .f32⟩
  | 7 => ⟨S100000, .f32⟩
  | 8 => ⟨S100000, .f32⟩
  | 9 => ⟨S_, .i32⟩
  | 10 => ⟨S3300000, .i32⟩
  | 11 => ⟨S3300000, .i1⟩
  | 12 => ⟨S_, .i32⟩
  | 13 => ⟨S3300000, .i32⟩
  | 14 => ⟨S3300000, .i32⟩
  | 15 => ⟨S3300000, .i32⟩
  | 16 => ⟨S3300000x1, .i32⟩
  | 17 => ⟨S3300000, .f32⟩
  | 18 => ⟨S_, .i32⟩
  | 19 => ⟨S3300000, .i32⟩
  | 20 => ⟨S3300000, .i1⟩
  | 21 => ⟨S_, .i32⟩
  | 22 => ⟨S3300000, .i32⟩
  | 23 => ⟨S3300000, .i32⟩
  | 24 => ⟨S3300000, .i32⟩
  | 25 => ⟨S3300000x1, .i32⟩
  | 26 => ⟨S3300000, .f32⟩
  | 27 => ⟨S3300000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000x8, .f32⟩
  | 37 => ⟨S3300000x1, .f32⟩
  | 38 => ⟨S3300000x8, .f32⟩
  | 39 => ⟨S3300000x8, .f32⟩
  | 40 => ⟨S_, .f32⟩
  | 41 => ⟨S100000x8, .f32⟩
  | 42 => ⟨S3300000x1, .i32⟩
  | 43 => ⟨S100000x8, .f32⟩
  | 44 => ⟨S1x8, .f32⟩
  | 45 => ⟨S100000x8, .f32⟩
  | 46 => ⟨S100000x8, .f32⟩
  | 47 => ⟨S_, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x8, .f32⟩
  | 54 => ⟨S100000x8, .f32⟩
  | 55 => ⟨S100000x8, .f32⟩
  | 56 => ⟨S_, .f32⟩
  | 57 => ⟨S100000, .f32⟩
  | 58 => ⟨S100000x1, .f32⟩
  | 59 => ⟨S100000x1, .f32⟩
  | 60 => ⟨S100000x8, .f32⟩
  | 61 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_12 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call2_cst : Ref sig .tc := ⟨.hbm, 112, rfl⟩
abbrev main_call2_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_13 : Ref sig .tc := ⟨.hbm, 123, rfl⟩
abbrev main_v75 : Ref sig .tc := ⟨.hbm, 124, rfl⟩
abbrev main_cst_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_15 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_19 : Ref sig .tc := ⟨.hbm, 146, rfl⟩
abbrev main_v90 : Ref sig .tc := ⟨.hbm, 147, rfl⟩
abbrev main_v91 : Ref sig .tc := ⟨.hbm, 148, rfl⟩
abbrev main_c_20 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_21 : Ref sig .tc := ⟨.hbm, 156, rfl⟩
abbrev main_v98 : Ref sig .tc := ⟨.hbm, 157, rfl⟩
abbrev main_v99 : Ref sig .tc := ⟨.hbm, 158, rfl⟩
abbrev main_c_22 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_23 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_call4_cst : Ref sig .tc := ⟨.hbm, 175, rfl⟩
abbrev main_call4_v0 : Ref sig .tc := ⟨.hbm, 176, rfl⟩
abbrev main_call4_cst_0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_cst_1 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_v114 : Ref sig .tc := ⟨.hbm, 189, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.K.Region0.lean ====
/-
  THE FIRST DENSE LAYER'S REGION (the first pallas_call) at the contents V the region is entered with: a grid of 20
  points, each taking a block of 5000 rows of the [100000, 128] input and the whole [128, 16] weight and storing their
  product whole into the output's block. What the body leaves in the output's staging buffer, its triple, the proof
  data (each input buffer at its block, the output buffer at the body's value of the input blocks) and the body
  obligation.
-/
import proofs.«179341_j31447750542019_2_alg».proof.Proof.Gen.Kernel.Launch
import proofs.«179341_j31447750542019_2_alg».proof.Proof.Gen.Kernel.Skeleton
import proofs.«179341_j31447750542019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is V's and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's access rectangles: each the whole buffer -/

abbrev r0_0 : Rect S5000x128 := Rect.unit (s := S5000x128) ![0, 0] S5000x128.size inb_S5000x128_S5000x128_0_0
abbrev r0_1 : Rect S128x16 := Rect.unit (s := S128x16) ![0, 0] S128x16.size inb_S128x16_S128x16_0_0
abbrev r0_2 : Rect S5000x16 := Rect.unit (s := S5000x16) ![0, 0] S5000x16.size inb_S5000x16_S5000x16_0_0

/-- The output's staging buffer after the body: its one store, of the body's value of the loaded input blocks. -/
def out0_2 (x0 : Vec F S5000x128 .f32) (x1 : Vec F S128x16 .f32) : Vec F S5000x16 .f32 :=
  View.canon [⟨r0_2, k0_pay1 (View.ld x0 r0_0) (View.ld x1 r0_1)⟩]

/-- The store covers the buffer. -/
theorem cover0_2 (p0 : Vec F S5000x16 .f32) (y : S5000x16.Idx) :
    ∃ pc ∈ ([⟨r0_2, p0⟩] : List (View.Piece (Elt F) S5000x16 .f32)), y ∈ pc.1.set :=
  View.cover_of_tiled [⟨r0_2, p0⟩] S5000x16.size (by rfl) y

set_option maxHeartbeats 4000000 in
/-- The body on whole staging memrefs, the inputs' at contents x and the output's at anything, runs to the
    continuation holding the inputs' as they were and the output's at out0_2 of them. -/
theorem sound_kernel0 (c : Dev nD) (E : Set ℕ) (i : grid0.Coords) (arg1 : Memref sig .tc .vmem S5000x128 .f32) (harg1 : arg1.IsWhole) (arg2 : Memref sig .tc .vmem S128x16 .f32) (harg2 : arg2.IsWhole) (arg3 : Memref sig .tc .vmem S5000x16 .f32) (harg3 : arg3.IsWhole)
    (x0 : Vec F S5000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-! ## The proof data -/

/-- The proof data of the region on core c: the arrays as the region finds them; after the body at point t each
    input's buffer at its block and the output's at the body's value of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- Region 1 of the program (the column sums and column sums of squares of the 100000 x 16 activations,
   accumulated over 20 blocks of 5000 rows in two 1 x 16 scratch rows): what the three control cases of
   its body share. The region is entered with the core's buffers at an arbitrary valuation `V`; every
   fact here is stated at that parameter.

   The body has two conditionals on the grid coordinate: the first holds at point 0 only (the scratch
   rows are zeroed there), the second at point 19 only (the scratch rows are copied to the two output
   blocks there). So the cases are A = point 0, B = points 1..18, C = point 19. -/
import proofs.«179341_j31447750542019_2_alg».proof.Proof.Gen.Kernel.Launch
import proofs.«179341_j31447750542019_2_alg».proof.Proof.Gen.Kernel.Skeleton
import proofs.«179341_j31447750542019_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- The first conditional's condition (zero the scratch rows), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second conditional's condition (copy the scratch rows out). -/
abbrev cond1_1 (i : grid1.Coords) : Prop := k1_cond2 i = 1#1
/-- It holds at point 19 only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Where the second condition fails both output windows are idle and not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1x16 .f32 := (Memref.whole cc1_stg1_0 : Memref sig .tc .vmem S1x16 .f32).view
abbrev VO1_2 : View sig .tc .vmem S1x16 .f32 := (Memref.whole cc1_stg2_0 : Memref sig .tc .vmem S1x16 .f32).view
/-- Each window's current staging memref at point `t`, and its wholeness. -/
abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
/-- The two scratch rows: whole scoped buffers of the kernel's own. -/
abbrev scM1_0 : Memref sig .tc .vmem S1x16 .f32 := Memref.whole cc1_scratch0
abbrev scM1_1 : Memref sig .tc .vmem S1x16 .f32 := Memref.whole cc1_scratch1
abbrev VS1_0 : View sig .tc .vmem S1x16 .f32 := scM1_0.view
abbrev VS1_1 : View sig .tc .vmem S1x16 .f32 := scM1_1.view

/-- The core's scoped buffers other than this region's staging buffers and its two scratch rows, each at some
    contents: carried through the region unopened. -/
def Rest1 (c : Dev nD) : sProp 𝕄 :=
  Pipeline.scopedRestBut (Ix := Unit) (Name := ℕ) (U := UR sig nD τ) (Lvl := ℕ) (Val := Elt F) spec1 c [cc1_scratch0, cc1_scratch1]

/-- The region's invariant with the two scratch rows taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Rest1 c) ∗ (∃ r, prngReg c r)) := by
  unfold Pipeline.ΦA Rest1
  rw [Pipeline.scopedRest_split_of_list spec1 c [cc1_scratch0, cc1_scratch1] (by decide) (by decide)]
  simp only [scM1_0, scM1_1, owns_whole, Idealize.SL.BI.bigSepL_cons_cons, Idealize.SL.BI.bigSepL_singleton]; try rfl

end Cert.Kernel.Hand

end
-- ==== Proof.K.Region1RunA.lean ====
/- Region 1, case A (grid point 0): the body zeroes the two scratch rows, then adds the block's column sums
   and column sums of squares to them; it stores nothing into the two output blocks. -/
import proofs.«179341_j31447750542019_2_alg».proof.Proof.K.Region1Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A, run on whole memrefs: the input block at `x0`, the two output blocks (idle here) at
    contents handed back untouched, the scratch rows at anything. The stores it leaves in each scratch row are
    the pieces the run finds. -/
noncomputable def kernelRun1_A (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (xi1 : Vec F S1x16 .f32) (xi2 : Vec F S1x16 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨[], [], ?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.Region1RunB.lean ====
/- Region 1, case B (grid points 1..18): the body adds the block's column sums and column sums of squares to
   the two scratch rows as the point before left them; it stores nothing into the two output blocks. -/
import proofs.«179341_j31447750542019_2_alg».proof.Proof.K.Region1RunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B, run on whole memrefs: the input block at `x0`, the two output blocks (idle here) at
    contents handed back untouched, the scratch rows at `xs0`, `xs1`. -/
noncomputable def kernelRun1_B (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (xi1 : Vec F S1x16 .f32) (xi2 : Vec F S1x16 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨[], [], ?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.Region1RunC.lean ====
/- Region 1, case C (grid point 19): the body adds the last block's column sums and column sums of squares to
   the two scratch rows, then copies each scratch row to its output block. -/
import proofs.«179341_j31447750542019_2_alg».proof.Proof.K.Region1RunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C, run on whole memrefs: the input block at `x0`, the two output blocks at anything, the
    scratch rows at `xs0`, `xs1`. -/
noncomputable def kernelRun1_C (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.Region1.lean ====
/- Region 1 of the program at an arbitrary entry valuation `V`: what the two output blocks and the two scratch
   rows hold after each grid point, the pipeline's proof data, and the body obligation.

   After point `n` scratch row 0 holds the column sums of the activations' rows `0 .. 5000 (n+1) - 1` and scratch
   row 1 the column sums of their squares, accumulated block by block from zero; the last point copies the two
   rows into the output blocks, which the pipeline writes back there and only there. -/
import proofs.«179341_j31447750542019_2_alg».proof.Proof.K.Region1RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves there: its stores read back (none: a placeholder nothing consults, the window being idle). -/
def out1_A_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VO1_1.read (Elt F) (VO1_1.writes (Elt F) VO1_1.junk (kernelRun1_A c i arg1 harg1 arg2 harg2 arg3 harg3 arg4 harg4 arg5 harg5 hc0 hc1 x0).1)

/-- What case A leaves there: its stores read back (none: a placeholder nothing consults, the window being idle). -/
def out1_A_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VO1_2.read (Elt F) (VO1_2.writes (Elt F) VO1_2.junk (kernelRun1_A c i arg1 harg1 arg2 harg2 arg3 harg3 arg4 harg4 arg5 harg5 hc0 hc1 x0).2.1)

/-- Case A's stores into scratch row 0 cover it. -/
theorem cover1_A_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) (y : S1x16.Idx) :
    ∃ pc ∈ (kernelRun1_A c i arg1 harg1 arg2 harg2 arg3 harg3 arg4 harg4 arg5 harg5 hc0 hc1 x0).2.2.1, y ∈ pc.1.set :=
  View.cover_of_tiledL (kernelRun1_A c i arg1 harg1 arg2 harg2 arg3 harg3 arg4 harg4 arg5 harg5 hc0 hc1 x0).2.2.1 S1x16.size (by sl_kernel_rfl) y

/-- What case A leaves there: its stores read back. -/
def out1_A_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VS1_0.read (Elt F) (VS1_0.writes (Elt F) VS1_0.junk (kernelRun1_A c i arg1 harg1 arg2 harg2 arg3 harg3 arg4 harg4 arg5 harg5 hc0 hc1 x0).2.2.1)

/-- Case A's stores into scratch row 1 cover it. -/
theorem cover1_A_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) (y : S1x16.Idx) :
    ∃ pc ∈ (kernelRun1_A c i arg1 harg1 arg2 harg2 arg3 harg3 arg4 harg4 arg5 harg5 hc0 hc1 x0).2.2.2.1, y ∈ pc.1.set :=
  View.cover_of_tiledL (kernelRun1_A c i arg1 harg1 arg2 harg2 arg3 harg3 arg4 harg4 arg5 harg5 hc0 hc1 x0).2.2.2.1 S1x16.size (by sl_kernel_rfl) y

/-- What case A leaves there: its stores read back. -/
def out1_A_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VS1_1.read (Elt F) (VS1_1.writes (Elt F) VS1_1.junk (kernelRun1_A c i arg1 harg1 arg2 harg2 arg3 harg3 arg4 harg4 arg5 harg5 hc0 hc1 x0).2.2.2.1)

/-- What case B leaves there: its stores read back (none: a placeholder nothing consults, the window being idle). -/
def out1_B_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VO1_1.read (Elt F) (VO1_1.writes (Elt F) VO1_1.junk (kernelRun1_B c i arg1 harg1 arg2 harg2 arg3 harg3 arg4 harg4 arg5 harg5 hc0 hc1 x0 xs0 xs1).1)

/-- What case B leaves there: its stores read back (none: a placeholder nothing consults, the window being idle). -/
def out1_B_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VO1_2.read (Elt F) (VO1_2.writes (Elt F) VO1_2.junk (kernelRun1_B c i arg1 harg1 arg2 harg2 arg3 harg3 arg4 harg4 arg5 harg5 hc0 hc1 x0 xs0 xs1).2.1)

/-- Case B's stores into scratch row 0 cover it. -/
theorem cover1_B_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) (y : S1x16.Idx) :
    ∃ pc ∈ (kernelRun1_B c i arg1 harg1 arg2 harg2 arg3 harg3 arg4 harg4 arg5 harg5 hc0 hc1 x0 xs0 xs1).2.2.1, y ∈ pc.1.set :=
  View.cover_of_tiledL (kernelRun1_B c i arg1 harg1 arg2 harg2 arg3 harg3 arg4 harg4 arg5 harg5 hc0 hc1 x0 xs0 xs1).2.2.1 S1x16.size (by sl_kernel_rfl) y

/-- What case B leaves there: its stores read back. -/
def out1_B_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VS1_0.read (Elt F) (VS1_0.writes (Elt F) VS1_0.junk (kernelRun1_B c i arg1 harg1 arg2 harg2 arg3 harg3 arg4 harg4 arg5 harg5 hc0 hc1 x0 xs0 xs1).2.2.1)

/-- Case B's stores into scratch row 1 cover it. -/
theorem cover1_B_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) (y : S1x16.Idx) :
    ∃ pc ∈ (kernelRun1_B c i arg1 harg1 arg2 harg2 arg3 harg3 arg4 harg4 arg5 harg5 hc0 hc1 x0 xs0 xs1).2.2.2.1, y ∈ pc.1.set :=
  View.cover_of_tiledL (kernelRun1_B c i arg1 harg1 arg2 harg2 arg3 harg3 arg4 harg4 arg5 harg5 hc0 hc1 x0 xs0 xs1).2.2.2.1 S1x16.size (by sl_kernel_rfl) y

/-- What case B leaves there: its stores read back. -/
def out1_B_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VS1_1.read (Elt F) (VS1_1.writes (Elt F) VS1_1.junk (kernelRun1_B c i arg1 harg1 arg2 harg2 arg3 harg3 arg4 harg4 arg5 harg5 hc0 hc1 x0 xs0 xs1).2.2.2.1)

/-- Case C's stores into output block 1 cover it. -/
theorem cover1_C_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x16.size (by sl_kernel_rfl) y

/-- What case C leaves there: its stores read back. -/
def out1_C_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VO1_1.read (Elt F) (VO1_1.writes (Elt F) VO1_1.junk (kernelRun1_C c i arg1 harg1 arg2 harg2 arg3 harg3 arg4 harg4 arg5 harg5 hc0 hc1 x0 xs0 xs1).1)

/-- Case C's stores into output block 2 cover it. -/
theorem cover1_C_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x16.size (by sl_kernel_rfl) y

/-- What case C leaves there: its stores read back. -/
def out1_C_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's stores into scratch row 0 cover it. -/
theorem cover1_C_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x16.size (by sl_kernel_rfl) y

/-- What case C leaves there: its stores read back. -/
def out1_C_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- Case C's stores into scratch row 1 cover it. -/
theorem cover1_C_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x16.size (by sl_kernel_rfl) y

/-- What case C leaves there: its stores read back. -/
def out1_C_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VS1_1.read (Elt F) (VS1_1.writes (Elt F) VS1_1.junk (kernelRun1_C c i arg1 harg1 arg2 harg2 arg3 harg3 arg4 harg4 arg5 harg5 hc0 hc1 x0 xs0 xs1).2.2.2.1)

section
variable (V : (c : Dev nD) → (b : Ref sig .tc) → Buf (Elt F) ((c : Thread nD τ).loc b))

/-! ## What the outputs and the scratch rows hold after each point -/

/-- After the body at position `n`: (output block 1, output block 2, scratch row 0, scratch row 1). Point 0 is
    case A; point 19 is case C and the others case B, both over what the point before left in the scratch rows. -/
def outsAt1 (c : Dev nD) : (n : ℕ) → n < cfg1.N → Vec F S1x16 .f32 × Vec F S1x16 .f32 × Vec F S1x16 .f32 × Vec F S1x16 .f32
  | 0, hn => (out1_A_o1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_o2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 20 = 19 then
      (out1_C_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      (out1_B_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at point 0: case A's contents. -/
theorem outsAt1_A (c : Dev nD) (t : Fin cfg1.N) (h0 : t.val % 20 = 0) (h1 : ¬t.val % 20 = 19) :
    outsAt1 V c t.val t.isLt = (out1_A_o1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_o2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_s0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_s1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (by exfalso; have hN : n + 1 < 20 := lt_of_lt_of_eq hn (show cfg1.N = 20 from N_1); (try dsimp only at h0); omega)

/-- `outsAt1` at a point of case B: that case's contents, over what the point before left. -/
theorem outsAt1_B (c : Dev nD) (t : Fin cfg1.N) (h0 : ¬t.val % 20 = 0) (h1 : ¬t.val % 20 = 19) :
    outsAt1 V c t.val t.isLt = (out1_B_o1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_o2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_s0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_s1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at point 19: case C's contents, over what the point before left. -/
theorem outsAt1_C (c : Dev nD) (t : Fin cfg1.N) (h0 : ¬t.val % 20 = 0) (h1 : t.val % 20 = 19) :
    outsAt1 V c t.val t.isLt = (out1_C_o1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_o2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_s0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_s1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before position `n`: at the first point what the launch hands over (every scoped buffer at anything);
    afterwards the two scratch rows at what the point before left in them, the other scoped buffers at anything,
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ Rest1 c) ∗ (∃ r, prngReg c r)) := by
  cases n with
  | zero => exact absurd rfl hz
  | succ n => rfl

/-! ## The pipeline's proof data -/

/-- The proof data of the region on core `c`: the arrays as the region finds them (`V`); after the body at
    point `t` the input's buffer at its block and the outputs' at `outsAt1`; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t) : (dat1 V c).owed t = 0 := rfl

theorem share1 (c : Dev nD) : ∀ w, (dat1 V c).share w = fullShare := (dat1 V c).share_full fun _ => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the point's position says which case it is in; the
    invariant hands the body the two scratch rows at what the point before left (at anything at the first point)
    and takes them back at this point's contents; an idle output's buffer is handed back as found; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 20 = 0
  · have h1 : ¬t.val % 20 = 19 := by omega
    have hz : t.val = 0 := by omega
    rw [show (dat1 V c).leavesExact 0 t = owns (c : Thread nD τ) (ms1_0 t) fullShare ((dat1 V c).after 0 t) from by
        unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold out1_A_s0 out1_A_s1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩⟩
    iapply ((kernelRun1_A c (grid1.coords t) _ _ _ _ _ _ _ _ _ _ ((hcond1_0 t).mpr h0) (fun h => h1 ((hcond1_1 t).mp h)) (iblk1 V c 0 t)).2.2.2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (cover1_A_s0 c _ _ _ _ _ _ _ _ _ _ _ _ _ _)
          · unfold owns; iexists _; isplitr
            swap; · iexact HS1
            ipureintro; exact View.read_writes_of_cover _ _ _ _ _ (cover1_A_s1 c _ _ _ _ _ _ _ _ _ _ _ _ _ _)
        iexact HR
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_o1 out1_C_o2 out1_C_s0 out1_C_s1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (cover1_C_s0 c _ _ _ _ _ _ _ _ _ _ _ _ _ _ _ _)
            · unfold owns; iexists _; isplitr
              swap; · iexact HS1
              ipureintro; exact View.read_writes_of_cover _ _ _ _ _ (cover1_C_s1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C_o1 c _ _ _ _ _ _ _ _ _ _ _ _ _ _ _ _)
      · unfold owns; iexists _; isplitr
        swap; · iexact H2
        ipureintro; exact View.read_writes_of_cover _ _ _ _ _ (cover1_C_o2 c _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold out1_B_s0 out1_B_s1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (cover1_B_s0 c _ _ _ _ _ _ _ _ _ _ _ _ _ _ _ _)
            · unfold owns; iexists _; isplitr
              swap; · iexact HS1
              ipureintro; exact View.read_writes_of_cover _ _ _ _ _ (cover1_B_s1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.Kernel.Hand

end
-- ==== Proof.K.Region2.lean ====
/-
  THE NORMALISE-CLAMP-AND-MULTIPLY REGION (the third pallas_call) at the contents V the region is entered with: a
  grid of 20 points, each taking a block of 5000 rows of the [100000, 16] activations, the four [1, 16] rows (mean,
  variance, scale, shift) and the whole [16, 8] weight, and storing max(normalised block, 0) times the weight whole into
  the output's block. The body reads the variance row (third window) before the mean row (second window). What the
  body leaves in the output's staging buffer, its triple, the proof data and the body obligation.
-/
import proofs.«179341_j31447750542019_2_alg».proof.Proof.Gen.Kernel.Launch
import proofs.«179341_j31447750542019_2_alg».proof.Proof.Gen.Kernel.Skeleton
import proofs.«179341_j31447750542019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for any proof data whose array is V's and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for any proof data whose array is V's and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for any proof data whose array is V's and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for any proof data whose array is V's and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, for any proof data whose array is V's and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's access rectangles: each the whole buffer -/

abbrev r2_0 : Rect S5000x16 := Rect.unit (s := S5000x16) ![0, 0] S5000x16.size inb_S5000x16_S5000x16_0_0
abbrev r2_1 : Rect S1x16 := Rect.unit (s := S1x16) ![0, 0] S1x16.size inb_S1x16_S1x16_0_0
abbrev r2_2 : Rect S16x8 := Rect.unit (s := S16x8) ![0, 0] S16x8.size inb_S16x8_S16x8_0_0
abbrev r2_3 : Rect S5000x8 := Rect.unit (s := S5000x8) ![0, 0] S5000x8.size inb_S5000x8_S5000x8_0_0

/-- The output's staging buffer after the body: its one store, of the body's value of the loaded input blocks. -/
def out2_6 (x0 : Vec F S5000x16 .f32) (x1 : Vec F S1x16 .f32) (x2 : Vec F S1x16 .f32) (x3 : Vec F S1x16 .f32) (x4 : Vec F S1x16 .f32) (x5 : Vec F S16x8 .f32) : Vec F S5000x8 .f32 :=
  View.canon [⟨r2_3, k2_pay1 (View.ld x0 r2_0) (View.ld x2 r2_1) (View.ld x1 r2_1) (View.ld x3 r2_1) (View.ld x4 r2_1) (View.ld x5 r2_2)⟩]

/-- The store covers the buffer. -/
theorem cover2_6 (p0 : Vec F S5000x8 .f32) (y : S5000x8.Idx) :
    ∃ pc ∈ ([⟨r2_3, p0⟩] : List (View.Piece (Elt F) S5000x8 .f32)), y ∈ pc.1.set :=
  View.cover_of_tiled [⟨r2_3, p0⟩] S5000x8.size (by rfl) y

set_option maxHeartbeats 4000000 in
/-- The body on whole staging memrefs, the inputs' at contents x and the output's at anything, runs to the
    continuation holding the inputs' as they were and the output's at out2_6 of them. -/
theorem sound_kernel2 (c : Dev nD) (E : Set ℕ) (i : grid2.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S5000x8 .f32) (harg7 : arg7.IsWhole)
    (x0 : Vec F S5000x16 .f32) (x1 : Vec F S1x16 .f32) (x2 : Vec F S1x16 .f32) (x3 : Vec F S1x16 .f32) (x4 : Vec F S1x16 .f32) (x5 : Vec F S16x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_matmul_kernel i arg1 harg1 arg2 harg2 arg3 harg3 arg4 harg4 arg5 harg5 arg6 harg6 arg7 harg7) K := by
  simp only [cc2__bn_relu_matmul_kernel_eq_skeleton]; unfold cc2__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-! ## The proof data -/

/-- The proof data of the region on core c: the arrays as the region finds them; after the body at point t each
    input's buffer at its block and the output's at the body's value of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  THE LOG-SOFTMAX REGION (the fourth pallas_call) at the contents V the region is entered with: a grid of 20 points,
  each taking a block of 5000 rows of the [100000, 8] input and storing the block's row-wise log-softmax whole into
  the output's block. What the body leaves in the output's staging buffer, its triple, the proof data (each input
  buffer at its block, the output buffer at the body's value of the input block) and the body obligation.
-/
import proofs.«179341_j31447750542019_2_alg».proof.Proof.Gen.Kernel.Launch
import proofs.«179341_j31447750542019_2_alg».proof.Proof.Gen.Kernel.Skeleton
import proofs.«179341_j31447750542019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is V's and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's one access rectangle: the whole 5000 x 8 buffer -/

abbrev r3_0 : Rect S5000x8 := Rect.unit (s := S5000x8) ![0, 0] S5000x8.size inb_S5000x8_S5000x8_0_0

/-- The output's staging buffer after the body: its one store, of the log-softmax of the loaded input block. -/
def out3_1 (x0 : Vec F S5000x8 .f32) : Vec F S5000x8 .f32 :=
  View.canon [⟨r3_0, k3_pay1 (View.ld x0 r3_0)⟩]

/-- The store covers the buffer. -/
theorem cover3_1 (p0 : Vec F S5000x8 .f32) (y : S5000x8.Idx) :
    ∃ pc ∈ ([⟨r3_0, p0⟩] : List (View.Piece (Elt F) S5000x8 .f32)), y ∈ pc.1.set :=
  View.cover_of_tiled [⟨r3_0, p0⟩] S5000x8.size (by rfl) y

set_option maxHeartbeats 1000000 in
/-- The body on whole staging memrefs, the input's at contents x0 and the output's at anything, runs to the
    continuation holding the input's as it was and the output's at out3_1 x0. -/
theorem sound_kernel3 (c : Dev nD) (E : Set ℕ) (i : grid3.Coords) (arg1 : Memref sig .tc .vmem S5000x8 .f32) (harg1 : arg1.IsWhole) (arg2 : Memref sig .tc .vmem S5000x8 .f32) (harg2 : arg2.IsWhole)
    (x0 : Vec F S5000x8 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__log_softmax_kernel i arg1 harg1 arg2 harg2) K := by
  simp only [cc3__log_softmax_kernel_eq_skeleton]; unfold cc3__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The proof data -/

/-- The proof data of the region on core c: the arrays as the region finds them; after the body at point t the
    input's buffer at its block and the output's at the body's value of the input block; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RunFold.lean ====
/-
  THE CONTENTS OF EVERY BUFFER AT EACH BOUNDARY OF THE PROGRAM: four pallas_call regions among five stretches of host
  operations. A fold from the launch memory: a host stretch applies its operations; a region leaves each of its arrays at
  what its write-backs leave (an input as it was entered) and every other buffer as entered. The eight argument arrays
  reach the end as launched: no host operation writes one, and a region only reads them through input windows.
-/
import proofs.«179341_j31447750542019_2_alg».proof.Proof.K.Region0
import proofs.«179341_j31447750542019_2_alg».proof.Proof.K.Region1
import proofs.«179341_j31447750542019_2_alg».proof.Proof.K.Region2
import proofs.«179341_j31447750542019_2_alg».proof.Proof.K.Region3
import proofs.«179341_j31447750542019_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch hostOps0_1. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At region 0's exit: its arrays at what the pipeline leaves (an input as entered, an output's write-backs folded),
    every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the host stretch hostOps1. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At region 1's exit: its arrays at what the pipeline leaves (an input as entered, an output's write-backs folded),
    every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host stretch hostOps2. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At region 2's exit: its arrays at what the pipeline leaves (an input as entered, an output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch hostOps3. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (an input as entered, an output's write-backs folded),
    every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps3 _ hostOps3_writes (by decide : main_arg0 ∉ hostOps3_W)
    _ = W6 m ρ c (Proc.devRef .tc main_arg0) := W7_of_ne m ρ c main_arg0 (by decide)
    _ = W5 m ρ c (Proc.devRef .tc main_arg0) := StableHlo.after_of_writes_sub hostOps2 _ hostOps2_writes (by decide : main_arg0 ∉ hostOps2_W)
    _ = W4 m ρ c (Proc.devRef .tc main_arg0) := W5_of_ne m ρ c main_arg0 (by decide)
    _ = W3 m ρ c (Proc.devRef .tc main_arg0) := StableHlo.after_of_writes_sub hostOps1 _ hostOps1_writes (by decide : main_arg0 ∉ hostOps1_W)
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps3 _ hostOps3_writes (by decide : main_arg1 ∉ hostOps3_W)
    _ = W6 m ρ c (Proc.devRef .tc main_arg1) := W7_of_ne m ρ c main_arg1 (by decide)
    _ = W5 m ρ c (Proc.devRef .tc main_arg1) := StableHlo.after_of_writes_sub hostOps2 _ hostOps2_writes (by decide : main_arg1 ∉ hostOps2_W)
    _ = W4 m ρ c (Proc.devRef .tc main_arg1) := W5_of_ne m ρ c main_arg1 (by decide)
    _ = W3 m ρ c (Proc.devRef .tc main_arg1) := StableHlo.after_of_writes_sub hostOps1 _ hostOps1_writes (by decide : main_arg1 ∉ hostOps1_W)
    _ = W2 m ρ c (Proc.devRef .tc main_arg1) := (W3_arr m ρ c 1).trans (((dat0 (V2 m ρ) c).arrAt_in 1 rfl _).trans (A_eq0 (V2 m ρ) c 1))
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps3 _ hostOps3_writes (by decide : main_arg2 ∉ hostOps3_W)
    _ = W6 m ρ c (Proc.devRef .tc main_arg2) := W7_of_ne m ρ c main_arg2 (by decide)
    _ = W5 m ρ c (Proc.devRef .tc main_arg2) := StableHlo.after_of_writes_sub hostOps2 _ hostOps2_writes (by decide : main_arg2 ∉ hostOps2_W)
    _ = W4 m ρ c (Proc.devRef .tc main_arg2) := W5_of_ne m ρ c main_arg2 (by decide)
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps3 _ hostOps3_writes (by decide : main_arg3 ∉ hostOps3_W)
    _ = W6 m ρ c (Proc.devRef .tc main_arg3) := W7_of_ne m ρ c main_arg3 (by decide)
    _ = W5 m ρ c (Proc.devRef .tc main_arg3) := StableHlo.after_of_writes_sub hostOps2 _ hostOps2_writes (by decide : main_arg3 ∉ hostOps2_W)
    _ = W4 m ρ c (Proc.devRef .tc main_arg3) := W5_of_ne m ρ c main_arg3 (by decide)
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps3 _ hostOps3_writes (by decide : main_arg4 ∉ hostOps3_W)
    _ = W6 m ρ c (Proc.devRef .tc main_arg4) := W7_of_ne m ρ c main_arg4 (by decide)
    _ = W5 m ρ c (Proc.devRef .tc main_arg4) := StableHlo.after_of_writes_sub hostOps2 _ hostOps2_writes (by decide : main_arg4 ∉ hostOps2_W)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps3 _ hostOps3_writes (by decide : main_arg5 ∉ hostOps3_W)
    _ = W6 m ρ c (Proc.devRef .tc main_arg5) := (W7_arr m ρ c 5).trans (((dat2 (V6 m ρ) c).arrAt_in 5 rfl _).trans (A_eq2 (V6 m ρ) c 5))
    _ = W5 m ρ c (Proc.devRef .tc main_arg5) := StableHlo.after_of_writes_sub hostOps2 _ hostOps2_writes (by decide : main_arg5 ∉ hostOps2_W)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps3 _ hostOps3_writes (by decide : main_arg6 ∉ hostOps3_W)
    _ = W6 m ρ c (Proc.devRef .tc main_arg6) := W7_of_ne m ρ c main_arg6 (by decide)
    _ = W5 m ρ c (Proc.devRef .tc main_arg6) := StableHlo.after_of_writes_sub hostOps2 _ hostOps2_writes (by decide : main_arg6 ∉ hostOps2_W)
    _ = W4 m ρ c (Proc.devRef .tc main_arg6) := W5_of_ne m ρ c main_arg6 (by decide)
    _ = W3 m ρ c (Proc.devRef .tc main_arg6) := StableHlo.after_of_writes_sub hostOps1 _ hostOps1_writes (by decide : main_arg6 ∉ hostOps1_W)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_writes_sub hostOps3 _ hostOps3_writes (by decide : main_arg7 ∉ hostOps3_W)
    _ = W6 m ρ c (Proc.devRef .tc main_arg7) := W7_of_ne m ρ c main_arg7 (by decide)
    _ = W5 m ρ c (Proc.devRef .tc main_arg7) := StableHlo.after_of_writes_sub hostOps2 _ hostOps2_writes (by decide : main_arg7 ∉ hostOps2_W)
    _ = W4 m ρ c (Proc.devRef .tc main_arg7) := W5_of_ne m ρ c main_arg7 (by decide)
    _ = W3 m ρ c (Proc.devRef .tc main_arg7) := StableHlo.after_of_writes_sub hostOps1 _ hostOps1_writes (by decide : main_arg7 ∉ hostOps1_W)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

end Cert.Kernel.Hand

end
-- ==== Proof.K.Run.lean ====
/-
  THE RUN OF THE WHOLE PROGRAM: four pallas_call regions among five stretches of host operations. The contents of
  every buffer at each boundary are a fold from the launch memory: a host stretch applies its operations; a region
  leaves each of its arrays at what its write-backs leave (an input as it was entered) and every other buffer as
  entered. Every weakly fair execution terminates with every unscoped buffer at the last fold's contents; in
  particular the eight argument arrays end as launched, because no host operation writes one and a region only reads
  them through input windows.
-/
import proofs.«179341_j31447750542019_2_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at W2, left with them at W3. Its arrays are
    split out of the unscoped buffers and put back at what the write-backs leave; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W4, left with them at W5. Its arrays are
    split out of the unscoped buffers and put back at what the write-backs leave; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V4 m ρ) c).Φ 0 from rfl]
    iintro ⟨Hp, -, Hr⟩
    iapply (hin1 (V4 m ρ) c)
    unfold Pipeline.ΦA
    isplitl [Hr]; · iexact Hr
    iexact Hp
  hout c := by
    rw [Pipeline.ownSems0_none, show (pdats m ρ 1 c).Φ (Fin.last _) = (dat1 (V4 m ρ) c).Φ (Fin.last cfg1.N) from rfl]
    refine (hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W6, left with them at W7. Its arrays are
    split out of the unscoped buffers and put back at what the write-backs leave; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W8, left with them at W9. Its arrays are
    split out of the unscoped buffers and put back at what the write-backs leave; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, with every
    unscoped buffer of every core at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.Kernel.Hand

end
-- ==== Proof.KI.Region0.lean ====
/-
  THE FIRST DENSE LAYER'S REGION (the first pallas_call) at the contents V the region is entered with: a grid of 20
  points, each taking a block of 5000 rows of the [100000, 128] input and the whole [128, 16] weight and storing their
  product whole into the output's block. What the body leaves in the output's staging buffer, its triple, the proof
  data (each input buffer at its block, the output buffer at the body's value of the input blocks) and the body
  obligation.
-/
import proofs.«179341_j31447750542019_2_alg».proof.Proof.Gen.KernelIdeal.Launch
import proofs.«179341_j31447750542019_2_alg».proof.Proof.Gen.KernelIdeal.Skeleton
import proofs.«179341_j31447750542019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is V's and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's access rectangles: each the whole buffer -/

abbrev r0_0 : Rect S5000x128 := Rect.unit (s := S5000x128) ![0, 0] S5000x128.size inb_S5000x128_S5000x128_0_0
abbrev r0_1 : Rect S128x16 := Rect.unit (s := S128x16) ![0, 0] S128x16.size inb_S128x16_S128x16_0_0
abbrev r0_2 : Rect S5000x16 := Rect.unit (s := S5000x16) ![0, 0] S5000x16.size inb_S5000x16_S5000x16_0_0

/-- The output's staging buffer after the body: its one store, of the body's value of the loaded input blocks. -/
def out0_2 (x0 : Vec F S5000x128 .f32) (x1 : Vec F S128x16 .f32) : Vec F S5000x16 .f32 :=
  View.canon [⟨r0_2, k0_pay1 (View.ld x0 r0_0) (View.ld x1 r0_1)⟩]

/-- The store covers the buffer. -/
theorem cover0_2 (p0 : Vec F S5000x16 .f32) (y : S5000x16.Idx) :
    ∃ pc ∈ ([⟨r0_2, p0⟩] : List (View.Piece (Elt F) S5000x16 .f32)), y ∈ pc.1.set :=
  View.cover_of_tiled [⟨r0_2, p0⟩] S5000x16.size (by rfl) y

set_option maxHeartbeats 4000000 in
/-- The body on whole staging memrefs, the inputs' at contents x and the output's at anything, runs to the
    continuation holding the inputs' as they were and the output's at out0_2 of them. -/
theorem sound_kernel0 (c : Dev nD) (E : Set ℕ) (i : grid0.Coords) (arg1 : Memref sig .tc .vmem S5000x128 .f32) (harg1 : arg1.IsWhole) (arg2 : Memref sig .tc .vmem S128x16 .f32) (harg2 : arg2.IsWhole) (arg3 : Memref sig .tc .vmem S5000x16 .f32) (harg3 : arg3.IsWhole)
    (x0 : Vec F S5000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-! ## The proof data -/

/-- The proof data of the region on core c: the arrays as the region finds them; after the body at point t each
    input's buffer at its block and the output's at the body's value of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- Region 1 of the program (the column sums and column sums of squares of the 100000 x 16 activations,
   accumulated over 20 blocks of 5000 rows in two 1 x 16 scratch rows): what the three control cases of
   its body share. The region is entered with the core's buffers at an arbitrary valuation `V`; every
   fact here is stated at that parameter.

   The body has two conditionals on the grid coordinate: the first holds at point 0 only (the scratch
   rows are zeroed there), the second at point 19 only (the scratch rows are copied to the two output
   blocks there). So the cases are A = point 0, B = points 1..18, C = point 19. -/
import proofs.«179341_j31447750542019_2_alg».proof.Proof.Gen.KernelIdeal.Launch
import proofs.«179341_j31447750542019_2_alg».proof.Proof.Gen.KernelIdeal.Skeleton
import proofs.«179341_j31447750542019_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- The first conditional's condition (zero the scratch rows), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second conditional's condition (copy the scratch rows out). -/
abbrev cond1_1 (i : grid1.Coords) : Prop := k1_cond2 i = 1#1
/-- It holds at point 19 only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Where the second condition fails both output windows are idle and not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1x16 .f32 := (Memref.whole cc1_stg1_0 : Memref sig .tc .vmem S1x16 .f32).view
abbrev VO1_2 : View sig .tc .vmem S1x16 .f32 := (Memref.whole cc1_stg2_0 : Memref sig .tc .vmem S1x16 .f32).view
/-- Each window's current staging memref at point `t`, and its wholeness. -/
abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
/-- The two scratch rows: whole scoped buffers of the kernel's own. -/
abbrev scM1_0 : Memref sig .tc .vmem S1x16 .f32 := Memref.whole cc1_scratch0
abbrev scM1_1 : Memref sig .tc .vmem S1x16 .f32 := Memref.whole cc1_scratch1
abbrev VS1_0 : View sig .tc .vmem S1x16 .f32 := scM1_0.view
abbrev VS1_1 : View sig .tc .vmem S1x16 .f32 := scM1_1.view

/-- The core's scoped buffers other than this region's staging buffers and its two scratch rows, each at some
    contents: carried through the region unopened. -/
def Rest1 (c : Dev nD) : sProp 𝕄 :=
  Pipeline.scopedRestBut (Ix := Unit) (Name := ℕ) (U := UR sig nD τ) (Lvl := ℕ) (Val := Elt F) spec1 c [cc1_scratch0, cc1_scratch1]

/-- The region's invariant with the two scratch rows taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Rest1 c) ∗ (∃ r, prngReg c r)) := by
  unfold Pipeline.ΦA Rest1
  rw [Pipeline.scopedRest_split_of_list spec1 c [cc1_scratch0, cc1_scratch1] (by decide) (by decide)]
  simp only [scM1_0, scM1_1, owns_whole, Idealize.SL.BI.bigSepL_cons_cons, Idealize.SL.BI.bigSepL_singleton]; try rfl

end Cert.KernelIdeal.Hand

end
-- ==== Proof.KI.Region1RunA.lean ====
/- Region 1, case A (grid point 0): the body zeroes the two scratch rows, then adds the block's column sums
   and column sums of squares to them; it stores nothing into the two output blocks. -/
import proofs.«179341_j31447750542019_2_alg».proof.Proof.KI.Region1Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A, run on whole memrefs: the input block at `x0`, the two output blocks (idle here) at
    contents handed back untouched, the scratch rows at anything. The stores it leaves in each scratch row are
    the pieces the run finds. -/
noncomputable def kernelRun1_A (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (xi1 : Vec F S1x16 .f32) (xi2 : Vec F S1x16 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨[], [], ?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Region1RunB.lean ====
/- Region 1, case B (grid points 1..18): the body adds the block's column sums and column sums of squares to
   the two scratch rows as the point before left them; it stores nothing into the two output blocks. -/
import proofs.«179341_j31447750542019_2_alg».proof.Proof.KI.Region1RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B, run on whole memrefs: the input block at `x0`, the two output blocks (idle here) at
    contents handed back untouched, the scratch rows at `xs0`, `xs1`. -/
noncomputable def kernelRun1_B (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (xi1 : Vec F S1x16 .f32) (xi2 : Vec F S1x16 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨[], [], ?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Region1RunC.lean ====
/- Region 1, case C (grid point 19): the body adds the last block's column sums and column sums of squares to
   the two scratch rows, then copies each scratch row to its output block. -/
import proofs.«179341_j31447750542019_2_alg».proof.Proof.KI.Region1RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C, run on whole memrefs: the input block at `x0`, the two output blocks at anything, the
    scratch rows at `xs0`, `xs1`. -/
noncomputable def kernelRun1_C (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    Σ' (L1 : List (View.Piece (Elt F) S1x16 .f32)), Σ' (L2 : List (View.Piece (Elt F) S1x16 .f32)), Σ' (LS0 : List (View.Piece (Elt F) S1x16 .f32)), { LS1 : List (View.Piece (Elt F) S1x16 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.Region1.lean ====
/- Region 1 of the program at an arbitrary entry valuation `V`: what the two output blocks and the two scratch
   rows hold after each grid point, the pipeline's proof data, and the body obligation.

   After point `n` scratch row 0 holds the column sums of the activations' rows `0 .. 5000 (n+1) - 1` and scratch
   row 1 the column sums of their squares, accumulated block by block from zero; the last point copies the two
   rows into the output blocks, which the pipeline writes back there and only there. -/
import proofs.«179341_j31447750542019_2_alg».proof.Proof.KI.Region1RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves there: its stores read back (none: a placeholder nothing consults, the window being idle). -/
def out1_A_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VO1_1.read (Elt F) (VO1_1.writes (Elt F) VO1_1.junk (kernelRun1_A c i arg1 harg1 arg2 harg2 arg3 harg3 arg4 harg4 arg5 harg5 hc0 hc1 x0).1)

/-- What case A leaves there: its stores read back (none: a placeholder nothing consults, the window being idle). -/
def out1_A_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VO1_2.read (Elt F) (VO1_2.writes (Elt F) VO1_2.junk (kernelRun1_A c i arg1 harg1 arg2 harg2 arg3 harg3 arg4 harg4 arg5 harg5 hc0 hc1 x0).2.1)

/-- Case A's stores into scratch row 0 cover it. -/
theorem cover1_A_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) (y : S1x16.Idx) :
    ∃ pc ∈ (kernelRun1_A c i arg1 harg1 arg2 harg2 arg3 harg3 arg4 harg4 arg5 harg5 hc0 hc1 x0).2.2.1, y ∈ pc.1.set :=
  View.cover_of_tiledL (kernelRun1_A c i arg1 harg1 arg2 harg2 arg3 harg3 arg4 harg4 arg5 harg5 hc0 hc1 x0).2.2.1 S1x16.size (by sl_kernel_rfl) y

/-- What case A leaves there: its stores read back. -/
def out1_A_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VS1_0.read (Elt F) (VS1_0.writes (Elt F) VS1_0.junk (kernelRun1_A c i arg1 harg1 arg2 harg2 arg3 harg3 arg4 harg4 arg5 harg5 hc0 hc1 x0).2.2.1)

/-- Case A's stores into scratch row 1 cover it. -/
theorem cover1_A_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) (y : S1x16.Idx) :
    ∃ pc ∈ (kernelRun1_A c i arg1 harg1 arg2 harg2 arg3 harg3 arg4 harg4 arg5 harg5 hc0 hc1 x0).2.2.2.1, y ∈ pc.1.set :=
  View.cover_of_tiledL (kernelRun1_A c i arg1 harg1 arg2 harg2 arg3 harg3 arg4 harg4 arg5 harg5 hc0 hc1 x0).2.2.2.1 S1x16.size (by sl_kernel_rfl) y

/-- What case A leaves there: its stores read back. -/
def out1_A_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) : Vec F S1x16 .f32 :=
  VS1_1.read (Elt F) (VS1_1.writes (Elt F) VS1_1.junk (kernelRun1_A c i arg1 harg1 arg2 harg2 arg3 harg3 arg4 harg4 arg5 harg5 hc0 hc1 x0).2.2.2.1)

/-- What case B leaves there: its stores read back (none: a placeholder nothing consults, the window being idle). -/
def out1_B_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VO1_1.read (Elt F) (VO1_1.writes (Elt F) VO1_1.junk (kernelRun1_B c i arg1 harg1 arg2 harg2 arg3 harg3 arg4 harg4 arg5 harg5 hc0 hc1 x0 xs0 xs1).1)

/-- What case B leaves there: its stores read back (none: a placeholder nothing consults, the window being idle). -/
def out1_B_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VO1_2.read (Elt F) (VO1_2.writes (Elt F) VO1_2.junk (kernelRun1_B c i arg1 harg1 arg2 harg2 arg3 harg3 arg4 harg4 arg5 harg5 hc0 hc1 x0 xs0 xs1).2.1)

/-- Case B's stores into scratch row 0 cover it. -/
theorem cover1_B_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) (y : S1x16.Idx) :
    ∃ pc ∈ (kernelRun1_B c i arg1 harg1 arg2 harg2 arg3 harg3 arg4 harg4 arg5 harg5 hc0 hc1 x0 xs0 xs1).2.2.1, y ∈ pc.1.set :=
  View.cover_of_tiledL (kernelRun1_B c i arg1 harg1 arg2 harg2 arg3 harg3 arg4 harg4 arg5 harg5 hc0 hc1 x0 xs0 xs1).2.2.1 S1x16.size (by sl_kernel_rfl) y

/-- What case B leaves there: its stores read back. -/
def out1_B_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VS1_0.read (Elt F) (VS1_0.writes (Elt F) VS1_0.junk (kernelRun1_B c i arg1 harg1 arg2 harg2 arg3 harg3 arg4 harg4 arg5 harg5 hc0 hc1 x0 xs0 xs1).2.2.1)

/-- Case B's stores into scratch row 1 cover it. -/
theorem cover1_B_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) (y : S1x16.Idx) :
    ∃ pc ∈ (kernelRun1_B c i arg1 harg1 arg2 harg2 arg3 harg3 arg4 harg4 arg5 harg5 hc0 hc1 x0 xs0 xs1).2.2.2.1, y ∈ pc.1.set :=
  View.cover_of_tiledL (kernelRun1_B c i arg1 harg1 arg2 harg2 arg3 harg3 arg4 harg4 arg5 harg5 hc0 hc1 x0 xs0 xs1).2.2.2.1 S1x16.size (by sl_kernel_rfl) y

/-- What case B leaves there: its stores read back. -/
def out1_B_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) : Vec F S1x16 .f32 :=
  VS1_1.read (Elt F) (VS1_1.writes (Elt F) VS1_1.junk (kernelRun1_B c i arg1 harg1 arg2 harg2 arg3 harg3 arg4 harg4 arg5 harg5 hc0 hc1 x0 xs0 xs1).2.2.2.1)

/-- Case C's stores into output block 1 cover it. -/
theorem cover1_C_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x16.size (by sl_kernel_rfl) y

/-- What case C leaves there: its stores read back. -/
def out1_C_o1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VO1_1.read (Elt F) (VO1_1.writes (Elt F) VO1_1.junk (kernelRun1_C c i arg1 harg1 arg2 harg2 arg3 harg3 arg4 harg4 arg5 harg5 hc0 hc1 x0 xs0 xs1).1)

/-- Case C's stores into output block 2 cover it. -/
theorem cover1_C_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x16.size (by sl_kernel_rfl) y

/-- What case C leaves there: its stores read back. -/
def out1_C_o2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's stores into scratch row 0 cover it. -/
theorem cover1_C_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x16.size (by sl_kernel_rfl) y

/-- What case C leaves there: its stores read back. -/
def out1_C_s0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- Case C's stores into scratch row 1 cover it. -/
theorem cover1_C_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) (y : S1x16.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x16.size (by sl_kernel_rfl) y

/-- What case C leaves there: its stores read back. -/
def out1_C_s1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) : Vec F S1x16 .f32 :=
  VS1_1.read (Elt F) (VS1_1.writes (Elt F) VS1_1.junk (kernelRun1_C c i arg1 harg1 arg2 harg2 arg3 harg3 arg4 harg4 arg5 harg5 hc0 hc1 x0 xs0 xs1).2.2.2.1)

section
variable (V : (c : Dev nD) → (b : Ref sig .tc) → Buf (Elt F) ((c : Thread nD τ).loc b))

/-! ## What the outputs and the scratch rows hold after each point -/

/-- After the body at position `n`: (output block 1, output block 2, scratch row 0, scratch row 1). Point 0 is
    case A; point 19 is case C and the others case B, both over what the point before left in the scratch rows. -/
def outsAt1 (c : Dev nD) : (n : ℕ) → n < cfg1.N → Vec F S1x16 .f32 × Vec F S1x16 .f32 × Vec F S1x16 .f32 × Vec F S1x16 .f32
  | 0, hn => (out1_A_o1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_o2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
       out1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 20 = 19 then
      (out1_C_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2,
       out1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      (out1_B_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       out1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at point 0: case A's contents. -/
theorem outsAt1_A (c : Dev nD) (t : Fin cfg1.N) (h0 : t.val % 20 = 0) (h1 : ¬t.val % 20 = 19) :
    outsAt1 V c t.val t.isLt = (out1_A_o1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_o2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_s0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t),
       out1_A_s1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (by exfalso; have hN : n + 1 < 20 := lt_of_lt_of_eq hn (show cfg1.N = 20 from N_1); (try dsimp only at h0); omega)

/-- `outsAt1` at a point of case B: that case's contents, over what the point before left. -/
theorem outsAt1_B (c : Dev nD) (t : Fin cfg1.N) (h0 : ¬t.val % 20 = 0) (h1 : ¬t.val % 20 = 19) :
    outsAt1 V c t.val t.isLt = (out1_B_o1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_o2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_s0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_B_s1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at point 19: case C's contents, over what the point before left. -/
theorem outsAt1_C (c : Dev nD) (t : Fin cfg1.N) (h0 : ¬t.val % 20 = 0) (h1 : t.val % 20 = 19) :
    outsAt1 V c t.val t.isLt = (out1_C_o1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_o2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_s0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_s1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before position `n`: at the first point what the launch hands over (every scoped buffer at anything);
    afterwards the two scratch rows at what the point before left in them, the other scoped buffers at anything,
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ Rest1 c) ∗ (∃ r, prngReg c r)) := by
  cases n with
  | zero => exact absurd rfl hz
  | succ n => rfl

/-! ## The pipeline's proof data -/

/-- The proof data of the region on core `c`: the arrays as the region finds them (`V`); after the body at
    point `t` the input's buffer at its block and the outputs' at `outsAt1`; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t) : (dat1 V c).owed t = 0 := rfl

theorem share1 (c : Dev nD) : ∀ w, (dat1 V c).share w = fullShare := (dat1 V c).share_full fun _ => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the point's position says which case it is in; the
    invariant hands the body the two scratch rows at what the point before left (at anything at the first point)
    and takes them back at this point's contents; an idle output's buffer is handed back as found; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 20 = 0
  · have h1 : ¬t.val % 20 = 19 := by omega
    have hz : t.val = 0 := by omega
    rw [show (dat1 V c).leavesExact 0 t = owns (c : Thread nD τ) (ms1_0 t) fullShare ((dat1 V c).after 0 t) from by
        unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold out1_A_s0 out1_A_s1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩⟩
    iapply ((kernelRun1_A c (grid1.coords t) _ _ _ _ _ _ _ _ _ _ ((hcond1_0 t).mpr h0) (fun h => h1 ((hcond1_1 t).mp h)) (iblk1 V c 0 t)).2.2.2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (cover1_A_s0 c _ _ _ _ _ _ _ _ _ _ _ _ _ _)
          · unfold owns; iexists _; isplitr
            swap; · iexact HS1
            ipureintro; exact View.read_writes_of_cover _ _ _ _ _ (cover1_A_s1 c _ _ _ _ _ _ _ _ _ _ _ _ _ _)
        iexact HR
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_o1 out1_C_o2 out1_C_s0 out1_C_s1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (cover1_C_s0 c _ _ _ _ _ _ _ _ _ _ _ _ _ _ _ _)
            · unfold owns; iexists _; isplitr
              swap; · iexact HS1
              ipureintro; exact View.read_writes_of_cover _ _ _ _ _ (cover1_C_s1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C_o1 c _ _ _ _ _ _ _ _ _ _ _ _ _ _ _ _)
      · unfold owns; iexists _; isplitr
        swap; · iexact H2
        ipureintro; exact View.read_writes_of_cover _ _ _ _ _ (cover1_C_o2 c _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold out1_B_s0 out1_B_s1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (cover1_B_s0 c _ _ _ _ _ _ _ _ _ _ _ _ _ _ _ _)
            · unfold owns; iexists _; isplitr
              swap; · iexact HS1
              ipureintro; exact View.read_writes_of_cover _ _ _ _ _ (cover1_B_s1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.KernelIdeal.Hand

end
-- ==== Proof.KI.Region2.lean ====
/-
  THE NORMALISE-CLAMP-AND-MULTIPLY REGION (the third pallas_call) at the contents V the region is entered with: a
  grid of 20 points, each taking a block of 5000 rows of the [100000, 16] activations, the four [1, 16] rows (mean,
  variance, scale, shift) and the whole [16, 8] weight, and storing max(normalised block, 0) times the weight whole into
  the output's block. The body reads the variance row (third window) before the mean row (second window). What the
  body leaves in the output's staging buffer, its triple, the proof data and the body obligation.
-/
import proofs.«179341_j31447750542019_2_alg».proof.Proof.Gen.KernelIdeal.Launch
import proofs.«179341_j31447750542019_2_alg».proof.Proof.Gen.KernelIdeal.Skeleton
import proofs.«179341_j31447750542019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for any proof data whose array is V's and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for any proof data whose array is V's and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for any proof data whose array is V's and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for any proof data whose array is V's and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, for any proof data whose array is V's and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's access rectangles: each the whole buffer -/

abbrev r2_0 : Rect S5000x16 := Rect.unit (s := S5000x16) ![0, 0] S5000x16.size inb_S5000x16_S5000x16_0_0
abbrev r2_1 : Rect S1x16 := Rect.unit (s := S1x16) ![0, 0] S1x16.size inb_S1x16_S1x16_0_0
abbrev r2_2 : Rect S16x8 := Rect.unit (s := S16x8) ![0, 0] S16x8.size inb_S16x8_S16x8_0_0
abbrev r2_3 : Rect S5000x8 := Rect.unit (s := S5000x8) ![0, 0] S5000x8.size inb_S5000x8_S5000x8_0_0

/-- The output's staging buffer after the body: its one store, of the body's value of the loaded input blocks. -/
def out2_6 (x0 : Vec F S5000x16 .f32) (x1 : Vec F S1x16 .f32) (x2 : Vec F S1x16 .f32) (x3 : Vec F S1x16 .f32) (x4 : Vec F S1x16 .f32) (x5 : Vec F S16x8 .f32) : Vec F S5000x8 .f32 :=
  View.canon [⟨r2_3, k2_pay1 (View.ld x0 r2_0) (View.ld x2 r2_1) (View.ld x1 r2_1) (View.ld x3 r2_1) (View.ld x4 r2_1) (View.ld x5 r2_2)⟩]

/-- The store covers the buffer. -/
theorem cover2_6 (p0 : Vec F S5000x8 .f32) (y : S5000x8.Idx) :
    ∃ pc ∈ ([⟨r2_3, p0⟩] : List (View.Piece (Elt F) S5000x8 .f32)), y ∈ pc.1.set :=
  View.cover_of_tiled [⟨r2_3, p0⟩] S5000x8.size (by rfl) y

set_option maxHeartbeats 4000000 in
/-- The body on whole staging memrefs, the inputs' at contents x and the output's at anything, runs to the
    continuation holding the inputs' as they were and the output's at out2_6 of them. -/
theorem sound_kernel2 (c : Dev nD) (E : Set ℕ) (i : grid2.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S5000x8 .f32) (harg7 : arg7.IsWhole)
    (x0 : Vec F S5000x16 .f32) (x1 : Vec F S1x16 .f32) (x2 : Vec F S1x16 .f32) (x3 : Vec F S1x16 .f32) (x4 : Vec F S1x16 .f32) (x5 : Vec F S16x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_matmul_kernel i arg1 harg1 arg2 harg2 arg3 harg3 arg4 harg4 arg5 harg5 arg6 harg6 arg7 harg7) K := by
  simp only [cc2__bn_relu_matmul_kernel_eq_skeleton]; unfold cc2__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-! ## The proof data -/

/-- The proof data of the region on core c: the arrays as the region finds them; after the body at point t each
    input's buffer at its block and the output's at the body's value of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  THE LOG-SOFTMAX REGION (the fourth pallas_call) at the contents V the region is entered with: a grid of 20 points,
  each taking a block of 5000 rows of the [100000, 8] input and storing the block's row-wise log-softmax whole into
  the output's block. What the body leaves in the output's staging buffer, its triple, the proof data (each input
  buffer at its block, the output buffer at the body's value of the input block) and the body obligation.
-/
import proofs.«179341_j31447750542019_2_alg».proof.Proof.Gen.KernelIdeal.Launch
import proofs.«179341_j31447750542019_2_alg».proof.Proof.Gen.KernelIdeal.Skeleton
import proofs.«179341_j31447750542019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is V's and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's one access rectangle: the whole 5000 x 8 buffer -/

abbrev r3_0 : Rect S5000x8 := Rect.unit (s := S5000x8) ![0, 0] S5000x8.size inb_S5000x8_S5000x8_0_0

/-- The output's staging buffer after the body: its one store, of the log-softmax of the loaded input block. -/
def out3_1 (x0 : Vec F S5000x8 .f32) : Vec F S5000x8 .f32 :=
  View.canon [⟨r3_0, k3_pay1 (View.ld x0 r3_0)⟩]

/-- The store covers the buffer. -/
theorem cover3_1 (p0 : Vec F S5000x8 .f32) (y : S5000x8.Idx) :
    ∃ pc ∈ ([⟨r3_0, p0⟩] : List (View.Piece (Elt F) S5000x8 .f32)), y ∈ pc.1.set :=
  View.cover_of_tiled [⟨r3_0, p0⟩] S5000x8.size (by rfl) y

set_option maxHeartbeats 1000000 in
/-- The body on whole staging memrefs, the input's at contents x0 and the output's at anything, runs to the
    continuation holding the input's as it was and the output's at out3_1 x0. -/
theorem sound_kernel3 (c : Dev nD) (E : Set ℕ) (i : grid3.Coords) (arg1 : Memref sig .tc .vmem S5000x8 .f32) (harg1 : arg1.IsWhole) (arg2 : Memref sig .tc .vmem S5000x8 .f32) (harg2 : arg2.IsWhole)
    (x0 : Vec F S5000x8 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__log_softmax_kernel i arg1 harg1 arg2 harg2) K := by
  simp only [cc3__log_softmax_kernel_eq_skeleton]; unfold cc3__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The proof data -/

/-- The proof data of the region on core c: the arrays as the region finds them; after the body at point t the
    input's buffer at its block and the output's at the body's value of the input block; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RunFold.lean ====
/-
  THE CONTENTS OF EVERY BUFFER AT EACH BOUNDARY OF THE PROGRAM: four pallas_call regions among five stretches of host
  operations. A fold from the launch memory: a host stretch applies its operations; a region leaves each of its arrays at
  what its write-backs leave (an input as it was entered) and every other buffer as entered. The eight argument arrays
  reach the end as launched: no host operation writes one, and a region only reads them through input windows.
-/
import proofs.«179341_j31447750542019_2_alg».proof.Proof.KI.Region0
import proofs.«179341_j31447750542019_2_alg».proof.Proof.KI.Region1
import proofs.«179341_j31447750542019_2_alg».proof.Proof.KI.Region2
import proofs.«179341_j31447750542019_2_alg».proof.Proof.KI.Region3
import proofs.«179341_j31447750542019_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch hostOps0_1. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At region 0's exit: its arrays at what the pipeline leaves (an input as entered, an output's write-backs folded),
    every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the host stretch hostOps1. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At region 1's exit: its arrays at what the pipeline leaves (an input as entered, an output's write-backs folded),
    every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host stretch hostOps2. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At region 2's exit: its arrays at what the pipeline leaves (an input as entered, an output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch hostOps3. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (an input as entered, an output's write-backs folded),
    every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps3 _ hostOps3_writes (by decide : main_arg0 ∉ hostOps3_W)
    _ = W6 m ρ c (Proc.devRef .tc main_arg0) := W7_of_ne m ρ c main_arg0 (by decide)
    _ = W5 m ρ c (Proc.devRef .tc main_arg0) := StableHlo.after_of_writes_sub hostOps2 _ hostOps2_writes (by decide : main_arg0 ∉ hostOps2_W)
    _ = W4 m ρ c (Proc.devRef .tc main_arg0) := W5_of_ne m ρ c main_arg0 (by decide)
    _ = W3 m ρ c (Proc.devRef .tc main_arg0) := StableHlo.after_of_writes_sub hostOps1 _ hostOps1_writes (by decide : main_arg0 ∉ hostOps1_W)
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps3 _ hostOps3_writes (by decide : main_arg1 ∉ hostOps3_W)
    _ = W6 m ρ c (Proc.devRef .tc main_arg1) := W7_of_ne m ρ c main_arg1 (by decide)
    _ = W5 m ρ c (Proc.devRef .tc main_arg1) := StableHlo.after_of_writes_sub hostOps2 _ hostOps2_writes (by decide : main_arg1 ∉ hostOps2_W)
    _ = W4 m ρ c (Proc.devRef .tc main_arg1) := W5_of_ne m ρ c main_arg1 (by decide)
    _ = W3 m ρ c (Proc.devRef .tc main_arg1) := StableHlo.after_of_writes_sub hostOps1 _ hostOps1_writes (by decide : main_arg1 ∉ hostOps1_W)
    _ = W2 m ρ c (Proc.devRef .tc main_arg1) := (W3_arr m ρ c 1).trans (((dat0 (V2 m ρ) c).arrAt_in 1 rfl _).trans (A_eq0 (V2 m ρ) c 1))
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps3 _ hostOps3_writes (by decide : main_arg2 ∉ hostOps3_W)
    _ = W6 m ρ c (Proc.devRef .tc main_arg2) := W7_of_ne m ρ c main_arg2 (by decide)
    _ = W5 m ρ c (Proc.devRef .tc main_arg2) := StableHlo.after_of_writes_sub hostOps2 _ hostOps2_writes (by decide : main_arg2 ∉ hostOps2_W)
    _ = W4 m ρ c (Proc.devRef .tc main_arg2) := W5_of_ne m ρ c main_arg2 (by decide)
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps3 _ hostOps3_writes (by decide : main_arg3 ∉ hostOps3_W)
    _ = W6 m ρ c (Proc.devRef .tc main_arg3) := W7_of_ne m ρ c main_arg3 (by decide)
    _ = W5 m ρ c (Proc.devRef .tc main_arg3) := StableHlo.after_of_writes_sub hostOps2 _ hostOps2_writes (by decide : main_arg3 ∉ hostOps2_W)
    _ = W4 m ρ c (Proc.devRef .tc main_arg3) := W5_of_ne m ρ c main_arg3 (by decide)
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps3 _ hostOps3_writes (by decide : main_arg4 ∉ hostOps3_W)
    _ = W6 m ρ c (Proc.devRef .tc main_arg4) := W7_of_ne m ρ c main_arg4 (by decide)
    _ = W5 m ρ c (Proc.devRef .tc main_arg4) := StableHlo.after_of_writes_sub hostOps2 _ hostOps2_writes (by decide : main_arg4 ∉ hostOps2_W)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps3 _ hostOps3_writes (by decide : main_arg5 ∉ hostOps3_W)
    _ = W6 m ρ c (Proc.devRef .tc main_arg5) := (W7_arr m ρ c 5).trans (((dat2 (V6 m ρ) c).arrAt_in 5 rfl _).trans (A_eq2 (V6 m ρ) c 5))
    _ = W5 m ρ c (Proc.devRef .tc main_arg5) := StableHlo.after_of_writes_sub hostOps2 _ hostOps2_writes (by decide : main_arg5 ∉ hostOps2_W)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps3 _ hostOps3_writes (by decide : main_arg6 ∉ hostOps3_W)
    _ = W6 m ρ c (Proc.devRef .tc main_arg6) := W7_of_ne m ρ c main_arg6 (by decide)
    _ = W5 m ρ c (Proc.devRef .tc main_arg6) := StableHlo.after_of_writes_sub hostOps2 _ hostOps2_writes (by decide : main_arg6 ∉ hostOps2_W)
    _ = W4 m ρ c (Proc.devRef .tc main_arg6) := W5_of_ne m ρ c main_arg6 (by decide)
    _ = W3 m ρ c (Proc.devRef .tc main_arg6) := StableHlo.after_of_writes_sub hostOps1 _ hostOps1_writes (by decide : main_arg6 ∉ hostOps1_W)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_writes_sub hostOps3 _ hostOps3_writes (by decide : main_arg7 ∉ hostOps3_W)
    _ = W6 m ρ c (Proc.devRef .tc main_arg7) := W7_of_ne m ρ c main_arg7 (by decide)
    _ = W5 m ρ c (Proc.devRef .tc main_arg7) := StableHlo.after_of_writes_sub hostOps2 _ hostOps2_writes (by decide : main_arg7 ∉ hostOps2_W)
    _ = W4 m ρ c (Proc.devRef .tc main_arg7) := W5_of_ne m ρ c main_arg7 (by decide)
    _ = W3 m ρ c (Proc.devRef .tc main_arg7) := StableHlo.after_of_writes_sub hostOps1 _ hostOps1_writes (by decide : main_arg7 ∉ hostOps1_W)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

end Cert.KernelIdeal.Hand

end
-- ==== Proof.KI.Run.lean ====
/-
  THE RUN OF THE WHOLE PROGRAM: four pallas_call regions among five stretches of host operations. The contents of
  every buffer at each boundary are a fold from the launch memory: a host stretch applies its operations; a region
  leaves each of its arrays at what its write-backs leave (an input as it was entered) and every other buffer as
  entered. Every weakly fair execution terminates with every unscoped buffer at the last fold's contents; in
  particular the eight argument arrays end as launched, because no host operation writes one and a region only reads
  them through input windows.
-/
import proofs.«179341_j31447750542019_2_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at W2, left with them at W3. Its arrays are
    split out of the unscoped buffers and put back at what the write-backs leave; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W4, left with them at W5. Its arrays are
    split out of the unscoped buffers and put back at what the write-backs leave; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V4 m ρ) c).Φ 0 from rfl]
    iintro ⟨Hp, -, Hr⟩
    iapply (hin1 (V4 m ρ) c)
    unfold Pipeline.ΦA
    isplitl [Hr]; · iexact Hr
    iexact Hp
  hout c := by
    rw [Pipeline.ownSems0_none, show (pdats m ρ 1 c).Φ (Fin.last _) = (dat1 (V4 m ρ) c).Φ (Fin.last cfg1.N) from rfl]
    refine (hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W6, left with them at W7. Its arrays are
    split out of the unscoped buffers and put back at what the write-backs leave; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W8, left with them at W9. Its arrays are
    split out of the unscoped buffers and put back at what the write-backs leave; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, with every
    unscoped buffer of every core at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.KernelIdeal.Hand

end
-- ==== Proof.Ref.Ops0.lean ====
/- The reference program, stretch 0 of three: the operations of the window `main_part0` of @main, in order,
   each outlined function's operations listed at its call over that call's buffers; that the window is the
   straight line of these operations; that each touches TensorCore buffers only; which buffer each writes. -/
import proofs.«179341_j31447750542019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 62 of @main's 182 (window `main_part0`), in order. -/
abbrev ops0 : List (HloOp τ sig (Elt F)) :=
  [ StableHlo.binary main_arg0 main_arg1 main_v0 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    StableHlo.nullary main_v1 (iotaInDim S100000 32 0),
    StableHlo.unary main_arg7 main_v2 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg7 main_v5 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v5 main_v6 rfl shapeCasts_S1x3200000_S3200000,
    StableHlo.binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v4 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v4 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v31 (broadcastInDim S3300000 ![] bcast_S_S3300000 : (⟨S_, .i32⟩ : BufTy).Contents (Elt F) → (⟨S3300000, .i32⟩ : BufTy).Contents (Elt F)),
    StableHlo.binary main_v4 main_v31 main_v32 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v4 main_v33 main_v34 (addi : (⟨S3300000, .i32⟩ : BufTy).Contents (Elt F) → (⟨S3300000, .i32⟩ : BufTy).Contents (Elt F) → (⟨S3300000, .i32⟩ : BufTy).Contents (Elt F)),
    StableHlo.ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v35 main_v36 (broadcastInDim S3300000x1 ![0] bcast_S3300000_S3300000x1_0 : (⟨S3300000, .i32⟩ : BufTy).Contents (Elt F) → (⟨S3300000x1, .i32⟩ : BufTy).Contents (Elt F)),
    StableHlo.binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v30 main_v38 (broadcastInDim S3300000x1 ![0] bcast_S3300000_S3300000x1_0 : (⟨S3300000, .f32⟩ : BufTy).Contents (Elt F) → (⟨S3300000x1, .f32⟩ : BufTy).Contents (Elt F)),
    StableHlo.unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    StableHlo.nullary main_cst_8 (constant S_ .f32 0x00000000#32),
    StableHlo.unary main_cst_8 main_v41 (broadcastInDim S100000x16 ![] bcast_S_S100000x16 : (⟨S_, .f32⟩ : BufTy).Contents (Elt F) → (⟨S100000x16, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg2 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)),
    StableHlo.nullary main_cst_9 (constant S_ .f32 0x00000000#32),
    StableHlo.binary main_v46 main_cst_9 main_v47 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)) ]

/-- The buffer each of those operations writes, in the same order. -/
abbrev outs0 : List (Ref sig .tc) :=
  [ main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_cst_9, main_v47 ]

set_option maxRecDepth 8192 in
set_option maxHeartbeats 4000000 in
/-- The window is the straight line of its operations: the outlined functions' definitions unfolded at their
    calls, sequencing reassociated. -/
theorem part0_eq (c : Dev nD) : main_part0 (F := F) c = seq ops0 := by
  simp only [main_part0, fn_where.body, seq, bind_assoc, pure_bind] <;> rfl

set_option maxRecDepth 8192 in
/-- Each operation touches TensorCore buffers only. -/
theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub ..⟩

set_option maxRecDepth 8192 in
/-- Operation by operation, the one buffer it writes. -/
theorem ops0_writes : List.Forall₂ (fun (op : HloOp τ sig (Elt F)) (y : Ref sig .tc) => op.writes = {Proc.devRef .tc y}) ops0 outs0 := by
  repeat (first | exact .nil | refine .cons rfl ?_)

end Cert.ReferenceIdeal.Hand

end
-- ==== Proof.Ref.Ops1.lean ====
/- The reference program, stretch 1 of three: the operations of the window `main_part1` of @main, in order,
   each outlined function's operations listed at its call over that call's buffers; that the window is the
   straight line of these operations; that each touches TensorCore buffers only; which buffer each writes. -/
import proofs.«179341_j31447750542019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 63 … 147 of @main's 182 (window `main_part1`), in order. -/
abbrev ops1 : List (HloOp τ sig (Elt F)) :=
  [ StableHlo.nullary main_cst_10 (constant S_ .f32 0x47C35000#32),
    StableHlo.unary main_cst_10 main_v48 (broadcastInDim S16 ![] bcast_S_S16 : (⟨S_, .f32⟩ : BufTy).Contents (Elt F) → (⟨S16, .f32⟩ : BufTy).Contents (Elt F)),
    StableHlo.binary main_v47 main_v48 main_v49 (Host.divf : (⟨S16, .f32⟩ : BufTy).Contents (Elt F) → (⟨S16, .f32⟩ : BufTy).Contents (Elt F) → (⟨S16, .f32⟩ : BufTy).Contents (Elt F)),
    StableHlo.nullary main_c_11 (constantI S_ 32 0#32),
    StableHlo.TRef.nullary (.of main_call1_cst : StableHlo.TRef sig ⟨S_, .f32⟩) (constant S_ .f32 0x00000000#32),
    StableHlo.TRef.binary (.of main_v46 : StableHlo.TRef sig ⟨S100000x16, .f32⟩) (.of main_call1_cst : StableHlo.TRef sig ⟨S_, .f32⟩) (.of main_call1_v0 : StableHlo.TRef sig ⟨S16, .f32⟩) (fun x v => Host.reduceAdd x v reducesTo_S100000x16_S16_d0 h_S_),
    StableHlo.TRef.unary (.of main_call1_v0 : StableHlo.TRef sig ⟨S16, .f32⟩) (.of main_call1_v1 : StableHlo.TRef sig ⟨S1x16, .f32⟩) (broadcastInDim S1x16 ![1] bcast_S16_S1x16_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x16, .f32⟩) (broadcastInDim S1x16 ![] bcast_S_S1x16),
    StableHlo.TRef.binary (.of main_call1_v1 : StableHlo.TRef sig ⟨S1x16, .f32⟩) (.of main_call1_v2 : StableHlo.TRef sig ⟨S1x16, .f32⟩) (.of main_call1_v3 : StableHlo.TRef sig ⟨S1x16, .f32⟩) Host.divf,
    StableHlo.TRef.unary (.of main_call1_v3 : StableHlo.TRef sig ⟨S1x16, .f32⟩) (.of main_call1_v4 : StableHlo.TRef sig ⟨S100000x16, .f32⟩) (broadcastInDim S100000x16 ![0, 1] bcast_S1x16_S100000x16_0_1),
    StableHlo.TRef.binary (.of main_v46 : StableHlo.TRef sig ⟨S100000x16, .f32⟩) (.of main_call1_v4 : StableHlo.TRef sig ⟨S100000x16, .f32⟩) (.of main_call1_v5 : StableHlo.TRef sig ⟨S100000x16, .f32⟩) subf,
    StableHlo.TRef.binary (.of main_call1_v5 : StableHlo.TRef sig ⟨S100000x16, .f32⟩) (.of main_call1_v5 : StableHlo.TRef sig ⟨S100000x16, .f32⟩) (.of main_call1_v6 : StableHlo.TRef sig ⟨S100000x16, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x16, .f32⟩) (.of main_call1_cst_2 : StableHlo.TRef sig ⟨S_, .f32⟩) (.of main_call1_v9 : StableHlo.TRef sig ⟨S16, .f32⟩) (fun x v => Host.reduceAdd x v reducesTo_S100000x16_S16_d0 h_S_),
    StableHlo.TRef.unary (.of main_call1_v8 : StableHlo.TRef sig ⟨S_, .f32⟩) (.of main_call1_v10 : StableHlo.TRef sig ⟨S16, .f32⟩) (broadcastInDim S16 ![] bcast_S_S16),
    StableHlo.TRef.binary (.of main_call1_v9 : StableHlo.TRef sig ⟨S16, .f32⟩) (.of main_call1_v10 : StableHlo.TRef sig ⟨S16, .f32⟩) (.of main_call1_v11 : StableHlo.TRef sig ⟨S16, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S16, .f32⟩) (broadcastInDim S16 ![] bcast_S_S16),
    StableHlo.TRef.ternary (.of main_call1_v12 : StableHlo.TRef sig ⟨S_, .i1⟩) (.of main_call1_v11 : StableHlo.TRef sig ⟨S16, .f32⟩) (.of main_call1_call0_v1 : StableHlo.TRef sig ⟨S16, .f32⟩) (.of main_v50 : StableHlo.TRef sig ⟨S16, .f32⟩) (fun p a b => select (broadcastInDim S16 ![] bcast_S_S16 p) a b),
    StableHlo.unary main_v49 main_v51 (broadcastInDim S1x16 ![1] bcast_S16_S1x16_1 : (⟨S16, .f32⟩ : BufTy).Contents (Elt F) → (⟨S1x16, .f32⟩ : BufTy).Contents (Elt F)),
    StableHlo.unary main_v51 main_v52 (broadcastInDim S100000x16 ![0, 1] bcast_S1x16_S100000x16_0_1 : (⟨S1x16, .f32⟩ : BufTy).Contents (Elt F) → (⟨S100000x16, .f32⟩ : BufTy).Contents (Elt F)),
    StableHlo.binary main_v46 main_v52 main_v53 (subf : (⟨S100000x16, .f32⟩ : BufTy).Contents (Elt F) → (⟨S100000x16, .f32⟩ : BufTy).Contents (Elt F) → (⟨S100000x16, .f32⟩ : BufTy).Contents (Elt F)),
    StableHlo.nullary main_cst_12 (constant S_ .f32 0x3727C5AC#32),
    StableHlo.unary main_cst_12 main_v54 (broadcastInDim S16 ![] bcast_S_S16 : (⟨S_, .f32⟩ : BufTy).Contents (Elt F) → (⟨S16, .f32⟩ : BufTy).Contents (Elt F)),
    StableHlo.binary main_v50 main_v54 main_v55 (addf : (⟨S16, .f32⟩ : BufTy).Contents (Elt F) → (⟨S16, .f32⟩ : BufTy).Contents (Elt F) → (⟨S16, .f32⟩ : BufTy).Contents (Elt F)),
    StableHlo.unary main_v55 main_v56 (Host.rsqrt : (⟨S16, .f32⟩ : BufTy).Contents (Elt F) → (⟨S16, .f32⟩ : BufTy).Contents (Elt F)),
    StableHlo.unary main_v56 main_v57 (broadcastInDim S1x16 ![1] bcast_S16_S1x16_1 : (⟨S16, .f32⟩ : BufTy).Contents (Elt F) → (⟨S1x16, .f32⟩ : BufTy).Contents (Elt F)),
    StableHlo.unary main_v57 main_v58 (broadcastInDim S100000x16 ![0, 1] bcast_S1x16_S100000x16_0_1 : (⟨S1x16, .f32⟩ : BufTy).Contents (Elt F) → (⟨S100000x16, .f32⟩ : BufTy).Contents (Elt F)),
    StableHlo.binary main_v53 main_v58 main_v59 (mulf : (⟨S100000x16, .f32⟩ : BufTy).Contents (Elt F) → (⟨S100000x16, .f32⟩ : BufTy).Contents (Elt F) → (⟨S100000x16, .f32⟩ : BufTy).Contents (Elt F)),
    StableHlo.unary main_arg3 main_v60 (broadcastInDim S1x16 ![1] bcast_S16_S1x16_1 : (⟨S16, .f32⟩ : BufTy).Contents (Elt F) → (⟨S1x16, .f32⟩ : BufTy).Contents (Elt F)),
    StableHlo.unary main_v60 main_v61 (broadcastInDim S100000x16 ![0, 1] bcast_S1x16_S100000x16_0_1 : (⟨S1x16, .f32⟩ : BufTy).Contents (Elt F) → (⟨S100000x16, .f32⟩ : BufTy).Contents (Elt F)),
    StableHlo.binary main_v59 main_v61 main_v62 (mulf : (⟨S100000x16, .f32⟩ : BufTy).Contents (Elt F) → (⟨S100000x16, .f32⟩ : BufTy).Contents (Elt F) → (⟨S100000x16, .f32⟩ : BufTy).Contents (Elt F)),
    StableHlo.unary main_arg4 main_v63 (broadcastInDim S1x16 ![1] bcast_S16_S1x16_1 : (⟨S16, .f32⟩ : BufTy).Contents (Elt F) → (⟨S1x16, .f32⟩ : BufTy).Contents (Elt F)),
    StableHlo.unary main_v63 main_v64 (broadcastInDim S100000x16 ![0, 1] bcast_S1x16_S100000x16_0_1 : (⟨S1x16, .f32⟩ : BufTy).Contents (Elt F) → (⟨S100000x16, .f32⟩ : BufTy).Contents (Elt F)),
    StableHlo.binary main_v62 main_v64 main_v65 (addf : (⟨S100000x16, .f32⟩ : BufTy).Contents (Elt F) → (⟨S100000x16, .f32⟩ : BufTy).Contents (Elt F) → (⟨S100000x16, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x16, .f32⟩) (broadcastInDim S100000x16 ![] bcast_S_S100000x16),
    StableHlo.TRef.binary (.of main_v65 : StableHlo.TRef sig ⟨S100000x16, .f32⟩) (.of main_call2_v0 : StableHlo.TRef sig ⟨S100000x16, .f32⟩) (.of main_v66 : StableHlo.TRef sig ⟨S100000x16, .f32⟩) maximumf,
    StableHlo.binary main_v66 main_arg5 main_v67 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    StableHlo.nullary main_v68 (iotaInDim S100000 32 0),
    StableHlo.unary main_arg7 main_v69 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v69 main_v70 rfl shapeCasts_S1x3200000_S3200000,
    StableHlo.binary main_v70 main_v68 main_v71 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg7 main_v72 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v72 main_v73 rfl shapeCasts_S1x3200000_S3200000,
    StableHlo.binary main_v73 main_v68 main_v74 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_13 (constant S_ .f32 0x3F800000#32),
    StableHlo.unary main_cst_13 main_v75 (broadcastInDim S3300000 ![] bcast_S_S3300000 : (⟨S_, .f32⟩ : BufTy).Contents (Elt F) → (⟨S3300000, .f32⟩ : BufTy).Contents (Elt F)),
    StableHlo.nullary main_cst_14 (constant S_ .f32 0x00000000#32),
    StableHlo.unary main_cst_14 main_v76 (broadcastInDim S100000 ![] bcast_S_S100000 : (⟨S_, .f32⟩ : BufTy).Contents (Elt F) → (⟨S100000, .f32⟩ : BufTy).Contents (Elt F)),
    StableHlo.unary main_v74 main_v77 (broadcastInDim S3300000x1 ![0] bcast_S3300000_S3300000x1_0 : (⟨S3300000, .i32⟩ : BufTy).Contents (Elt F) → (⟨S3300000x1, .i32⟩ : BufTy).Contents (Elt F)),
    StableHlo.ternary main_v76 main_v77 main_v75 main_v78 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_15 (constant S_ .f32 0x00000000#32),
    StableHlo.unary main_cst_15 main_v79 (broadcastInDim S100000 ![] bcast_S_S100000 : (⟨S_, .f32⟩ : BufTy).Contents (Elt F) → (⟨S100000, .f32⟩ : BufTy).Contents (Elt F)),
    StableHlo.binary main_v78 main_v79 main_v80 (cmpf .ogt : (⟨S100000, .f32⟩ : BufTy).Contents (Elt F) → (⟨S100000, .f32⟩ : BufTy).Contents (Elt F) → (⟨S100000, .i1⟩ : BufTy).Contents (Elt F)),
    StableHlo.unary main_v78 main_v81 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.ternary (.of main_v80 : StableHlo.TRef sig ⟨S100000, .i1⟩) (.of main_v81 : StableHlo.TRef sig ⟨S100000, .f32⟩) (.of main_call3_v1 : StableHlo.TRef sig ⟨S100000, .f32⟩) (.of main_v82 : StableHlo.TRef sig ⟨S100000, .f32⟩) select,
    StableHlo.nullary main_c_17 (constantI S_ 32 0#32),
    StableHlo.unary main_c_17 main_v83 (broadcastInDim S3300000 ![] bcast_S_S3300000 : (⟨S_, .i32⟩ : BufTy).Contents (Elt F) → (⟨S3300000, .i32⟩ : BufTy).Contents (Elt F)),
    StableHlo.binary main_v71 main_v83 main_v84 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v85 (broadcastInDim S3300000 ![] bcast_S_S3300000 : (⟨S_, .i32⟩ : BufTy).Contents (Elt F) → (⟨S3300000, .i32⟩ : BufTy).Contents (Elt F)),
    StableHlo.binary main_v71 main_v85 main_v86 (addi : (⟨S3300000, .i32⟩ : BufTy).Contents (Elt F) → (⟨S3300000, .i32⟩ : BufTy).Contents (Elt F) → (⟨S3300000, .i32⟩ : BufTy).Contents (Elt F)),
    StableHlo.ternary main_v84 main_v86 main_v71 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v87 main_v88 (broadcastInDim S3300000x1 ![0] bcast_S3300000_S3300000x1_0 : (⟨S3300000, .i32⟩ : BufTy).Contents (Elt F) → (⟨S3300000x1, .i32⟩ : BufTy).Contents (Elt F)),
    StableHlo.binary main_v82 main_v88 main_v89 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_19 (constantI S_ 32 0#32),
    StableHlo.unary main_c_19 main_v90 (broadcastInDim S3300000 ![] bcast_S_S3300000 : (⟨S_, .i32⟩ : BufTy).Contents (Elt F) → (⟨S3300000, .i32⟩ : BufTy).Contents (Elt F)),
    StableHlo.binary main_v74 main_v90 main_v91 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v92 (broadcastInDim S3300000 ![] bcast_S_S3300000 : (⟨S_, .i32⟩ : BufTy).Contents (Elt F) → (⟨S3300000, .i32⟩ : BufTy).Contents (Elt F)),
    StableHlo.binary main_v74 main_v92 main_v93 (addi : (⟨S3300000, .i32⟩ : BufTy).Contents (Elt F) → (⟨S3300000, .i32⟩ : BufTy).Contents (Elt F) → (⟨S3300000, .i32⟩ : BufTy).Contents (Elt F)),
    StableHlo.ternary main_v91 main_v93 main_v74 main_v94 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v94 main_v95 (broadcastInDim S3300000x1 ![0] bcast_S3300000_S3300000x1_0 : (⟨S3300000, .i32⟩ : BufTy).Contents (Elt F) → (⟨S3300000x1, .i32⟩ : BufTy).Contents (Elt F)),
    StableHlo.binary main_v82 main_v95 main_v96 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ]

/-- The buffer each of those operations writes, in the same order. -/
abbrev outs1 : List (Ref sig .tc) :=
  [ main_cst_10, main_v48, main_v49, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50, main_v51, main_v52, main_v53, main_cst_12, main_v54, main_v55, main_v56, main_v57, main_v58, main_v59, main_v60, main_v61, main_v62, main_v63, main_v64, main_v65, main_call2_cst, main_call2_v0, main_v66, main_v67, main_v68, main_v69, main_v70, main_v71, main_v72, main_v73, main_v74, main_cst_13, main_v75, main_cst_14, main_v76, main_v77, main_v78, main_cst_15, main_v79, main_v80, main_v81, main_cst_16, main_call3_v0, main_call3_v1, main_v82, main_c_17, main_v83, main_v84, main_c_18, main_v85, main_v86, main_v87, main_v88, main_v89, main_c_19, main_v90, main_v91, main_c_20, main_v92, main_v93, main_v94, main_v95, main_v96 ]

set_option maxRecDepth 8192 in
set_option maxHeartbeats 4000000 in
/-- The window is the straight line of its operations: the outlined functions' definitions unfolded at their
    calls, sequencing reassociated. -/
theorem part1_eq (c : Dev nD) : main_part1 (F := F) c = seq ops1 := by
  simp only [main_part1, fn_var.body, fn_where_0.body, fn_relu.body, fn_where.body, seq, bind_assoc, pure_bind] <;> rfl

set_option maxRecDepth 8192 in
/-- Each operation touches TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
/-- Operation by operation, the one buffer it writes. -/
theorem ops1_writes : List.Forall₂ (fun (op : HloOp τ sig (Elt F)) (y : Ref sig .tc) => op.writes = {Proc.devRef .tc y}) ops1 outs1 := by
  repeat (first | exact .nil | refine .cons rfl ?_)

end Cert.ReferenceIdeal.Hand

end
-- ==== Proof.Ref.Ops2.lean ====
/- The reference program, stretch 2 of three: the operations of the window `main_part2` of @main, in order,
   each outlined function's operations listed at its call over that call's buffers; that the window is the
   straight line of these operations; that each touches TensorCore buffers only; which buffer each writes. -/
import proofs.«179341_j31447750542019_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 148 … 182 of @main's 182 (window `main_part2`), in order. -/
abbrev ops2 : List (HloOp τ sig (Elt F)) :=
  [ StableHlo.binary main_v89 main_v96 main_v97 (mulf : (⟨S3300000, .f32⟩ : BufTy).Contents (Elt F) → (⟨S3300000, .f32⟩ : BufTy).Contents (Elt F) → (⟨S3300000, .f32⟩ : BufTy).Contents (Elt F)),
    StableHlo.nullary main_c_21 (constantI S_ 32 0#32),
    StableHlo.unary main_c_21 main_v98 (broadcastInDim S3300000 ![] bcast_S_S3300000 : (⟨S_, .i32⟩ : BufTy).Contents (Elt F) → (⟨S3300000, .i32⟩ : BufTy).Contents (Elt F)),
    StableHlo.binary main_v71 main_v98 main_v99 (cmpi .slt : (⟨S3300000, .i32⟩ : BufTy).Contents (Elt F) → (⟨S3300000, .i32⟩ : BufTy).Contents (Elt F) → (⟨S3300000, .i1⟩ : BufTy).Contents (Elt F)),
    StableHlo.nullary main_c_22 (constantI S_ 32 100000#32),
    StableHlo.unary main_c_22 main_v100 (broadcastInDim S3300000 ![] bcast_S_S3300000 : (⟨S_, .i32⟩ : BufTy).Contents (Elt F) → (⟨S3300000, .i32⟩ : BufTy).Contents (Elt F)),
    StableHlo.binary main_v71 main_v100 main_v101 (addi : (⟨S3300000, .i32⟩ : BufTy).Contents (Elt F) → (⟨S3300000, .i32⟩ : BufTy).Contents (Elt F) → (⟨S3300000, .i32⟩ : BufTy).Contents (Elt F)),
    StableHlo.ternary main_v99 main_v101 main_v71 main_v102 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v102 main_v103 (broadcastInDim S3300000x1 ![0] bcast_S3300000_S3300000x1_0 : (⟨S3300000, .i32⟩ : BufTy).Contents (Elt F) → (⟨S3300000x1, .i32⟩ : BufTy).Contents (Elt F)),
    StableHlo.binary main_v67 main_v103 main_v104 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v97 main_v105 (broadcastInDim S3300000x1 ![0] bcast_S3300000_S3300000x1_0 : (⟨S3300000, .f32⟩ : BufTy).Contents (Elt F) → (⟨S3300000x1, .f32⟩ : BufTy).Contents (Elt F)),
    StableHlo.unary main_v105 main_v106 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v104 main_v106 main_v107 (mulf : (⟨S3300000x8, .f32⟩ : BufTy).Contents (Elt F) → (⟨S3300000x8, .f32⟩ : BufTy).Contents (Elt F) → (⟨S3300000x8, .f32⟩ : BufTy).Contents (Elt F)),
    StableHlo.nullary main_cst_23 (constant S_ .f32 0x00000000#32),
    StableHlo.unary main_cst_23 main_v108 (broadcastInDim S100000x8 ![] bcast_S_S100000x8 : (⟨S_, .f32⟩ : BufTy).Contents (Elt F) → (⟨S100000x8, .f32⟩ : BufTy).Contents (Elt F)),
    StableHlo.unary main_v74 main_v109 (broadcastInDim S3300000x1 ![0] bcast_S3300000_S3300000x1_0 : (⟨S3300000, .i32⟩ : BufTy).Contents (Elt F) → (⟨S3300000x1, .i32⟩ : BufTy).Contents (Elt F)),
    StableHlo.ternary main_v108 main_v109 main_v107 main_v110 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.unary main_arg6 main_v111 (broadcastInDim S1x8 ![1] bcast_S8_S1x8_1 : (⟨S8, .f32⟩ : BufTy).Contents (Elt F) → (⟨S1x8, .f32⟩ : BufTy).Contents (Elt F)),
    StableHlo.unary main_v111 main_v112 (broadcastInDim S100000x8 ![0, 1] bcast_S1x8_S100000x8_0_1 : (⟨S1x8, .f32⟩ : BufTy).Contents (Elt F) → (⟨S100000x8, .f32⟩ : BufTy).Contents (Elt F)),
    StableHlo.binary main_v110 main_v112 main_v113 (addf : (⟨S100000x8, .f32⟩ : BufTy).Contents (Elt F) → (⟨S100000x8, .f32⟩ : BufTy).Contents (Elt F) → (⟨S100000x8, .f32⟩ : BufTy).Contents (Elt F)),
    StableHlo.TRef.nullary (.of main_call4_cst : StableHlo.TRef sig ⟨S_, .f32⟩) (constant S_ .f32 0xFF800000#32),
    StableHlo.TRef.binary (.of main_v113 : StableHlo.TRef sig ⟨S100000x8, .f32⟩) (.of main_call4_cst : StableHlo.TRef sig ⟨S_, .f32⟩) (.of main_call4_v0 : StableHlo.TRef sig ⟨S100000, .f32⟩) (fun x v => Host.reduce FloatOps.maximumf x v reducesTo_S100000x8_S100000_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S100000, .f32⟩) (broadcastInDim S100000 ![] bcast_S_S100000),
    StableHlo.TRef.binary (.of main_call4_v1 : StableHlo.TRef sig ⟨S100000, .f32⟩) (.of main_call4_v0 : StableHlo.TRef sig ⟨S100000, .f32⟩) (.of main_call4_v2 : StableHlo.TRef sig ⟨S100000, .f32⟩) maximumf,
    StableHlo.TRef.unary (.of main_call4_v2 : StableHlo.TRef sig ⟨S100000, .f32⟩) (.of main_call4_v3 : StableHlo.TRef sig ⟨S100000x1, .f32⟩) (broadcastInDim S100000x1 ![0] bcast_S100000_S100000x1_0),
    StableHlo.TRef.unary (.of main_call4_v3 : StableHlo.TRef sig ⟨S100000x1, .f32⟩) (.of main_call4_v4 : StableHlo.TRef sig ⟨S100000x8, .f32⟩) (broadcastInDim S100000x8 ![0, 1] bcast_S100000x1_S100000x8_0_1),
    StableHlo.TRef.binary (.of main_v113 : StableHlo.TRef sig ⟨S100000x8, .f32⟩) (.of main_call4_v4 : StableHlo.TRef sig ⟨S100000x8, .f32⟩) (.of main_call4_v5 : StableHlo.TRef sig ⟨S100000x8, .f32⟩) subf,
    StableHlo.TRef.unary (.of main_call4_v5 : StableHlo.TRef sig ⟨S100000x8, .f32⟩) (.of main_call4_v6 : StableHlo.TRef sig ⟨S100000x8, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S100000x8, .f32⟩) (.of main_call4_cst_1 : StableHlo.TRef sig ⟨S_, .f32⟩) (.of main_call4_v7 : StableHlo.TRef sig ⟨S100000, .f32⟩) (fun x v => Host.reduceAdd x v reducesTo_S100000x8_S100000_d1 h_S_),
    StableHlo.TRef.unary (.of main_call4_v7 : StableHlo.TRef sig ⟨S100000, .f32⟩) (.of main_call4_v8 : StableHlo.TRef sig ⟨S100000x1, .f32⟩) (broadcastInDim S100000x1 ![0] bcast_S100000_S100000x1_0),
    StableHlo.TRef.unary (.of main_call4_v8 : StableHlo.TRef sig ⟨S100000x1, .f32⟩) (.of main_call4_v9 : StableHlo.TRef sig ⟨S100000x1, .f32⟩) Host.log,
    StableHlo.TRef.unary (.of main_call4_v9 : StableHlo.TRef sig ⟨S100000x1, .f32⟩) (.of main_call4_v10 : StableHlo.TRef sig ⟨S100000x8, .f32⟩) (broadcastInDim S100000x8 ![0, 1] bcast_S100000x1_S100000x8_0_1),
    StableHlo.TRef.binary (.of main_call4_v5 : StableHlo.TRef sig ⟨S100000x8, .f32⟩) (.of main_call4_v10 : StableHlo.TRef sig ⟨S100000x8, .f32⟩) (.of main_v114 : StableHlo.TRef sig ⟨S100000x8, .f32⟩) subf ]

/-- The buffer each of those operations writes, in the same order. -/
abbrev outs2 : List (Ref sig .tc) :=
  [ main_v97, main_c_21, main_v98, main_v99, main_c_22, main_v100, main_v101, main_v102, main_v103, main_v104, main_v105, main_v106, main_v107, main_cst_23, main_v108, main_v109, main_v110, main_v111, main_v112, main_v113, main_call4_cst, main_call4_v0, main_call4_cst_0, main_call4_v1, main_call4_v2, main_call4_v3, main_call4_v4, main_call4_v5, main_call4_v6, main_call4_cst_1, main_call4_v7, main_call4_v8, main_call4_v9, main_call4_v10, main_v114 ]

set_option maxRecDepth 8192 in
set_option maxHeartbeats 4000000 in
/-- The window is the straight line of its operations: the outlined functions' definitions unfolded at their
    calls, sequencing reassociated. -/
theorem part2_eq (c : Dev nD) : main_part2 (F := F) c = seq ops2 := by
  simp only [main_part2, fn_log_softmax.body, seq, bind_assoc, pure_bind] <;> rfl

set_option maxRecDepth 8192 in
/-- Each operation touches TensorCore buffers only. -/
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- Operation by operation, the one buffer it writes. -/
theorem ops2_writes : List.Forall₂ (fun (op : HloOp τ sig (Elt F)) (y : Ref sig .tc) => op.writes = {Proc.devRef .tc y}) ops2 outs2 := by
  repeat (first | exact .nil | refine .cons rfl ?_)

end Cert.ReferenceIdeal.Hand

end
-- ==== Proof.Ref.Line.lean ====
/- A STRAIGHT LINE OF HOST OPERATIONS IN SINGLE-ASSIGNMENT FORM, read buffer by buffer.

   When every operation of a line writes one buffer and no buffer is written twice, the contents a buffer ends with
   are what the one operation that writes it computes, from the FINAL contents of the buffers that operation reads
   (they too are written once, earlier or never). The three facts below say this for a line given with the list of
   the buffers its operations write, in order: a buffer outside that list is kept; the buffer the k-th operation
   writes ends at that operation's result over the contents before it; and a buffer that no operation from the k-th
   on writes already has, before the k-th, the contents it ends with. -/
import Idealize.ShloMosaic.Lib.StableHlo.Run
import Mathlib.Data.List.Forall2

namespace Cert.Line

open Idealize.ShloMosaic Idealize.ShloMosaic.StableHlo

variable {τ : Topo} {sig : RefSig} {Val : EltTy → Type}

/-- Operation by operation, the one buffer it writes. -/
abbrev Writes (ops : List (HloOp τ sig Val)) (outs : List (Ref sig .tc)) : Prop :=
  List.Forall₂ (fun (op : HloOp τ sig Val) (y : Ref sig .tc) => op.writes = {Proc.devRef .tc y}) ops outs

/-- Two lines one after the other: the second from where the first ends. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A line cut at any point. -/
theorem after_take_drop (ops : List (HloOp τ sig Val)) (k : Nat) (V : Valuation τ sig Val) :
    after (ops.drop k) (after (ops.take k) V) = after ops V := by
  rw [← after_app, List.take_append_drop]

/-- A buffer that is not among the ones the line writes keeps its contents. -/
theorem keep {ops : List (HloOp τ sig Val)} {outs : List (Ref sig .tc)} (h : Writes ops outs)
    (V : Valuation τ sig Val) {r : Ref sig .tc} (hr : r ∉ outs) :
    after ops V (Proc.devRef .tc r) = V (Proc.devRef .tc r) := by
  induction h generalizing V with
  | nil => rfl
  | @cons op y ops' outs' hop _ ih =>
    rw [after_cons, ih _ (fun hm => hr (List.mem_cons_of_mem _ hm))]
    refine op.result_of_not_mem V ?_
    rw [hop, Finset.mem_singleton]
    intro e
    exact hr (Proc.devRef_injective _ e ▸ List.mem_cons_self)

/-- Lines written side by side write the two lists side by side. -/
theorem Writes.append {l₁ l₂ : List (HloOp τ sig Val)} {o₁ o₂ : List (Ref sig .tc)} (h₁ : Writes l₁ o₁) (h₂ : Writes l₂ o₂) :
    Writes (l₁ ++ l₂) (o₁ ++ o₂) := List.rel_append h₁ h₂

/-- The buffer the k-th operation writes, and no later one, ends at that operation's result over the contents
    before it. -/
theorem at_written {ops : List (HloOp τ sig Val)} {outs : List (Ref sig .tc)} (h : Writes ops outs) (k : Nat)
    (op : HloOp τ sig Val) (hk : ops.drop k = op :: ops.drop (k + 1)) {y : Ref sig .tc} (hy : y ∉ outs.drop (k + 1))
    (V : Valuation τ sig Val) :
    after ops V (Proc.devRef .tc y) = op.result (after (ops.take k) V) (Proc.devRef .tc y) := by
  rw [← after_take_drop ops k V, hk, after_cons]
  exact keep (List.forall₂_drop (k + 1) h) _ hy

/-- A buffer that no operation from the k-th on writes has, before the k-th, the contents it ends with. -/
theorem before_eq {ops : List (HloOp τ sig Val)} {outs : List (Ref sig .tc)} (h : Writes ops outs) (k : Nat)
    {a : Ref sig .tc} (ha : a ∉ outs.drop k) (V : Valuation τ sig Val) :
    after (ops.take k) V (Proc.devRef .tc a) = after ops V (Proc.devRef .tc a) := by
  rw [← after_take_drop ops k V]
  exact (keep (List.forall₂_drop k h) _ ha).symm

end Cert.Line
-- ==== Proof.Ref.Run.lean ====
/- THE REFERENCE PROGRAM'S RUN. @main is the straight line of its 182 host operations (the three stretches one
   after the other, each outlined function's operations listed at its call); no buffer is scoped; every operation
   touches TensorCore buffers only and writes one buffer, no buffer twice, no argument. So every weakly fair
   execution terminates with each buffer at the operations' fold over the launch contents, and the eight argument
   buffers as they were. -/
import proofs.«179341_j31447750542019_2_alg».proof.Proof.Ref.Ops0
import proofs.«179341_j31447750542019_2_alg».proof.Proof.Ref.Ops1
import proofs.«179341_j31447750542019_2_alg».proof.Proof.Ref.Ops2
import proofs.«179341_j31447750542019_2_alg».proof.Proof.Ref.Line

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 182 operations, in order, calls inlined over their buffer records. -/
abbrev ops : List (HloOp τ sig (Elt F)) := ops0 ++ (ops1 ++ ops2)

/-- The buffer each writes, in the same order. -/
abbrev outs : List (Ref sig .tc) := outs0 ++ (outs1 ++ outs2)

set_option maxRecDepth 8192 in
/-- @main is that straight line. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- Operation by operation, the one buffer it writes. -/
theorem ops_writes : Cert.Line.Writes (ops : List (HloOp τ sig (Elt F))) outs :=
  Cert.Line.Writes.append ops0_writes (Cert.Line.Writes.append ops1_writes ops2_writes)

/-- No operation writes an argument. -/
theorem args_not_written : main_arg0 ∉ outs ∧ main_arg1 ∉ outs ∧ main_arg2 ∉ outs ∧ main_arg3 ∉ outs ∧ main_arg4 ∉ outs ∧ main_arg5 ∉ outs ∧ main_arg6 ∉ outs ∧ main_arg7 ∉ outs := by decide

set_option maxRecDepth 8192 in
/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = after ops (launchContents m c) (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v114,
      (h c main_arg0).trans (Cert.Line.keep ops_writes (launchContents m c) args_not_written.1),
      (h c main_arg1).trans (Cert.Line.keep ops_writes (launchContents m c) args_not_written.2.1),
      (h c main_arg2).trans (Cert.Line.keep ops_writes (launchContents m c) args_not_written.2.2.1),
      (h c main_arg3).trans (Cert.Line.keep ops_writes (launchContents m c) args_not_written.2.2.2.1),
      (h c main_arg4).trans (Cert.Line.keep ops_writes (launchContents m c) args_not_written.2.2.2.2.1),
      (h c main_arg5).trans (Cert.Line.keep ops_writes (launchContents m c) args_not_written.2.2.2.2.2.1),
      (h c main_arg6).trans (Cert.Line.keep ops_writes (launchContents m c) args_not_written.2.2.2.2.2.2.1),
      (h c main_arg7).trans (Cert.Line.keep ops_writes (launchContents m c) args_not_written.2.2.2.2.2.2.2)⟩)
    (run_seq scopedRefs_eq scopedSems_eq defs main (fun _ => ops) main_eq (fun _ => ops_sub) m ρ)

end Cert.ReferenceIdeal.Hand

end
-- ==== Proof.KI.ValueCarry.lean ====
/- Buffers carried unchanged between the boundaries of the program.

   A host stretch leaves a buffer it does not write as it found it; a region leaves every buffer that is none of its
   arrays as it found it, and an array it only reads through an input window too. So each value the next stage reads
   is what an earlier stage produced, or what was launched. -/
import proofs.«179341_j31447750542019_2_alg».proof.Proof.KI.RunFold

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One step each -/

theorem c10 (c : Dev nD) (b : Ref sig .tc) (h : b ∉ hostOps0_W) : W1 m ρ c (Proc.devRef .tc b) = W0 m ρ c (Proc.devRef .tc b) :=
  StableHlo.after_of_writes_sub hostOps0 _ hostOps0_writes h
theorem c21 (c : Dev nD) (b : Ref sig .tc) (h : b ∉ hostOps0_1_W) : W2 m ρ c (Proc.devRef .tc b) = W1 m ρ c (Proc.devRef .tc b) :=
  StableHlo.after_of_writes_sub hostOps0_1 _ hostOps0_1_writes h
theorem c43 (c : Dev nD) (b : Ref sig .tc) (h : b ∉ hostOps1_W) : W4 m ρ c (Proc.devRef .tc b) = W3 m ρ c (Proc.devRef .tc b) :=
  StableHlo.after_of_writes_sub hostOps1 _ hostOps1_writes h
theorem c65 (c : Dev nD) (b : Ref sig .tc) (h : b ∉ hostOps2_W) : W6 m ρ c (Proc.devRef .tc b) = W5 m ρ c (Proc.devRef .tc b) :=
  StableHlo.after_of_writes_sub hostOps2 _ hostOps2_writes h
theorem c87 (c : Dev nD) (b : Ref sig .tc) (h : b ∉ hostOps3_W) : W8 m ρ c (Proc.devRef .tc b) = W7 m ρ c (Proc.devRef .tc b) :=
  StableHlo.after_of_writes_sub hostOps3 _ hostOps3_writes h

/-! ## The chains the value needs -/

theorem W7_v14 (c : Dev nD) : W7 m ρ c (Proc.devRef .tc main_v14) = W2 m ρ c (Proc.devRef .tc main_v14) :=
  calc W7 m ρ c (Proc.devRef .tc main_v14)
    _ = W6 m ρ c (Proc.devRef .tc main_v14) := W7_of_ne m ρ c main_v14 (by decide)
    _ = W5 m ρ c (Proc.devRef .tc main_v14) := c65 m ρ c main_v14 (by decide)
    _ = W4 m ρ c (Proc.devRef .tc main_v14) := W5_of_ne m ρ c main_v14 (by decide)
    _ = W3 m ρ c (Proc.devRef .tc main_v14) := c43 m ρ c main_v14 (by decide)
    _ = W2 m ρ c (Proc.devRef .tc main_v14) := W3_of_ne m ρ c main_v14 (by decide)

theorem W3_v14 (c : Dev nD) : W3 m ρ c (Proc.devRef .tc main_v14) = W2 m ρ c (Proc.devRef .tc main_v14) :=
  calc W3 m ρ c (Proc.devRef .tc main_v14)
    _ = W2 m ρ c (Proc.devRef .tc main_v14) := W3_of_ne m ρ c main_v14 (by decide)

theorem W7_v3 (c : Dev nD) : W7 m ρ c (Proc.devRef .tc main_v3) = W2 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := c65 m ρ c main_v3 (by decide)
    _ = W4 m ρ c (Proc.devRef .tc main_v3) := W5_of_ne m ρ c main_v3 (by decide)
    _ = W3 m ρ c (Proc.devRef .tc main_v3) := c43 m ρ c main_v3 (by decide)
    _ = W2 m ρ c (Proc.devRef .tc main_v3) := W3_of_ne m ρ c main_v3 (by decide)

theorem W3_v3 (c : Dev nD) : W3 m ρ c (Proc.devRef .tc main_v3) = W2 m ρ c (Proc.devRef .tc main_v3) :=
  calc W3 m ρ c (Proc.devRef .tc main_v3)
    _ = W2 m ρ c (Proc.devRef .tc main_v3) := W3_of_ne m ρ c main_v3 (by decide)

theorem W7_v6 (c : Dev nD) : W7 m ρ c (Proc.devRef .tc main_v6) = W2 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := c65 m ρ c main_v6 (by decide)
    _ = W4 m ρ c (Proc.devRef .tc main_v6) := W5_of_ne m ρ c main_v6 (by decide)
    _ = W3 m ρ c (Proc.devRef .tc main_v6) := c43 m ρ c main_v6 (by decide)
    _ = W2 m ρ c (Proc.devRef .tc main_v6) := W3_of_ne m ρ c main_v6 (by decide)

theorem W3_v6 (c : Dev nD) : W3 m ρ c (Proc.devRef .tc main_v6) = W2 m ρ c (Proc.devRef .tc main_v6) :=
  calc W3 m ρ c (Proc.devRef .tc main_v6)
    _ = W2 m ρ c (Proc.devRef .tc main_v6) := W3_of_ne m ρ c main_v6 (by decide)

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := c65 m ρ c main_arg6 (by decide)
    _ = W4 m ρ c (Proc.devRef .tc main_arg6) := W5_of_ne m ρ c main_arg6 (by decide)
    _ = W3 m ρ c (Proc.devRef .tc main_arg6) := c43 m ρ c main_arg6 (by decide)
    _ = W2 m ρ c (Proc.devRef .tc main_arg6) := W3_of_ne m ρ c main_arg6 (by decide)
    _ = W1 m ρ c (Proc.devRef .tc main_arg6) := c21 m ρ c main_arg6 (by decide)
    _ = W0 m ρ c (Proc.devRef .tc main_arg6) := c10 m ρ c main_arg6 (by decide)
    _ = m ((c : Thread nD τ).loc main_arg6) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := c65 m ρ c main_arg5 (by decide)
    _ = W4 m ρ c (Proc.devRef .tc main_arg5) := W5_of_ne m ρ c main_arg5 (by decide)
    _ = W3 m ρ c (Proc.devRef .tc main_arg5) := c43 m ρ c main_arg5 (by decide)
    _ = W2 m ρ c (Proc.devRef .tc main_arg5) := W3_of_ne m ρ c main_arg5 (by decide)
    _ = W1 m ρ c (Proc.devRef .tc main_arg5) := c21 m ρ c main_arg5 (by decide)
    _ = W0 m ρ c (Proc.devRef .tc main_arg5) := c10 m ρ c main_arg5 (by decide)
    _ = m ((c : Thread nD τ).loc main_arg5) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := c43 m ρ c main_arg3 (by decide)
    _ = W2 m ρ c (Proc.devRef .tc main_arg3) := W3_of_ne m ρ c main_arg3 (by decide)
    _ = W1 m ρ c (Proc.devRef .tc main_arg3) := c21 m ρ c main_arg3 (by decide)
    _ = W0 m ρ c (Proc.devRef .tc main_arg3) := c10 m ρ c main_arg3 (by decide)
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := c43 m ρ c main_arg4 (by decide)
    _ = W2 m ρ c (Proc.devRef .tc main_arg4) := W3_of_ne m ρ c main_arg4 (by decide)
    _ = W1 m ρ c (Proc.devRef .tc main_arg4) := c21 m ρ c main_arg4 (by decide)
    _ = W0 m ρ c (Proc.devRef .tc main_arg4) := c10 m ρ c main_arg4 (by decide)
    _ = m ((c : Thread nD τ).loc main_arg4) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := c21 m ρ c main_arg2 (by decide)
    _ = W0 m ρ c (Proc.devRef .tc main_arg2) := c10 m ρ c main_arg2 (by decide)
    _ = m ((c : Thread nD τ).loc main_arg2) := rfl

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := c21 m ρ c main_arg0 (by decide)
    _ = W0 m ρ c (Proc.devRef .tc main_arg0) := c10 m ρ c main_arg0 (by decide)
    _ = m ((c : Thread nD τ).loc main_arg0) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := c21 m ρ c main_arg1 (by decide)
    _ = W0 m ρ c (Proc.devRef .tc main_arg1) := c10 m ρ c main_arg1 (by decide)
    _ = m ((c : Thread nD τ).loc main_arg1) := rfl

theorem W6_v34 (c : Dev nD) : W6 m ρ c (Proc.devRef .tc main_v34) = W4 m ρ c (Proc.devRef .tc main_v34) :=
  calc W6 m ρ c (Proc.devRef .tc main_v34)
    _ = W5 m ρ c (Proc.devRef .tc main_v34) := c65 m ρ c main_v34 (by decide)
    _ = W4 m ρ c (Proc.devRef .tc main_v34) := (W5_arr m ρ c 0).trans (((dat1 (V4 m ρ) c).arrAt_in 0 rfl _).trans (A_eq1 (V4 m ρ) c 0))

theorem W0_arg7 (c : Dev nD) : W0 m ρ c (Proc.devRef .tc main_arg7) = m ((c : Thread nD τ).loc main_arg7) := rfl

end Cert.KernelIdeal.Hand

end
-- ==== Proof.LibTiles.lean ====
/-
  Sums over a range cut into equal tiles.

  The numbers below A · T are the pairs (t, r) with t below A and r below T, through n = t · T + r. So a sum over all
  of them is the sum over the tiles t of the sums inside each tile. Stated for any extents, then at 65536 = 8 · 8192,
  alone and under an outer sum over four batches.
-/
import Mathlib.Algebra.BigOperators.Fin
import Mathlib.Logic.Equiv.Fin.Basic
import Mathlib.Tactic.Ring

open scoped BigOperators

namespace Cert.LibTiles

/-- Position r of tile t lies below A · T. -/
theorem tile_lt {A T : Nat} (t : Fin A) (r : Fin T) : t.val * T + r.val < A * T := by
  have ht := t.isLt
  have hr := r.isLt
  calc t.val * T + r.val < t.val * T + T := by omega
    _ = (t.val + 1) * T := by ring
    _ ≤ A * T := Nat.mul_le_mul_right T (by omega)

/-- A sum over the numbers below A · T is the sum over the A tiles of the T positions of each. -/
theorem sum_tiles {M : Type*} [AddCommMonoid M] (A T : Nat) (f : Fin (A * T) → M) :
    ∑ t : Fin A, ∑ r : Fin T, f ⟨t.val * T + r.val, tile_lt t r⟩ = ∑ n, f n := by
  calc ∑ t : Fin A, ∑ r : Fin T, f ⟨t.val * T + r.val, tile_lt t r⟩
      = ∑ p : Fin A × Fin T, f (finProdFinEquiv p) := by
        rw [Fintype.sum_prod_type]
        refine Finset.sum_congr rfl fun t _ => Finset.sum_congr rfl fun r _ => congrArg f (Fin.ext ?_)
        show t.val * T + r.val = r.val + T * t.val
        ring
    _ = ∑ n, f n := Equiv.sum_comp finProdFinEquiv f

/-- 65536 numbers are 8 tiles of 8192. -/
theorem sum_tiles_8_8192 {M : Type*} [AddCommMonoid M] (f : Fin 65536 → M) :
    ∑ t : Fin 8, ∑ r : Fin 8192, f ⟨t.val * 8192 + r.val, by omega⟩ = ∑ n, f n :=
  sum_tiles 8 8192 f

/-- The same under an outer sum over four batches. -/
theorem sum_batch_tiles_8_8192 {M : Type*} [AddCommMonoid M] (f : Fin 4 → Fin 65536 → M) :
    ∑ b : Fin 4, ∑ t : Fin 8, ∑ r : Fin 8192, f b ⟨t.val * 8192 + r.val, by omega⟩ = ∑ b : Fin 4, ∑ n, f b n :=
  Finset.sum_congr rfl fun b _ => sum_tiles_8_8192 (f b)

end Cert.LibTiles
-- ==== Proof.LibEntry.lean ====
/-
  Contents of a buffer at the ideal instance, read as a function to the extended reals.

  An entry of a buffer at the ideal instance is an extended real; this identity names the buffer's contents as a function
  to the extended reals, so that sums and products of entries are the extended reals'.
-/
import Idealize.ShloMosaic.Lib.ValueIdx

noncomputable section

namespace Idealize.ShloMosaic.ValueIdx

/-- Contents valued in the extended reals, as they are. -/
abbrev entry {S : Shape} (f : S.Idx → EReal) : S.Idx → EReal := f

theorem entry_apply {S : Shape} (f : S.Idx → EReal) (i : S.Idx) : entry f i = f i := rfl

end Idealize.ShloMosaic.ValueIdx

end
-- ==== Proof.KI.Region1Value.lean ====
/- Region 1 of the program: the VALUES it leaves in its two output arrays.

   Generic in the float instance, the stores each control case leaves are read back as the body's payloads:
   scratch row 0 after point n is  pay4 (block n) (scratch row 0 after point n-1), from the zero row at point 0,
   and likewise scratch row 1 with pay5; the last point copies both rows out, and it is the only point whose
   output blocks are written back, each block being its whole 1 x 16 array.

   At the ideal instance pay4 adds to each lane the sum of the block's 5000 entries in that lane, pay5 the sum
   of their squares. So after the 20 points lane j of output 1 is the sum over all 100000 rows n of X[n, j] and
   lane j of output 2 the sum of X[n, j]^2, X the 100000 x 16 array the region reads: a sum over 20 tiles of
   5000 rows is the sum over the 100000 rows. -/
import proofs.«179341_j31447750542019_2_alg».proof.Proof.KI.Region1
import Idealize.ShloMosaic.Lib.Pipeline.Value
import Idealize.ShloMosaic.Lib.Tactic
import Idealize.ShloMosaic.Lib.ValueIdx
import Idealize.ShloMosaic.PureOps.Ideal
import Idealize.ShloMosaic.PureOps.Ideal.Laws
import proofs.«179341_j31447750542019_2_alg».proof.Proof.LibTiles
import proofs.«179341_j31447750542019_2_alg».proof.Proof.LibEntry

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]

theorem hz2 : (![0, 0] : Fin 2 → Nat) = fun _ => 0 := funext fun a => by fin_cases a <;> rfl

set_option maxHeartbeats 400000 in
theorem sA0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) :
    out1_A_s0 c i arg1 harg1 arg2 harg2 arg3 harg3 arg4 harg4 arg5 harg5 hc0 hc1 x0 = k1_pay4 x0 k1_pay1 := by
  unfold out1_A_s0
  rw [View.read_writes_eq_canon _ _ _ (cover1_A_s0 c i arg1 harg1 arg2 harg2 arg3 harg3 arg4 harg4 arg5 harg5 hc0 hc1 x0)]
  unfold kernelRun1_A
  dsimp only
  sl_unfold_words
  rw [View.canon_cons_unit_zero (S := S1x16) hz2, View.readCov_unit_zero (S := S1x16) _ hz2]
  simp only [View.readAt_eq_ld, harg1.read_unread, harg4.read_unread, harg5.read_unread, View.ld_unit_zero (S := S5000x16) hz2, View.ld_unit_zero (S := S1x16) hz2]

set_option maxHeartbeats 400000 in
theorem sA1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : cond1_0 i) (hc1 : ¬cond1_1 i)
    (x0 : Vec F S5000x16 .f32) :
    out1_A_s1 c i arg1 harg1 arg2 harg2 arg3 harg3 arg4 harg4 arg5 harg5 hc0 hc1 x0 = k1_pay5 x0 k1_pay2 := by
  unfold out1_A_s1
  rw [View.read_writes_eq_canon _ _ _ (cover1_A_s1 c i arg1 harg1 arg2 harg2 arg3 harg3 arg4 harg4 arg5 harg5 hc0 hc1 x0)]
  unfold kernelRun1_A
  dsimp only
  sl_unfold_words
  rw [View.canon_cons_unit_zero (S := S1x16) hz2, View.readCov_unit_zero (S := S1x16) _ hz2]
  simp only [View.readAt_eq_ld, harg1.read_unread, harg4.read_unread, harg5.read_unread, View.ld_unit_zero (S := S5000x16) hz2, View.ld_unit_zero (S := S1x16) hz2]

set_option maxHeartbeats 400000 in
theorem sB0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) :
    out1_B_s0 c i arg1 harg1 arg2 harg2 arg3 harg3 arg4 harg4 arg5 harg5 hc0 hc1 x0 xs0 xs1 = k1_pay4 x0 xs0 := by
  unfold out1_B_s0
  rw [View.read_writes_eq_canon _ _ _ (cover1_B_s0 c i arg1 harg1 arg2 harg2 arg3 harg3 arg4 harg4 arg5 harg5 hc0 hc1 x0 xs0 xs1)]
  unfold kernelRun1_B
  dsimp only
  sl_unfold_words
  rw [View.canon_unit_zero (S := S1x16) hz2]
  simp only [View.readAt_eq_ld, harg1.read_unread, harg4.read_unread, harg5.read_unread, View.ld_unit_zero (S := S5000x16) hz2, View.ld_unit_zero (S := S1x16) hz2]

set_option maxHeartbeats 400000 in
theorem sB1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : ¬cond1_1 i)
    (x0 : Vec F S5000x16 .f32) (xs0 : Vec F S1x16 .f32) (xs1 : Vec F S1x16 .f32) :
    out1_B_s1 c i arg1 harg1 arg2 harg2 arg3 harg3 arg4 harg4 arg5 harg5 hc0 hc1 x0 xs0 xs1 = k1_pay5 x0 xs1 := by
  unfold out1_B_s1
  rw [View.read_writes_eq_canon _ _ _ (cover1_B_s1 c i arg1 harg1 arg2 harg2 arg3 harg3 arg4 harg4 arg5 harg5 hc0 hc1 x0 xs0 xs1)]
  unfold kernelRun1_B
  dsimp only
  sl_unfold_words
  rw [View.canon_unit_zero (S := S1x16) hz2]
  simp only [View.readAt_eq_ld, harg1.read_unread, harg4.read_unread, harg5.read_unread, View.ld_unit_zero (S := S5000x16) hz2, View.ld_unit_zero (S := S1x16) hz2]

set_option maxHeartbeats 400000 in
theorem sC0 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    out1_C_s0 c i arg1 harg1 arg2 harg2 arg3 harg3 arg4 harg4 arg5 harg5 hc0 hc1 x0 xs0 xs1 = k1_pay4 x0 xs0 := by
  unfold out1_C_s0
  rw [View.read_writes_eq_canon _ _ _ (cover1_C_s0 c i arg1 harg1 arg2 harg2 arg3 harg3 arg4 harg4 arg5 harg5 hc0 hc1 x0 xs0 xs1)]
  unfold kernelRun1_C
  dsimp only
  sl_unfold_words
  rw [View.canon_unit_zero (S := S1x16) hz2]
  simp only [View.readAt_eq_ld, harg1.read_unread, harg4.read_unread, harg5.read_unread, View.ld_unit_zero (S := S5000x16) hz2, View.ld_unit_zero (S := S1x16) hz2]

set_option maxHeartbeats 400000 in
theorem sC1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    out1_C_s1 c i arg1 harg1 arg2 harg2 arg3 harg3 arg4 harg4 arg5 harg5 hc0 hc1 x0 xs0 xs1 = k1_pay5 x0 xs1 := by
  unfold out1_C_s1
  rw [View.read_writes_eq_canon _ _ _ (cover1_C_s1 c i arg1 harg1 arg2 harg2 arg3 harg3 arg4 harg4 arg5 harg5 hc0 hc1 x0 xs0 xs1)]
  unfold kernelRun1_C
  dsimp only
  sl_unfold_words
  rw [View.canon_unit_zero (S := S1x16) hz2]
  simp only [View.readAt_eq_ld, harg1.read_unread, harg4.read_unread, harg5.read_unread, View.ld_unit_zero (S := S5000x16) hz2, View.ld_unit_zero (S := S1x16) hz2]

set_option maxHeartbeats 400000 in
theorem oC1 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    out1_C_o1 c i arg1 harg1 arg2 harg2 arg3 harg3 arg4 harg4 arg5 harg5 hc0 hc1 x0 xs0 xs1 = k1_pay4 x0 xs0 := by
  unfold out1_C_o1
  rw [View.read_writes_eq_canon _ _ _ (cover1_C_o1 c i arg1 harg1 arg2 harg2 arg3 harg3 arg4 harg4 arg5 harg5 hc0 hc1 x0 xs0 xs1)]
  unfold kernelRun1_C
  dsimp only
  sl_unfold_words
  rw [View.canon_unit_zero (S := S1x16) hz2, View.readCov_unit_zero (S := S1x16) _ hz2]
  simp only [View.readAt_eq_ld, harg1.read_unread, harg4.read_unread, harg5.read_unread, View.ld_unit_zero (S := S5000x16) hz2, View.ld_unit_zero (S := S1x16) hz2]

set_option maxHeartbeats 400000 in
theorem oC2 (c : Dev nD) (i : grid1.Coords) (arg1 : Memref sig .tc .vmem S5000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (hc0 : ¬cond1_0 i) (hc1 : cond1_1 i)
    (x0 : Vec F S5000x16 .f32) (xs0 : Vec F S1x16 .f32) (xs1 : Vec F S1x16 .f32) :
    out1_C_o2 c i arg1 harg1 arg2 harg2 arg3 harg3 arg4 harg4 arg5 harg5 hc0 hc1 x0 xs0 xs1 = k1_pay5 x0 xs1 := by
  unfold out1_C_o2
  rw [View.read_writes_eq_canon _ _ _ (cover1_C_o2 c i arg1 harg1 arg2 harg2 arg3 harg3 arg4 harg4 arg5 harg5 hc0 hc1 x0 xs0 xs1)]
  unfold kernelRun1_C
  dsimp only
  sl_unfold_words
  rw [View.canon_unit_zero (S := S1x16) hz2, View.readCov_unit_zero (S := S1x16) _ hz2]
  simp only [View.readAt_eq_ld, harg1.read_unread, harg4.read_unread, harg5.read_unread, View.ld_unit_zero (S := S5000x16) hz2, View.ld_unit_zero (S := S1x16) hz2]

/-! ## The two scratch rows point by point, at any float instance -/

section
variable (V : (c : Dev nD) → (b : Ref sig .tc) → Buf (Elt F) ((c : Thread nD τ).loc b))

/-- Scratch row 0 after point `n`: from the zero row, each block's contribution added in point order. -/
def acc0 (c : Dev nD) : (n : ℕ) → n < cfg1.N → Vec F S1x16 .f32
  | 0, h => k1_pay4 (iblk1 V c 0 ⟨0, h⟩) k1_pay1
  | n + 1, h => k1_pay4 (iblk1 V c 0 ⟨n + 1, h⟩) (acc0 c n (Nat.lt_of_succ_lt h))

/-- Scratch row 1 after point `n`, likewise. -/
def acc1 (c : Dev nD) : (n : ℕ) → n < cfg1.N → Vec F S1x16 .f32
  | 0, h => k1_pay5 (iblk1 V c 0 ⟨0, h⟩) k1_pay2
  | n + 1, h => k1_pay5 (iblk1 V c 0 ⟨n + 1, h⟩) (acc1 c n (Nat.lt_of_succ_lt h))

/-- What the frame's proof data says the scratch rows hold after point `n` is these chains: by induction on the
    point, the case read off the point's position. -/
theorem outsAt1_scratch (c : Dev nD) : ∀ (n : ℕ) (h : n < cfg1.N),
    (outsAt1 V c n h).2.2.1 = acc0 V c n h ∧ (outsAt1 V c n h).2.2.2 = acc1 V c n h
  | 0, h => by
    rw [outsAt1_A V c ⟨0, h⟩ (Nat.zero_mod _) (by show ¬0 % 20 = 19; decide)]
    dsimp only
    exact ⟨sA0 .., sA1 ..⟩
  | n + 1, h => by
    have hN : cfg1.N = 20 := N_1
    have h0 : ¬(⟨n + 1, h⟩ : Fin cfg1.N).val % 20 = 0 := by dsimp only; omega
    obtain ⟨ih0, ih1⟩ := outsAt1_scratch c n (Nat.lt_of_succ_lt h)
    by_cases h1 : (⟨n + 1, h⟩ : Fin cfg1.N).val % 20 = 19
    · rw [outsAt1_C V c ⟨n + 1, h⟩ h0 h1]
      dsimp only
      rw [sC0, sC1]
      constructor
      · show k1_pay4 _ (outsAt1 V c n _).2.2.1 = k1_pay4 _ (acc0 V c n _)
        rw [ih0]
      · show k1_pay5 _ (outsAt1 V c n _).2.2.2 = k1_pay5 _ (acc1 V c n _)
        rw [ih1]
    · rw [outsAt1_B V c ⟨n + 1, h⟩ h0 h1]
      dsimp only
      rw [sB0, sB1]
      constructor
      · show k1_pay4 _ (outsAt1 V c n _).2.2.1 = k1_pay4 _ (acc0 V c n _)
        rw [ih0]
      · show k1_pay5 _ (outsAt1 V c n _).2.2.2 = k1_pay5 _ (acc1 V c n _)
        rw [ih1]

/-- The last grid point. -/
def t19 : Fin cfg1.N := ⟨19, by rw [show cfg1.N = 20 from N_1]; decide⟩

/-- At the last point the two output blocks receive the two scratch rows as that point leaves them. -/
theorem outsAt1_last (c : Dev nD) :
    (outsAt1 V c 19 t19.isLt).1 = acc0 V c 19 t19.isLt ∧ (outsAt1 V c 19 t19.isLt).2.1 = acc1 V c 19 t19.isLt := by
  have h0 : ¬(t19 : Fin cfg1.N).val % 20 = 0 := by decide
  have h1 : (t19 : Fin cfg1.N).val % 20 = 19 := rfl
  obtain ⟨ih0, ih1⟩ := outsAt1_scratch V c 18 (Nat.lt_of_succ_lt t19.isLt)
  rw [show outsAt1 V c 19 t19.isLt = outsAt1 V c t19.val t19.isLt from rfl, outsAt1_C V c t19 h0 h1]
  dsimp only
  rw [oC1, oC2]
  constructor
  · show k1_pay4 _ (outsAt1 V c 18 _).2.2.1 = k1_pay4 _ (acc0 V c 18 _)
    rw [ih0]; rfl
  · show k1_pay5 _ (outsAt1 V c 18 _).2.2.2 = k1_pay5 _ (acc1 V c 18 _)
    rw [ih1]; rfl

/-! ## The two output arrays after the region -/

/-- The one write-back of output 1, at the last point, writes scratch row 0's final contents: the block is the array. -/
theorem flushed1_1 (c : Dev nD) (t : Fin cfg1.N) (hf : (cfg1.win 1).flush t = true) :
    (dat1 V c).flushed 1 t = ((cfg1.win 1).blk t).view.read (Elt F) (acc0 V c 19 t19.isLt) := by
  have hN : cfg1.N = 20 := N_1
  have h19 : t.val = 19 := by have := (flush1_1 t).mp hf; have := t.isLt; omega
  obtain rfl : t = t19 := Fin.ext h19
  show (cfg1.win 1).cut (grid1.coords t19) ((dat1 V c).after 1 t19) = _
  rw [after1_1, show outsAt1 V c t19.val t19.isLt = outsAt1 V c 19 t19.isLt from rfl, (outsAt1_last V c).1]
  have hz' : (fun a => win1_1.index t19 a * main_v35_0.ty.shape.size a) = fun _ => 0 := funext fun a => by fin_cases a <;> decide +kernel
  exact (Memref.read_access_unit_zero (Elt F) main_v35_0 hz' (fun a => by rw [congrFun hz' a]; simp) (acc0 V c 19 t19.isLt)).symm

/-- The same for output 2 and scratch row 1. -/
theorem flushed1_2 (c : Dev nD) (t : Fin cfg1.N) (hf : (cfg1.win 2).flush t = true) :
    (dat1 V c).flushed 2 t = ((cfg1.win 2).blk t).view.read (Elt F) (acc1 V c 19 t19.isLt) := by
  have hN : cfg1.N = 20 := N_1
  have h19 : t.val = 19 := by have := (flush1_2 t).mp hf; have := t.isLt; omega
  obtain rfl : t = t19 := Fin.ext h19
  show (cfg1.win 2).cut (grid1.coords t19) ((dat1 V c).after 2 t19) = _
  rw [after1_2, show outsAt1 V c t19.val t19.isLt = outsAt1 V c 19 t19.isLt from rfl, (outsAt1_last V c).2]
  have hz' : (fun a => win1_2.index t19 a * main_v35_1.ty.shape.size a) = fun _ => 0 := funext fun a => by fin_cases a <;> decide +kernel
  exact (Memref.read_access_unit_zero (Elt F) main_v35_1 hz' (fun a => by rw [congrFun hz' a]; simp) (acc1 V c 19 t19.isLt)).symm

/-- So output array 1 ends holding scratch row 0's final contents: the last point's block covers it. -/
theorem final1_1 (c : Dev nD) : (dat1 V c).arrAt 1 cfg1.N = acc0 V c 19 t19.isLt :=
  (dat1 V c).arrAt_eq_of_cover 1 (acc0 V c 19 t19.isLt) (flushed1_1 V c) fun i =>
    ⟨t19, (flush1_1 t19).mpr rfl, by
      show i ∈ ((View.whole main_v35_0).slice (win1_1.rect t19)).set
      rw [View.set_slice_whole, Rect.mem_set_unit]
      intro a
      have h0 : (i 0 : Nat) < 1 := (i 0).isLt
      have h1 : (i 1 : Nat) < 16 := (i 1).isLt
      match a with
      | ⟨0, _⟩ => show win1_1.index t19 0 * win1_1.size 0 ≤ (i 0 : Nat) ∧ (i 0 : Nat) < win1_1.index t19 0 * win1_1.size 0 + win1_1.xsize (grid1.coords t19) 0
                  rw [show win1_1.index t19 0 * win1_1.size 0 = 0 from by decide +kernel, show win1_1.xsize (grid1.coords t19) 0 = 1 from by decide +kernel]; omega
      | ⟨1, _⟩ => show win1_1.index t19 1 * win1_1.size 1 ≤ (i 1 : Nat) ∧ (i 1 : Nat) < win1_1.index t19 1 * win1_1.size 1 + win1_1.xsize (grid1.coords t19) 1
                  rw [show win1_1.index t19 1 * win1_1.size 1 = 0 from by decide +kernel, show win1_1.xsize (grid1.coords t19) 1 = 16 from by decide +kernel]; omega⟩

/-- And output array 2 scratch row 1's. -/
theorem final1_2 (c : Dev nD) : (dat1 V c).arrAt 2 cfg1.N = acc1 V c 19 t19.isLt :=
  (dat1 V c).arrAt_eq_of_cover 2 (acc1 V c 19 t19.isLt) (flushed1_2 V c) fun i =>
    ⟨t19, (flush1_2 t19).mpr rfl, by
      show i ∈ ((View.whole main_v35_1).slice (win1_2.rect t19)).set
      rw [View.set_slice_whole, Rect.mem_set_unit]
      intro a
      have h0 : (i 0 : Nat) < 1 := (i 0).isLt
      have h1 : (i 1 : Nat) < 16 := (i 1).isLt
      match a with
      | ⟨0, _⟩ => show win1_2.index t19 0 * win1_2.size 0 ≤ (i 0 : Nat) ∧ (i 0 : Nat) < win1_2.index t19 0 * win1_2.size 0 + win1_2.xsize (grid1.coords t19) 0
                  rw [show win1_2.index t19 0 * win1_2.size 0 = 0 from by decide +kernel, show win1_2.xsize (grid1.coords t19) 0 = 1 from by decide +kernel]; omega
      | ⟨1, _⟩ => show win1_2.index t19 1 * win1_2.size 1 ≤ (i 1 : Nat) ∧ (i 1 : Nat) < win1_2.index t19 1 * win1_2.size 1 + win1_2.xsize (grid1.coords t19) 1
                  rw [show win1_2.index t19 1 * win1_2.size 1 = 0 from by decide +kernel, show win1_2.xsize (grid1.coords t19) 1 = 16 from by decide +kernel]; omega⟩

end

/-! ## At the ideal instance: the payloads lane by lane -/

theorem pay1_apply (i : S1x16.Idx) : (k1_pay1 (F := Ideal)) i = (0 : EReal) := by
  unfold k1_pay1
  rw [shapeCast_self]
  exact Ideal.ofBits_zero_f32

theorem pay2_apply (i : S1x16.Idx) : (k1_pay2 (F := Ideal)) i = (0 : EReal) := by
  unfold k1_pay2
  rw [shapeCast_self]
  exact Ideal.ofBits_zero_f32

set_option maxHeartbeats 50000 in
theorem pay4_apply (x : Vec Ideal S5000x16 .f32) (s : Vec Ideal S1x16 .f32) (j : Fin 16) :
    (k1_pay4 (F := Ideal) x s) (ix2 (0 : Fin 1) j) = (s (ix2 (0 : Fin 1) j) : EReal) + ∑ r : Fin 5000, (x (ix2 r j) : EReal) := by
  unfold k1_pay4 k1_pay3
  dsimp only
  rw [shapeCast_self, shapeCast_self]
  refine (addf_apply _ _ _).trans ?_
  congr 1
  refine (shapeCast_addUnit_apply ![16] _ _ _).trans ?_
  refine (Ideal.multiReduction_add_single _ _ _ _ _ _).trans ?_
  refine Finset.sum_congr rfl fun r _ => congrArg x ?_
  funext a; fin_cases a <;> rfl

set_option maxHeartbeats 50000 in
theorem pay5_apply (x : Vec Ideal S5000x16 .f32) (s : Vec Ideal S1x16 .f32) (j : Fin 16) :
    (k1_pay5 (F := Ideal) x s) (ix2 (0 : Fin 1) j) = (s (ix2 (0 : Fin 1) j) : EReal) + ∑ r : Fin 5000, (x (ix2 r j) : EReal) * (x (ix2 r j) : EReal) := by
  unfold k1_pay5 k1_pay3
  dsimp only
  rw [shapeCast_self, shapeCast_self]
  refine (addf_apply _ _ _).trans ?_
  congr 1
  refine (shapeCast_addUnit_apply ![16] _ _ _).trans ?_
  refine (Ideal.multiReduction_add_single _ _ _ _ _ _).trans ?_
  refine Finset.sum_congr rfl fun r _ => ?_
  refine (mulf_apply _ _ _).trans ?_
  have e : (reduces_S5000x16_S16.lift (fun a => (ix2 (0 : Fin 1) j) a.succ) r) = ix2 r j := by
    funext a; fin_cases a <;> rfl
  rw [e]; rfl

/-! ## The input block read through the window -/

/-- Entry (k, j) of a 100000 x 16 array of extended reals, zero past the last row: the rows as a function of a
    natural number, so that a block's rows are named without a bound. -/
def rowAt (G : S100000x16.Idx → EReal) (j : Fin 16) (k : ℕ) : EReal := if h : k < 100000 then G (ix2 ⟨k, h⟩ j) else 0

/-- Block `t` of the input window is rows `5000 t .. 5000 t + 4999` of the array the region reads. -/
theorem iblk1_apply (V : (c : Dev nD) → (b : Ref sig .tc) → Buf (Elt Ideal) ((c : Thread nD τ).loc b))
    (c : Dev nD) (t : Fin cfg1.N) (r : Fin 5000) (j : Fin 16) :
    (iblk1 V c 0 t : Vec Ideal S5000x16 .f32) (ix2 r j) = rowAt (V c main_v34) j (t.val * 5000 + r.val) := by
  have hN : t.val < 20 := lt_of_lt_of_eq t.isLt (show cfg1.N = 20 from N_1)
  have hr := r.isLt
  have hlt : t.val * 5000 + r.val < 100000 := by omega
  have hi : win1_0.index t 0 = t.val ∧ win1_0.index t 1 = 0 :=
    (by decide +kernel : ∀ t : Fin grid1.N, win1_0.index t 0 = t.val ∧ win1_0.index t 1 = 0) t
  unfold rowAt
  rw [dif_pos hlt]
  unfold iblk1
  rw [View.read_apply]
  show V c main_v34 _ = V c main_v34 _
  congr 1
  funext a
  apply Fin.ext
  match a with
  | ⟨0, _⟩ => show win1_0.index t 0 * 5000 + 1 * r.val = t.val * 5000 + r.val; rw [hi.1]; omega
  | ⟨1, _⟩ => show win1_0.index t 1 * 16 + 1 * j.val = j.val; rw [hi.2]; omega

/-! ## The chains are partial sums -/

section
variable (V : (c : Dev nD) → (b : Ref sig .tc) → Buf (Elt Ideal) ((c : Thread nD τ).loc b))

/-- Lane `j` of scratch row 0 after point `n` is the sum of column `j` over the rows of blocks `0 .. n`. -/
theorem acc0_apply (c : Dev nD) (j : Fin 16) : ∀ (n : ℕ) (h : n < cfg1.N),
    (acc0 V c n h : S1x16.Idx → EReal) (ix2 (0 : Fin 1) j)
      = ∑ t ∈ Finset.range (n + 1), ∑ r : Fin 5000, rowAt (V c main_v34) j (t * 5000 + r.val)
  | 0, h => by
    show (k1_pay4 (F := Ideal) _ _) (ix2 (0 : Fin 1) j) = _
    rw [pay4_apply, pay1_apply, zero_add, Finset.sum_range_one]
    exact Finset.sum_congr rfl fun r _ => iblk1_apply V c ⟨0, h⟩ r j
  | n + 1, h => by
    show (k1_pay4 (F := Ideal) _ _) (ix2 (0 : Fin 1) j) = _
    rw [pay4_apply, acc0_apply c j n (Nat.lt_of_succ_lt h), Finset.sum_range_succ _ (n + 1)]
    congr 1
    exact Finset.sum_congr rfl fun r _ => iblk1_apply V c ⟨n + 1, h⟩ r j

/-- Lane `j` of scratch row 1 after point `n` is the sum of the squares of column `j` over those rows. -/
theorem acc1_apply (c : Dev nD) (j : Fin 16) : ∀ (n : ℕ) (h : n < cfg1.N),
    (acc1 V c n h : S1x16.Idx → EReal) (ix2 (0 : Fin 1) j)
      = ∑ t ∈ Finset.range (n + 1), ∑ r : Fin 5000, rowAt (V c main_v34) j (t * 5000 + r.val) * rowAt (V c main_v34) j (t * 5000 + r.val)
  | 0, h => by
    show (k1_pay5 (F := Ideal) _ _) (ix2 (0 : Fin 1) j) = _
    rw [pay5_apply, pay2_apply, zero_add, Finset.sum_range_one]
    exact Finset.sum_congr rfl fun r _ => by rw [iblk1_apply V c ⟨0, h⟩ r j]
  | n + 1, h => by
    show (k1_pay5 (F := Ideal) _ _) (ix2 (0 : Fin 1) j) = _
    rw [pay5_apply, acc1_apply c j n (Nat.lt_of_succ_lt h), Finset.sum_range_succ _ (n + 1)]
    congr 1
    exact Finset.sum_congr rfl fun r _ => by rw [iblk1_apply V c ⟨n + 1, h⟩ r j]

/-- Twenty tiles of 5000 rows are the 100000 rows. -/
theorem sum_rows (f : ℕ → EReal) (g : Fin 100000 → EReal) (hfg : ∀ n : Fin 100000, f n.val = g n) :
    ∑ t ∈ Finset.range 20, ∑ r : Fin 5000, f (t * 5000 + r.val) = ∑ n : Fin 100000, g n := by
  rw [Finset.sum_range]
  refine Eq.trans ?_ (Cert.LibTiles.sum_tiles 20 5000 g)
  exact Finset.sum_congr rfl fun t _ => Finset.sum_congr rfl fun r _ => hfg ⟨t.val * 5000 + r.val, Cert.LibTiles.tile_lt t r⟩

theorem rowAt_val (G : S100000x16.Idx → EReal) (j : Fin 16) (n : Fin 100000) : rowAt G j n.val = G (ix2 n j) := by
  unfold rowAt; rw [dif_pos n.isLt]

theorem sum_rows_sq (G : S100000x16.Idx → EReal) (j : Fin 16) :
    ∑ t ∈ Finset.range 20, ∑ r : Fin 5000, rowAt G j (t * 5000 + r.val) * rowAt G j (t * 5000 + r.val)
      = ∑ n : Fin 100000, G (ix2 n j) * G (ix2 n j) :=
  sum_rows (fun k => rowAt G j k * rowAt G j k) (fun n => G (ix2 n j) * G (ix2 n j))
    (fun n => by show rowAt G j n.val * rowAt G j n.val = _; rw [rowAt_val])

/-- Lane `j` of output array 1 after the region: the sum of column `j` of the array it read. -/
theorem arr1_1 (c : Dev nD) (j : Fin 16) :
    entry (S := S1x16) ((dat1 (F := Ideal) V c).arrAt 1 cfg1.N) (ix2 (0 : Fin 1) j)
      = ∑ n : Fin 100000, entry (S := S100000x16) (V c main_v34) (ix2 n j) := by
  have e := congrFun (final1_1 V c) (ix2 (0 : Fin 1) j)
  exact e.trans ((acc0_apply V c j 19 t19.isLt).trans (sum_rows _ _ fun n => rowAt_val (V c main_v34) j n))

/-- Lane `j` of output array 2 after the region: the sum of the squares of column `j`. -/
theorem arr1_2 (c : Dev nD) (j : Fin 16) :
    entry (S := S1x16) ((dat1 (F := Ideal) V c).arrAt 2 cfg1.N) (ix2 (0 : Fin 1) j)
      = ∑ n : Fin 100000, entry (S := S100000x16) (V c main_v34) (ix2 n j) * entry (S := S100000x16) (V c main_v34) (ix2 n j) := by
  have e := congrFun (final1_2 V c) (ix2 (0 : Fin 1) j)
  exact e.trans ((acc1_apply V c j 19 t19.isLt).trans (sum_rows_sq (V c main_v34) j))

end

end Cert.KernelIdeal.Hand

end
-- ==== Proof.LibGatherScatter.lean ====
/-
  STABLEHLO GATHER / SCATTER INDEX ARITHMETIC for the row-selection dimension numbers: an operand of N rows (of C
  columns, or flat), E start indices held as an [E, 1] array (index vector on axis 1, one component, naming operand
  axis 0), one row per start index.

  * gather of rows: result row e is the operand's row at the start index idx[e, 0] read signed and clamped into
    [0, N - 1] (the slice is one row high), the column kept;
  * scatter of rows: update row e lands on operand row idx[e, 0] read signed and NOT clamped, the column kept; so an
    update that lands on row i0 has start index exactly i0;
  * a word fact: the wrap of a possibly negative index (add the extent when the sign bit is set) leaves a non-negative
    word unchanged.
-/
import Idealize.ShloMosaic.Lib.ValueIdx

namespace Cert.LibGatherScatter

open Idealize.ShloMosaic Idealize.ShloMosaic.ValueIdx

/-- A rank-1 index's coordinate is below the extent, stated with the extent n itself. -/
theorem idx1_lt0 {n : Nat} (j : (⟨1, ![n]⟩ : Shape).Idx) : (j 0).val < n := (j 0).isLt

/-! ## The dimension records -/

/-- Gather of rows of an [N, C] operand at E start indices: offset axis 1 of the result reads the operand's axis 1
    whole (slice [1, C]), operand axis 0 is collapsed and is the one the start index names. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of elements of a flat [N] operand at E start indices. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of E update rows into an [N, C] operand: update axis 1 is the window axis (it goes to operand axis 1),
    operand axis 0 is inserted and is the one the scatter index names. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of E update elements into a flat [N] operand. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Gather -/

/-- THE FLAT GATHER'S OPERAND INDEX at result index e: the start index idx[e, 0], read signed and clamped into
    [0, N - 1]. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    (vecGather N E wf).operandIdx e idx
      = ix1 ⟨min (idx (ix2 ⟨(e 0).val, idx1_lt0 e⟩ (0 : Fin 1))).toInt.toNat (N - 1), by omega⟩ := by
  funext a
  obtain rfl : a = 0 := Subsingleton.elim _ _
  refine Fin.ext ?_
  show (vecGather N E wf).start e idx 0 + (vecGather N E wf).batchCoord e 0 + (vecGather N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx e ⟨List.idxOf (0 : Fin 1) (vecGather N E wf).startIndexMap,
      List.idxOf_lt_length_iff.2 (List.mem_singleton.mpr rfl)⟩ = ix2 ⟨(e 0).val, idx1_lt0 e⟩ (0 : Fin 1) := by
    funext b; refine Fin.ext ?_
    match b with
    | ⟨0, _⟩ => rfl
    | ⟨1, _⟩ => rfl
  rw [hsi]
  rfl

/-- THE ROW GATHER'S OPERAND INDEX at result index (e, c): row the start index idx[e, 0], read signed and clamped into
    [0, N - 1] (the slice is one row high), column c. -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    (rowGather N E C wf).operandIdx y idx
      = ix2 ⟨min (idx (ix2 ⟨(y 0).val, idx2_lt0 y⟩ (0 : Fin 1))).toInt.toNat (N - 1), by omega⟩
          ⟨(y 1).val, idx2_lt1 y⟩ := by
  funext a
  refine Fin.ext ?_
  match a with
  | ⟨0, _⟩ =>
    show (rowGather N E C wf).start y idx 0 + (rowGather N E C wf).batchCoord y 0 + (rowGather N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx y ⟨List.idxOf (0 : Fin 2) (rowGather N E C wf).startIndexMap,
        List.idxOf_lt_length_iff.2 (List.mem_singleton.mpr rfl)⟩ = ix2 ⟨(y 0).val, idx2_lt0 y⟩ (0 : Fin 1) := by
      funext b; refine Fin.ext ?_
      match b with
      | ⟨0, _⟩ => rfl
      | ⟨1, _⟩ => rfl
    rw [hsi]
    rfl
  | ⟨1, _⟩ =>
    show (rowGather N E C wf).start y idx 1 + (rowGather N E C wf).batchCoord y 1 + (rowGather N E C wf).offCoord y 1 = _
    rw [GatherDims.batchCoord_eq_zero _ _ _ List.not_mem_nil]
    have hst : (rowGather N E C wf).start y idx 1 = 0 := by
      unfold GatherDims.start
      rw [dif_neg (fun h : (1 : Fin 2) ∈ (rowGather N E C wf).startIndexMap =>
        absurd (List.mem_singleton.mp h) (show ¬ (1 : Fin 2) = 0 by decide))]
    rw [hst]
    simp only [Nat.add_zero, Nat.zero_add]
    rfl

/-! ## Scatter -/

/-- WHERE A ROW SCATTER'S UPDATE LANDS: update (e, c) lands on operand element i exactly when the start index
    idx[e, 0], read signed and not clamped, is i's row, and c is i's column (the window coordinate on the inserted
    axis 0 is 0, on axis 1 it is c). -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx) :
    (rowScatter N E C wf).resultIdx? y idx = some i ↔
      (idx (ix2 ⟨(y 0).val, idx2_lt0 y⟩ (0 : Fin 1))).toInt = ((i 0).val : ℤ) ∧ (y 1).val = (i 1).val := by
  have hsi : (rowScatter N E C wf).siIdx y ⟨List.idxOf (0 : Fin 2) (rowScatter N E C wf).scatterDimsToOperandDims,
      List.idxOf_lt_length_iff.2 (List.mem_singleton.mpr rfl)⟩ = ix2 ⟨(y 0).val, idx2_lt0 y⟩ (0 : Fin 1) := by
    funext b; refine Fin.ext ?_
    match b with
    | ⟨0, _⟩ => rfl
    | ⟨1, _⟩ => rfl
  have hs0 : (rowScatter N E C wf).start y idx 0 = (idx (ix2 ⟨(y 0).val, idx2_lt0 y⟩ (0 : Fin 1))).toInt := by
    unfold ScatterDims.start
    rw [dif_pos (show (0 : Fin 2) ∈ (rowScatter N E C wf).scatterDimsToOperandDims from List.mem_singleton.mpr rfl), hsi]
  have hs1 : (rowScatter N E C wf).start y idx 1 = 0 := by
    unfold ScatterDims.start
    rw [dif_neg (fun h : (1 : Fin 2) ∈ (rowScatter N E C wf).scatterDimsToOperandDims =>
      absurd (List.mem_singleton.mp h) (show ¬ (1 : Fin 2) = 0 by decide))]
  have hw0 : (rowScatter N E C wf).window y 0 = 0 := by
    unfold ScatterDims.window
    rw [dif_neg (show (0 : Fin 2) ∉ (rowScatter N E C wf).sKept by
      simp [ScatterDims.sKept, Shape.kept, List.mem_filter])]
  have hw1 : (rowScatter N E C wf).window y 1 = (y 1).val := by
    unfold ScatterDims.window
    rw [dif_pos (show (1 : Fin 2) ∈ (rowScatter N E C wf).sKept by
      simp [ScatterDims.sKept, Shape.kept, List.mem_filter, List.mem_finRange])]
    rfl
  have hi0 := idx2_lt0 i
  have hi1 := idx2_lt1 i
  have hy1 := idx2_lt1 y
  unfold ScatterDims.resultIdx?
  constructor
  · intro h
    split at h
    · rename_i hall
      have hi := Option.some.inj h
      have e0 : (i 0).val = ((rowScatter N E C wf).start y idx 0 + ((rowScatter N E C wf).window y 0 : ℕ)).toNat := by
        rw [← hi]
      have e1 : (i 1).val = ((rowScatter N E C wf).start y idx 1 + ((rowScatter N E C wf).window y 1 : ℕ)).toNat := by
        rw [← hi]
      have h0 := (hall 0).1
      rw [hs0, hw0] at e0 h0
      rw [hs1, hw1] at e1
      constructor <;> omega
    · cases h
  · rintro ⟨h0, h1⟩
    have hall : ∀ a, 0 ≤ (rowScatter N E C wf).start y idx a + ((rowScatter N E C wf).window y a : ℕ) ∧
        (rowScatter N E C wf).start y idx a + ((rowScatter N E C wf).window y a : ℕ)
          < ((⟨2, ![N, C]⟩ : Shape).size a : ℕ) := by
      intro a
      match a with
      | ⟨0, _⟩ =>
        show 0 ≤ (rowScatter N E C wf).start y idx 0 + ((rowScatter N E C wf).window y 0 : ℕ) ∧
          (rowScatter N E C wf).start y idx 0 + ((rowScatter N E C wf).window y 0 : ℕ) < (N : ℤ)
        rw [hs0, hw0]; omega
      | ⟨1, _⟩ =>
        show 0 ≤ (rowScatter N E C wf).start y idx 1 + ((rowScatter N E C wf).window y 1 : ℕ) ∧
          (rowScatter N E C wf).start y idx 1 + ((rowScatter N E C wf).window y 1 : ℕ) < (C : ℤ)
        rw [hs1, hw1]; omega
    rw [dif_pos hall]
    congr 1
    funext a
    refine Fin.ext ?_
    match a with
    | ⟨0, _⟩ =>
      show ((rowScatter N E C wf).start y idx 0 + ((rowScatter N E C wf).window y 0 : ℕ)).toNat = (i 0).val
      rw [hs0, hw0]; omega
    | ⟨1, _⟩ =>
      show ((rowScatter N E C wf).start y idx 1 + ((rowScatter N E C wf).window y 1 : ℕ)).toNat = (i 1).val
      rw [hs1, hw1]; omega

/-- An update of a row scatter that lands on row i0 has start index exactly i0 (read signed, not clamped). -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx)
    (h : (rowScatter N E C wf).resultIdx? y idx = some i) :
    (idx (ix2 ⟨(y 0).val, idx2_lt0 y⟩ (0 : Fin 1))).toInt = ((i 0).val : ℤ) :=
  ((rowScatter_resultIdx_iff wf idx y i).mp h).1

/-- ... and keeps its column. -/
theorem rowScatter_lands_col {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx)
    (h : (rowScatter N E C wf).resultIdx? y idx = some i) : (y 1).val = (i 1).val :=
  ((rowScatter_resultIdx_iff wf idx y i).mp h).2

/-- WHERE A FLAT SCATTER'S UPDATE LANDS: update e lands on operand element i exactly when the start index idx[e, 0],
    read signed and not clamped, is i (there is no window axis; the window coordinate on the inserted axis 0 is 0). -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : (⟨1, ![E]⟩ : Shape).Idx) (i : (⟨1, ![N]⟩ : Shape).Idx) :
    (vecScatter N E wf).resultIdx? e idx = some i ↔
      (idx (ix2 ⟨(e 0).val, idx1_lt0 e⟩ (0 : Fin 1))).toInt = ((i 0).val : ℤ) := by
  have hsi : (vecScatter N E wf).siIdx e ⟨List.idxOf (0 : Fin 1) (vecScatter N E wf).scatterDimsToOperandDims,
      List.idxOf_lt_length_iff.2 (List.mem_singleton.mpr rfl)⟩ = ix2 ⟨(e 0).val, idx1_lt0 e⟩ (0 : Fin 1) := by
    funext b; refine Fin.ext ?_
    match b with
    | ⟨0, _⟩ => rfl
    | ⟨1, _⟩ => rfl
  have hs0 : (vecScatter N E wf).start e idx 0 = (idx (ix2 ⟨(e 0).val, idx1_lt0 e⟩ (0 : Fin 1))).toInt := by
    unfold ScatterDims.start
    rw [dif_pos (show (0 : Fin 1) ∈ (vecScatter N E wf).scatterDimsToOperandDims from List.mem_singleton.mpr rfl), hsi]
  have hw0 : (vecScatter N E wf).window e 0 = 0 := by
    unfold ScatterDims.window
    rw [dif_neg (show (0 : Fin 1) ∉ (vecScatter N E wf).sKept by
      simp [ScatterDims.sKept, Shape.kept, List.mem_filter])]
  have hi0 := idx1_lt0 i
  unfold ScatterDims.resultIdx?
  constructor
  · intro h
    split at h
    · rename_i hall
      have hi := Option.some.inj h
      have e0 : (i 0).val = ((vecScatter N E wf).start e idx 0 + ((vecScatter N E wf).window e 0 : ℕ)).toNat := by
        rw [← hi]
      have h0 := (hall 0).1
      rw [hs0, hw0] at e0 h0
      omega
    · cases h
  · intro h0
    have hall : ∀ a, 0 ≤ (vecScatter N E wf).start e idx a + ((vecScatter N E wf).window e a : ℕ) ∧
        (vecScatter N E wf).start e idx a + ((vecScatter N E wf).window e a : ℕ)
          < ((⟨1, ![N]⟩ : Shape).size a : ℕ) := by
      intro a
      obtain rfl : a = 0 := Subsingleton.elim _ _
      show 0 ≤ (vecScatter N E wf).start e idx 0 + ((vecScatter N E wf).window e 0 : ℕ) ∧
        (vecScatter N E wf).start e idx 0 + ((vecScatter N E wf).window e 0 : ℕ) < (N : ℤ)
      rw [hs0, hw0]; omega
    rw [dif_pos hall]
    congr 1
    funext a
    obtain rfl : a = 0 := Subsingleton.elim _ _
    refine Fin.ext ?_
    show ((vecScatter N E wf).start e idx 0 + ((vecScatter N E wf).window e 0 : ℕ)).toNat = (i 0).val
    rw [hs0, hw0]; omega

/-- An update of a flat scatter that lands on element i has start index exactly i (read signed, not clamped). -/
theorem vecScatter_lands {N E w : Nat}
    (wf : ScatterDims.WF ⟨1, ![N]⟩ ⟨2, ![E, 1]⟩ ⟨1, ![E]⟩ [] [0] [0] 1)
    (idx : IVec ⟨2, ![E, 1]⟩ w) (e : (⟨1, ![E]⟩ : Shape).Idx) (i : (⟨1, ![N]⟩ : Shape).Idx)
    (h : (vecScatter N E wf).resultIdx? e idx = some i) :
    (idx (ix2 ⟨(e 0).val, idx1_lt0 e⟩ (0 : Fin 1))).toInt = ((i 0).val : ℤ) :=
  (vecScatter_resultIdx_iff wf idx e i).mp h

/-! ## Words: the wrap of a possibly negative index -/

/-- A signed compare of a non-negative word with zero answers "not below". -/
theorem cmpi_slt_zero_of_nonneg {w : Nat} (v : BitVec w) (hv : 0 ≤ v.toInt) : IntOp.cmpi .slt v 0#w = 0#1 := by
  have h : v.slt 0#w = false := by
    simp only [BitVec.slt, BitVec.toInt_zero, decide_eq_false_iff_not, not_lt]; exact hv
  simp only [IntOp.cmpi, h]; rfl

/-- The wrap "add k when below zero" leaves a non-negative word unchanged. -/
theorem select_wrap_of_nonneg (v k : BitVec 32) (hv : 0 ≤ v.toInt) :
    Scalar.select (IntOp.cmpi .slt v 0#32) (IntOp.addi v k) v = v := by
  rw [cmpi_slt_zero_of_nonneg v hv]; exact select_zero _ _

/-- A signed compare of a negative word with zero answers "below". -/
theorem cmpi_slt_zero_of_neg {w : Nat} (v : BitVec w) (hv : v.toInt < 0) : IntOp.cmpi .slt v 0#w = 1#1 := by
  have h : v.slt 0#w = true := by
    simp only [BitVec.slt, BitVec.toInt_zero, decide_eq_true_eq]; exact hv
  simp only [IntOp.cmpi, h]; rfl

/-- The wrap "add k when below zero" adds k to a negative word. -/
theorem select_wrap_of_neg (v k : BitVec 32) (hv : v.toInt < 0) :
    Scalar.select (IntOp.cmpi .slt v 0#32) (IntOp.addi v k) v = v + k := by
  rw [cmpi_slt_zero_of_neg v hv]; exact select_one _ _

/-- A non-negative signed reading below the extent is its own clamp into [0, N - 1]. -/
theorem clamp_of_lt {N : Nat} (z : ℤ) (i : Nat) (hz : z = (i : ℤ)) (hi : i < N) : min z.toNat (N - 1) = i := by
  subst hz; simp only [Int.toNat_natCast]; omega

end Cert.LibGatherScatter
-- ==== Proof.Spec.lean ====
/-
  THE TWO RESULTS AS FUNCTIONS OF THE ARGUMENT ARRAYS, stage by stage, over the extended reals.

  A two-layer graph convolution on 100000 nodes: a dense layer, an aggregation over 3300000 edges (the given ones
  and one self loop per node), a batch normalisation over the nodes followed by max(., 0), a second dense layer, a
  second aggregation, and a row-wise log-softmax. The edges enter through three columns of 32-bit start indices — sw
  (the row each edge gathers from), dcol (the row its update is added into, read signed and NOT clamped: an update
  whose index is outside [0, 100000) is dropped) and dwcol (dcol after the wrap of negative indices, the column a
  gather by destination reads) — and through dv, the per-node factor 1/sqrt(degree).

  The two programs differ in two places only.
  * THE AGGREGATION. One scales each row by dv BEFORE the gather and the accumulated row by dv AFTER the
    scatter-add (aggK); the other scales every gathered row by the product of dv at the source and dv at the wrapped
    destination (aggR).
  * THE VARIANCE of a column a over the nodes. One takes the mean of the squares minus the square of the mean,
    clamped below at zero (varK); the other the mean of the squared deviations from the mean (varR).
  Everything else is the same expression on both sides: lin1, lin2, mean, the normalisation bn over a variance, lsm.
-/
import proofs.«179341_j31447750542019_2_alg».proof.Proof.LibGatherScatter
import Idealize.ShloMosaic.PureOps.Ideal
import Idealize.ShloMosaic.Lib.IdealHost
import Idealize.ShloMosaic.Lib.ValueIdx

open scoped BigOperators

noncomputable section

namespace Cert.Spec

open Idealize.ShloMosaic Idealize.ShloMosaic.ValueIdx Cert.LibGatherScatter

/-- A column of 3300000 start indices, 32-bit words. -/
abbrev ICol : Type := IVec (⟨2, ![3300000, 1]⟩ : Shape) 32
/-- An [a, b] array of extended reals, by row and column. -/
abbrev M (a b : Nat) : Type := Fin a → Fin b → EReal
/-- The same array over the shape's index type. -/
def unc {a b : Nat} (H : M a b) : (⟨2, ![a, b]⟩ : Shape).Idx → EReal :=
  fun i => H ⟨(i 0).val, idx2_lt0 i⟩ ⟨(i 1).val, idx2_lt1 i⟩
/-- A vector over the shape's index type. -/
def unv {a : Nat} (v : Fin a → EReal) : (⟨1, ![a]⟩ : Shape).Idx → EReal :=
  fun i => v ⟨(i 0).val, idx1_lt0 i⟩

/-- The float words of 100000 and of the normalisation's epsilon (the f32 nearest 1e-5), as the programs spell them. -/
def cN : EReal := Ideal.ofBits .f32 0x47C35000#32
def cEps : EReal := Ideal.ofBits .f32 0x3727C5AC#32

/-- The first dense layer: x W1, entry (n, j) the sum over the 128 input features. -/
def lin1 (x : M 100000 128) (W : M 128 16) : M 100000 16 := fun n j => ∑ k : Fin 128, x n k * W k j
/-- The second dense layer: y W2, entry (n, c) the sum over the 16 hidden features. -/
def lin2 (y : M 100000 16) (W : M 16 8) : M 100000 8 := fun n c => ∑ j : Fin 16, y n j * W j c

section Agg
variable {C : Nat}
variable (wfg : GatherDims.WF ⟨2, ![100000, C]⟩ ⟨2, ![3300000, 1]⟩ ⟨2, ![3300000, C]⟩ [1] [0] [] [0] [] 1 ![1, C])
variable (wfv : GatherDims.WF ⟨1, ![100000]⟩ ⟨2, ![3300000, 1]⟩ ⟨1, ![3300000]⟩ [] [0] [] [0] [] 1 ![1])
variable (wfs : ScatterDims.WF ⟨2, ![100000, C]⟩ ⟨2, ![3300000, 1]⟩ ⟨2, ![3300000, C]⟩ [1] [0] [0] 1)

/-- Aggregation, scaling rows before the gather and after the scatter-add: row n of the result is dv n times the sum,
    over the edges whose update lands on n, of row (source of the edge) of H scaled by dv there; plus the bias. -/
def aggK (dv : Fin 100000 → EReal) (sw dcol : ICol) (H : M 100000 C) (b : Fin C → EReal) : M 100000 C := fun n c =>
  Ideal.hostScatterAdd (rowScatter 100000 3300000 C wfs) (fun _ => 0) dcol
      (Host.gather (rowGather 100000 3300000 C wfg)
        (fun j => unc H j * unv dv (ix1 ⟨(j 0).val, idx2_lt0 j⟩)) sw) (ix2 n c)
    * dv n + b c

/-- Aggregation, scaling each gathered row by the two factors: dv gathered at the edge's source and dv gathered at
    its wrapped destination; plus the bias. -/
def aggR (dv : Fin 100000 → EReal) (sw dcol dwcol : ICol) (H : M 100000 C) (b : Fin C → EReal) : M 100000 C := fun n c =>
  Ideal.hostScatterAdd (rowScatter 100000 3300000 C wfs) (fun _ => 0) dcol
      (fun y => Host.gather (rowGather 100000 3300000 C wfg) (unc H) sw y
        * (Host.gather (vecGather 100000 3300000 wfv) (unv dv) sw (ix1 ⟨(y 0).val, idx2_lt0 y⟩)
          * Host.gather (vecGather 100000 3300000 wfv) (unv dv) dwcol (ix1 ⟨(y 0).val, idx2_lt0 y⟩))) (ix2 n c)
    + b c
end Agg

/-- The mean of column j over the nodes. -/
def mean (a : M 100000 16) (j : Fin 16) : EReal := Ideal.div (∑ n : Fin 100000, a n j) cN
/-- The variance as mean of squares minus squared mean, clamped below at zero. -/
def varK (a : M 100000 16) (j : Fin 16) : EReal :=
  max (Ideal.div (∑ n : Fin 100000, a n j * a n j) cN - mean a j * mean a j) 0
/-- The variance as the mean of the squared deviations. -/
def varR (a : M 100000 16) (j : Fin 16) : EReal :=
  Ideal.div (∑ n : Fin 100000, (a n j - mean a j) * (a n j - mean a j)) cN
/-- Normalise by a variance, scale, shift, clamp below at zero. -/
def bn (var : Fin 16 → EReal) (a : M 100000 16) (γ β : Fin 16 → EReal) : M 100000 16 := fun n j =>
  max ((a n j - mean a j) * Ideal.rsqrt (var j + cEps) * γ j + β j) 0

/-- The largest entry of row n (the fold of max from the bottom element). -/
def rowMax (h : M 100000 8) (n : Fin 100000) : EReal := (Finset.univ : Finset (Fin 8)).fold max ⊥ (fun c => h n c)
/-- Row-wise log-softmax: the entry less the row's maximum, less the log of the row's sum of exponentials of those. -/
def lsm (h : M 100000 8) : M 100000 8 := fun n c =>
  (h n c - rowMax h n) - Ideal.log (∑ c' : Fin 8, Ideal.exp (h n c' - rowMax h n))

section Out
variable (wfg16 : GatherDims.WF ⟨2, ![100000, 16]⟩ ⟨2, ![3300000, 1]⟩ ⟨2, ![3300000, 16]⟩ [1] [0] [] [0] [] 1 ![1, 16])
variable (wfs16 : ScatterDims.WF ⟨2, ![100000, 16]⟩ ⟨2, ![3300000, 1]⟩ ⟨2, ![3300000, 16]⟩ [1] [0] [0] 1)
variable (wfg8 : GatherDims.WF ⟨2, ![100000, 8]⟩ ⟨2, ![3300000, 1]⟩ ⟨2, ![3300000, 8]⟩ [1] [0] [] [0] [] 1 ![1, 8])
variable (wfs8 : ScatterDims.WF ⟨2, ![100000, 8]⟩ ⟨2, ![3300000, 1]⟩ ⟨2, ![3300000, 8]⟩ [1] [0] [0] 1)
variable (wfv : GatherDims.WF ⟨1, ![100000]⟩ ⟨2, ![3300000, 1]⟩ ⟨1, ![3300000]⟩ [] [0] [] [0] [] 1 ![1])

/-- The first aggregated layer, in each form. -/
def h1K (dv : Fin 100000 → EReal) (sw dcol : ICol) (x : M 100000 128) (W1 : M 128 16) (b1 : Fin 16 → EReal) : M 100000 16 :=
  aggK wfg16 wfs16 dv sw dcol (lin1 x W1) b1
def h1R (dv : Fin 100000 → EReal) (sw dcol dwcol : ICol) (x : M 100000 128) (W1 : M 128 16) (b1 : Fin 16 → EReal) : M 100000 16 :=
  aggR wfg16 wfv wfs16 dv sw dcol dwcol (lin1 x W1) b1

/-- The result in the form that scales rows around the aggregation and takes the one-pass variance. -/
def outK (dv : Fin 100000 → EReal) (sw dcol : ICol) (x : M 100000 128) (W1 : M 128 16) (b1 γ β : Fin 16 → EReal)
    (W2 : M 16 8) (b2 : Fin 8 → EReal) : M 100000 8 :=
  lsm (aggK wfg8 wfs8 dv sw dcol
    (lin2 (bn (varK (h1K wfg16 wfs16 dv sw dcol x W1 b1)) (h1K wfg16 wfs16 dv sw dcol x W1 b1) γ β) W2) b2)

/-- The result in the form that scales each edge by both factors and takes the two-pass variance. -/
def outR (dv : Fin 100000 → EReal) (sw dcol dwcol : ICol) (x : M 100000 128) (W1 : M 128 16) (b1 γ β : Fin 16 → EReal)
    (W2 : M 16 8) (b2 : Fin 8 → EReal) : M 100000 8 :=
  lsm (aggR wfg8 wfv wfs8 dv sw dcol dwcol
    (lin2 (bn (varR (h1R wfg16 wfs16 wfv dv sw dcol dwcol x W1 b1)) (h1R wfg16 wfs16 wfv dv sw dcol dwcol x W1 b1) γ β) W2) b2)
end Out

end Cert.Spec

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.KI.Val0.lean ====
/-
  THE FIRST DENSE LAYER'S OUTPUT ARRAY, index by index, over the extended reals.

  Each of the 20 grid points loads 5000 rows of the [100000, 128] input and the whole [128, 16] weight, and stores,
  whole, the product of the two into a zero accumulator (the narrowing of the operands to 16-bit floats is the identity
  on extended reals). Read at an entry (p, j) of a block: the sum over the 128 contracted positions k of the row's
  entry k times the weight's entry (k, j). The blocks tile the array (block t is rows 5000 t .. 5000 t + 4999, the
  weight's one block is the whole weight), so the array after the region is the product of the two arrays the region
  found, entry by entry.
-/
import proofs.«179341_j31447750542019_2_alg».proof.Proof.KI.Region0
import proofs.«179341_j31447750542019_2_alg».proof.Proof.Spec
import proofs.«179341_j31447750542019_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's value at an entry -/

/-- The body's value at entry (p, j) of the block x against the weight W: the sum over the 128 contracted positions. -/
theorem k0_pay1_apply (x : Vec Ideal S5000x128 .f32) (W : Vec Ideal S128x16 .f32) (p : Fin 5000) (j : Fin 16) :
    k0_pay1 (F := Ideal) x W (ix2 p j) = ∑ k : Fin 128, x (ix2 p k) * W (ix2 k j) := by
  unfold k0_pay1
  exact Cert.LibDense.matmul_zero_plain dot_S5000x128_S128x16_S5000x16_1_0_0_1_n_n none rfl rfl
    (fun _ _ => rfl)
    (fun j q => dot_S5000x128_S128x16_S5000x16_1_0_0_1_n_n.lhsIdx_val_of_single (cl := 1) rfl j q)
    (fun j q => dot_S5000x128_S128x16_S5000x16_1_0_0_1_n_n.rhsIdx_val_of_single (cr := 0) rfl j q)
    (fun _ _ => rfl)
    (truncf .bf16 x bitsLt_bf16_f32) (truncf .bf16 W bitsLt_bf16_f32) p j

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: at point t the input and the output are at block (t, 0), the weight
    at its one block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 5000 t .. 5000 t + 4999 of the input array. -/
theorem iblk0_0_apply (c : Dev nD) (t : Fin cfg0.N) (p : Fin 5000) (k : Fin 128) (n : Fin 100000)
    (hn : n.val = t.val * 5000 + p.val) :
    (iblk0 V c 0 t : Vec Ideal S5000x128 .f32) (ix2 p k) = (V c main_arg0 : S100000x128.Idx → EReal) (ix2 n k) := by
  obtain ⟨e0, e1, -, -, -, -⟩ := idx_facts0 t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 5000 + 1 * p.val = n.val; omega
  | ⟨1, _⟩ => show win0_0.index t (1 : Fin 2) * 128 + 1 * k.val = k.val; omega

/-- The weight's block at every point is the whole weight. -/
theorem iblk0_1_apply (c : Dev nD) (t : Fin cfg0.N) (k : Fin 128) (j : Fin 16) :
    (iblk0 V c 1 t : Vec Ideal S128x16 .f32) (ix2 k j) = (V c main_arg1 : S128x16.Idx → EReal) (ix2 k j) := by
  obtain ⟨-, -, e2, e3, -, -⟩ := idx_facts0 t
  unfold iblk0
  rw [View.read_apply]
  show (V c main_arg1 : S128x16.Idx → EReal) _ = (V c main_arg1 : S128x16.Idx → EReal) _
  congr 1
  funext a
  apply Fin.ext
  match a with
  | ⟨0, _⟩ => show win0_1.index t (0 : Fin 2) * 128 + 1 * k.val = k.val; omega
  | ⟨1, _⟩ => show win0_1.index t (1 : Fin 2) * 16 + 1 * j.val = j.val; omega

/-- What the output array ends holding: the product of the input array and the weight as the region found them. -/
def G0 (x : S100000x128.Idx → EReal) (W : S128x16.Idx → EReal) : S100000x16.Idx → EReal :=
  Cert.Spec.unc (Cert.Spec.lin1 (fun n k => x (ix2 n k)) (fun k j => W (ix2 k j)))

/-- What point t writes back is block t of G0 of the input array and the weight. -/
theorem flushed0_eq (c : Dev nD) (t : Fin cfg0.N) :
    (dat0 (F := Ideal) V c).flushed 2 t
      = ((cfg0.win 2).blk t).view.read (Elt Ideal) (G0 (V c main_arg0) (V c main_arg1)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x16) hz0]
  obtain ⟨-, -, -, -, e4, e5⟩ := idx_facts0 t
  have ht : t.val < 20 := lt_of_lt_of_eq t.isLt N_0
  funext y
  obtain ⟨p, j, rfl⟩ : ∃ (p : Fin 5000) (j : Fin 16), y = ix2 p j := ⟨y 0, y 1, eq_ix2 y⟩
  show k0_pay1 (F := Ideal) (iblk0 V c 0 t) (iblk0 V c 1 t) (ix2 p j)
    = G0 (V c main_arg0) (V c main_arg1) (((cfg0.win 2).blk t).view.emb (ix2 p j))
  have hn : t.val * 5000 + p.val < 100000 := by have := p.isLt; omega
  have hemb : ((cfg0.win 2).blk t).view.emb (ix2 p j)
      = (ix2 (⟨t.val * 5000 + p.val, hn⟩ : Fin 100000) j : S100000x16.Idx) := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * j.val = j.val; omega
  refine Eq.trans ?_ (congrArg (G0 (V c main_arg0) (V c main_arg1)) hemb).symm
  refine (k0_pay1_apply _ _ p j).trans ?_
  show _ = Cert.Spec.lin1 (fun n k => (V c main_arg0 : S100000x128.Idx → EReal) (ix2 n k))
    (fun k j => (V c main_arg1 : S128x16.Idx → EReal) (ix2 k j)) ⟨t.val * 5000 + p.val, hn⟩ j
  unfold Cert.Spec.lin1
  refine Finset.sum_congr rfl fun k _ => ?_
  rw [iblk0_0_apply V c t p k ⟨t.val * 5000 + p.val, hn⟩ rfl, iblk0_1_apply V c t k j]

/-- Every entry of the array is in the block of the point its row falls in. -/
theorem cover0 (i : S100000x16.Idx) :
    ∃ t : Fin cfg0.N, (cfg0.win 2).flush t = true ∧ i ∈ ((cfg0.win 2).blk t).view.set := by
  have hi0 : (i 0).val < 100000 := idx2_lt0 i
  have hi1 : (i 1).val < 16 := idx2_lt1 i
  have hN : cfg0.N = 20 := N_0
  have htl : (i 0).val / 5000 < cfg0.N := by rw [hN]; omega
  refine ⟨⟨(i 0).val / 5000, htl⟩, flush0_2 _, ?_⟩
  obtain ⟨-, -, -, -, e4, e5⟩ := idx_facts0 ⟨(i 0).val / 5000, htl⟩
  have e4' : win0_2.index ⟨(i 0).val / 5000, htl⟩ (0 : Fin 2) = (i 0).val / 5000 := e4
  show i ∈ ((View.whole main_v15).slice (win0_2.rect ⟨(i 0).val / 5000, htl⟩)).set
  rw [View.set_slice_whole, Rect.mem_set_unit]
  intro a
  match a with
  | ⟨0, _⟩ =>
    show win0_2.index ⟨(i 0).val / 5000, htl⟩ (0 : Fin 2) * 5000 ≤ (i 0).val
      ∧ (i 0).val < win0_2.index ⟨(i 0).val / 5000, htl⟩ (0 : Fin 2) * 5000 + 5000
    omega
  | ⟨1, _⟩ =>
    show win0_2.index ⟨(i 0).val / 5000, htl⟩ (1 : Fin 2) * 16 ≤ (i 1).val
      ∧ (i 1).val < win0_2.index ⟨(i 0).val / 5000, htl⟩ (1 : Fin 2) * 16 + 16
    omega

/-- The output array after the region: the product of the input array and the weight as the region found them. -/
theorem final0 (c : Dev nD) :
    (dat0 (F := Ideal) V c).arrAt 2 cfg0.N = G0 (V c main_arg0) (V c main_arg1) :=
  (dat0 (F := Ideal) V c).arrAt_eq_of_cover 2 (G0 (V c main_arg0) (V c main_arg1)) (fun t _ => flushed0_eq V c t) cover0

/-- The output array after the region, entry by entry. -/
theorem arr0 (c : Dev nD) (n : Fin 100000) (j : Fin 16) :
    (dat0 (F := Ideal) V c).arrAt 2 cfg0.N (ix2 n j)
      = Cert.Spec.lin1 (fun n k => (V c main_arg0 : S100000x128.Idx → EReal) (ix2 n k))
          (fun k j => (V c main_arg1 : S128x16.Idx → EReal) (ix2 k j)) n j :=
  congrFun (final0 V c) (ix2 n j)

end Cert.KernelIdeal.Hand

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.Val3.lean ====
/-
  THE LOG-SOFTMAX REGION'S OUTPUT ARRAY, index by index, over the extended reals.

  Each of the 20 grid points loads 5000 rows of the [100000, 8] input and stores, whole, the rows' log-softmax: the
  entry less the row's maximum, less the logarithm of the row's sum of exponentials of those differences. Read at an
  entry (p, q) of a block: the row maximum is the fold of max from the bottom element over the 8 lanes, the row sum the
  sum over the 8 lanes; the column cast [5000] -> [5000, 1] and the broadcast [5000, 1] -> [5000, 8] read row p. The
  blocks tile the array (block t is rows 5000 t .. 5000 t + 4999), so the array after the region is the row-wise
  log-softmax of the array the region found in its input.
-/
import proofs.«179341_j31447750542019_2_alg».proof.Proof.KI.Region3
import proofs.«179341_j31447750542019_2_alg».proof.Proof.Spec
import proofs.«179341_j31447750542019_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's value at an entry -/

/-- The word 0xFF800000 is the bottom element. -/
theorem ofBits_negInf_f32 : FloatOps.ofBits (F := Ideal) .f32 0xFF800000#32 = (⊥ : EReal) := by
  show Ideal.ofBits .f32 0xFF800000#32 = ⊥
  simp [Ideal.ofBits, Ideal.ieee]

/-- The row maximum of a block at row p: the fold of max from the bottom element over the 8 lanes. -/
theorem rowmax3_apply (x : FVec Ideal S5000x8 .f32) (hacc : (0xFF800000#32 : BitVec 32) = 0xFF800000#32) (p : Fin 5000) :
    multiReduction (F := Ideal) .maximumf [1] S5000 x 0xFF800000#32 reduces_S5000x8_S5000 (.inl rfl) hacc (ix1 p)
      = (Finset.univ : Finset (Fin 8)).fold max ⊥ (fun c => x (ix2 p c)) := by
  refine (Ideal.multiReduction_maximumf_single x 0xFF800000#32 reduces_S5000x8_S5000 (.inl rfl) hacc (ix1 p)).trans ?_
  rw [ofBits_negInf_f32]
  refine congrArg (fun f => Finset.fold max (⊥ : EReal) f (Finset.univ : Finset (Fin 8))) (funext fun c => ?_)
  show x (reduces_S5000x8_S5000.lift (ix1 p) c) = x (ix2 p c)
  refine congrArg x (funext fun a => ?_)
  match a with
  | ⟨0, _⟩ => rfl
  | ⟨1, _⟩ => rfl

/-- The row sum of a block at row p: the sum over the 8 lanes. -/
theorem rowsum3_apply (x : FVec Ideal S5000x8 .f32) (hacc : (0x00000000#32 : BitVec 32) = 0x00000000#32) (p : Fin 5000) :
    multiReduction (F := Ideal) .add [1] S5000 x 0x00000000#32 reduces_S5000x8_S5000 (.inl rfl) hacc (ix1 p)
      = ∑ c : Fin 8, x (ix2 p c) := by
  refine (Ideal.multiReduction_add_single x 0x00000000#32 reduces_S5000x8_S5000 (.inl rfl) hacc (ix1 p)).trans ?_
  refine Finset.sum_congr rfl fun c _ => ?_
  refine congrArg x (funext fun a => ?_)
  match a with
  | ⟨0, _⟩ => rfl
  | ⟨1, _⟩ => rfl

/-- A vector of 5000 row statistics cast to a column reads, at (p, u), entry p. -/
theorem col3_apply (v : FVec Ideal S5000 .f32) (p : Fin 5000) (u : Fin 1) :
    shapeCast S5000x1 v shapeCasts_S5000_S5000x1 (ix2 p u) = v (ix1 p) :=
  Cert.LibKeepdims.shapeCast_a_a1_apply v shapeCasts_S5000_S5000x1 p u

/-- A column broadcast along the 8 lanes reads, at (p, q), the column's entry of row p. -/
theorem bcast3_apply (w : FVec Ideal S5000x1 .f32) (p : Fin 5000) (q : Fin 8) :
    broadcastTo S5000x8 w broadcasts_S5000x1_S5000x8 (ix2 p q) = w (ix2 p (0 : Fin 1)) :=
  Cert.LibKeepdims.broadcastTo_a1_ab_apply w broadcasts_S5000x1_S5000x8 p q

/-- The body's last three steps at entry (p, q), for a subtrahend B constant (= m) along row p: the entry less m, less
    the logarithm of the row's sum of exponentials of the entries less m. -/
theorem lsm3_of_rowconst (x B : FVec Ideal S5000x8 .f32) (hacc : (0x00000000#32 : BitVec 32) = 0x00000000#32)
    (m : EReal) (p : Fin 5000) (hB : ∀ q' : Fin 8, B (ix2 p q') = m) (q : Fin 8) :
    subf (subf x B) (broadcastTo S5000x8 (log (shapeCast S5000x1
        (multiReduction (F := Ideal) .add [1] S5000 (exp (subf x B)) 0x00000000#32 reduces_S5000x8_S5000 (.inl rfl) hacc)
        shapeCasts_S5000_S5000x1)) broadcasts_S5000x1_S5000x8) (ix2 p q)
      = (x (ix2 p q) - m) - Ideal.log (∑ c' : Fin 8, Ideal.exp (x (ix2 p c') - m)) := by
  show (x (ix2 p q) - B (ix2 p q)) - broadcastTo S5000x8 (log _) broadcasts_S5000x1_S5000x8 (ix2 p q) = _
  rw [hB q]
  refine congrArg (fun z => (x (ix2 p q) - m) - z) ?_
  refine (bcast3_apply _ p q).trans ?_
  show Ideal.log (shapeCast S5000x1 _ shapeCasts_S5000_S5000x1 (ix2 p (0 : Fin 1))) = _
  refine congrArg Ideal.log ?_
  refine (col3_apply _ p 0).trans ?_
  refine (rowsum3_apply _ hacc p).trans ?_
  refine Finset.sum_congr rfl fun c' _ => ?_
  show Ideal.exp (x (ix2 p c') - B (ix2 p c')) = _
  rw [hB c']

/-- The body's value at entry (p, q) of a block x: the row-wise log-softmax of x. -/
theorem k3_pay1_apply (x : Vec Ideal S5000x8 .f32) (p : Fin 5000) (q : Fin 8) :
    k3_pay1 (F := Ideal) x (ix2 p q)
      = (x (ix2 p q) - (Finset.univ : Finset (Fin 8)).fold max ⊥ (fun c => x (ix2 p c)))
        - Ideal.log (∑ c' : Fin 8, Ideal.exp (x (ix2 p c') - (Finset.univ : Finset (Fin 8)).fold max ⊥ (fun c => x (ix2 p c)))) := by
  unfold k3_pay1
  simp only [shapeCast_self]
  exact lsm3_of_rowconst x _ _ _ p
    (fun q' => (bcast3_apply _ p q').trans ((col3_apply _ p 0).trans (rowmax3_apply x _ p))) q

/-! ## From the blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: at point t both windows are at block (t, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The input block at point t is rows 5000 t .. 5000 t + 4999 of the input array. -/
theorem iblk3_apply (c : Dev nD) (t : Fin cfg3.N) (p : Fin 5000) (q : Fin 8) (n : Fin 100000)
    (hn : n.val = t.val * 5000 + p.val) :
    (iblk3 V c 0 t : Vec Ideal S5000x8 .f32) (ix2 p q) = (V c main_v65 : S100000x8.Idx → EReal) (ix2 n q) := by
  obtain ⟨e0, e1, -, -⟩ := idx_facts3 t
  unfold iblk3
  rw [View.read_apply]
  show (V c main_v65 : S100000x8.Idx → EReal) _ = (V c main_v65 : S100000x8.Idx → EReal) _
  congr 1
  funext a
  apply Fin.ext
  match a with
  | ⟨0, _⟩ => show win3_0.index t (0 : Fin 2) * 5000 + 1 * p.val = n.val; omega
  | ⟨1, _⟩ => show win3_0.index t (1 : Fin 2) * 8 + 1 * q.val = q.val; omega

/-- What the output array ends holding: the row-wise log-softmax of the array the region found in its input. -/
def G3 (a : S100000x8.Idx → EReal) : S100000x8.Idx → EReal :=
  Cert.Spec.unc (Cert.Spec.lsm (fun n c' => a (ix2 n c')))

/-- What point t writes back is block t of G3 of the input array. -/
theorem flushed3_eq (c : Dev nD) (t : Fin cfg3.N) :
    (dat3 (F := Ideal) V c).flushed 1 t = ((cfg3.win 1).blk t).view.read (Elt Ideal) (G3 (V c main_v65)) := by
  show (cfg3.win 1).cut (grid3.coords t) ((dat3 (F := Ideal) V c).after 1 t) = _
  rw [after3_1]
  unfold out3_1
  rw [View.canon_unit_zero hz3]
  simp only [View.ld_unit_zero (S := S5000x8) hz3]
  obtain ⟨-, -, e2, e3⟩ := idx_facts3 t
  have ht : t.val < 20 := lt_of_lt_of_eq t.isLt N_3
  funext y
  obtain ⟨p, q, rfl⟩ : ∃ (p : Fin 5000) (q : Fin 8), y = ix2 p q := ⟨y 0, y 1, eq_ix2 y⟩
  show k3_pay1 (F := Ideal) (iblk3 V c 0 t) (ix2 p q) = G3 (V c main_v65) (((cfg3.win 1).blk t).view.emb (ix2 p q))
  have hn : t.val * 5000 + p.val < 100000 := by have := p.isLt; omega
  have hemb : ((cfg3.win 1).blk t).view.emb (ix2 p q) = (ix2 (⟨t.val * 5000 + p.val, hn⟩ : Fin 100000) q : S100000x8.Idx) := by
    funext a; apply Fin.ext
    match a with
    | ⟨0, _⟩ => show win3_1.index t (0 : Fin 2) * 5000 + 1 * p.val = t.val * 5000 + p.val; omega
    | ⟨1, _⟩ => show win3_1.index t (1 : Fin 2) * 8 + 1 * q.val = q.val; omega
  refine Eq.trans ?_ (congrArg (G3 (V c main_v65)) hemb).symm
  refine (k3_pay1_apply _ p q).trans ?_
  show _ = Cert.Spec.lsm (fun n c' => (V c main_v65 : S100000x8.Idx → EReal) (ix2 n c')) ⟨t.val * 5000 + p.val, hn⟩ q
  unfold Cert.Spec.lsm Cert.Spec.rowMax
  have hx : ∀ q' : Fin 8, (iblk3 V c 0 t : Vec Ideal S5000x8 .f32) (ix2 p q')
      = (V c main_v65 : S100000x8.Idx → EReal) (ix2 (⟨t.val * 5000 + p.val, hn⟩ : Fin 100000) q') :=
    fun q' => iblk3_apply V c t p q' ⟨t.val * 5000 + p.val, hn⟩ rfl
  simp only [hx]

/-- Every entry of the array is in the block of the point its row falls in. -/
theorem cover3 (i : S100000x8.Idx) :
    ∃ t : Fin cfg3.N, (cfg3.win 1).flush t = true ∧ i ∈ ((cfg3.win 1).blk t).view.set := by
  have hi0 : (i 0).val < 100000 := idx2_lt0 i
  have hi1 : (i 1).val < 8 := idx2_lt1 i
  have hN : cfg3.N = 20 := N_3
  have htl : (i 0).val / 5000 < cfg3.N := by rw [hN]; omega
  refine ⟨⟨(i 0).val / 5000, htl⟩, flush3_1 _, ?_⟩
  obtain ⟨-, -, e2, e3⟩ := idx_facts3 ⟨(i 0).val / 5000, htl⟩
  have e2' : win3_1.index ⟨(i 0).val / 5000, htl⟩ (0 : Fin 2) = (i 0).val / 5000 := e2
  show i ∈ ((View.whole main_v66).slice (win3_1.rect ⟨(i 0).val / 5000, htl⟩)).set
  rw [View.set_slice_whole, Rect.mem_set_unit]
  intro a
  match a with
  | ⟨0, _⟩ =>
    show win3_1.index ⟨(i 0).val / 5000, htl⟩ (0 : Fin 2) * 5000 ≤ (i 0).val
      ∧ (i 0).val < win3_1.index ⟨(i 0).val / 5000, htl⟩ (0 : Fin 2) * 5000 + 5000
    omega
  | ⟨1, _⟩ =>
    show win3_1.index ⟨(i 0).val / 5000, htl⟩ (1 : Fin 2) * 8 ≤ (i 1).val
      ∧ (i 1).val < win3_1.index ⟨(i 0).val / 5000, htl⟩ (1 : Fin 2) * 8 + 8
    omega

/-- The output array after the region: the row-wise log-softmax of the input array as the region found it. -/
theorem final3 (c : Dev nD) : (dat3 (F := Ideal) V c).arrAt 1 cfg3.N = G3 (V c main_v65) :=
  (dat3 (F := Ideal) V c).arrAt_eq_of_cover 1 (G3 (V c main_v65)) (fun t _ => flushed3_eq V c t) cover3

/-- The output array after the region, entry by entry. -/
theorem arr3 (c : Dev nD) (n : Fin 100000) (cc : Fin 8) :
    (dat3 (F := Ideal) V c).arrAt 1 cfg3.N (ix2 n cc)
      = Cert.Spec.lsm (fun n c' => (V c main_v65 : S100000x8.Idx → EReal) (ix2 n c')) n cc :=
  congrFun (final3 V c) (ix2 n cc)

end Cert.KernelIdeal.Hand

end
-- ==== Proof.KI.HostValC.lean ====
/-
  THE THIRD HOST STRETCH READ AT AN INDEX (the ideal instance, any contents W of the buffers it starts from).

  The stretch turns the two rows of column sums the second region leaves, the sums and the sums of squares, into
  the mean (the sum over the word of 100000) and the variance (the mean of the squares less the squared mean, clamped
  below at zero), and lays the scale and the shift out as rows: entry (0, j) of each [1, 16] row is entry j of the [16]
  array. Every operation is pointwise or a broadcast of a scalar, so an entry of a result is the operations applied to
  the entries.
-/
import proofs.«179341_j31447750542019_2_alg».proof.Proof.Gen.KernelIdeal.Launch
import proofs.«179341_j31447750542019_2_alg».proof.Proof.Spec
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

/-- The mean row: the row of sums over the word of 100000. -/
theorem hostC_mean (j : Fin 16) :
    (StableHlo.after (hostOps2 (F := Ideal)) W (Proc.devRef .tc main_v37) : S1x16.Idx → EReal) (ix2 (0 : Fin 1) j)
      = Ideal.div ((W (Proc.devRef .tc main_v35_0) : S1x16.Idx → EReal) (ix2 (0 : Fin 1) j)) Cert.Spec.cN := by
  after_results
  rfl

/-- The variance row: the row of sums of squares over the word of 100000, less the squared mean, clamped below at
    zero. -/
theorem hostC_var (j : Fin 16) :
    (StableHlo.after (hostOps2 (F := Ideal)) W (Proc.devRef .tc main_v43) : S1x16.Idx → EReal) (ix2 (0 : Fin 1) j)
      = max (Ideal.div ((W (Proc.devRef .tc main_v35_1) : S1x16.Idx → EReal) (ix2 (0 : Fin 1) j)) Cert.Spec.cN
          - Ideal.div ((W (Proc.devRef .tc main_v35_0) : S1x16.Idx → EReal) (ix2 (0 : Fin 1) j)) Cert.Spec.cN
            * Ideal.div ((W (Proc.devRef .tc main_v35_0) : S1x16.Idx → EReal) (ix2 (0 : Fin 1) j)) Cert.Spec.cN) 0 := by
  after_results
  rw [maximumf_apply, broadcastInDim_scalar_apply, constant_apply, Ideal.ofBits_zero_f32]
  rfl

/-- The scale row: entry (0, j) is entry j of the scale. -/
theorem hostC_scale (j : Fin 16) :
    (StableHlo.after (hostOps2 (F := Ideal)) W (Proc.devRef .tc main_v44) : S1x16.Idx → EReal) (ix2 (0 : Fin 1) j)
      = (W (Proc.devRef .tc main_arg3) : S16.Idx → EReal) (ix1 j) := by
  after_results
  exact shapeCast_a_1a_apply _ shapeCasts_S16_S1x16 (0 : Fin 1) j

/-- The shift row: entry (0, j) is entry j of the shift. -/
theorem hostC_shift (j : Fin 16) :
    (StableHlo.after (hostOps2 (F := Ideal)) W (Proc.devRef .tc main_v45) : S1x16.Idx → EReal) (ix2 (0 : Fin 1) j)
      = (W (Proc.devRef .tc main_arg4) : S16.Idx → EReal) (ix1 j) := by
  after_results
  exact shapeCast_a_1a_apply _ shapeCasts_S16_S1x16 (0 : Fin 1) j

end Cert.KernelIdeal.Hand

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.SpecDeg.lean ====
/-
  THE PER-NODE FACTOR IS A REAL THAT IS NOT NEGATIVE.

  The degree of a node is a count: a sum of ones over a finite set of edges is the number of edges in the set. The
  factor is zero where the count is zero and the reciprocal of the square root of the count where it is positive
  (a choice on the compare "greater than zero"); either way a real that is not negative.
-/
import Idealize.ShloMosaic.PureOps.Ideal
import Idealize.ShloMosaic.Lib.ValueIdx
import proofs.«179341_j31447750542019_2_alg».proof.Proof.LibExtReal

open scoped BigOperators

noncomputable section

namespace Cert.Spec

open Idealize.ShloMosaic Idealize.ShloMosaic.ValueIdx Cert.LibExtReal

/-- A sum of ones over a finite set is the number of its elements. -/
theorem sum_ones {ι : Type} (s : Finset ι) : ∑ _j ∈ s, (1 : EReal) = ((s.card : ℝ) : EReal) := by
  have h := coe_sum s (fun _ => (1 : ℝ))
  rw [Finset.sum_const, nsmul_eq_mul, mul_one] at h
  rw [h]
  exact Finset.sum_congr rfl fun _ _ => EReal.coe_one.symm

/-- Zero plus a sum of ones over a finite set (a scatter-add of ones into zeros, at one element) is a count. -/
theorem zero_add_sum_ones {ι : Type} (s : Finset ι) : (0 : EReal) + ∑ _j ∈ s, (1 : EReal) = ((s.card : ℝ) : EReal) := by
  rw [zero_add, sum_ones]

/-- The compare "greater than zero" at a count that is zero answers no. -/
theorem cmp_ogt_zero : Ideal.cmp .ogt (((0 : ℕ) : ℝ) : EReal) 0 = 0#1 := by
  unfold Ideal.cmp
  simp

/-- The compare "greater than zero" at a positive real answers yes. -/
theorem cmp_ogt_pos (a : ℝ) (ha : 0 < a) : Ideal.cmp .ogt (a : EReal) 0 = 1#1 := by
  unfold Ideal.cmp
  simp [EReal.coe_pos.mpr ha]

/-- The factor at a count: the reciprocal square root where the count is positive, zero where it is zero; a real that
    is not negative. -/
theorem dinv_real (d : EReal) (k : ℕ) (hd : d = ((k : ℝ) : EReal)) :
    ∃ r : ℝ, 0 ≤ r ∧ Scalar.select (Ideal.cmp .ogt d 0) (Ideal.rsqrt d) 0 = (r : EReal) := by
  subst hd
  rcases Nat.eq_zero_or_pos k with h | h
  · subst h
    exact ⟨0, le_refl _, by rw [cmp_ogt_zero, select_zero, EReal.coe_zero]⟩
  · have hk : (0 : ℝ) < (k : ℝ) := Nat.cast_pos.mpr h
    refine ⟨(Real.sqrt k)⁻¹, by positivity, ?_⟩
    rw [cmp_ogt_pos _ hk, select_one, Ideal.rsqrt_coe, if_neg (not_lt.mpr hk.le), if_neg hk.ne']

/-- The same with the count given as zero plus a sum of ones over a finite set. -/
theorem dinv_real_of_sum {ι : Type} (s : Finset ι) (d : EReal) (hd : d = (0 : EReal) + ∑ _j ∈ s, (1 : EReal)) :
    ∃ r : ℝ, 0 ≤ r ∧ Scalar.select (Ideal.cmp .ogt d 0) (Ideal.rsqrt d) 0 = (r : EReal) :=
  dinv_real d s.card (hd.trans (zero_add_sum_ones s))

end Cert.Spec

end
-- ==== Proof.SpecEdges.lean ====
/-
  THE EDGE COLUMNS AND THE PER-NODE FACTOR AS FUNCTIONS OF THE EDGE ARRAY, index by index.

  The edge array ei has two rows of 3200000 words: row 0 the sources, row 1 the destinations. Each is extended by one
  self loop per node: entry e of the extended list is ei's entry for e below 3200000 and the word of e - 3200000 from
  there on (the nodes 0 .. 99999 in order). A gather reads an index after the wrap of negative words (add 100000 where
  the sign bit is set); a scatter-add reads the destination as it is. The degree of node n is the scatter-add of ones
  into zeros at the destinations, a count of edges; the factor is zero where the degree is zero and its reciprocal
  square root otherwise.
-/
import proofs.«179341_j31447750542019_2_alg».proof.Proof.Spec
import proofs.«179341_j31447750542019_2_alg».proof.Proof.SpecDeg
import proofs.«179341_j31447750542019_2_alg».proof.Proof.LibGatherScatter

open scoped BigOperators

noncomputable section

namespace Cert.Spec

open Idealize.ShloMosaic Idealize.ShloMosaic.ValueIdx Cert.LibGatherScatter

/-- The edge array: two rows of 3200000 words. -/
abbrev EdgeArr : Type := IVec (⟨2, ![2, 3200000]⟩ : Shape) 32
/-- A flat list of 3300000 words. -/
abbrev EList : Type := IVec (⟨1, ![3300000]⟩ : Shape) 32

/-- Row r of the edge array followed by the self loops: the nodes 0 .. 99999 in order. -/
def rowRaw (r : Fin 2) (ei : EdgeArr) : EList := fun e =>
  if h : (e 0).val < 3200000 then ei (ix2 r (⟨(e 0).val, h⟩ : Fin 3200000)) else BitVec.ofNat 32 ((e 0).val - 3200000)
/-- The sources, then the self loops. -/
def srcRaw (ei : EdgeArr) : EList := rowRaw 0 ei
/-- The destinations, then the self loops. -/
def dstRaw (ei : EdgeArr) : EList := rowRaw 1 ei

/-- The wrap of a possibly negative index: add 100000 where the word is below zero, read signed. -/
def wrapI (v : BitVec 32) : BitVec 32 := Scalar.select (IntOp.cmpi .slt v 0#32) (IntOp.addi v 100000#32) v

/-- A flat list as a column of start indices. -/
def colOf (v : EList) : ICol := fun i => v (ix1 (⟨(i 0).val, idx2_lt0 i⟩ : Fin 3300000))

/-- The column the gathers by source read: the wrapped sources. -/
def swOf (ei : EdgeArr) : ICol := colOf (fun e => wrapI (srcRaw ei e))
/-- The column the scatter-adds read: the destinations as they are. -/
def dcolOf (ei : EdgeArr) : ICol := colOf (dstRaw ei)
/-- The column a gather by destination reads: the wrapped destinations. -/
def dwcolOf (ei : EdgeArr) : ICol := colOf (fun e => wrapI (dstRaw ei e))

/-- The degree of node n: the scatter-add of ones into zeros at the destinations. -/
def degOf (wfsv : ScatterDims.WF ⟨1, ![100000]⟩ ⟨2, ![3300000, 1]⟩ ⟨1, ![3300000]⟩ [] [0] [0] 1) (ei : EdgeArr)
    (n : Fin 100000) : EReal :=
  Ideal.hostScatterAdd (vecScatter 100000 3300000 wfsv) (fun _ => 0) (dcolOf ei) (fun _ => 1) (ix1 n)

/-- The per-node factor: the reciprocal square root of the degree where it is positive, zero elsewhere. -/
def dvOf (wfsv : ScatterDims.WF ⟨1, ![100000]⟩ ⟨2, ![3300000, 1]⟩ ⟨1, ![3300000]⟩ [] [0] [0] 1) (ei : EdgeArr)
    (n : Fin 100000) : EReal :=
  Scalar.select (Ideal.cmp .ogt (degOf wfsv ei n) 0) (Ideal.rsqrt (degOf wfsv ei n)) 0

/-- Where the destination is not negative, the wrapped destination is the destination. -/
theorem hwrap_of (ei : EdgeArr) : ∀ e : Fin 3300000, 0 ≤ (dcolOf ei (ix2 e (0 : Fin 1))).toInt →
    dwcolOf ei (ix2 e (0 : Fin 1)) = dcolOf ei (ix2 e (0 : Fin 1)) :=
  fun e h => select_wrap_of_nonneg (dcolOf ei (ix2 e (0 : Fin 1))) 100000#32 h

/-- The degree is a count. -/
theorem degOf_count (wfsv : ScatterDims.WF ⟨1, ![100000]⟩ ⟨2, ![3300000, 1]⟩ ⟨1, ![3300000]⟩ [] [0] [0] 1)
    (ei : EdgeArr) (n : Fin 100000) : ∃ k : ℕ, degOf wfsv ei n = ((k : ℝ) : EReal) := by
  unfold degOf Ideal.hostScatterAdd
  exact ⟨_, zero_add_sum_ones _⟩

/-- The factor is a real that is not negative. -/
theorem hdv_of (wfsv : ScatterDims.WF ⟨1, ![100000]⟩ ⟨2, ![3300000, 1]⟩ ⟨1, ![3300000]⟩ [] [0] [0] 1)
    (ei : EdgeArr) : ∀ n, ∃ r : ℝ, 0 ≤ r ∧ dvOf wfsv ei n = (r : EReal) := fun n => by
  obtain ⟨k, hk⟩ := degOf_count wfsv ei n
  exact dinv_real _ k hk

end Cert.Spec

end
-- ==== Proof.KI.HostValCol.lean ====
/-
  SMALL FACTS the host stretches share (the ideal instance).

  A flat list of 3300000 words broadcast to a [3300000, 1] array is the list as a column: entry (e, 0) is entry e. A
  scalar constant broadcast to any shape is the constant everywhere: the word of zero gives the zero array, the word
  of one the array of ones. The host scatter-add at the ideal instance is the exact sum of the updates that land on
  an element. The printed dimension numbers of the gathers and scatters are the row (or element) selection records.
-/
import proofs.«179341_j31447750542019_2_alg».proof.Proof.Gen.KernelIdeal.Launch
import proofs.«179341_j31447750542019_2_alg».proof.Proof.Spec
import proofs.«179341_j31447750542019_2_alg».proof.Proof.SpecEdges
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

/-- A flat list laid out as a column of start indices. -/
theorem bcast_col (h : S3300000.BroadcastsInDim S3300000x1 (![0] : Fin 1 → Fin S3300000x1.rank)) (v : IVec S3300000 32) :
    broadcastInDim S3300000x1 ![0] h v = Cert.Spec.colOf v := by
  funext i
  refine broadcastInDim_apply _ h v i (ix1 (⟨(i 0).val, idx2_lt0 i⟩ : Fin 3300000)) (fun a => ?_)
  match a with
  | ⟨0, _⟩ =>
    show (i 0).val = if (3300000 : ℕ) = 1 then 0 else (i 0).val
    rw [if_neg (by decide)]

/-- The word of zero broadcast to a shape: the zero array. -/
theorem bcast_zero {T : Shape} (h : S_.BroadcastsInDim T (![] : Fin 0 → Fin T.rank)) :
    broadcastInDim T ![] h (constant (F := Ideal) S_ .f32 0x00000000#32) = fun _ => (0 : EReal) := by
  funext i
  rw [broadcastInDim_scalar_apply, constant_apply, Ideal.ofBits_zero_f32]

/-- The word of one broadcast to a shape: the array of ones. -/
theorem bcast_one {T : Shape} (h : S_.BroadcastsInDim T (![] : Fin 0 → Fin T.rank)) :
    broadcastInDim T ![] h (constant (F := Ideal) S_ .f32 0x3F800000#32) = fun _ => (1 : EReal) := by
  funext i
  rw [broadcastInDim_scalar_apply, constant_apply, Ideal.ofBits_one_f32]

/-- The host scatter-add at the ideal instance is the exact sum. -/
theorem hostScatterAdd_ideal {s si su : Shape} {w : Nat} {φ : FTy} (d : ScatterDims s si su) (x : FVec Ideal s φ)
    (idx : IVec si w) (upd : FVec Ideal su φ) :
    Host.scatterAdd (F := Ideal) d x idx upd = Ideal.hostScatterAdd d x idx upd := rfl

/-- The printed dimension numbers of the flat scatter are the element scatter's. -/
theorem scatter_vec_eq : scatter_S100000_S3300000x1_S3300000_n_0_0_1
    = Cert.LibGatherScatter.vecScatter 100000 3300000 scatter_S100000_S3300000x1_S3300000_n_0_0_1_wf := rfl

/-- The same for the row scatters and gathers of the two aggregations. -/
theorem scatter_row16_eq : scatter_S100000x16_S3300000x1_S3300000x16_1_0_0_1
    = Cert.LibGatherScatter.rowScatter 100000 3300000 16 scatter_S100000x16_S3300000x1_S3300000x16_1_0_0_1_wf := rfl

theorem gather_row16_eq : gather_S100000x16_S3300000x1_S3300000x16_1_0_n_n_0_1_116
    = Cert.LibGatherScatter.rowGather 100000 3300000 16 gather_S100000x16_S3300000x1_S3300000x16_1_0_n_n_0_1_116_wf := rfl

theorem scatter_row8_eq : scatter_S100000x8_S3300000x1_S3300000x8_1_0_0_1
    = Cert.LibGatherScatter.rowScatter 100000 3300000 8 scatter_S100000x8_S3300000x1_S3300000x8_1_0_0_1_wf := rfl

theorem gather_row8_eq : gather_S100000x8_S3300000x1_S3300000x8_1_0_n_n_0_1_18
    = Cert.LibGatherScatter.rowGather 100000 3300000 8 gather_S100000x8_S3300000x1_S3300000x8_1_0_n_n_0_1_18_wf := rfl

end Cert.KernelIdeal.Hand

end
-- ==== Proof.KI.HostValA.lean ====
/-
  THE FIRST TWO HOST STRETCHES READ AT AN INDEX (the ideal instance, any contents W of the buffers they start from).

  They build the two edge lists and the per-node factor from the edge array. Row r of the edge array is sliced out,
  flattened and followed by the nodes 0 .. 99999 in order: entry e of the list is the array's entry (r, e) for e below
  3200000 (it falls in the first piece of the concatenation) and the word of e - 3200000 from there on (the second
  piece, an iota). The degree is the scatter-add of ones into zeros at the destinations laid out as a column; the
  factor is the choice, on the compare "greater than zero", between the degree's reciprocal square root and zero.
-/
import proofs.«179341_j31447750542019_2_alg».proof.Proof.Gen.KernelIdeal.Launch
import proofs.«179341_j31447750542019_2_alg».proof.Proof.Spec
import proofs.«179341_j31447750542019_2_alg».proof.Proof.KI.HostValCol
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

/-- Row r of the edge array, flattened, followed by the nodes in order: the edge list of row r. -/
theorem concat_row (off : Fin 2 → Nat) (r : Fin 2) (h0 : off 0 = r.val) (h1 : off 1 = 0)
    (hs : S2x3200000.Slices off S1x3200000) (ei : IVec S2x3200000 32) :
    concatenate S3300000 0
        [⟨S3200000, shapeCast S3200000 (extractStridedSlice S1x3200000 off ei hs) shapeCasts_S1x3200000_S3200000⟩,
          ⟨S100000, iotaInDim S100000 32 0⟩] concatenates_S3200000_S100000_S3300000_d0
      = Cert.Spec.rowRaw r ei := by
  funext i
  obtain ⟨e, rfl⟩ : ∃ e : Fin 3300000, i = ix1 e := ⟨i 0, eq_ix1 i⟩
  unfold Cert.Spec.rowRaw
  split
  · next h =>
    have h' : e.val < 3200000 := h
    refine (concatenate_pair_apply_left (t := S3300000) (s₁ := S3200000) (s₂ := S100000) (0 : Fin 1) _ _ _ (ix1 e) rfl (ix1 (⟨e.val, h'⟩ : Fin 3200000))
      (fun b => ?_)).trans ?_
    · match b with
      | ⟨0, _⟩ => rfl
    · refine (shapeCast_1a_a_apply _ shapeCasts_S1x3200000_S3200000 (⟨e.val, h'⟩ : Fin 3200000)).trans ?_
      refine extractStridedSlice_apply off ei hs _ (ix2 r (⟨e.val, h'⟩ : Fin 3200000)) (fun a => ?_)
      match a with
      | ⟨0, _⟩ => show r.val = off 0 + 0; omega
      | ⟨1, _⟩ => show e.val = off 1 + e.val; omega
  · next h =>
    have h' : ¬ e.val < 3200000 := h
    have he := e.isLt
    refine (concatenate_pair_apply_right (t := S3300000) (s₁ := S3200000) (s₂ := S100000) (0 : Fin 1) _ _ _ (ix1 e) rfl rfl
      (ix1 (⟨e.val - 3200000, by omega⟩ : Fin 100000)) (fun b hb => ?_) ?_).trans ?_
    · exact absurd (Subsingleton.elim _ _) hb
    · show (e.val - 3200000) + 3200000 = e.val; omega
    · rfl

/-- The list of sources after the two stretches. -/
theorem hostA_src :
    (StableHlo.after (hostOps0_1 (F := Ideal)) (StableHlo.after (hostOps0 (F := Ideal)) W) (Proc.devRef .tc main_v3)
        : S3300000.Idx → BitVec 32)
      = Cert.Spec.srcRaw (W (Proc.devRef .tc main_arg7)) := by
  after_results
  exact concat_row ![0, 0] 0 rfl rfl slices_S2x3200000_S1x3200000_0_0 _

/-- The list of destinations after the two stretches. -/
theorem hostA_dst :
    (StableHlo.after (hostOps0_1 (F := Ideal)) (StableHlo.after (hostOps0 (F := Ideal)) W) (Proc.devRef .tc main_v6)
        : S3300000.Idx → BitVec 32)
      = Cert.Spec.dstRaw (W (Proc.devRef .tc main_arg7)) := by
  after_results
  exact concat_row ![1, 0] 1 rfl rfl slices_S2x3200000_S1x3200000_1_0 _

/-- The degree array: the scatter-add of ones into zeros at the destinations laid out as a column. -/
theorem deg_apply (ei : IVec S2x3200000 32) (n : Fin 100000) :
    Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0
          (concatenate S3300000 0
            [⟨S3200000, shapeCast S3200000 (extractStridedSlice S1x3200000 ![1, 0] ei slices_S2x3200000_S1x3200000_1_0)
                shapeCasts_S1x3200000_S3200000⟩,
              ⟨S100000, iotaInDim S100000 32 0⟩] concatenates_S3200000_S100000_S3300000_d0))
        (broadcastInDim S3300000 ![] bcast_S_S3300000 (constant (F := Ideal) S_ .f32 0x3F800000#32)) (ix1 n)
      = Cert.Spec.degOf scatter_S100000_S3300000x1_S3300000_n_0_0_1_wf ei n := by
  unfold Cert.Spec.degOf Cert.Spec.dcolOf Cert.Spec.dstRaw
  rw [concat_row ![1, 0] 1 rfl rfl slices_S2x3200000_S1x3200000_1_0 ei, bcast_col, bcast_zero, bcast_one,
    hostScatterAdd_ideal, scatter_vec_eq]

/-- The compare at the ideal instance is the extended reals' comparison. -/
theorem cmpf_ideal {φ : FTy} (p : CmpFPredicate) (x y : Ideal φ) : FloatOps.cmpf p x y = Ideal.cmp p x y := rfl

/-- The compare "greater than the zero array" read at an entry whose value is known. -/
theorem cmp_read (X : FVec Ideal S100000 .f32) (h : S_.BroadcastsInDim S100000 (![] : Fin 0 → Fin S100000.rank))
    (n : Fin 100000) (d : EReal) (hX : X (ix1 n) = d) :
    cmpf .ogt X (broadcastInDim S100000 ![] h (constant (F := Ideal) S_ .f32 0x00000000#32)) (ix1 n)
      = Ideal.cmp .ogt d 0 := by
  rw [cmpf_apply, hX, broadcastInDim_scalar_apply, constant_apply, Ideal.ofBits_zero_f32, cmpf_ideal]

/-- The host's reciprocal square root read at an entry whose value is known. -/
theorem rsqrt_read (X : FVec Ideal S100000 .f32) (n : Fin 100000) (d : EReal) (hX : X (ix1 n) = d) :
    Host.rsqrt X (ix1 n) = Ideal.rsqrt d := by
  rw [← hX]; rfl

/-- The second stretch is a choice: entry n of its result is the choice, on entry n of the compare, between entry n
    of the reciprocal square roots and the scalar. -/
theorem where_apply (V : Valuation τ sig (Elt Ideal)) (n : Fin 100000) :
    (StableHlo.after (hostOps0_1 (F := Ideal)) V (Proc.devRef .tc main_v14) : S100000.Idx → EReal) (ix1 n)
      = Scalar.select ((V (Proc.devRef .tc main_v12) : S100000.Idx → BitVec 1) (ix1 n))
          ((V (Proc.devRef .tc main_v13) : S100000.Idx → EReal) (ix1 n))
          ((V (Proc.devRef .tc main_cst_2) : S_.Idx → EReal) ix0) := by
  after_results
  refine Eq.trans (b := Scalar.select ((V (Proc.devRef .tc main_v12) : S100000.Idx → BitVec 1) (ix1 n))
    ((V (Proc.devRef .tc main_v13) : S100000.Idx → EReal) (ix1 n))
    (broadcastInDim S100000 ![] bcast_S_S100000 (V (Proc.devRef .tc main_cst_2) : S_.Idx → EReal) (ix1 n))) rfl ?_
  rw [broadcastInDim_scalar_apply]

/-- The compare of the degree with zero, after the first stretch. -/
theorem hostA_cmp (n : Fin 100000) :
    (StableHlo.after (hostOps0 (F := Ideal)) W (Proc.devRef .tc main_v12) : S100000.Idx → BitVec 1) (ix1 n)
      = Ideal.cmp .ogt (Cert.Spec.degOf scatter_S100000_S3300000x1_S3300000_n_0_0_1_wf (W (Proc.devRef .tc main_arg7)) n) 0 := by
  after_results
  exact cmp_read _ _ n _ (deg_apply _ n)

/-- The reciprocal square root of the degree, after the first stretch. -/
theorem hostA_rsqrt (n : Fin 100000) :
    (StableHlo.after (hostOps0 (F := Ideal)) W (Proc.devRef .tc main_v13) : S100000.Idx → EReal) (ix1 n)
      = Ideal.rsqrt (Cert.Spec.degOf scatter_S100000_S3300000x1_S3300000_n_0_0_1_wf (W (Proc.devRef .tc main_arg7)) n) := by
  after_results
  exact rsqrt_read _ n _ (deg_apply _ n)

/-- The scalar zero, after the first stretch. -/
theorem hostA_zero :
    (StableHlo.after (hostOps0 (F := Ideal)) W (Proc.devRef .tc main_cst_2) : S_.Idx → EReal) ix0 = (0 : EReal) := by
  after_results
  exact (constant_apply _ _).trans Ideal.ofBits_zero_f32

/-- The per-node factor after the two stretches. -/
theorem hostA_dv (n : Fin 100000) :
    (StableHlo.after (hostOps0_1 (F := Ideal)) (StableHlo.after (hostOps0 (F := Ideal)) W) (Proc.devRef .tc main_v14)
        : S100000.Idx → EReal) (ix1 n)
      = Cert.Spec.dvOf scatter_S100000_S3300000x1_S3300000_n_0_0_1_wf (W (Proc.devRef .tc main_arg7)) n := by
  unfold Cert.Spec.dvOf
  rw [where_apply (StableHlo.after (hostOps0 (F := Ideal)) W) n, hostA_cmp W n, hostA_rsqrt W n, hostA_zero W]

end Cert.KernelIdeal.Hand

end
-- ==== Proof.KI.HostValAgg.lean ====
/-
  AN AGGREGATION STRETCH READ AT AN INDEX (the ideal instance): the operations between a dense layer's output and the
  next region, for any number C of columns.

  The stretch scales row n of the [100000, C] array by the factor at n (the factor laid out as a column and broadcast
  along the rows), gathers the rows at the wrapped sources, scatter-adds them into zeros at the destinations, scales
  row n of the sum by the factor at n again and adds the bias (laid out as a row and broadcast down the columns).
  Entry (n, c) of a column broadcast reads the column's entry n, of a row broadcast the row's entry c; the wrap is
  pointwise. So entry (n, c) of the result is the aggregation, in the form that scales around the scatter-add, of the
  array by the factor, the wrapped sources, the destinations and the bias.
-/
import proofs.«179341_j31447750542019_2_alg».proof.Proof.Gen.KernelIdeal.Launch
import proofs.«179341_j31447750542019_2_alg».proof.Proof.Spec
import proofs.«179341_j31447750542019_2_alg».proof.Proof.KI.HostValCol
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

/-- A vector of per-row factors laid out as a column and broadcast along the rows: entry j reads the factor of j's
    row. -/
theorem bcast_rowfactor {C : Nat}
    (h1 : S100000.BroadcastsInDim S100000x1 (![0] : Fin 1 → Fin S100000x1.rank))
    (h2 : S100000x1.BroadcastsInDim (⟨2, ![100000, C]⟩ : Shape) (![0, 1] : Fin 2 → Fin (⟨2, ![100000, C]⟩ : Shape).rank))
    (v : S100000.Idx → EReal) (j : (⟨2, ![100000, C]⟩ : Shape).Idx) :
    broadcastInDim (⟨2, ![100000, C]⟩ : Shape) ![0, 1] h2 (broadcastInDim S100000x1 ![0] h1 v) j
      = v (ix1 (⟨(j 0).val, idx2_lt0 j⟩ : Fin 100000)) := by
  refine (broadcastInDim_apply _ h2 _ j (ix2 (⟨(j 0).val, idx2_lt0 j⟩ : Fin 100000) (0 : Fin 1)) (fun a => ?_)).trans ?_
  · match a with
    | ⟨0, _⟩ =>
      show (j 0).val = if (100000 : ℕ) = 1 then 0 else (j 0).val
      rw [if_neg (by decide)]
    | ⟨1, _⟩ => rfl
  · refine broadcastInDim_apply _ h1 v _ (ix1 (⟨(j 0).val, idx2_lt0 j⟩ : Fin 100000)) (fun a => ?_)
    match a with
    | ⟨0, _⟩ =>
      show (j 0).val = if (100000 : ℕ) = 1 then 0 else (j 0).val
      rw [if_neg (by decide)]

/-- A bias laid out as a row and broadcast down the columns: entry (n, c) reads the bias at c. -/
theorem bcast_bias {C : Nat}
    (h3 : (⟨1, ![C]⟩ : Shape).BroadcastsInDim (⟨2, ![1, C]⟩ : Shape) (![1] : Fin 1 → Fin (⟨2, ![1, C]⟩ : Shape).rank))
    (h4 : (⟨2, ![1, C]⟩ : Shape).BroadcastsInDim (⟨2, ![100000, C]⟩ : Shape) (![0, 1] : Fin 2 → Fin (⟨2, ![100000, C]⟩ : Shape).rank))
    (b : (⟨1, ![C]⟩ : Shape).Idx → EReal) (n : Fin 100000) (c : Fin C) :
    broadcastInDim (⟨2, ![100000, C]⟩ : Shape) ![0, 1] h4 (broadcastInDim (⟨2, ![1, C]⟩ : Shape) ![1] h3 b) (ix2 n c)
      = b (ix1 c) := by
  have hc := c.isLt
  refine (broadcastInDim_apply _ h4 _ (ix2 n c) (ix2 (0 : Fin 1) c) (fun a => ?_)).trans ?_
  · match a with
    | ⟨0, _⟩ => rfl
    | ⟨1, _⟩ =>
      show c.val = if C = 1 then 0 else c.val
      split
      · omega
      · rfl
  · refine broadcastInDim_apply _ h3 b _ (ix1 c) (fun a => ?_)
    match a with
    | ⟨0, _⟩ =>
      show c.val = if C = 1 then 0 else c.val
      split
      · omega
      · rfl

/-- The wrap of possibly negative indices, as the stretch spells it on a flat list, is the wrap of each word. -/
theorem wrap_list (hz : S_.BroadcastsInDim S3300000 (![] : Fin 0 → Fin S3300000.rank)) (v : IVec S3300000 32) :
    select (cmpi .slt v (broadcastInDim S3300000 ![] hz (constantI S_ 32 0#32)))
        (addi v (broadcastInDim S3300000 ![] hz (constantI S_ 32 100000#32))) v
      = fun e => Cert.Spec.wrapI (v e) := rfl

/-- The array with row n scaled by the factor at n, in the form the aggregation states it. -/
theorem scaled_rows {C : Nat}
    (h1 : S100000.BroadcastsInDim S100000x1 (![0] : Fin 1 → Fin S100000x1.rank))
    (h2 : S100000x1.BroadcastsInDim (⟨2, ![100000, C]⟩ : Shape) (![0, 1] : Fin 2 → Fin (⟨2, ![100000, C]⟩ : Shape).rank))
    (H : FVec Ideal (⟨2, ![100000, C]⟩ : Shape) .f32) (dv : FVec Ideal S100000 .f32) :
    mulf H (broadcastInDim (⟨2, ![100000, C]⟩ : Shape) ![0, 1] h2 (broadcastInDim S100000x1 ![0] h1 dv))
      = fun j => Cert.Spec.unc (fun n c => H (ix2 n c)) j
          * Cert.Spec.unv (fun n => dv (ix1 n)) (ix1 (⟨(j 0).val, idx2_lt0 j⟩ : Fin 100000)) := by
  funext j
  rw [mulf_apply, bcast_rowfactor h1 h2 dv j]
  exact congrArg (· * dv (ix1 (⟨(j 0).val, idx2_lt0 j⟩ : Fin 100000))) (congrArg H (eq_ix2 j))

/-- The whole stretch at entry (n, c). -/
theorem agg_stretch {C : Nat}
    (wfg : GatherDims.WF ⟨2, ![100000, C]⟩ ⟨2, ![3300000, 1]⟩ ⟨2, ![3300000, C]⟩ [1] [0] [] [0] [] 1 ![1, C])
    (wfs : ScatterDims.WF ⟨2, ![100000, C]⟩ ⟨2, ![3300000, 1]⟩ ⟨2, ![3300000, C]⟩ [1] [0] [0] 1)
    (h1 : S100000.BroadcastsInDim S100000x1 (![0] : Fin 1 → Fin S100000x1.rank))
    (h2 : S100000x1.BroadcastsInDim (⟨2, ![100000, C]⟩ : Shape) (![0, 1] : Fin 2 → Fin (⟨2, ![100000, C]⟩ : Shape).rank))
    (h3 : (⟨1, ![C]⟩ : Shape).BroadcastsInDim (⟨2, ![1, C]⟩ : Shape) (![1] : Fin 1 → Fin (⟨2, ![1, C]⟩ : Shape).rank))
    (h4 : (⟨2, ![1, C]⟩ : Shape).BroadcastsInDim (⟨2, ![100000, C]⟩ : Shape) (![0, 1] : Fin 2 → Fin (⟨2, ![100000, C]⟩ : Shape).rank))
    (hz : S_.BroadcastsInDim (⟨2, ![100000, C]⟩ : Shape) (![] : Fin 0 → Fin (⟨2, ![100000, C]⟩ : Shape).rank))
    (hzi : S_.BroadcastsInDim S3300000 (![] : Fin 0 → Fin S3300000.rank))
    (hcol : S3300000.BroadcastsInDim S3300000x1 (![0] : Fin 1 → Fin S3300000x1.rank))
    (dv : FVec Ideal S100000 .f32) (H : FVec Ideal (⟨2, ![100000, C]⟩ : Shape) .f32) (src dst : IVec S3300000 32)
    (bias : FVec Ideal (⟨1, ![C]⟩ : Shape) .f32) (n : Fin 100000) (c : Fin C) :
    addf (mulf
        (Host.scatterAdd (F := Ideal) (Cert.LibGatherScatter.rowScatter 100000 3300000 C wfs)
          (broadcastInDim (⟨2, ![100000, C]⟩ : Shape) ![] hz (constant (F := Ideal) S_ .f32 0x00000000#32))
          (broadcastInDim S3300000x1 ![0] hcol dst)
          (Host.gather (Cert.LibGatherScatter.rowGather 100000 3300000 C wfg)
            (mulf H (broadcastInDim (⟨2, ![100000, C]⟩ : Shape) ![0, 1] h2 (broadcastInDim S100000x1 ![0] h1 dv)))
            (broadcastInDim S3300000x1 ![0] hcol
              (select (cmpi .slt src (broadcastInDim S3300000 ![] hzi (constantI S_ 32 0#32)))
                (addi src (broadcastInDim S3300000 ![] hzi (constantI S_ 32 100000#32))) src))))
        (broadcastInDim (⟨2, ![100000, C]⟩ : Shape) ![0, 1] h2 (broadcastInDim S100000x1 ![0] h1 dv)))
      (broadcastInDim (⟨2, ![100000, C]⟩ : Shape) ![0, 1] h4 (broadcastInDim (⟨2, ![1, C]⟩ : Shape) ![1] h3 bias)) (ix2 n c)
    = Cert.Spec.aggK wfg wfs (fun n => dv (ix1 n)) (Cert.Spec.colOf (fun e => Cert.Spec.wrapI (src e))) (Cert.Spec.colOf dst)
        (fun n c => H (ix2 n c)) (fun c => bias (ix1 c)) n c := by
  unfold Cert.Spec.aggK
  rw [addf_apply, mulf_apply, bcast_bias h3 h4 bias n c, bcast_rowfactor h1 h2 dv (ix2 n c), bcast_zero, bcast_col,
    bcast_col, wrap_list, scaled_rows h1 h2 H dv, hostScatterAdd_ideal]
  rfl

end Cert.KernelIdeal.Hand

end
-- ==== Proof.KI.HostValB.lean ====
/-
  THE SECOND HOST STRETCH READ AT AN INDEX (the ideal instance, any contents W of the buffers it starts from): the
  aggregation of the first dense layer's [100000, 16] output. Entry (n, j) of what it leaves is the aggregation, in the
  form that scales rows around the scatter-add, of that output by the factor, the wrapped sources, the destinations
  and the first bias, each read off the buffer that holds it.
-/
import proofs.«179341_j31447750542019_2_alg».proof.Proof.Gen.KernelIdeal.Launch
import proofs.«179341_j31447750542019_2_alg».proof.Proof.Spec
import proofs.«179341_j31447750542019_2_alg».proof.Proof.KI.HostValAgg
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem hostB_agg (n : Fin 100000) (j : Fin 16) :
    (StableHlo.after (hostOps1 (F := Ideal)) W (Proc.devRef .tc main_v34) : S100000x16.Idx → EReal) (ix2 n j)
      = Cert.Spec.aggK gather_S100000x16_S3300000x1_S3300000x16_1_0_n_n_0_1_116_wf
          scatter_S100000x16_S3300000x1_S3300000x16_1_0_0_1_wf
          (fun n => (W (Proc.devRef .tc main_v14) : S100000.Idx → EReal) (ix1 n))
          (Cert.Spec.colOf (fun e => Cert.Spec.wrapI ((W (Proc.devRef .tc main_v3) : S3300000.Idx → BitVec 32) e)))
          (Cert.Spec.colOf (W (Proc.devRef .tc main_v6)))
          (fun n j => (W (Proc.devRef .tc main_v15) : S100000x16.Idx → EReal) (ix2 n j))
          (fun j => (W (Proc.devRef .tc main_arg2) : S16.Idx → EReal) (ix1 j)) n j := by
  after_results_simp
  rw [gather_row16_eq, scatter_row16_eq]
  exact agg_stretch gather_S100000x16_S3300000x1_S3300000x16_1_0_n_n_0_1_116_wf
    scatter_S100000x16_S3300000x1_S3300000x16_1_0_0_1_wf bcast_S100000_S100000x1_0 bcast_S100000x1_S100000x16_0_1
    bcast_S16_S1x16_1 bcast_S1x16_S100000x16_0_1 bcast_S_S100000x16 bcast_S_S3300000 bcast_S3300000_S3300000x1_0
    (W (Proc.devRef .tc main_v14)) (W (Proc.devRef .tc main_v15)) (W (Proc.devRef .tc main_v3))
    (W (Proc.devRef .tc main_v6)) (W (Proc.devRef .tc main_arg2)) n j

end Cert.KernelIdeal.Hand

end
-- ==== Proof.KI.HostValD.lean ====
/-
  THE FIFTH HOST STRETCH READ AT AN INDEX (the ideal instance, any contents W of the buffers it starts from): the
  aggregation of the second dense layer's [100000, 8] output. Entry (n, c) of what it leaves is the aggregation, in the
  form that scales rows around the scatter-add, of that output by the factor, the wrapped sources, the destinations
  and the second bias, each read off the buffer that holds it.
-/
import proofs.«179341_j31447750542019_2_alg».proof.Proof.Gen.KernelIdeal.Launch
import proofs.«179341_j31447750542019_2_alg».proof.Proof.Spec
import proofs.«179341_j31447750542019_2_alg».proof.Proof.KI.HostValAgg
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem hostD_agg (n : Fin 100000) (c : Fin 8) :
    (StableHlo.after (hostOps3 (F := Ideal)) W (Proc.devRef .tc main_v65) : S100000x8.Idx → EReal) (ix2 n c)
      = Cert.Spec.aggK gather_S100000x8_S3300000x1_S3300000x8_1_0_n_n_0_1_18_wf
          scatter_S100000x8_S3300000x1_S3300000x8_1_0_0_1_wf
          (fun n => (W (Proc.devRef .tc main_v14) : S100000.Idx → EReal) (ix1 n))
          (Cert.Spec.colOf (fun e => Cert.Spec.wrapI ((W (Proc.devRef .tc main_v3) : S3300000.Idx → BitVec 32) e)))
          (Cert.Spec.colOf (W (Proc.devRef .tc main_v6)))
          (fun n c => (W (Proc.devRef .tc main_v46) : S100000x8.Idx → EReal) (ix2 n c))
          (fun c => (W (Proc.devRef .tc main_arg6) : S8.Idx → EReal) (ix1 c)) n c := by
  after_results_simp
  rw [gather_row8_eq, scatter_row8_eq]
  exact agg_stretch gather_S100000x8_S3300000x1_S3300000x8_1_0_n_n_0_1_18_wf
    scatter_S100000x8_S3300000x1_S3300000x8_1_0_0_1_wf bcast_S100000_S100000x1_0 bcast_S100000x1_S100000x8_0_1
    bcast_S8_S1x8_1 bcast_S1x8_S100000x8_0_1 bcast_S_S100000x8 bcast_S_S3300000 bcast_S3300000_S3300000x1_0
    (W (Proc.devRef .tc main_v14)) (W (Proc.devRef .tc main_v46)) (W (Proc.devRef .tc main_v3))
    (W (Proc.devRef .tc main_v6)) (W (Proc.devRef .tc main_arg6)) n c

end Cert.KernelIdeal.Hand

end
-- ==== Proof.KI.Pay2.lean ====
/-
  THE NORMALISE-CLAMP-AND-SECOND-DENSE-LAYER BODY AT AN ENTRY, over the extended reals.

  The body takes a [5000, 16] block x, four [1, 16] rows (variance, mean, scale, shift) and a [16, 8] weight. Entry
  (p, j) of the block is normalised, ((x - mean j) * rsqrt (variance j + eps)) * scale j + shift j, and clamped below at
  zero; the clamped block is multiplied by the weight into a zero accumulator (the narrowing of the operands to 16-bit
  floats is the identity on extended reals). So entry (p, c) of the result is the sum over the 16 hidden positions j of
  the clamped entry (p, j) times the weight's entry (j, c). A [1, 16] row broadcast over the 5000 rows reads its one row.
-/
import proofs.«179341_j31447750542019_2_alg».proof.Proof.Gen.KernelIdeal.Skeleton
import proofs.«179341_j31447750542019_2_alg».proof.Proof.Spec
import proofs.«179341_j31447750542019_2_alg».proof.Proof.LibDense
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's value at an entry -/

/-- A [1, 16] row broadcast over 5000 rows reads, at (p, j), the row's entry j. -/
theorem rowb2_apply (v : FVec Ideal S1x16 .f32) (p : Fin 5000) (j : Fin 16) :
    broadcastTo S5000x16 v broadcasts_S1x16_S5000x16 (ix2 p j) = v (ix2 (0 : Fin 1) j) :=
  broadcastTo_1b_ab_apply v broadcasts_S1x16_S5000x16 p j

/-- The normalised, scaled, shifted and clamped entry (p, j) of a block x. -/
theorem bnrelu2_apply (x : FVec Ideal S5000x16 .f32) (var mean γ β : FVec Ideal S1x16 .f32) (p : Fin 5000) (j : Fin 16) :
    maximumf (addf (mulf (mulf (subf x (broadcastTo S5000x16 mean broadcasts_S1x16_S5000x16))
          (broadcastTo S5000x16 (rsqrt (addf var (broadcast S1x16 (Scalar.ofBits (F := Ideal) .f32 0x3727C5AC#32)))) broadcasts_S1x16_S5000x16))
          (broadcastTo S5000x16 γ broadcasts_S1x16_S5000x16)) (broadcastTo S5000x16 β broadcasts_S1x16_S5000x16))
        (broadcast S5000x16 (Scalar.ofBits (F := Ideal) .f32 0x00000000#32)) (ix2 p j)
      = max ((x (ix2 p j) - mean (ix2 (0 : Fin 1) j)) * Ideal.rsqrt (var (ix2 (0 : Fin 1) j) + Cert.Spec.cEps)
          * γ (ix2 (0 : Fin 1) j) + β (ix2 (0 : Fin 1) j)) 0 := by
  show max (((x (ix2 p j) - broadcastTo S5000x16 mean broadcasts_S1x16_S5000x16 (ix2 p j))
        * broadcastTo S5000x16 (rsqrt (addf var (broadcast S1x16 (Scalar.ofBits (F := Ideal) .f32 0x3727C5AC#32)))) broadcasts_S1x16_S5000x16 (ix2 p j))
        * broadcastTo S5000x16 γ broadcasts_S1x16_S5000x16 (ix2 p j) + broadcastTo S5000x16 β broadcasts_S1x16_S5000x16 (ix2 p j))
      (Ideal.ofBits .f32 0x00000000#32) = _
  rw [rowb2_apply, rowb2_apply, rowb2_apply, rowb2_apply, Ideal.ofBits_zero_f32]
  rfl

/-- The body's value at entry (p, c) of the block x: the sum over the 16 hidden positions of the clamped normalised
    entry times the weight's. -/
theorem k2_pay1_apply (x : Vec Ideal S5000x16 .f32) (var mean γ β : Vec Ideal S1x16 .f32) (W : Vec Ideal S16x8 .f32)
    (p : Fin 5000) (cc : Fin 8) :
    k2_pay1 (F := Ideal) x var mean γ β W (ix2 p cc)
      = ∑ j : Fin 16, max ((x (ix2 p j) - mean (ix2 (0 : Fin 1) j)) * Ideal.rsqrt (var (ix2 (0 : Fin 1) j) + Cert.Spec.cEps)
          * γ (ix2 (0 : Fin 1) j) + β (ix2 (0 : Fin 1) j)) 0 * W (ix2 j cc) := by
  unfold k2_pay1
  simp only [shapeCast_self]
  refine (Cert.LibDense.matmul_zero_plain dot_S5000x16_S16x8_S5000x8_1_0_0_1_n_n none rfl rfl
    (fun _ _ => rfl)
    (fun j q => dot_S5000x16_S16x8_S5000x8_1_0_0_1_n_n.lhsIdx_val_of_single (cl := 1) rfl j q)
    (fun j q => dot_S5000x16_S16x8_S5000x8_1_0_0_1_n_n.rhsIdx_val_of_single (cr := 0) rfl j q)
    (fun _ _ => rfl) _ _ p cc).trans ?_
  unfold Cert.LibDense.dense
  refine Finset.sum_congr rfl fun j _ => ?_
  refine congrArg (fun z => z * W (ix2 j cc)) ?_
  exact bnrelu2_apply x var mean γ β p j

end Cert.KernelIdeal.Hand

end
-- ==== Proof.KI.Val2.lean ====
/-
  THE NORMALISE-CLAMP-AND-SECOND-DENSE-LAYER REGION'S OUTPUT ARRAY, index by index, over the extended reals.

  Each of the 20 grid points loads 5000 rows of the [100000, 16] input, the four [1, 16] rows (mean, variance, scale,
  shift) and the whole [16, 8] weight. Entry (p, j) of the block is normalised, ((x - mean j) * rsqrt (variance j + eps))
  * scale j + shift j, clamped below at zero, and the clamped block is multiplied by the weight into a zero accumulator
  (the narrowing of the operands to 16-bit floats is the identity on extended reals): entry (p, c) of the result is
  the sum over the 16 hidden positions j of the clamped entry (p, j) times the weight's entry (j, c). A [1, 16] row
  broadcast over the 5000 rows reads its one row. The blocks tile the array (block t is rows 5000 t .. 5000 t + 4999,
  every other window's one block is its whole array), so the array after the region is that function of the arrays the
  region found, entry by entry.
-/
import proofs.«179341_j31447750542019_2_alg».proof.Proof.KI.Region2
import proofs.«179341_j31447750542019_2_alg».proof.Proof.Spec
import proofs.«179341_j31447750542019_2_alg».proof.Proof.KI.Pay2
import proofs.«179341_j31447750542019_2_alg».proof.Proof.LibEntry
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: at point t the input and the output are at block (t, 0), every
    other window at its one block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The input block at point t is rows 5000 t .. 5000 t + 4999 of the input array. -/
theorem iblk2_0_apply (c : Dev nD) (t : Fin cfg2.N) (p : Fin 5000) (j : Fin 16) (n : Fin 100000)
    (hn : n.val = t.val * 5000 + p.val) :
    (iblk2 V c 0 t : Vec Ideal S5000x16 .f32) (ix2 p j) = (V c main_v34 : S100000x16.Idx → EReal) (ix2 n j) := by
  obtain ⟨e0, e1, -⟩ := idx_facts2 t
  unfold iblk2
  rw [View.read_apply]
  show (V c main_v34 : S100000x16.Idx → EReal) _ = (V c main_v34 : S100000x16.Idx → EReal) _
  congr 1
  funext a
  apply Fin.ext
  match a with
  | ⟨0, _⟩ => show win2_0.index t (0 : Fin 2) * 5000 + 1 * p.val = n.val; omega
  | ⟨1, _⟩ => show win2_0.index t (1 : Fin 2) * 16 + 1 * j.val = j.val; omega

/-- The mean row's block at every point is the whole row. -/
theorem iblk2_1_apply (c : Dev nD) (t : Fin cfg2.N) (u : Fin 1) (j : Fin 16) :
    (iblk2 V c 1 t : Vec Ideal S1x16 .f32) (ix2 u j) = (V c main_v37 : S1x16.Idx → EReal) (ix2 u j) := by
  obtain ⟨-, -, e0, e1, -⟩ := idx_facts2 t
  unfold iblk2
  rw [View.read_apply]
  show (V c main_v37 : S1x16.Idx → EReal) _ = (V c main_v37 : S1x16.Idx → EReal) _
  congr 1
  funext a
  apply Fin.ext
  match a with
  | ⟨0, _⟩ => show win2_1.index t (0 : Fin 2) * 1 + 1 * u.val = u.val; omega
  | ⟨1, _⟩ => show win2_1.index t (1 : Fin 2) * 16 + 1 * j.val = j.val; omega

/-- The variance row's block at every point is the whole row. -/
theorem iblk2_2_apply (c : Dev nD) (t : Fin cfg2.N) (u : Fin 1) (j : Fin 16) :
    (iblk2 V c 2 t : Vec Ideal S1x16 .f32) (ix2 u j) = (V c main_v43 : S1x16.Idx → EReal) (ix2 u j) := by
  obtain ⟨-, -, -, -, e0, e1, -⟩ := idx_facts2 t
  unfold iblk2
  rw [View.read_apply]
  show (V c main_v43 : S1x16.Idx → EReal) _ = (V c main_v43 : S1x16.Idx → EReal) _
  congr 1
  funext a
  apply Fin.ext
  match a with
  | ⟨0, _⟩ => show win2_2.index t (0 : Fin 2) * 1 + 1 * u.val = u.val; omega
  | ⟨1, _⟩ => show win2_2.index t (1 : Fin 2) * 16 + 1 * j.val = j.val; omega

/-- The scale row's block at every point is the whole row. -/
theorem iblk2_3_apply (c : Dev nD) (t : Fin cfg2.N) (u : Fin 1) (j : Fin 16) :
    (iblk2 V c 3 t : Vec Ideal S1x16 .f32) (ix2 u j) = (V c main_v44 : S1x16.Idx → EReal) (ix2 u j) := by
  obtain ⟨-, -, -, -, -, -, e0, e1, -⟩ := idx_facts2 t
  unfold iblk2
  rw [View.read_apply]
  show (V c main_v44 : S1x16.Idx → EReal) _ = (V c main_v44 : S1x16.Idx → EReal) _
  congr 1
  funext a
  apply Fin.ext
  match a with
  | ⟨0, _⟩ => show win2_3.index t (0 : Fin 2) * 1 + 1 * u.val = u.val; omega
  | ⟨1, _⟩ => show win2_3.index t (1 : Fin 2) * 16 + 1 * j.val = j.val; omega

/-- The shift row's block at every point is the whole row. -/
theorem iblk2_4_apply (c : Dev nD) (t : Fin cfg2.N) (u : Fin 1) (j : Fin 16) :
    (iblk2 V c 4 t : Vec Ideal S1x16 .f32) (ix2 u j) = (V c main_v45 : S1x16.Idx → EReal) (ix2 u j) := by
  obtain ⟨-, -, -, -, -, -, -, -, e0, e1, -⟩ := idx_facts2 t
  unfold iblk2
  rw [View.read_apply]
  show (V c main_v45 : S1x16.Idx → EReal) _ = (V c main_v45 : S1x16.Idx → EReal) _
  congr 1
  funext a
  apply Fin.ext
  match a with
  | ⟨0, _⟩ => show win2_4.index t (0 : Fin 2) * 1 + 1 * u.val = u.val; omega
  | ⟨1, _⟩ => show win2_4.index t (1 : Fin 2) * 16 + 1 * j.val = j.val; omega

/-- The weight's block at every point is the whole weight. -/
theorem iblk2_5_apply (c : Dev nD) (t : Fin cfg2.N) (j : Fin 16) (cc : Fin 8) :
    (iblk2 V c 5 t : Vec Ideal S16x8 .f32) (ix2 j cc) = (V c main_arg5 : S16x8.Idx → EReal) (ix2 j cc) := by
  obtain ⟨-, -, -, -, -, -, -, -, -, -, e0, e1, -⟩ := idx_facts2 t
  unfold iblk2
  rw [View.read_apply]
  show (V c main_arg5 : S16x8.Idx → EReal) _ = (V c main_arg5 : S16x8.Idx → EReal) _
  congr 1
  funext a
  apply Fin.ext
  match a with
  | ⟨0, _⟩ => show win2_5.index t (0 : Fin 2) * 16 + 1 * j.val = j.val; omega
  | ⟨1, _⟩ => show win2_5.index t (1 : Fin 2) * 8 + 1 * cc.val = cc.val; omega

/-- What the output array ends holding: the second dense layer of the normalised, clamped input array, over the arrays
    the region found. -/
def G2 (a : S100000x16.Idx → EReal) (mean var γ β : S1x16.Idx → EReal) (W : S16x8.Idx → EReal) : S100000x8.Idx → EReal :=
  Cert.Spec.unc (Cert.Spec.lin2
    (fun n j => max ((a (ix2 n j) - mean (ix2 0 j)) * Ideal.rsqrt (var (ix2 0 j) + Cert.Spec.cEps) * γ (ix2 0 j) + β (ix2 0 j)) 0)
    (fun j c' => W (ix2 j c')))

/-- What point t writes back is block t of G2 of the arrays the region found. -/
theorem flushed2_eq (c : Dev nD) (t : Fin cfg2.N) :
    (dat2 (F := Ideal) V c).flushed 6 t = ((cfg2.win 6).blk t).view.read (Elt Ideal)
      (G2 (V c main_v34) (V c main_v37) (V c main_v43) (V c main_v44) (V c main_v45) (V c main_arg5)) := by
  show (cfg2.win 6).cut (grid2.coords t) ((dat2 (F := Ideal) V c).after 6 t) = _
  rw [after2_6]
  unfold out2_6
  rw [View.canon_unit_zero hz2]
  simp only [View.ld_unit_zero (S := S5000x16) hz2, View.ld_unit_zero (S := S1x16) hz2, View.ld_unit_zero (S := S16x8) hz2]
  obtain ⟨-, -, -, -, -, -, -, -, -, -, -, -, e12, e13⟩ := idx_facts2 t
  have ht : t.val < 20 := lt_of_lt_of_eq t.isLt N_2
  funext y
  obtain ⟨p, cc, rfl⟩ : ∃ (p : Fin 5000) (cc : Fin 8), y = ix2 p cc := ⟨y 0, y 1, eq_ix2 y⟩
  show k2_pay1 (F := Ideal) (iblk2 V c 0 t) (iblk2 V c 2 t) (iblk2 V c 1 t) (iblk2 V c 3 t) (iblk2 V c 4 t) (iblk2 V c 5 t) (ix2 p cc)
    = G2 (V c main_v34) (V c main_v37) (V c main_v43) (V c main_v44) (V c main_v45) (V c main_arg5)
        (((cfg2.win 6).blk t).view.emb (ix2 p cc))
  have hn : t.val * 5000 + p.val < 100000 := by have := p.isLt; omega
  have hemb : ((cfg2.win 6).blk t).view.emb (ix2 p cc)
      = (ix2 (⟨t.val * 5000 + p.val, hn⟩ : Fin 100000) cc : S100000x8.Idx) := by
    funext a; apply Fin.ext
    match a with
    | ⟨0, _⟩ => show win2_6.index t (0 : Fin 2) * 5000 + 1 * p.val = t.val * 5000 + p.val; omega
    | ⟨1, _⟩ => show win2_6.index t (1 : Fin 2) * 8 + 1 * cc.val = cc.val; omega
  refine Eq.trans ?_ (congrArg
    (G2 (V c main_v34) (V c main_v37) (V c main_v43) (V c main_v44) (V c main_v45) (V c main_arg5)) hemb).symm
  refine (k2_pay1_apply _ _ _ _ _ _ p cc).trans ?_
  show _ = Cert.Spec.lin2
          (fun n j => max ((entry (S := S100000x16) (V c main_v34) (ix2 n j) - entry (S := S1x16) (V c main_v37) (ix2 (0 : Fin 1) j))
            * Ideal.rsqrt (entry (S := S1x16) (V c main_v43) (ix2 (0 : Fin 1) j) + Cert.Spec.cEps)
            * entry (S := S1x16) (V c main_v44) (ix2 (0 : Fin 1) j) + entry (S := S1x16) (V c main_v45) (ix2 (0 : Fin 1) j)) 0)
          (fun j c' => entry (S := S16x8) (V c main_arg5) (ix2 j c')) ⟨t.val * 5000 + p.val, hn⟩ cc
  unfold Cert.Spec.lin2
  refine Finset.sum_congr rfl fun j _ => ?_
  rw [iblk2_0_apply V c t p j ⟨t.val * 5000 + p.val, hn⟩ rfl, iblk2_1_apply V c t 0 j, iblk2_2_apply V c t 0 j,
    iblk2_3_apply V c t 0 j, iblk2_4_apply V c t 0 j, iblk2_5_apply V c t j cc]

/-- Every entry of the array is in the block of the point its row falls in. -/
theorem cover2 (i : S100000x8.Idx) :
    ∃ t : Fin cfg2.N, (cfg2.win 6).flush t = true ∧ i ∈ ((cfg2.win 6).blk t).view.set := by
  have hi0 : (i 0).val < 100000 := idx2_lt0 i
  have hi1 : (i 1).val < 8 := idx2_lt1 i
  have hN : cfg2.N = 20 := N_2
  have htl : (i 0).val / 5000 < cfg2.N := by rw [hN]; omega
  refine ⟨⟨(i 0).val / 5000, htl⟩, flush2_6 _, ?_⟩
  obtain ⟨-, -, -, -, -, -, -, -, -, -, -, -, e12, e13⟩ := idx_facts2 ⟨(i 0).val / 5000, htl⟩
  have e12' : win2_6.index ⟨(i 0).val / 5000, htl⟩ (0 : Fin 2) = (i 0).val / 5000 := e12
  show i ∈ ((View.whole main_v46).slice (win2_6.rect ⟨(i 0).val / 5000, htl⟩)).set
  rw [View.set_slice_whole, Rect.mem_set_unit]
  intro a
  match a with
  | ⟨0, _⟩ =>
    show win2_6.index ⟨(i 0).val / 5000, htl⟩ (0 : Fin 2) * 5000 ≤ (i 0).val
      ∧ (i 0).val < win2_6.index ⟨(i 0).val / 5000, htl⟩ (0 : Fin 2) * 5000 + 5000
    omega
  | ⟨1, _⟩ =>
    show win2_6.index ⟨(i 0).val / 5000, htl⟩ (1 : Fin 2) * 8 ≤ (i 1).val
      ∧ (i 1).val < win2_6.index ⟨(i 0).val / 5000, htl⟩ (1 : Fin 2) * 8 + 8
    omega

/-- The output array after the region, as one function of the arrays the region found. -/
theorem final2 (c : Dev nD) : (dat2 (F := Ideal) V c).arrAt 6 cfg2.N
    = G2 (V c main_v34) (V c main_v37) (V c main_v43) (V c main_v44) (V c main_v45) (V c main_arg5) :=
  (dat2 (F := Ideal) V c).arrAt_eq_of_cover 6
    (G2 (V c main_v34) (V c main_v37) (V c main_v43) (V c main_v44) (V c main_v45) (V c main_arg5))
    (fun t _ => flushed2_eq V c t) cover2

/-- The output array after the region, entry by entry. -/
theorem arr2 (c : Dev nD) (n : Fin 100000) (cc : Fin 8) :
    (dat2 (F := Ideal) V c).arrAt 6 cfg2.N (ix2 n cc)
      = Cert.Spec.lin2
          (fun n j => max ((entry (S := S100000x16) (V c main_v34) (ix2 n j) - entry (S := S1x16) (V c main_v37) (ix2 (0 : Fin 1) j))
            * Ideal.rsqrt (entry (S := S1x16) (V c main_v43) (ix2 (0 : Fin 1) j) + Cert.Spec.cEps)
            * entry (S := S1x16) (V c main_v44) (ix2 (0 : Fin 1) j) + entry (S := S1x16) (V c main_v45) (ix2 (0 : Fin 1) j)) 0)
          (fun j c' => entry (S := S16x8) (V c main_arg5) (ix2 j c')) n cc :=
  congrFun (final2 V c) (ix2 n cc)

end Cert.KernelIdeal.Hand

end
-- ==== Proof.KI.Value.lean ====
/- THE KERNEL PROGRAM'S RESULT AS THE SPECIFICATION'S FUNCTION of the launched arguments (the ideal instance).

   Read from the end: the result array is the last region's, the row-wise log-softmax of the array it reads; that
   array is the fourth host stretch's aggregation of the third region's array, the second dense layer of the
   normalised first layer; the normalisation's mean and variance are the third host stretch's, of the column sums
   and column sums of squares the second region leaves; the first layer is the second host stretch's aggregation of
   the first region's array, the first dense layer of the features; and the per-node factor and the edge columns are
   the first host stretch's, of the edge array. Between these stages every buffer a stage reads is carried unchanged.
   Each stage is one lemma; here they are joined, argument by argument, without opening any of them. -/
import proofs.«179341_j31447750542019_2_alg».proof.Proof.KI.RunFold
import proofs.«179341_j31447750542019_2_alg».proof.Proof.KI.ValueCarry
import proofs.«179341_j31447750542019_2_alg».proof.Proof.KI.Region1Value
import proofs.«179341_j31447750542019_2_alg».proof.Proof.KI.Val0
import proofs.«179341_j31447750542019_2_alg».proof.Proof.KI.Val3
import proofs.«179341_j31447750542019_2_alg».proof.Proof.KI.HostValC
import proofs.«179341_j31447750542019_2_alg».proof.Proof.KI.HostValA
import proofs.«179341_j31447750542019_2_alg».proof.Proof.KI.HostValB
import proofs.«179341_j31447750542019_2_alg».proof.Proof.KI.HostValD
import proofs.«179341_j31447750542019_2_alg».proof.Proof.KI.Val2
import proofs.«179341_j31447750542019_2_alg».proof.Proof.Spec
import proofs.«179341_j31447750542019_2_alg».proof.Proof.SpecEdges
import proofs.«179341_j31447750542019_2_alg».proof.Proof.LibEntry
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

/-! ## The arguments as the specification reads them -/

section Args
variable (m : (ℓ : Loc nD τ sig) → Buf (Elt Ideal) ℓ) (c : Dev nD)

/-- A rank-2 buffer of extended reals by row and column; a rank-1 buffer by entry. -/
abbrev r2 {a b : Nat} (f : (⟨2, ![a, b]⟩ : Shape).Idx → EReal) : Cert.Spec.M a b := fun n k => f (ix2 n k)
abbrev r1 {a : Nat} (f : (⟨1, ![a]⟩ : Shape).Idx → EReal) : Fin a → EReal := fun j => f (ix1 j)

/-- The edge array, the features, the two layers' weights and biases, the normalisation's scale and shift. -/
def argEi : Cert.Spec.EdgeArr := m ((c : Thread nD τ).loc main_arg7)
def argX : Cert.Spec.M 100000 128 := r2 (m ((c : Thread nD τ).loc main_arg0) : S100000x128.Idx → EReal)
def argW1 : Cert.Spec.M 128 16 := r2 (m ((c : Thread nD τ).loc main_arg1) : S128x16.Idx → EReal)
def argB1 : Fin 16 → EReal := r1 (m ((c : Thread nD τ).loc main_arg2) : S16.Idx → EReal)
def argG : Fin 16 → EReal := r1 (m ((c : Thread nD τ).loc main_arg3) : S16.Idx → EReal)
def argBt : Fin 16 → EReal := r1 (m ((c : Thread nD τ).loc main_arg4) : S16.Idx → EReal)
def argW2 : Cert.Spec.M 16 8 := r2 (m ((c : Thread nD τ).loc main_arg5) : S16x8.Idx → EReal)
def argB2 : Fin 8 → EReal := r1 (m ((c : Thread nD τ).loc main_arg6) : S8.Idx → EReal)

/-- The per-node factor and the two edge columns, of the edge array. -/
def argDv : Fin 100000 → EReal := Cert.Spec.dvOf scatter_S100000_S3300000x1_S3300000_n_0_0_1_wf (argEi m c)
def argSw : Cert.Spec.ICol := Cert.Spec.swOf (argEi m c)
def argDc : Cert.Spec.ICol := Cert.Spec.dcolOf (argEi m c)
end Args

/-! ## The chain -/

section Chain
variable (m : (ℓ : Loc nD τ sig) → Buf (Elt Ideal) ℓ) (ρ : Dev nD → PrngReg) (c : Dev nD)

/-- An aggregation depends on its five arguments only. -/
theorem aggK_congr {C : Nat} (wfg) (wfs) {A A' : Fin 100000 → EReal} {B B' D D' : Cert.Spec.ICol} {H H' : Cert.Spec.M 100000 C}
    {E E' : Fin C → EReal} (hA : A = A') (hB : B = B') (hD : D = D') (hH : H = H') (hE : E = E') (n : Fin 100000) (k : Fin C) :
    Cert.Spec.aggK (C := C) wfg wfs A B D H E n k = Cert.Spec.aggK (C := C) wfg wfs A' B' D' H' E' n k := by
  subst hA hB hD hH hE; rfl

/-- After the first two host stretches: the per-node factor and the two raw edge lists, of the launched edge array. -/
theorem dv2 (n : Fin 100000) : (W2 m ρ c (Proc.devRef .tc main_v14) : S100000.Idx → EReal) (ix1 n) = argDv m c n :=
  hostA_dv (W0 m ρ c) n
theorem src2 : (W2 m ρ c (Proc.devRef .tc main_v3) : S3300000.Idx → BitVec 32) = Cert.Spec.srcRaw (argEi m c) :=
  hostA_src (W0 m ρ c)
theorem dst2 : (W2 m ρ c (Proc.devRef .tc main_v6) : S3300000.Idx → BitVec 32) = Cert.Spec.dstRaw (argEi m c) :=
  hostA_dst (W0 m ρ c)

/-- The first aggregated layer, as the second region reads it. -/
theorem h1_eq (n : Fin 100000) (j : Fin 16) :
    (W4 m ρ c (Proc.devRef .tc main_v34) : S100000x16.Idx → EReal) (ix2 n j)
      = Cert.Spec.h1K gather_S100000x16_S3300000x1_S3300000x16_1_0_n_n_0_1_116_wf scatter_S100000x16_S3300000x1_S3300000x16_1_0_0_1_wf (argDv m c) (argSw m c) (argDc m c) (argX m c) (argW1 m c) (argB1 m c) n j := by
  refine (hostB_agg (W3 m ρ c) n j).trans ?_
  unfold Cert.Spec.h1K
  refine aggK_congr _ _ ?_ ?_ ?_ ?_ ?_ n j
  · exact funext fun n => (congrFun (W3_v14 m ρ c) (ix1 n)).trans (dv2 m ρ c n)
  · exact congrArg (fun v : S3300000.Idx → BitVec 32 => Cert.Spec.colOf (fun e => Cert.Spec.wrapI (v e))) ((W3_v3 m ρ c).trans (src2 m ρ c))
  · exact congrArg (fun v : S3300000.Idx → BitVec 32 => Cert.Spec.colOf v) ((W3_v6 m ρ c).trans (dst2 m ρ c))
  · refine funext fun n => funext fun j => (congrFun (W3_arr m ρ c 2) (ix2 n j)).trans ((arr0 (V2 m ρ) c n j).trans ?_)
    exact congrArg₂ (fun a b => Cert.Spec.lin1 a b n j)
      (funext fun n => funext fun k => congrFun (W2_arg0 m ρ c) (ix2 n k))
      (funext fun k => funext fun j => congrFun (W2_arg1 m ρ c) (ix2 k j))
  · exact funext fun j => congrFun (W3_arg2 m ρ c) (ix1 j)

end Chain

section Chain2
variable (m : (ℓ : Loc nD τ sig) → Buf (Elt Ideal) ℓ) (ρ : Dev nD → PrngReg) (c : Dev nD)

/-- The first aggregated layer of the specification, of the launched arguments. -/
abbrev specH1 : Cert.Spec.M 100000 16 :=
  Cert.Spec.h1K gather_S100000x16_S3300000x1_S3300000x16_1_0_n_n_0_1_116_wf scatter_S100000x16_S3300000x1_S3300000x16_1_0_0_1_wf (argDv m c) (argSw m c) (argDc m c) (argX m c) (argW1 m c) (argB1 m c)

/-- The second region leaves the column sums and the column sums of squares of that layer. -/
theorem sum1_eq (j : Fin 16) :
    (W5 m ρ c (Proc.devRef .tc main_v35_0) : S1x16.Idx → EReal) (ix2 (0 : Fin 1) j) = ∑ n : Fin 100000, specH1 m c n j :=
  (congrFun (W5_arr m ρ c 1) (ix2 (0 : Fin 1) j)).trans
    ((arr1_1 (V4 m ρ) c j).trans (Finset.sum_congr rfl fun n _ => h1_eq m ρ c n j))
theorem sum2_eq (j : Fin 16) :
    (W5 m ρ c (Proc.devRef .tc main_v35_1) : S1x16.Idx → EReal) (ix2 (0 : Fin 1) j)
      = ∑ n : Fin 100000, specH1 m c n j * specH1 m c n j :=
  (congrFun (W5_arr m ρ c 2) (ix2 (0 : Fin 1) j)).trans
    ((arr1_2 (V4 m ρ) c j).trans (Finset.sum_congr rfl fun n _ => congrArg₂ (· * ·) (h1_eq m ρ c n j) (h1_eq m ρ c n j)))

/-- What the third region reads: the layer, its mean, its variance, the scale and the shift. -/
theorem v34_6 (n : Fin 100000) (j : Fin 16) : entry (S := S100000x16) (V6 m ρ c main_v34) (ix2 n j) = specH1 m c n j :=
  (congrFun (W6_v34 m ρ c) (ix2 n j)).trans (h1_eq m ρ c n j)
theorem mean_6 (j : Fin 16) : entry (S := S1x16) (V6 m ρ c main_v37) (ix2 (0 : Fin 1) j) = Cert.Spec.mean (specH1 m c) j := by
  refine (hostC_mean (W5 m ρ c) j).trans ?_
  unfold Cert.Spec.mean
  exact congrArg (fun s => Ideal.div s Cert.Spec.cN) (sum1_eq m ρ c j)
theorem var_6 (j : Fin 16) : entry (S := S1x16) (V6 m ρ c main_v43) (ix2 (0 : Fin 1) j) = Cert.Spec.varK (specH1 m c) j := by
  refine (hostC_var (W5 m ρ c) j).trans ?_
  unfold Cert.Spec.varK Cert.Spec.mean
  exact congrArg₂ (fun s1 s2 => max (Ideal.div s2 Cert.Spec.cN - Ideal.div s1 Cert.Spec.cN * Ideal.div s1 Cert.Spec.cN) 0)
    (sum1_eq m ρ c j) (sum2_eq m ρ c j)
theorem scale_6 (j : Fin 16) : entry (S := S1x16) (V6 m ρ c main_v44) (ix2 (0 : Fin 1) j) = argG m c j :=
  (hostC_scale (W5 m ρ c) j).trans (congrFun (W5_arg3 m ρ c) (ix1 j))
theorem shift_6 (j : Fin 16) : entry (S := S1x16) (V6 m ρ c main_v45) (ix2 (0 : Fin 1) j) = argBt m c j :=
  (hostC_shift (W5 m ρ c) j).trans (congrFun (W5_arg4 m ρ c) (ix1 j))

/-- So the normalised, clamped layer the third region multiplies is the specification's. -/
theorem bn_eq (n : Fin 100000) (j : Fin 16) :
    max ((entry (S := S100000x16) (V6 m ρ c main_v34) (ix2 n j) - entry (S := S1x16) (V6 m ρ c main_v37) (ix2 (0 : Fin 1) j))
        * Ideal.rsqrt (entry (S := S1x16) (V6 m ρ c main_v43) (ix2 (0 : Fin 1) j) + Cert.Spec.cEps)
        * entry (S := S1x16) (V6 m ρ c main_v44) (ix2 (0 : Fin 1) j) + entry (S := S1x16) (V6 m ρ c main_v45) (ix2 (0 : Fin 1) j)) 0
      = Cert.Spec.bn (Cert.Spec.varK (specH1 m c)) (specH1 m c) (argG m c) (argBt m c) n j := by
  rw [v34_6, mean_6, var_6, scale_6, shift_6]
  rfl

/-- The second dense layer, as the fourth host stretch reads it. -/
theorem v46_eq (n : Fin 100000) (cc : Fin 8) :
    (W7 m ρ c (Proc.devRef .tc main_v46) : S100000x8.Idx → EReal) (ix2 n cc)
      = Cert.Spec.lin2 (Cert.Spec.bn (Cert.Spec.varK (specH1 m c)) (specH1 m c) (argG m c) (argBt m c)) (argW2 m c) n cc := by
  refine (congrFun (W7_arr m ρ c 6) (ix2 n cc)).trans ((arr2 (V6 m ρ) c n cc).trans ?_)
  exact congrArg₂ (fun a b => Cert.Spec.lin2 a b n cc)
    (funext fun n => funext fun j => bn_eq m ρ c n j)
    (funext fun j => funext fun c' => congrFun (W6_arg5 m ρ c) (ix2 j c'))

/-- The second aggregated layer, as the last region reads it. -/
theorem v65_eq (n : Fin 100000) (cc : Fin 8) :
    (W8 m ρ c (Proc.devRef .tc main_v65) : S100000x8.Idx → EReal) (ix2 n cc)
      = Cert.Spec.aggK gather_S100000x8_S3300000x1_S3300000x8_1_0_n_n_0_1_18_wf scatter_S100000x8_S3300000x1_S3300000x8_1_0_0_1_wf (argDv m c) (argSw m c) (argDc m c)
          (Cert.Spec.lin2 (Cert.Spec.bn (Cert.Spec.varK (specH1 m c)) (specH1 m c) (argG m c) (argBt m c)) (argW2 m c)) (argB2 m c) n cc := by
  refine (hostD_agg (W7 m ρ c) n cc).trans ?_
  refine aggK_congr _ _ ?_ ?_ ?_ ?_ ?_ n cc
  · exact funext fun n => (congrFun (W7_v14 m ρ c) (ix1 n)).trans (dv2 m ρ c n)
  · exact congrArg (fun v : S3300000.Idx → BitVec 32 => Cert.Spec.colOf (fun e => Cert.Spec.wrapI (v e))) ((W7_v3 m ρ c).trans (src2 m ρ c))
  · exact congrArg (fun v : S3300000.Idx → BitVec 32 => Cert.Spec.colOf v) ((W7_v6 m ρ c).trans (dst2 m ρ c))
  · exact funext fun n => funext fun c' => v46_eq m ρ c n c'
  · exact funext fun j => congrFun (W7_arg6 m ρ c) (ix1 j)

/-- THE KERNEL PROGRAM'S RESULT is the specification's function of the launched arguments, entry by entry. -/
theorem kernel_value (n : Fin 100000) (cc : Fin 8) :
    entry (S := S100000x8) (W9 m ρ c (Proc.devRef .tc main_v66)) (ix2 n cc)
      = Cert.Spec.outK gather_S100000x16_S3300000x1_S3300000x16_1_0_n_n_0_1_116_wf scatter_S100000x16_S3300000x1_S3300000x16_1_0_0_1_wf gather_S100000x8_S3300000x1_S3300000x8_1_0_n_n_0_1_18_wf scatter_S100000x8_S3300000x1_S3300000x8_1_0_0_1_wf (argDv m c) (argSw m c) (argDc m c)
          (argX m c) (argW1 m c) (argB1 m c) (argG m c) (argBt m c) (argW2 m c) (argB2 m c) n cc := by
  refine (congrFun (W9_arr m ρ c 1) (ix2 n cc)).trans ((arr3 (V8 m ρ) c n cc).trans ?_)
  unfold Cert.Spec.outK
  exact congrArg (fun h => Cert.Spec.lsm h n cc) (funext fun n => funext fun c' => v65_eq m ρ c n c')

end Chain2

section Chain3
variable (m : (ℓ : Loc nD τ sig) → Buf (Elt Ideal) ℓ) (ρ : Dev nD → PrngReg) (c : Dev nD)

/-- The same, with the result array read as a function to the extended reals. -/
theorem kernel_value' (n : Fin 100000) (cc : Fin 8) :
    (W9 m ρ c (Proc.devRef .tc main_v66) : S100000x8.Idx → EReal) (ix2 n cc)
      = Cert.Spec.outK gather_S100000x16_S3300000x1_S3300000x16_1_0_n_n_0_1_116_wf scatter_S100000x16_S3300000x1_S3300000x16_1_0_0_1_wf gather_S100000x8_S3300000x1_S3300000x8_1_0_n_n_0_1_18_wf scatter_S100000x8_S3300000x1_S3300000x8_1_0_0_1_wf (argDv m c) (argSw m c) (argDc m c)
          (argX m c) (argW1 m c) (argB1 m c) (argG m c) (argBt m c) (argW2 m c) (argB2 m c) n cc :=
  kernel_value m ρ c n cc

end Chain3

end Cert.KernelIdeal.Hand

end
-- ==== Proof.Ref.Stage0.lean ====
/- THE REFERENCE PROGRAM READ BUFFER BY BUFFER, stretch 0 of three: the contents each buffer of the stretch ends
   with, as its operation's function of the final contents of the operation's operands (every buffer is written
   once, its operands earlier or never). -/
import proofs.«179341_j31447750542019_2_alg».proof.Proof.Ref.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: an operation's function is carried as it is
attribute [local irreducible] Host.reduce Host.reduceAdd Host.gather Host.scatterAdd

theorem st_main_v0 (V : Valuation τ sig (Elt F)) :
    after ops V (Proc.devRef .tc main_v0) = (((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) : (⟨S100000x128, .f32⟩ : BufTy).Contents (Elt F) → (⟨S128x16, .f32⟩ : BufTy).Contents (Elt F) → (⟨S100000x16, .f32⟩ : BufTy).Contents (Elt F)) (after ops V (Proc.devRef .tc main_arg0)) (after ops V (Proc.devRef .tc main_arg1)) := by
  rw [← Cert.Line.before_eq ops_writes 0 (a := main_arg0) (by decide) V, ← Cert.Line.before_eq ops_writes 0 (a := main_arg1) (by decide) V]
  refine (Cert.Line.at_written ops_writes 0 _ rfl (by decide) V).trans ?_
  generalize after (List.take 0 ops) V = W
  exact binary_result ..

theorem st_main_v1 (V : Valuation τ sig (Elt F)) :
    after ops V (Proc.devRef .tc main_v1) = ((iotaInDim S100000 32 0) : (⟨S100000, .i32⟩ : BufTy).Contents (Elt F)) := by
  refine (Cert.Line.at_written ops_writes 1 _ rfl (by decide) V).trans ?_
  generalize after (List.take 1 ops) V = W
  exact nullary_result ..

theorem st_main_v2 (V : Valuation τ sig (Elt F)) :
    after ops V (Proc.devRef .tc main_v2) = (((extractStridedSlice S1x3200000 ![0, 0] · slices_S2x3200000_S1x3200000_0_0) : (⟨S2x3200000, .i32⟩ : BufTy).Contents (Elt F) → (⟨S1x3200000, .i32⟩ : BufTy).Contents (Elt F)) : (⟨S2x3200000, .i32⟩ : BufTy).Contents (Elt F) → (⟨S1x3200000, .i32⟩ : BufTy).Contents (Elt F)) (after ops V (Proc.devRef .tc main_arg7)) := by
  rw [← Cert.Line.before_eq ops_writes 2 (a := main_arg7) (by decide) V]
  refine (Cert.Line.at_written ops_writes 2 _ rfl (by decide) V).trans ?_
  generalize after (List.take 2 ops) V = W
  exact unary_result ..

theorem st_main_v3 (V : Valuation τ sig (Elt F)) :
    after ops V (Proc.devRef .tc main_v3) = shapeCast S3200000 (after ops V (Proc.devRef .tc main_v2)) shapeCasts_S1x3200000_S3200000 := by
  rw [← Cert.Line.before_eq ops_writes 3 (a := main_v2) (by decide) V]
  refine (Cert.Line.at_written ops_writes 3 _ rfl (by decide) V).trans ?_
  generalize after (List.take 3 ops) V = W
  exact reshape_result ..

theorem st_main_v4 (V : Valuation τ sig (Elt F)) :
    after ops V (Proc.devRef .tc main_v4) = (((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) : (⟨S3200000, .i32⟩ : BufTy).Contents (Elt F) → (⟨S100000, .i32⟩ : BufTy).Contents (Elt F) → (⟨S3300000, .i32⟩ : BufTy).Contents (Elt F)) (after ops V (Proc.devRef .tc main_v3)) (after ops V (Proc.devRef .tc main_v1)) := by
  rw [← Cert.Line.before_eq ops_writes 4 (a := main_v3) (by decide) V, ← Cert.Line.before_eq ops_writes 4 (a := main_v1) (by decide) V]
  refine (Cert.Line.at_written ops_writes 4 _ rfl (by decide) V).trans ?_
  generalize after (List.take 4 ops) V = W
  exact binary_result ..

theorem st_main_v5 (V : Valuation τ sig (Elt F)) :
    after ops V (Proc.devRef .tc main_v5) = (((extractStridedSlice S1x3200000 ![1, 0] · slices_S2x3200000_S1x3200000_1_0) : (⟨S2x3200000, .i32⟩ : BufTy).Contents (Elt F) → (⟨S1x3200000, .i32⟩ : BufTy).Contents (Elt F)) : (⟨S2x3200000, .i32⟩ : BufTy).Contents (Elt F) → (⟨S1x3200000, .i32⟩ : BufTy).Contents (Elt F)) (after ops V (Proc.devRef .tc main_arg7)) := by
  rw [← Cert.Line.before_eq ops_writes 5 (a := main_arg7) (by decide) V]
  refine (Cert.Line.at_written ops_writes 5 _ rfl (by decide) V).trans ?_
  generalize after (List.take 5 ops) V = W
  exact unary_result ..

theorem st_main_v6 (V : Valuation τ sig (Elt F)) :
    after ops V (Proc.devRef .tc main_v6) = shapeCast S3200000 (after ops V (Proc.devRef .tc main_v5)) shapeCasts_S1x3200000_S3200000 := by
  rw [← Cert.Line.before_eq ops_writes 6 (a := main_v5) (by decide) V]
  refine (Cert.Line.at_written ops_writes 6 _ rfl (by decide) V).trans ?_
  generalize after (List.take 6 ops) V = W
  exact reshape_result ..

theorem st_main_v7 (V : Valuation τ sig (Elt F)) :
    after ops V (Proc.devRef .tc main_v7) = (((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) : (⟨S3200000, .i32⟩ : BufTy).Contents (Elt F) → (⟨S100000, .i32⟩ : BufTy).Contents (Elt F) → (⟨S3300000, .i32⟩ : BufTy).Contents (Elt F)) (after ops V (Proc.devRef .tc main_v6)) (after ops V (Proc.devRef .tc main_v1)) := by
  rw [← Cert.Line.before_eq ops_writes 7 (a := main_v6) (by decide) V, ← Cert.Line.before_eq ops_writes 7 (a := main_v1) (by decide) V]
  refine (Cert.Line.at_written ops_writes 7 _ rfl (by decide) V).trans ?_
  generalize after (List.take 7 ops) V = W
  exact binary_result ..

theorem st_main_cst (V : Valuation τ sig (Elt F)) :
    after ops V (Proc.devRef .tc main_cst) = ((constant (F := F) S_ .f32 0x3F800000#32) : (⟨S_, .f32⟩ : BufTy).Contents (Elt F)) := by
  refine (Cert.Line.at_written ops_writes 8 _ rfl (by decide) V).trans ?_
  generalize after (List.take 8 ops) V = W
  exact nullary_result ..

theorem st_main_v8 (V : Valuation τ sig (Elt F)) :
    after ops V (Proc.devRef .tc main_v8) = ((broadcastInDim S3300000 ![] bcast_S_S3300000 : (⟨S_, .f32⟩ : BufTy).Contents (Elt F) → (⟨S3300000, .f32⟩ : BufTy).Contents (Elt F)) : (⟨S_, .f32⟩ : BufTy).Contents (Elt F) → (⟨S3300000, .f32⟩ : BufTy).Contents (Elt F)) (after ops V (Proc.devRef .tc main_cst)) := by
  rw [← Cert.Line.before_eq ops_writes 9 (a := main_cst) (by decide) V]
  refine (Cert.Line.at_written ops_writes 9 _ rfl (by decide) V).trans ?_
  generalize after (List.take 9 ops) V = W
  exact unary_result ..

theorem st_main_cst_0 (V : Valuation τ sig (Elt F)) :
    after ops V (Proc.devRef .tc main_cst_0) = ((constant (F := F) S_ .f32 0x00000000#32) : (⟨S_, .f32⟩ : BufTy).Contents (Elt F)) := by
  refine (Cert.Line.at_written ops_writes 10 _ rfl (by decide) V).trans ?_
  generalize after (List.take 10 ops) V = W
  exact nullary_result ..

theorem st_main_v9 (V : Valuation τ sig (Elt F)) :
    after ops V (Proc.devRef .tc main_v9) = ((broadcastInDim S100000 ![] bcast_S_S100000 : (⟨S_, .f32⟩ : BufTy).Contents (Elt F) → (⟨S100000, .f32⟩ : BufTy).Contents (Elt F)) : (⟨S_, .f32⟩ : BufTy).Contents (Elt F) → (⟨S100000, .f32⟩ : BufTy).Contents (Elt F)) (after ops V (Proc.devRef .tc main_cst_0)) := by
  rw [← Cert.Line.before_eq ops_writes 11 (a := main_cst_0) (by decide) V]
  refine (Cert.Line.at_written ops_writes 11 _ rfl (by decide) V).trans ?_
  generalize after (List.take 11 ops) V = W
  exact unary_result ..

theorem st_main_v10 (V : Valuation τ sig (Elt F)) :
    after ops V (Proc.devRef .tc main_v10) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v7)) := by
  rw [← Cert.Line.before_eq ops_writes 12 (a := main_v7) (by decide) V]
  refine (Cert.Line.at_written ops_writes 12 _ rfl (by decide) V).trans ?_
  generalize after (List.take 12 ops) V = W
  exact unary_result ..

theorem st_main_v11 (V : Valuation τ sig (Elt F)) :
    after ops V (Proc.devRef .tc main_v11) = (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (after ops V (Proc.devRef .tc main_v9)) (after ops V (Proc.devRef .tc main_v10)) (after ops V (Proc.devRef .tc main_v8)) := by
  rw [← Cert.Line.before_eq ops_writes 13 (a := main_v9) (by decide) V, ← Cert.Line.before_eq ops_writes 13 (a := main_v10) (by decide) V, ← Cert.Line.before_eq ops_writes 13 (a := main_v8) (by decide) V]
  refine (Cert.Line.at_written ops_writes 13 _ rfl (by decide) V).trans ?_
  generalize after (List.take 13 ops) V = W
  exact ternary_result ..

theorem st_main_cst_1 (V : Valuation τ sig (Elt F)) :
    after ops V (Proc.devRef .tc main_cst_1) = ((constant (F := F) S_ .f32 0x00000000#32) : (⟨S_, .f32⟩ : BufTy).Contents (Elt F)) := by
  refine (Cert.Line.at_written ops_writes 14 _ rfl (by decide) V).trans ?_
  generalize after (List.take 14 ops) V = W
  exact nullary_result ..

theorem st_main_v12 (V : Valuation τ sig (Elt F)) :
    after ops V (Proc.devRef .tc main_v12) = ((broadcastInDim S100000 ![] bcast_S_S100000 : (⟨S_, .f32⟩ : BufTy).Contents (Elt F) → (⟨S100000, .f32⟩ : BufTy).Contents (Elt F)) : (⟨S_, .f32⟩ : BufTy).Contents (Elt F) → (⟨S100000, .f32⟩ : BufTy).Contents (Elt F)) (after ops V (Proc.devRef .tc main_cst_1)) := by
  rw [← Cert.Line.before_eq ops_writes 15 (a := main_cst_1) (by decide) V]
  refine (Cert.Line.at_written ops_writes 15 _ rfl (by decide) V).trans ?_
  generalize after (List.take 15 ops) V = W
  exact unary_result ..

theorem st_main_v13 (V : Valuation τ sig (Elt F)) :
    after ops V (Proc.devRef .tc main_v13) = ((cmpf .ogt : (⟨S100000, .f32⟩ : BufTy).Contents (Elt F) → (⟨S100000, .f32⟩ : BufTy).Contents (Elt F) → (⟨S100000, .i1⟩ : BufTy).Contents (Elt F)) : (⟨S100000, .f32⟩ : BufTy).Contents (Elt F) → (⟨S100000, .f32⟩ : BufTy).Contents (Elt F) → (⟨S100000, .i1⟩ : BufTy).Contents (Elt F)) (after ops V (Proc.devRef .tc main_v11)) (after ops V (Proc.devRef .tc main_v12)) := by
  rw [← Cert.Line.before_eq ops_writes 16 (a := main_v11) (by decide) V, ← Cert.Line.before_eq ops_writes 16 (a := main_v12) (by decide) V]
  refine (Cert.Line.at_written ops_writes 16 _ rfl (by decide) V).trans ?_
  generalize after (List.take 16 ops) V = W
  exact binary_result ..

theorem st_main_v14 (V : Valuation τ sig (Elt F)) :
    after ops V (Proc.devRef .tc main_v14) = ((Host.rsqrt : (⟨S100000, .f32⟩ : BufTy).Contents (Elt F) → (⟨S100000, .f32⟩ : BufTy).Contents (Elt F)) : (⟨S100000, .f32⟩ : BufTy).Contents (Elt F) → (⟨S100000, .f32⟩ : BufTy).Contents (Elt F)) (after ops V (Proc.devRef .tc main_v11)) := by
  rw [← Cert.Line.before_eq ops_writes 17 (a := main_v11) (by decide) V]
  refine (Cert.Line.at_written ops_writes 17 _ rfl (by decide) V).trans ?_
  generalize after (List.take 17 ops) V = W
  exact unary_result ..

theorem st_main_cst_2 (V : Valuation τ sig (Elt F)) :
    after ops V (Proc.devRef .tc main_cst_2) = ((constant (F := F) S_ .f32 0x00000000#32) : (⟨S_, .f32⟩ : BufTy).Contents (Elt F)) := by
  refine (Cert.Line.at_written ops_writes 18 _ rfl (by decide) V).trans ?_
  generalize after (List.take 18 ops) V = W
  exact nullary_result ..

theorem st_main_call0_v0 (V : Valuation τ sig (Elt F)) :
    after ops V (Proc.devRef .tc main_call0_v0) = (id : (⟨S_, .f32⟩ : BufTy).Contents (Elt F) → (⟨S_, .f32⟩ : BufTy).Contents (Elt F)) (after ops V (Proc.devRef .tc main_cst_2)) := by
  rw [← Cert.Line.before_eq ops_writes 19 (a := main_cst_2) (by decide) V]
  refine (Cert.Line.at_written ops_writes 19 _ rfl (by decide) V).trans ?_
  generalize after (List.take 19 ops) V = W
  exact unary_result ..

theorem st_main_call0_v1 (V : Valuation τ sig (Elt F)) :
    after ops V (Proc.devRef .tc main_call0_v1) = ((broadcastInDim S100000 ![] bcast_S_S100000) : (⟨S_, .f32⟩ : BufTy).Contents (Elt F) → (⟨S100000, .f32⟩ : BufTy).Contents (Elt F)) (after ops V (Proc.devRef .tc main_call0_v0)) := by
  rw [← Cert.Line.before_eq ops_writes 20 (a := main_call0_v0) (by decide) V]
  refine (Cert.Line.at_written ops_writes 20 _ rfl (by decide) V).trans ?_
  generalize after (List.take 20 ops) V = W
  exact unary_result ..

theorem st_main_v15 (V : Valuation τ sig (Elt F)) :
    after ops V (Proc.devRef .tc main_v15) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v13)) (after ops V (Proc.devRef .tc main_v14)) (after ops V (Proc.devRef .tc main_call0_v1)) := by
  rw [← Cert.Line.before_eq ops_writes 21 (a := main_v13) (by decide) V, ← Cert.Line.before_eq ops_writes 21 (a := main_v14) (by decide) V, ← Cert.Line.before_eq ops_writes 21 (a := main_call0_v1) (by decide) V]
  refine (Cert.Line.at_written ops_writes 21 _ rfl (by decide) V).trans ?_
  generalize after (List.take 21 ops) V = W
  exact ternary_result ..

theorem st_main_c (V : Valuation τ sig (Elt F)) :
    after ops V (Proc.devRef .tc main_c) = ((constantI S_ 32 0#32) : (⟨S_, .i32⟩ : BufTy).Contents (Elt F)) := by
  refine (Cert.Line.at_written ops_writes 22 _ rfl (by decide) V).trans ?_
  generalize after (List.take 22 ops) V = W
  exact nullary_result ..

theorem st_main_v16 (V : Valuation τ sig (Elt F)) :
    after ops V (Proc.devRef .tc main_v16) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c)) := by
  rw [← Cert.Line.before_eq ops_writes 23 (a := main_c) (by decide) V]
  refine (Cert.Line.at_written ops_writes 23 _ rfl (by decide) V).trans ?_
  generalize after (List.take 23 ops) V = W
  exact unary_result ..

theorem st_main_v17 (V : Valuation τ sig (Elt F)) :
    after ops V (Proc.devRef .tc main_v17) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v4)) (after ops V (Proc.devRef .tc main_v16)) := by
  rw [← Cert.Line.before_eq ops_writes 24 (a := main_v4) (by decide) V, ← Cert.Line.before_eq ops_writes 24 (a := main_v16) (by decide) V]
  refine (Cert.Line.at_written ops_writes 24 _ rfl (by decide) V).trans ?_
  generalize after (List.take 24 ops) V = W
  exact binary_result ..

theorem st_main_c_3 (V : Valuation τ sig (Elt F)) :
    after ops V (Proc.devRef .tc main_c_3) = ((constantI S_ 32 100000#32) : (⟨S_, .i32⟩ : BufTy).Contents (Elt F)) := by
  refine (Cert.Line.at_written ops_writes 25 _ rfl (by decide) V).trans ?_
  generalize after (List.take 25 ops) V = W
  exact nullary_result ..

theorem st_main_v18 (V : Valuation τ sig (Elt F)) :
    after ops V (Proc.devRef .tc main_v18) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_3)) := by
  rw [← Cert.Line.before_eq ops_writes 26 (a := main_c_3) (by decide) V]
  refine (Cert.Line.at_written ops_writes 26 _ rfl (by decide) V).trans ?_
  generalize after (List.take 26 ops) V = W
  exact unary_result ..

theorem st_main_v19 (V : Valuation τ sig (Elt F)) :
    after ops V (Proc.devRef .tc main_v19) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v4)) (after ops V (Proc.devRef .tc main_v18)) := by
  rw [← Cert.Line.before_eq ops_writes 27 (a := main_v4) (by decide) V, ← Cert.Line.before_eq ops_writes 27 (a := main_v18) (by decide) V]
  refine (Cert.Line.at_written ops_writes 27 _ rfl (by decide) V).trans ?_
  generalize after (List.take 27 ops) V = W
  exact binary_result ..

theorem st_main_v20 (V : Valuation τ sig (Elt F)) :
    after ops V (Proc.devRef .tc main_v20) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v17)) (after ops V (Proc.devRef .tc main_v19)) (after ops V (Proc.devRef .tc main_v4)) := by
  rw [← Cert.Line.before_eq ops_writes 28 (a := main_v17) (by decide) V, ← Cert.Line.before_eq ops_writes 28 (a := main_v19) (by decide) V, ← Cert.Line.before_eq ops_writes 28 (a := main_v4) (by decide) V]
  refine (Cert.Line.at_written ops_writes 28 _ rfl (by decide) V).trans ?_
  generalize after (List.take 28 ops) V = W
  exact ternary_result ..

theorem st_main_v21 (V : Valuation τ sig (Elt F)) :
    after ops V (Proc.devRef .tc main_v21) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v20)) := by
  rw [← Cert.Line.before_eq ops_writes 29 (a := main_v20) (by decide) V]
  refine (Cert.Line.at_written ops_writes 29 _ rfl (by decide) V).trans ?_
  generalize after (List.take 29 ops) V = W
  exact unary_result ..

theorem st_main_v22 (V : Valuation τ sig (Elt F)) :
    after ops V (Proc.devRef .tc main_v22) = (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) : (⟨S100000, .f32⟩ : BufTy).Contents (Elt F) → (⟨S3300000x1, .i32⟩ : BufTy).Contents (Elt F) → (⟨S3300000, .f32⟩ : BufTy).Contents (Elt F)) (after ops V (Proc.devRef .tc main_v15)) (after ops V (Proc.devRef .tc main_v21)) := by
  rw [← Cert.Line.before_eq ops_writes 30 (a := main_v15) (by decide) V, ← Cert.Line.before_eq ops_writes 30 (a := main_v21) (by decide) V]
  refine (Cert.Line.at_written ops_writes 30 _ rfl (by decide) V).trans ?_
  generalize after (List.take 30 ops) V = W
  exact binary_result ..

theorem st_main_c_4 (V : Valuation τ sig (Elt F)) :
    after ops V (Proc.devRef .tc main_c_4) = ((constantI S_ 32 0#32) : (⟨S_, .i32⟩ : BufTy).Contents (Elt F)) := by
  refine (Cert.Line.at_written ops_writes 31 _ rfl (by decide) V).trans ?_
  generalize after (List.take 31 ops) V = W
  exact nullary_result ..

theorem st_main_v23 (V : Valuation τ sig (Elt F)) :
    after ops V (Proc.devRef .tc main_v23) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_4)) := by
  rw [← Cert.Line.before_eq ops_writes 32 (a := main_c_4) (by decide) V]
  refine (Cert.Line.at_written ops_writes 32 _ rfl (by decide) V).trans ?_
  generalize after (List.take 32 ops) V = W
  exact unary_result ..

theorem st_main_v24 (V : Valuation τ sig (Elt F)) :
    after ops V (Proc.devRef .tc main_v24) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v7)) (after ops V (Proc.devRef .tc main_v23)) := by
  rw [← Cert.Line.before_eq ops_writes 33 (a := main_v7) (by decide) V, ← Cert.Line.before_eq ops_writes 33 (a := main_v23) (by decide) V]
  refine (Cert.Line.at_written ops_writes 33 _ rfl (by decide) V).trans ?_
  generalize after (List.take 33 ops) V = W
  exact binary_result ..

theorem st_main_c_5 (V : Valuation τ sig (Elt F)) :
    after ops V (Proc.devRef .tc main_c_5) = ((constantI S_ 32 100000#32) : (⟨S_, .i32⟩ : BufTy).Contents (Elt F)) := by
  refine (Cert.Line.at_written ops_writes 34 _ rfl (by decide) V).trans ?_
  generalize after (List.take 34 ops) V = W
  exact nullary_result ..

theorem st_main_v25 (V : Valuation τ sig (Elt F)) :
    after ops V (Proc.devRef .tc main_v25) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_5)) := by
  rw [← Cert.Line.before_eq ops_writes 35 (a := main_c_5) (by decide) V]
  refine (Cert.Line.at_written ops_writes 35 _ rfl (by decide) V).trans ?_
  generalize after (List.take 35 ops) V = W
  exact unary_result ..

theorem st_main_v26 (V : Valuation τ sig (Elt F)) :
    after ops V (Proc.devRef .tc main_v26) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v7)) (after ops V (Proc.devRef .tc main_v25)) := by
  rw [← Cert.Line.before_eq ops_writes 36 (a := main_v7) (by decide) V, ← Cert.Line.before_eq ops_writes 36 (a := main_v25) (by decide) V]
  refine (Cert.Line.at_written ops_writes 36 _ rfl (by decide) V).trans ?_
  generalize after (List.take 36 ops) V = W
  exact binary_result ..

theorem st_main_v27 (V : Valuation τ sig (Elt F)) :
    after ops V (Proc.devRef .tc main_v27) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v24)) (after ops V (Proc.devRef .tc main_v26)) (after ops V (Proc.devRef .tc main_v7)) := by
  rw [← Cert.Line.before_eq ops_writes 37 (a := main_v24) (by decide) V, ← Cert.Line.before_eq ops_writes 37 (a := main_v26) (by decide) V, ← Cert.Line.before_eq ops_writes 37 (a := main_v7) (by decide) V]
  refine (Cert.Line.at_written ops_writes 37 _ rfl (by decide) V).trans ?_
  generalize after (List.take 37 ops) V = W
  exact ternary_result ..

theorem st_main_v28 (V : Valuation τ sig (Elt F)) :
    after ops V (Proc.devRef .tc main_v28) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v27)) := by
  rw [← Cert.Line.before_eq ops_writes 38 (a := main_v27) (by decide) V]
  refine (Cert.Line.at_written ops_writes 38 _ rfl (by decide) V).trans ?_
  generalize after (List.take 38 ops) V = W
  exact unary_result ..

theorem st_main_v29 (V : Valuation τ sig (Elt F)) :
    after ops V (Proc.devRef .tc main_v29) = (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) : (⟨S100000, .f32⟩ : BufTy).Contents (Elt F) → (⟨S3300000x1, .i32⟩ : BufTy).Contents (Elt F) → (⟨S3300000, .f32⟩ : BufTy).Contents (Elt F)) (after ops V (Proc.devRef .tc main_v15)) (after ops V (Proc.devRef .tc main_v28)) := by
  rw [← Cert.Line.before_eq ops_writes 39 (a := main_v15) (by decide) V, ← Cert.Line.before_eq ops_writes 39 (a := main_v28) (by decide) V]
  refine (Cert.Line.at_written ops_writes 39 _ rfl (by decide) V).trans ?_
  generalize after (List.take 39 ops) V = W
  exact binary_result ..

theorem st_main_v30 (V : Valuation τ sig (Elt F)) :
    after ops V (Proc.devRef .tc main_v30) = ((mulf : (⟨S3300000, .f32⟩ : BufTy).Contents (Elt F) → (⟨S3300000, .f32⟩ : BufTy).Contents (Elt F) → (⟨S3300000, .f32⟩ : BufTy).Contents (Elt F)) : (⟨S3300000, .f32⟩ : BufTy).Contents (Elt F) → (⟨S3300000, .f32⟩ : BufTy).Contents (Elt F) → (⟨S3300000, .f32⟩ : BufTy).Contents (Elt F)) (after ops V (Proc.devRef .tc main_v22)) (after ops V (Proc.devRef .tc main_v29)) := by
  rw [← Cert.Line.before_eq ops_writes 40 (a := main_v22) (by decide) V, ← Cert.Line.before_eq ops_writes 40 (a := main_v29) (by decide) V]
  refine (Cert.Line.at_written ops_writes 40 _ rfl (by decide) V).trans ?_
  generalize after (List.take 40 ops) V = W
  exact binary_result ..

theorem st_main_c_6 (V : Valuation τ sig (Elt F)) :
    after ops V (Proc.devRef .tc main_c_6) = ((constantI S_ 32 0#32) : (⟨S_, .i32⟩ : BufTy).Contents (Elt F)) := by
  refine (Cert.Line.at_written ops_writes 41 _ rfl (by decide) V).trans ?_
  generalize after (List.take 41 ops) V = W
  exact nullary_result ..

theorem st_main_v31 (V : Valuation τ sig (Elt F)) :
    after ops V (Proc.devRef .tc main_v31) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_6)) := by
  rw [← Cert.Line.before_eq ops_writes 42 (a := main_c_6) (by decide) V]
  refine (Cert.Line.at_written ops_writes 42 _ rfl (by decide) V).trans ?_
  generalize after (List.take 42 ops) V = W
  exact unary_result ..

theorem st_main_v32 (V : Valuation τ sig (Elt F)) :
    after ops V (Proc.devRef .tc main_v32) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v4)) (after ops V (Proc.devRef .tc main_v31)) := by
  rw [← Cert.Line.before_eq ops_writes 43 (a := main_v4) (by decide) V, ← Cert.Line.before_eq ops_writes 43 (a := main_v31) (by decide) V]
  refine (Cert.Line.at_written ops_writes 43 _ rfl (by decide) V).trans ?_
  generalize after (List.take 43 ops) V = W
  exact binary_result ..

theorem st_main_c_7 (V : Valuation τ sig (Elt F)) :
    after ops V (Proc.devRef .tc main_c_7) = ((constantI S_ 32 100000#32) : (⟨S_, .i32⟩ : BufTy).Contents (Elt F)) := by
  refine (Cert.Line.at_written ops_writes 44 _ rfl (by decide) V).trans ?_
  generalize after (List.take 44 ops) V = W
  exact nullary_result ..

theorem st_main_v33 (V : Valuation τ sig (Elt F)) :
    after ops V (Proc.devRef .tc main_v33) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_7)) := by
  rw [← Cert.Line.before_eq ops_writes 45 (a := main_c_7) (by decide) V]
  refine (Cert.Line.at_written ops_writes 45 _ rfl (by decide) V).trans ?_
  generalize after (List.take 45 ops) V = W
  exact unary_result ..

theorem st_main_v34 (V : Valuation τ sig (Elt F)) :
    after ops V (Proc.devRef .tc main_v34) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v4)) (after ops V (Proc.devRef .tc main_v33)) := by
  rw [← Cert.Line.before_eq ops_writes 46 (a := main_v4) (by decide) V, ← Cert.Line.before_eq ops_writes 46 (a := main_v33) (by decide) V]
  refine (Cert.Line.at_written ops_writes 46 _ rfl (by decide) V).trans ?_
  generalize after (List.take 46 ops) V = W
  exact binary_result ..

theorem st_main_v35 (V : Valuation τ sig (Elt F)) :
    after ops V (Proc.devRef .tc main_v35) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v32)) (after ops V (Proc.devRef .tc main_v34)) (after ops V (Proc.devRef .tc main_v4)) := by
  rw [← Cert.Line.before_eq ops_writes 47 (a := main_v32) (by decide) V, ← Cert.Line.before_eq ops_writes 47 (a := main_v34) (by decide) V, ← Cert.Line.before_eq ops_writes 47 (a := main_v4) (by decide) V]
  refine (Cert.Line.at_written ops_writes 47 _ rfl (by decide) V).trans ?_
  generalize after (List.take 47 ops) V = W
  exact ternary_result ..

theorem st_main_v36 (V : Valuation τ sig (Elt F)) :
    after ops V (Proc.devRef .tc main_v36) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v35)) := by
  rw [← Cert.Line.before_eq ops_writes 48 (a := main_v35) (by decide) V]
  refine (Cert.Line.at_written ops_writes 48 _ rfl (by decide) V).trans ?_
  generalize after (List.take 48 ops) V = W
  exact unary_result ..

theorem st_main_v37 (V : Valuation τ sig (Elt F)) :
    after ops V (Proc.devRef .tc main_v37) = (((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)) : (⟨S100000x16, .f32⟩ : BufTy).Contents (Elt F) → (⟨S3300000x1, .i32⟩ : BufTy).Contents (Elt F) → (⟨S3300000x16, .f32⟩ : BufTy).Contents (Elt F)) (after ops V (Proc.devRef .tc main_v0)) (after ops V (Proc.devRef .tc main_v36)) := by
  rw [← Cert.Line.before_eq ops_writes 49 (a := main_v0) (by decide) V, ← Cert.Line.before_eq ops_writes 49 (a := main_v36) (by decide) V]
  refine (Cert.Line.at_written ops_writes 49 _ rfl (by decide) V).trans ?_
  generalize after (List.take 49 ops) V = W
  exact binary_result ..

theorem st_main_v38 (V : Valuation τ sig (Elt F)) :
    after ops V (Proc.devRef .tc main_v38) = ((broadcastInDim S3300000x1 ![0] bcast_S3300000_S3300000x1_0 : (⟨S3300000, .f32⟩ : BufTy).Contents (Elt F) → (⟨S3300000x1, .f32⟩ : BufTy).Contents (Elt F)) : (⟨S3300000, .f32⟩ : BufTy).Contents (Elt F) → (⟨S3300000x1, .f32⟩ : BufTy).Contents (Elt F)) (after ops V (Proc.devRef .tc main_v30)) := by
  rw [← Cert.Line.before_eq ops_writes 50 (a := main_v30) (by decide) V]
  refine (Cert.Line.at_written ops_writes 50 _ rfl (by decide) V).trans ?_
  generalize after (List.take 50 ops) V = W
  exact unary_result ..

theorem st_main_v39 (V : Valuation τ sig (Elt F)) :
    after ops V (Proc.devRef .tc main_v39) = ((broadcastInDim S3300000x16 ![0, 1] bcast_S3300000x1_S3300000x16_0_1 : (⟨S3300000x1, .f32⟩ : BufTy).Contents (Elt F) → (⟨S3300000x16, .f32⟩ : BufTy).Contents (Elt F)) : (⟨S3300000x1, .f32⟩ : BufTy).Contents (Elt F) → (⟨S3300000x16, .f32⟩ : BufTy).Contents (Elt F)) (after ops V (Proc.devRef .tc main_v38)) := by
  rw [← Cert.Line.before_eq ops_writes 51 (a := main_v38) (by decide) V]
  refine (Cert.Line.at_written ops_writes 51 _ rfl (by decide) V).trans ?_
  generalize after (List.take 51 ops) V = W
  exact unary_result ..

theorem st_main_v40 (V : Valuation τ sig (Elt F)) :
    after ops V (Proc.devRef .tc main_v40) = ((mulf : (⟨S3300000x16, .f32⟩ : BufTy).Contents (Elt F) → (⟨S3300000x16, .f32⟩ : BufTy).Contents (Elt F) → (⟨S3300000x16, .f32⟩ : BufTy).Contents (Elt F)) : (⟨S3300000x16, .f32⟩ : BufTy).Contents (Elt F) → (⟨S3300000x16, .f32⟩ : BufTy).Contents (Elt F) → (⟨S3300000x16, .f32⟩ : BufTy).Contents (Elt F)) (after ops V (Proc.devRef .tc main_v37)) (after ops V (Proc.devRef .tc main_v39)) := by
  rw [← Cert.Line.before_eq ops_writes 52 (a := main_v37) (by decide) V, ← Cert.Line.before_eq ops_writes 52 (a := main_v39) (by decide) V]
  refine (Cert.Line.at_written ops_writes 52 _ rfl (by decide) V).trans ?_
  generalize after (List.take 52 ops) V = W
  exact binary_result ..

theorem st_main_cst_8 (V : Valuation τ sig (Elt F)) :
    after ops V (Proc.devRef .tc main_cst_8) = ((constant (F := F) S_ .f32 0x00000000#32) : (⟨S_, .f32⟩ : BufTy).Contents (Elt F)) := by
  refine (Cert.Line.at_written ops_writes 53 _ rfl (by decide) V).trans ?_
  generalize after (List.take 53 ops) V = W
  exact nullary_result ..

theorem st_main_v41 (V : Valuation τ sig (Elt F)) :
    after ops V (Proc.devRef .tc main_v41) = ((broadcastInDim S100000x16 ![] bcast_S_S100000x16 : (⟨S_, .f32⟩ : BufTy).Contents (Elt F) → (⟨S100000x16, .f32⟩ : BufTy).Contents (Elt F)) : (⟨S_, .f32⟩ : BufTy).Contents (Elt F) → (⟨S100000x16, .f32⟩ : BufTy).Contents (Elt F)) (after ops V (Proc.devRef .tc main_cst_8)) := by
  rw [← Cert.Line.before_eq ops_writes 54 (a := main_cst_8) (by decide) V]
  refine (Cert.Line.at_written ops_writes 54 _ rfl (by decide) V).trans ?_
  generalize after (List.take 54 ops) V = W
  exact unary_result ..

theorem st_main_v42 (V : Valuation τ sig (Elt F)) :
    after ops V (Proc.devRef .tc main_v42) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v7)) := by
  rw [← Cert.Line.before_eq ops_writes 55 (a := main_v7) (by decide) V]
  refine (Cert.Line.at_written ops_writes 55 _ rfl (by decide) V).trans ?_
  generalize after (List.take 55 ops) V = W
  exact unary_result ..

theorem st_main_v43 (V : Valuation τ sig (Elt F)) :
    after ops V (Proc.devRef .tc main_v43) = (((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) (after ops V (Proc.devRef .tc main_v41)) (after ops V (Proc.devRef .tc main_v42)) (after ops V (Proc.devRef .tc main_v40)) := by
  rw [← Cert.Line.before_eq ops_writes 56 (a := main_v41) (by decide) V, ← Cert.Line.before_eq ops_writes 56 (a := main_v42) (by decide) V, ← Cert.Line.before_eq ops_writes 56 (a := main_v40) (by decide) V]
  refine (Cert.Line.at_written ops_writes 56 _ rfl (by decide) V).trans ?_
  generalize after (List.take 56 ops) V = W
  exact ternary_result ..

theorem st_main_v44 (V : Valuation τ sig (Elt F)) :
    after ops V (Proc.devRef .tc main_v44) = ((broadcastInDim S1x16 ![1] bcast_S16_S1x16_1 : (⟨S16, .f32⟩ : BufTy).Contents (Elt F) → (⟨S1x16, .f32⟩ : BufTy).Contents (Elt F)) : (⟨S16, .f32⟩ : BufTy).Contents (Elt F) → (⟨S1x16, .f32⟩ : BufTy).Contents (Elt F)) (after ops V (Proc.devRef .tc main_arg2)) := by
  rw [← Cert.Line.before_eq ops_writes 57 (a := main_arg2) (by decide) V]
  refine (Cert.Line.at_written ops_writes 57 _ rfl (by decide) V).trans ?_
  generalize after (List.take 57 ops) V = W
  exact unary_result ..

theorem st_main_v45 (V : Valuation τ sig (Elt F)) :
    after ops V (Proc.devRef .tc main_v45) = ((broadcastInDim S100000x16 ![0, 1] bcast_S1x16_S100000x16_0_1 : (⟨S1x16, .f32⟩ : BufTy).Contents (Elt F) → (⟨S100000x16, .f32⟩ : BufTy).Contents (Elt F)) : (⟨S1x16, .f32⟩ : BufTy).Contents (Elt F) → (⟨S100000x16, .f32⟩ : BufTy).Contents (Elt F)) (after ops V (Proc.devRef .tc main_v44)) := by
  rw [← Cert.Line.before_eq ops_writes 58 (a := main_v44) (by decide) V]
  refine (Cert.Line.at_written ops_writes 58 _ rfl (by decide) V).trans ?_
  generalize after (List.take 58 ops) V = W
  exact unary_result ..

theorem st_main_v46 (V : Valuation τ sig (Elt F)) :
    after ops V (Proc.devRef .tc main_v46) = ((addf : (⟨S100000x16, .f32⟩ : BufTy).Contents (Elt F) → (⟨S100000x16, .f32⟩ : BufTy).Contents (Elt F) → (⟨S100000x16, .f32⟩ : BufTy).Contents (Elt F)) : (⟨S100000x16, .f32⟩ : BufTy).Contents (Elt F) → (⟨S100000x16, .f32⟩ : BufTy).Contents (Elt F) → (⟨S100000x16, .f32⟩ : BufTy).Contents (Elt F)) (after ops V (Proc.devRef .tc main_v43)) (after ops V (Proc.devRef .tc main_v45)) := by
  rw [← Cert.Line.before_eq ops_writes 59 (a := main_v43) (by decide) V, ← Cert.Line.before_eq ops_writes 59 (a := main_v45) (by decide) V]
  refine (Cert.Line.at_written ops_writes 59 _ rfl (by decide) V).trans ?_
  generalize after (List.take 59 ops) V = W
  exact binary_result ..

theorem st_main_cst_9 (V : Valuation τ sig (Elt F)) :
    after ops V (Proc.devRef .tc main_cst_9) = ((constant (F := F) S_ .f32 0x00000000#32) : (⟨S_, .f32⟩ : BufTy).Contents (Elt F)) := by
  refine (Cert.Line.at_written ops_writes 60 _ rfl (by decide) V).trans ?_
  generalize after (List.take 60 ops) V = W
  exact nullary_result ..

theorem st_main_v47 (V : Valuation τ sig (Elt F)) :
    after ops V (Proc.devRef .tc main_v47) = (((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)) : (⟨S100000x16, .f32⟩ : BufTy).Contents (Elt F) → (⟨S_, .f32⟩ : BufTy).Contents (Elt F) → (⟨S16, .f32⟩ : BufTy).Contents (Elt F)) (after ops V (Proc.devRef .tc main_v46)) (after ops V (Proc.devRef .tc main_cst_9)) := by
  rw [← Cert.Line.before_eq ops_writes 61 (a := main_v46) (by decide) V, ← Cert.Line.before_eq ops_writes 61 (a := main_cst_9) (by decide) V]
  refine (Cert.Line.at_written ops_writes 61 _ rfl (by decide) V).trans ?_
  generalize after (List.take 61 ops) V = W
  exact binary_result ..

end Cert.ReferenceIdeal.Hand

end
-- ==== Proof.Ref.Stage1.lean ====
/- THE REFERENCE PROGRAM READ BUFFER BY BUFFER, stretch 1 of three: the contents each buffer of the stretch ends
   with, as its operation's function of the final contents of the operation's operands (every buffer is written
   once, its operands earlier or never). -/
import proofs.«179341_j31447750542019_2_alg».proof.Proof.Ref.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: an operation's function is carried as it is
attribute [local irreducible] Host.reduce Host.reduceAdd Host.gather Host.scatterAdd

theorem st_main_cst_10 (V : Valuation τ sig (Elt F)) :
    after ops V (Proc.devRef .tc main_cst_10) = ((constant (F := F) S_ .f32 0x47C35000#32) : (⟨S_, .f32⟩ : BufTy).Contents (Elt F)) := by
  refine (Cert.Line.at_written ops_writes 62 _ rfl (by decide) V).trans ?_
  generalize after (List.take 62 ops) V = W
  exact nullary_result ..

theorem st_main_v48 (V : Valuation τ sig (Elt F)) :
    after ops V (Proc.devRef .tc main_v48) = ((broadcastInDim S16 ![] bcast_S_S16 : (⟨S_, .f32⟩ : BufTy).Contents (Elt F) → (⟨S16, .f32⟩ : BufTy).Contents (Elt F)) : (⟨S_, .f32⟩ : BufTy).Contents (Elt F) → (⟨S16, .f32⟩ : BufTy).Contents (Elt F)) (after ops V (Proc.devRef .tc main_cst_10)) := by
  rw [← Cert.Line.before_eq ops_writes 63 (a := main_cst_10) (by decide) V]
  refine (Cert.Line.at_written ops_writes 63 _ rfl (by decide) V).trans ?_
  generalize after (List.take 63 ops) V = W
  exact unary_result ..

theorem st_main_v49 (V : Valuation τ sig (Elt F)) :
    after ops V (Proc.devRef .tc main_v49) = ((Host.divf : (⟨S16, .f32⟩ : BufTy).Contents (Elt F) → (⟨S16, .f32⟩ : BufTy).Contents (Elt F) → (⟨S16, .f32⟩ : BufTy).Contents (Elt F)) : (⟨S16, .f32⟩ : BufTy).Contents (Elt F) → (⟨S16, .f32⟩ : BufTy).Contents (Elt F) → (⟨S16, .f32⟩ : BufTy).Contents (Elt F)) (after ops V (Proc.devRef .tc main_v47)) (after ops V (Proc.devRef .tc main_v48)) := by
  rw [← Cert.Line.before_eq ops_writes 64 (a := main_v47) (by decide) V, ← Cert.Line.before_eq ops_writes 64 (a := main_v48) (by decide) V]
  refine (Cert.Line.at_written ops_writes 64 _ rfl (by decide) V).trans ?_
  generalize after (List.take 64 ops) V = W
  exact binary_result ..

theorem st_main_c_11 (V : Valuation τ sig (Elt F)) :
    after ops V (Proc.devRef .tc main_c_11) = ((constantI S_ 32 0#32) : (⟨S_, .i32⟩ : BufTy).Contents (Elt F)) := by
  refine (Cert.Line.at_written ops_writes 65 _ rfl (by decide) V).trans ?_
  generalize after (List.take 65 ops) V = W
  exact nullary_result ..

theorem st_main_call1_cst (V : Valuation τ sig (Elt F)) :
    after ops V (Proc.devRef .tc main_call1_cst) = ((constant (F := F) S_ .f32 0x00000000#32) : (⟨S_, .f32⟩ : BufTy).Contents (Elt F)) := by
  refine (Cert.Line.at_written ops_writes 66 _ rfl (by decide) V).trans ?_
  generalize after (List.take 66 ops) V = W
  exact nullary_result ..

theorem st_main_call1_v0 (V : Valuation τ sig (Elt F)) :
    after ops V (Proc.devRef .tc main_call1_v0) = ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)) (after ops V (Proc.devRef .tc main_v46)) (after ops V (Proc.devRef .tc main_call1_cst)) := by
  rw [← Cert.Line.before_eq ops_writes 67 (a := main_v46) (by decide) V, ← Cert.Line.before_eq ops_writes 67 (a := main_call1_cst) (by decide) V]
  refine (Cert.Line.at_written ops_writes 67 _ rfl (by decide) V).trans ?_
  generalize after (List.take 67 ops) V = W
  exact binary_result ..

theorem st_main_call1_v1 (V : Valuation τ sig (Elt F)) :
    after ops V (Proc.devRef .tc main_call1_v1) = ((broadcastInDim S1x16 ![1] bcast_S16_S1x16_1) : (⟨S16, .f32⟩ : BufTy).Contents (Elt F) → (⟨S1x16, .f32⟩ : BufTy).Contents (Elt F)) (after ops V (Proc.devRef .tc main_call1_v0)) := by
  rw [← Cert.Line.before_eq ops_writes 68 (a := main_call1_v0) (by decide) V]
  refine (Cert.Line.at_written ops_writes 68 _ rfl (by decide) V).trans ?_
  generalize after (List.take 68 ops) V = W
  exact unary_result ..

theorem st_main_call1_cst_0 (V : Valuation τ sig (Elt F)) :
    after ops V (Proc.devRef .tc main_call1_cst_0) = ((constant (F := F) S_ .f32 0x47C35000#32) : (⟨S_, .f32⟩ : BufTy).Contents (Elt F)) := by
  refine (Cert.Line.at_written ops_writes 69 _ rfl (by decide) V).trans ?_
  generalize after (List.take 69 ops) V = W
  exact nullary_result ..

theorem st_main_call1_v2 (V : Valuation τ sig (Elt F)) :
    after ops V (Proc.devRef .tc main_call1_v2) = ((broadcastInDim S1x16 ![] bcast_S_S1x16) : (⟨S_, .f32⟩ : BufTy).Contents (Elt F) → (⟨S1x16, .f32⟩ : BufTy).Contents (Elt F)) (after ops V (Proc.devRef .tc main_call1_cst_0)) := by
  rw [← Cert.Line.before_eq ops_writes 70 (a := main_call1_cst_0) (by decide) V]
  refine (Cert.Line.at_written ops_writes 70 _ rfl (by decide) V).trans ?_
  generalize after (List.take 70 ops) V = W
  exact unary_result ..

theorem st_main_call1_v3 (V : Valuation τ sig (Elt F)) :
    after ops V (Proc.devRef .tc main_call1_v3) = (Host.divf : (⟨S1x16, .f32⟩ : BufTy).Contents (Elt F) → (⟨S1x16, .f32⟩ : BufTy).Contents (Elt F) → (⟨S1x16, .f32⟩ : BufTy).Contents (Elt F)) (after ops V (Proc.devRef .tc main_call1_v1)) (after ops V (Proc.devRef .tc main_call1_v2)) := by
  rw [← Cert.Line.before_eq ops_writes 71 (a := main_call1_v1) (by decide) V, ← Cert.Line.before_eq ops_writes 71 (a := main_call1_v2) (by decide) V]
  refine (Cert.Line.at_written ops_writes 71 _ rfl (by decide) V).trans ?_
  generalize after (List.take 71 ops) V = W
  exact binary_result ..

theorem st_main_call1_v4 (V : Valuation τ sig (Elt F)) :
    after ops V (Proc.devRef .tc main_call1_v4) = ((broadcastInDim S100000x16 ![0, 1] bcast_S1x16_S100000x16_0_1) : (⟨S1x16, .f32⟩ : BufTy).Contents (Elt F) → (⟨S100000x16, .f32⟩ : BufTy).Contents (Elt F)) (after ops V (Proc.devRef .tc main_call1_v3)) := by
  rw [← Cert.Line.before_eq ops_writes 72 (a := main_call1_v3) (by decide) V]
  refine (Cert.Line.at_written ops_writes 72 _ rfl (by decide) V).trans ?_
  generalize after (List.take 72 ops) V = W
  exact unary_result ..

theorem st_main_call1_v5 (V : Valuation τ sig (Elt F)) :
    after ops V (Proc.devRef .tc main_call1_v5) = (subf : (⟨S100000x16, .f32⟩ : BufTy).Contents (Elt F) → (⟨S100000x16, .f32⟩ : BufTy).Contents (Elt F) → (⟨S100000x16, .f32⟩ : BufTy).Contents (Elt F)) (after ops V (Proc.devRef .tc main_v46)) (after ops V (Proc.devRef .tc main_call1_v4)) := by
  rw [← Cert.Line.before_eq ops_writes 73 (a := main_v46) (by decide) V, ← Cert.Line.before_eq ops_writes 73 (a := main_call1_v4) (by decide) V]
  refine (Cert.Line.at_written ops_writes 73 _ rfl (by decide) V).trans ?_
  generalize after (List.take 73 ops) V = W
  exact binary_result ..

theorem st_main_call1_v6 (V : Valuation τ sig (Elt F)) :
    after ops V (Proc.devRef .tc main_call1_v6) = (mulf : (⟨S100000x16, .f32⟩ : BufTy).Contents (Elt F) → (⟨S100000x16, .f32⟩ : BufTy).Contents (Elt F) → (⟨S100000x16, .f32⟩ : BufTy).Contents (Elt F)) (after ops V (Proc.devRef .tc main_call1_v5)) (after ops V (Proc.devRef .tc main_call1_v5)) := by
  rw [← Cert.Line.before_eq ops_writes 74 (a := main_call1_v5) (by decide) V]
  refine (Cert.Line.at_written ops_writes 74 _ rfl (by decide) V).trans ?_
  generalize after (List.take 74 ops) V = W
  exact binary_result ..

theorem st_main_call1_v7 (V : Valuation τ sig (Elt F)) :
    after ops V (Proc.devRef .tc main_call1_v7) = ((sitofp .f32) : (⟨S_, .i32⟩ : BufTy).Contents (Elt F) → (⟨S_, .f32⟩ : BufTy).Contents (Elt F)) (after ops V (Proc.devRef .tc main_c_11)) := by
  rw [← Cert.Line.before_eq ops_writes 75 (a := main_c_11) (by decide) V]
  refine (Cert.Line.at_written ops_writes 75 _ rfl (by decide) V).trans ?_
  generalize after (List.take 75 ops) V = W
  exact unary_result ..

theorem st_main_call1_cst_1 (V : Valuation τ sig (Elt F)) :
    after ops V (Proc.devRef .tc main_call1_cst_1) = ((constant (F := F) S_ .f32 0x47C35000#32) : (⟨S_, .f32⟩ : BufTy).Contents (Elt F)) := by
  refine (Cert.Line.at_written ops_writes 76 _ rfl (by decide) V).trans ?_
  generalize after (List.take 76 ops) V = W
  exact nullary_result ..

theorem st_main_call1_v8 (V : Valuation τ sig (Elt F)) :
    after ops V (Proc.devRef .tc main_call1_v8) = (subf : (⟨S_, .f32⟩ : BufTy).Contents (Elt F) → (⟨S_, .f32⟩ : BufTy).Contents (Elt F) → (⟨S_, .f32⟩ : BufTy).Contents (Elt F)) (after ops V (Proc.devRef .tc main_call1_cst_1)) (after ops V (Proc.devRef .tc main_call1_v7)) := by
  rw [← Cert.Line.before_eq ops_writes 77 (a := main_call1_cst_1) (by decide) V, ← Cert.Line.before_eq ops_writes 77 (a := main_call1_v7) (by decide) V]
  refine (Cert.Line.at_written ops_writes 77 _ rfl (by decide) V).trans ?_
  generalize after (List.take 77 ops) V = W
  exact binary_result ..

theorem st_main_call1_cst_2 (V : Valuation τ sig (Elt F)) :
    after ops V (Proc.devRef .tc main_call1_cst_2) = ((constant (F := F) S_ .f32 0x00000000#32) : (⟨S_, .f32⟩ : BufTy).Contents (Elt F)) := by
  refine (Cert.Line.at_written ops_writes 78 _ rfl (by decide) V).trans ?_
  generalize after (List.take 78 ops) V = W
  exact nullary_result ..

theorem st_main_call1_v9 (V : Valuation τ sig (Elt F)) :
    after ops V (Proc.devRef .tc main_call1_v9) = ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)) (after ops V (Proc.devRef .tc main_call1_v6)) (after ops V (Proc.devRef .tc main_call1_cst_2)) := by
  rw [← Cert.Line.before_eq ops_writes 79 (a := main_call1_v6) (by decide) V, ← Cert.Line.before_eq ops_writes 79 (a := main_call1_cst_2) (by decide) V]
  refine (Cert.Line.at_written ops_writes 79 _ rfl (by decide) V).trans ?_
  generalize after (List.take 79 ops) V = W
  exact binary_result ..

theorem st_main_call1_v10 (V : Valuation τ sig (Elt F)) :
    after ops V (Proc.devRef .tc main_call1_v10) = ((broadcastInDim S16 ![] bcast_S_S16) : (⟨S_, .f32⟩ : BufTy).Contents (Elt F) → (⟨S16, .f32⟩ : BufTy).Contents (Elt F)) (after ops V (Proc.devRef .tc main_call1_v8)) := by
  rw [← Cert.Line.before_eq ops_writes 80 (a := main_call1_v8) (by decide) V]
  refine (Cert.Line.at_written ops_writes 80 _ rfl (by decide) V).trans ?_
  generalize after (List.take 80 ops) V = W
  exact unary_result ..

theorem st_main_call1_v11 (V : Valuation τ sig (Elt F)) :
    after ops V (Proc.devRef .tc main_call1_v11) = (Host.divf : (⟨S16, .f32⟩ : BufTy).Contents (Elt F) → (⟨S16, .f32⟩ : BufTy).Contents (Elt F) → (⟨S16, .f32⟩ : BufTy).Contents (Elt F)) (after ops V (Proc.devRef .tc main_call1_v9)) (after ops V (Proc.devRef .tc main_call1_v10)) := by
  rw [← Cert.Line.before_eq ops_writes 81 (a := main_call1_v9) (by decide) V, ← Cert.Line.before_eq ops_writes 81 (a := main_call1_v10) (by decide) V]
  refine (Cert.Line.at_written ops_writes 81 _ rfl (by decide) V).trans ?_
  generalize after (List.take 81 ops) V = W
  exact binary_result ..

theorem st_main_call1_cst_3 (V : Valuation τ sig (Elt F)) :
    after ops V (Proc.devRef .tc main_call1_cst_3) = ((constant (F := F) S_ .f32 0x00000000#32) : (⟨S_, .f32⟩ : BufTy).Contents (Elt F)) := by
  refine (Cert.Line.at_written ops_writes 82 _ rfl (by decide) V).trans ?_
  generalize after (List.take 82 ops) V = W
  exact nullary_result ..

theorem st_main_call1_v12 (V : Valuation τ sig (Elt F)) :
    after ops V (Proc.devRef .tc main_call1_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call1_v8)) (after ops V (Proc.devRef .tc main_call1_cst_3)) := by
  rw [← Cert.Line.before_eq ops_writes 83 (a := main_call1_v8) (by decide) V, ← Cert.Line.before_eq ops_writes 83 (a := main_call1_cst_3) (by decide) V]
  refine (Cert.Line.at_written ops_writes 83 _ rfl (by decide) V).trans ?_
  generalize after (List.take 83 ops) V = W
  exact binary_result ..

theorem st_main_call1_cst_4 (V : Valuation τ sig (Elt F)) :
    after ops V (Proc.devRef .tc main_call1_cst_4) = ((constant (F := F) S_ .f32 0x7FC00000#32) : (⟨S_, .f32⟩ : BufTy).Contents (Elt F)) := by
  refine (Cert.Line.at_written ops_writes 84 _ rfl (by decide) V).trans ?_
  generalize after (List.take 84 ops) V = W
  exact nullary_result ..

theorem st_main_call1_call0_v0 (V : Valuation τ sig (Elt F)) :
    after ops V (Proc.devRef .tc main_call1_call0_v0) = (id : (⟨S_, .f32⟩ : BufTy).Contents (Elt F) → (⟨S_, .f32⟩ : BufTy).Contents (Elt F)) (after ops V (Proc.devRef .tc main_call1_cst_4)) := by
  rw [← Cert.Line.before_eq ops_writes 85 (a := main_call1_cst_4) (by decide) V]
  refine (Cert.Line.at_written ops_writes 85 _ rfl (by decide) V).trans ?_
  generalize after (List.take 85 ops) V = W
  exact unary_result ..

theorem st_main_call1_call0_v1 (V : Valuation τ sig (Elt F)) :
    after ops V (Proc.devRef .tc main_call1_call0_v1) = ((broadcastInDim S16 ![] bcast_S_S16) : (⟨S_, .f32⟩ : BufTy).Contents (Elt F) → (⟨S16, .f32⟩ : BufTy).Contents (Elt F)) (after ops V (Proc.devRef .tc main_call1_call0_v0)) := by
  rw [← Cert.Line.before_eq ops_writes 86 (a := main_call1_call0_v0) (by decide) V]
  refine (Cert.Line.at_written ops_writes 86 _ rfl (by decide) V).trans ?_
  generalize after (List.take 86 ops) V = W
  exact unary_result ..

theorem st_main_v50 (V : Valuation τ sig (Elt F)) :
    after ops V (Proc.devRef .tc main_v50) = ((fun p a b => select (broadcastInDim S16 ![] bcast_S_S16 p) a b) : (⟨S_, .i1⟩ : BufTy).Contents (Elt F) → (⟨S16, .f32⟩ : BufTy).Contents (Elt F) → (⟨S16, .f32⟩ : BufTy).Contents (Elt F) → (⟨S16, .f32⟩ : BufTy).Contents (Elt F)) (after ops V (Proc.devRef .tc main_call1_v12)) (after ops V (Proc.devRef .tc main_call1_v11)) (after ops V (Proc.devRef .tc main_call1_call0_v1)) := by
  rw [← Cert.Line.before_eq ops_writes 87 (a := main_call1_v12) (by decide) V, ← Cert.Line.before_eq ops_writes 87 (a := main_call1_v11) (by decide) V, ← Cert.Line.before_eq ops_writes 87 (a := main_call1_call0_v1) (by decide) V]
  refine (Cert.Line.at_written ops_writes 87 _ rfl (by decide) V).trans ?_
  generalize after (List.take 87 ops) V = W
  exact ternary_result ..

theorem st_main_v51 (V : Valuation τ sig (Elt F)) :
    after ops V (Proc.devRef .tc main_v51) = ((broadcastInDim S1x16 ![1] bcast_S16_S1x16_1 : (⟨S16, .f32⟩ : BufTy).Contents (Elt F) → (⟨S1x16, .f32⟩ : BufTy).Contents (Elt F)) : (⟨S16, .f32⟩ : BufTy).Contents (Elt F) → (⟨S1x16, .f32⟩ : BufTy).Contents (Elt F)) (after ops V (Proc.devRef .tc main_v49)) := by
  rw [← Cert.Line.before_eq ops_writes 88 (a := main_v49) (by decide) V]
  refine (Cert.Line.at_written ops_writes 88 _ rfl (by decide) V).trans ?_
  generalize after (List.take 88 ops) V = W
  exact unary_result ..

theorem st_main_v52 (V : Valuation τ sig (Elt F)) :
    after ops V (Proc.devRef .tc main_v52) = ((broadcastInDim S100000x16 ![0, 1] bcast_S1x16_S100000x16_0_1 : (⟨S1x16, .f32⟩ : BufTy).Contents (Elt F) → (⟨S100000x16, .f32⟩ : BufTy).Contents (Elt F)) : (⟨S1x16, .f32⟩ : BufTy).Contents (Elt F) → (⟨S100000x16, .f32⟩ : BufTy).Contents (Elt F)) (after ops V (Proc.devRef .tc main_v51)) := by
  rw [← Cert.Line.before_eq ops_writes 89 (a := main_v51) (by decide) V]
  refine (Cert.Line.at_written ops_writes 89 _ rfl (by decide) V).trans ?_
  generalize after (List.take 89 ops) V = W
  exact unary_result ..

theorem st_main_v53 (V : Valuation τ sig (Elt F)) :
    after ops V (Proc.devRef .tc main_v53) = ((subf : (⟨S100000x16, .f32⟩ : BufTy).Contents (Elt F) → (⟨S100000x16, .f32⟩ : BufTy).Contents (Elt F) → (⟨S100000x16, .f32⟩ : BufTy).Contents (Elt F)) : (⟨S100000x16, .f32⟩ : BufTy).Contents (Elt F) → (⟨S100000x16, .f32⟩ : BufTy).Contents (Elt F) → (⟨S100000x16, .f32⟩ : BufTy).Contents (Elt F)) (after ops V (Proc.devRef .tc main_v46)) (after ops V (Proc.devRef .tc main_v52)) := by
  rw [← Cert.Line.before_eq ops_writes 90 (a := main_v46) (by decide) V, ← Cert.Line.before_eq ops_writes 90 (a := main_v52) (by decide) V]
  refine (Cert.Line.at_written ops_writes 90 _ rfl (by decide) V).trans ?_
  generalize after (List.take 90 ops) V = W
  exact binary_result ..

theorem st_main_cst_12 (V : Valuation τ sig (Elt F)) :
    after ops V (Proc.devRef .tc main_cst_12) = ((constant (F := F) S_ .f32 0x3727C5AC#32) : (⟨S_, .f32⟩ : BufTy).Contents (Elt F)) := by
  refine (Cert.Line.at_written ops_writes 91 _ rfl (by decide) V).trans ?_
  generalize after (List.take 91 ops) V = W
  exact nullary_result ..

theorem st_main_v54 (V : Valuation τ sig (Elt F)) :
    after ops V (Proc.devRef .tc main_v54) = ((broadcastInDim S16 ![] bcast_S_S16 : (⟨S_, .f32⟩ : BufTy).Contents (Elt F) → (⟨S16, .f32⟩ : BufTy).Contents (Elt F)) : (⟨S_, .f32⟩ : BufTy).Contents (Elt F) → (⟨S16, .f32⟩ : BufTy).Contents (Elt F)) (after ops V (Proc.devRef .tc main_cst_12)) := by
  rw [← Cert.Line.before_eq ops_writes 92 (a := main_cst_12) (by decide) V]
  refine (Cert.Line.at_written ops_writes 92 _ rfl (by decide) V).trans ?_
  generalize after (List.take 92 ops) V = W
  exact unary_result ..

theorem st_main_v55 (V : Valuation τ sig (Elt F)) :
    after ops V (Proc.devRef .tc main_v55) = ((addf : (⟨S16, .f32⟩ : BufTy).Contents (Elt F) → (⟨S16, .f32⟩ : BufTy).Contents (Elt F) → (⟨S16, .f32⟩ : BufTy).Contents (Elt F)) : (⟨S16, .f32⟩ : BufTy).Contents (Elt F) → (⟨S16, .f32⟩ : BufTy).Contents (Elt F) → (⟨S16, .f32⟩ : BufTy).Contents (Elt F)) (after ops V (Proc.devRef .tc main_v50)) (after ops V (Proc.devRef .tc main_v54)) := by
  rw [← Cert.Line.before_eq ops_writes 93 (a := main_v50) (by decide) V, ← Cert.Line.before_eq ops_writes 93 (a := main_v54) (by decide) V]
  refine (Cert.Line.at_written ops_writes 93 _ rfl (by decide) V).trans ?_
  generalize after (List.take 93 ops) V = W
  exact binary_result ..

theorem st_main_v56 (V : Valuation τ sig (Elt F)) :
    after ops V (Proc.devRef .tc main_v56) = ((Host.rsqrt : (⟨S16, .f32⟩ : BufTy).Contents (Elt F) → (⟨S16, .f32⟩ : BufTy).Contents (Elt F)) : (⟨S16, .f32⟩ : BufTy).Contents (Elt F) → (⟨S16, .f32⟩ : BufTy).Contents (Elt F)) (after ops V (Proc.devRef .tc main_v55)) := by
  rw [← Cert.Line.before_eq ops_writes 94 (a := main_v55) (by decide) V]
  refine (Cert.Line.at_written ops_writes 94 _ rfl (by decide) V).trans ?_
  generalize after (List.take 94 ops) V = W
  exact unary_result ..

theorem st_main_v57 (V : Valuation τ sig (Elt F)) :
    after ops V (Proc.devRef .tc main_v57) = ((broadcastInDim S1x16 ![1] bcast_S16_S1x16_1 : (⟨S16, .f32⟩ : BufTy).Contents (Elt F) → (⟨S1x16, .f32⟩ : BufTy).Contents (Elt F)) : (⟨S16, .f32⟩ : BufTy).Contents (Elt F) → (⟨S1x16, .f32⟩ : BufTy).Contents (Elt F)) (after ops V (Proc.devRef .tc main_v56)) := by
  rw [← Cert.Line.before_eq ops_writes 95 (a := main_v56) (by decide) V]
  refine (Cert.Line.at_written ops_writes 95 _ rfl (by decide) V).trans ?_
  generalize after (List.take 95 ops) V = W
  exact unary_result ..

theorem st_main_v58 (V : Valuation τ sig (Elt F)) :
    after ops V (Proc.devRef .tc main_v58) = ((broadcastInDim S100000x16 ![0, 1] bcast_S1x16_S100000x16_0_1 : (⟨S1x16, .f32⟩ : BufTy).Contents (Elt F) → (⟨S100000x16, .f32⟩ : BufTy).Contents (Elt F)) : (⟨S1x16, .f32⟩ : BufTy).Contents (Elt F) → (⟨S100000x16, .f32⟩ : BufTy).Contents (Elt F)) (after ops V (Proc.devRef .tc main_v57)) := by
  rw [← Cert.Line.before_eq ops_writes 96 (a := main_v57) (by decide) V]
  refine (Cert.Line.at_written ops_writes 96 _ rfl (by decide) V).trans ?_
  generalize after (List.take 96 ops) V = W
  exact unary_result ..

theorem st_main_v59 (V : Valuation τ sig (Elt F)) :
    after ops V (Proc.devRef .tc main_v59) = ((mulf : (⟨S100000x16, .f32⟩ : BufTy).Contents (Elt F) → (⟨S100000x16, .f32⟩ : BufTy).Contents (Elt F) → (⟨S100000x16, .f32⟩ : BufTy).Contents (Elt F)) : (⟨S100000x16, .f32⟩ : BufTy).Contents (Elt F) → (⟨S100000x16, .f32⟩ : BufTy).Contents (Elt F) → (⟨S100000x16, .f32⟩ : BufTy).Contents (Elt F)) (after ops V (Proc.devRef .tc main_v53)) (after ops V (Proc.devRef .tc main_v58)) := by
  rw [← Cert.Line.before_eq ops_writes 97 (a := main_v53) (by decide) V, ← Cert.Line.before_eq ops_writes 97 (a := main_v58) (by decide) V]
  refine (Cert.Line.at_written ops_writes 97 _ rfl (by decide) V).trans ?_
  generalize after (List.take 97 ops) V = W
  exact binary_result ..

theorem st_main_v60 (V : Valuation τ sig (Elt F)) :
    after ops V (Proc.devRef .tc main_v60) = ((broadcastInDim S1x16 ![1] bcast_S16_S1x16_1 : (⟨S16, .f32⟩ : BufTy).Contents (Elt F) → (⟨S1x16, .f32⟩ : BufTy).Contents (Elt F)) : (⟨S16, .f32⟩ : BufTy).Contents (Elt F) → (⟨S1x16, .f32⟩ : BufTy).Contents (Elt F)) (after ops V (Proc.devRef .tc main_arg3)) := by
  rw [← Cert.Line.before_eq ops_writes 98 (a := main_arg3) (by decide) V]
  refine (Cert.Line.at_written ops_writes 98 _ rfl (by decide) V).trans ?_
  generalize after (List.take 98 ops) V = W
  exact unary_result ..

theorem st_main_v61 (V : Valuation τ sig (Elt F)) :
    after ops V (Proc.devRef .tc main_v61) = ((broadcastInDim S100000x16 ![0, 1] bcast_S1x16_S100000x16_0_1 : (⟨S1x16, .f32⟩ : BufTy).Contents (Elt F) → (⟨S100000x16, .f32⟩ : BufTy).Contents (Elt F)) : (⟨S1x16, .f32⟩ : BufTy).Contents (Elt F) → (⟨S100000x16, .f32⟩ : BufTy).Contents (Elt F)) (after ops V (Proc.devRef .tc main_v60)) := by
  rw [← Cert.Line.before_eq ops_writes 99 (a := main_v60) (by decide) V]
  refine (Cert.Line.at_written ops_writes 99 _ rfl (by decide) V).trans ?_
  generalize after (List.take 99 ops) V = W
  exact unary_result ..

theorem st_main_v62 (V : Valuation τ sig (Elt F)) :
    after ops V (Proc.devRef .tc main_v62) = ((mulf : (⟨S100000x16, .f32⟩ : BufTy).Contents (Elt F) → (⟨S100000x16, .f32⟩ : BufTy).Contents (Elt F) → (⟨S100000x16, .f32⟩ : BufTy).Contents (Elt F)) : (⟨S100000x16, .f32⟩ : BufTy).Contents (Elt F) → (⟨S100000x16, .f32⟩ : BufTy).Contents (Elt F) → (⟨S100000x16, .f32⟩ : BufTy).Contents (Elt F)) (after ops V (Proc.devRef .tc main_v59)) (after ops V (Proc.devRef .tc main_v61)) := by
  rw [← Cert.Line.before_eq ops_writes 100 (a := main_v59) (by decide) V, ← Cert.Line.before_eq ops_writes 100 (a := main_v61) (by decide) V]
  refine (Cert.Line.at_written ops_writes 100 _ rfl (by decide) V).trans ?_
  generalize after (List.take 100 ops) V = W
  exact binary_result ..

theorem st_main_v63 (V : Valuation τ sig (Elt F)) :
    after ops V (Proc.devRef .tc main_v63) = ((broadcastInDim S1x16 ![1] bcast_S16_S1x16_1 : (⟨S16, .f32⟩ : BufTy).Contents (Elt F) → (⟨S1x16, .f32⟩ : BufTy).Contents (Elt F)) : (⟨S16, .f32⟩ : BufTy).Contents (Elt F) → (⟨S1x16, .f32⟩ : BufTy).Contents (Elt F)) (after ops V (Proc.devRef .tc main_arg4)) := by
  rw [← Cert.Line.before_eq ops_writes 101 (a := main_arg4) (by decide) V]
  refine (Cert.Line.at_written ops_writes 101 _ rfl (by decide) V).trans ?_
  generalize after (List.take 101 ops) V = W
  exact unary_result ..

theorem st_main_v64 (V : Valuation τ sig (Elt F)) :
    after ops V (Proc.devRef .tc main_v64) = ((broadcastInDim S100000x16 ![0, 1] bcast_S1x16_S100000x16_0_1 : (⟨S1x16, .f32⟩ : BufTy).Contents (Elt F) → (⟨S100000x16, .f32⟩ : BufTy).Contents (Elt F)) : (⟨S1x16, .f32⟩ : BufTy).Contents (Elt F) → (⟨S100000x16, .f32⟩ : BufTy).Contents (Elt F)) (after ops V (Proc.devRef .tc main_v63)) := by
  rw [← Cert.Line.before_eq ops_writes 102 (a := main_v63) (by decide) V]
  refine (Cert.Line.at_written ops_writes 102 _ rfl (by decide) V).trans ?_
  generalize after (List.take 102 ops) V = W
  exact unary_result ..

theorem st_main_v65 (V : Valuation τ sig (Elt F)) :
    after ops V (Proc.devRef .tc main_v65) = ((addf : (⟨S100000x16, .f32⟩ : BufTy).Contents (Elt F) → (⟨S100000x16, .f32⟩ : BufTy).Contents (Elt F) → (⟨S100000x16, .f32⟩ : BufTy).Contents (Elt F)) : (⟨S100000x16, .f32⟩ : BufTy).Contents (Elt F) → (⟨S100000x16, .f32⟩ : BufTy).Contents (Elt F) → (⟨S100000x16, .f32⟩ : BufTy).Contents (Elt F)) (after ops V (Proc.devRef .tc main_v62)) (after ops V (Proc.devRef .tc main_v64)) := by
  rw [← Cert.Line.before_eq ops_writes 103 (a := main_v62) (by decide) V, ← Cert.Line.before_eq ops_writes 103 (a := main_v64) (by decide) V]
  refine (Cert.Line.at_written ops_writes 103 _ rfl (by decide) V).trans ?_
  generalize after (List.take 103 ops) V = W
  exact binary_result ..

theorem st_main_call2_cst (V : Valuation τ sig (Elt F)) :
    after ops V (Proc.devRef .tc main_call2_cst) = ((constant (F := F) S_ .f32 0x00000000#32) : (⟨S_, .f32⟩ : BufTy).Contents (Elt F)) := by
  refine (Cert.Line.at_written ops_writes 104 _ rfl (by decide) V).trans ?_
  generalize after (List.take 104 ops) V = W
  exact nullary_result ..

theorem st_main_call2_v0 (V : Valuation τ sig (Elt F)) :
    after ops V (Proc.devRef .tc main_call2_v0) = ((broadcastInDim S100000x16 ![] bcast_S_S100000x16) : (⟨S_, .f32⟩ : BufTy).Contents (Elt F) → (⟨S100000x16, .f32⟩ : BufTy).Contents (Elt F)) (after ops V (Proc.devRef .tc main_call2_cst)) := by
  rw [← Cert.Line.before_eq ops_writes 105 (a := main_call2_cst) (by decide) V]
  refine (Cert.Line.at_written ops_writes 105 _ rfl (by decide) V).trans ?_
  generalize after (List.take 105 ops) V = W
  exact unary_result ..

theorem st_main_v66 (V : Valuation τ sig (Elt F)) :
    after ops V (Proc.devRef .tc main_v66) = (maximumf : (⟨S100000x16, .f32⟩ : BufTy).Contents (Elt F) → (⟨S100000x16, .f32⟩ : BufTy).Contents (Elt F) → (⟨S100000x16, .f32⟩ : BufTy).Contents (Elt F)) (after ops V (Proc.devRef .tc main_v65)) (after ops V (Proc.devRef .tc main_call2_v0)) := by
  rw [← Cert.Line.before_eq ops_writes 106 (a := main_v65) (by decide) V, ← Cert.Line.before_eq ops_writes 106 (a := main_call2_v0) (by decide) V]
  refine (Cert.Line.at_written ops_writes 106 _ rfl (by decide) V).trans ?_
  generalize after (List.take 106 ops) V = W
  exact binary_result ..

theorem st_main_v67 (V : Valuation τ sig (Elt F)) :
    after ops V (Proc.devRef .tc main_v67) = (((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)) : (⟨S100000x16, .f32⟩ : BufTy).Contents (Elt F) → (⟨S16x8, .f32⟩ : BufTy).Contents (Elt F) → (⟨S100000x8, .f32⟩ : BufTy).Contents (Elt F)) (after ops V (Proc.devRef .tc main_v66)) (after ops V (Proc.devRef .tc main_arg5)) := by
  rw [← Cert.Line.before_eq ops_writes 107 (a := main_v66) (by decide) V, ← Cert.Line.before_eq ops_writes 107 (a := main_arg5) (by decide) V]
  refine (Cert.Line.at_written ops_writes 107 _ rfl (by decide) V).trans ?_
  generalize after (List.take 107 ops) V = W
  exact binary_result ..

theorem st_main_v68 (V : Valuation τ sig (Elt F)) :
    after ops V (Proc.devRef .tc main_v68) = ((iotaInDim S100000 32 0) : (⟨S100000, .i32⟩ : BufTy).Contents (Elt F)) := by
  refine (Cert.Line.at_written ops_writes 108 _ rfl (by decide) V).trans ?_
  generalize after (List.take 108 ops) V = W
  exact nullary_result ..

theorem st_main_v69 (V : Valuation τ sig (Elt F)) :
    after ops V (Proc.devRef .tc main_v69) = (((extractStridedSlice S1x3200000 ![0, 0] · slices_S2x3200000_S1x3200000_0_0) : (⟨S2x3200000, .i32⟩ : BufTy).Contents (Elt F) → (⟨S1x3200000, .i32⟩ : BufTy).Contents (Elt F)) : (⟨S2x3200000, .i32⟩ : BufTy).Contents (Elt F) → (⟨S1x3200000, .i32⟩ : BufTy).Contents (Elt F)) (after ops V (Proc.devRef .tc main_arg7)) := by
  rw [← Cert.Line.before_eq ops_writes 109 (a := main_arg7) (by decide) V]
  refine (Cert.Line.at_written ops_writes 109 _ rfl (by decide) V).trans ?_
  generalize after (List.take 109 ops) V = W
  exact unary_result ..

theorem st_main_v70 (V : Valuation τ sig (Elt F)) :
    after ops V (Proc.devRef .tc main_v70) = shapeCast S3200000 (after ops V (Proc.devRef .tc main_v69)) shapeCasts_S1x3200000_S3200000 := by
  rw [← Cert.Line.before_eq ops_writes 110 (a := main_v69) (by decide) V]
  refine (Cert.Line.at_written ops_writes 110 _ rfl (by decide) V).trans ?_
  generalize after (List.take 110 ops) V = W
  exact reshape_result ..

theorem st_main_v71 (V : Valuation τ sig (Elt F)) :
    after ops V (Proc.devRef .tc main_v71) = (((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) : (⟨S3200000, .i32⟩ : BufTy).Contents (Elt F) → (⟨S100000, .i32⟩ : BufTy).Contents (Elt F) → (⟨S3300000, .i32⟩ : BufTy).Contents (Elt F)) (after ops V (Proc.devRef .tc main_v70)) (after ops V (Proc.devRef .tc main_v68)) := by
  rw [← Cert.Line.before_eq ops_writes 111 (a := main_v70) (by decide) V, ← Cert.Line.before_eq ops_writes 111 (a := main_v68) (by decide) V]
  refine (Cert.Line.at_written ops_writes 111 _ rfl (by decide) V).trans ?_
  generalize after (List.take 111 ops) V = W
  exact binary_result ..

theorem st_main_v72 (V : Valuation τ sig (Elt F)) :
    after ops V (Proc.devRef .tc main_v72) = (((extractStridedSlice S1x3200000 ![1, 0] · slices_S2x3200000_S1x3200000_1_0) : (⟨S2x3200000, .i32⟩ : BufTy).Contents (Elt F) → (⟨S1x3200000, .i32⟩ : BufTy).Contents (Elt F)) : (⟨S2x3200000, .i32⟩ : BufTy).Contents (Elt F) → (⟨S1x3200000, .i32⟩ : BufTy).Contents (Elt F)) (after ops V (Proc.devRef .tc main_arg7)) := by
  rw [← Cert.Line.before_eq ops_writes 112 (a := main_arg7) (by decide) V]
  refine (Cert.Line.at_written ops_writes 112 _ rfl (by decide) V).trans ?_
  generalize after (List.take 112 ops) V = W
  exact unary_result ..

theorem st_main_v73 (V : Valuation τ sig (Elt F)) :
    after ops V (Proc.devRef .tc main_v73) = shapeCast S3200000 (after ops V (Proc.devRef .tc main_v72)) shapeCasts_S1x3200000_S3200000 := by
  rw [← Cert.Line.before_eq ops_writes 113 (a := main_v72) (by decide) V]
  refine (Cert.Line.at_written ops_writes 113 _ rfl (by decide) V).trans ?_
  generalize after (List.take 113 ops) V = W
  exact reshape_result ..

theorem st_main_v74 (V : Valuation τ sig (Elt F)) :
    after ops V (Proc.devRef .tc main_v74) = (((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) : (⟨S3200000, .i32⟩ : BufTy).Contents (Elt F) → (⟨S100000, .i32⟩ : BufTy).Contents (Elt F) → (⟨S3300000, .i32⟩ : BufTy).Contents (Elt F)) (after ops V (Proc.devRef .tc main_v73)) (after ops V (Proc.devRef .tc main_v68)) := by
  rw [← Cert.Line.before_eq ops_writes 114 (a := main_v73) (by decide) V, ← Cert.Line.before_eq ops_writes 114 (a := main_v68) (by decide) V]
  refine (Cert.Line.at_written ops_writes 114 _ rfl (by decide) V).trans ?_
  generalize after (List.take 114 ops) V = W
  exact binary_result ..

theorem st_main_cst_13 (V : Valuation τ sig (Elt F)) :
    after ops V (Proc.devRef .tc main_cst_13) = ((constant (F := F) S_ .f32 0x3F800000#32) : (⟨S_, .f32⟩ : BufTy).Contents (Elt F)) := by
  refine (Cert.Line.at_written ops_writes 115 _ rfl (by decide) V).trans ?_
  generalize after (List.take 115 ops) V = W
  exact nullary_result ..

theorem st_main_v75 (V : Valuation τ sig (Elt F)) :
    after ops V (Proc.devRef .tc main_v75) = ((broadcastInDim S3300000 ![] bcast_S_S3300000 : (⟨S_, .f32⟩ : BufTy).Contents (Elt F) → (⟨S3300000, .f32⟩ : BufTy).Contents (Elt F)) : (⟨S_, .f32⟩ : BufTy).Contents (Elt F) → (⟨S3300000, .f32⟩ : BufTy).Contents (Elt F)) (after ops V (Proc.devRef .tc main_cst_13)) := by
  rw [← Cert.Line.before_eq ops_writes 116 (a := main_cst_13) (by decide) V]
  refine (Cert.Line.at_written ops_writes 116 _ rfl (by decide) V).trans ?_
  generalize after (List.take 116 ops) V = W
  exact unary_result ..

theorem st_main_cst_14 (V : Valuation τ sig (Elt F)) :
    after ops V (Proc.devRef .tc main_cst_14) = ((constant (F := F) S_ .f32 0x00000000#32) : (⟨S_, .f32⟩ : BufTy).Contents (Elt F)) := by
  refine (Cert.Line.at_written ops_writes 117 _ rfl (by decide) V).trans ?_
  generalize after (List.take 117 ops) V = W
  exact nullary_result ..

theorem st_main_v76 (V : Valuation τ sig (Elt F)) :
    after ops V (Proc.devRef .tc main_v76) = ((broadcastInDim S100000 ![] bcast_S_S100000 : (⟨S_, .f32⟩ : BufTy).Contents (Elt F) → (⟨S100000, .f32⟩ : BufTy).Contents (Elt F)) : (⟨S_, .f32⟩ : BufTy).Contents (Elt F) → (⟨S100000, .f32⟩ : BufTy).Contents (Elt F)) (after ops V (Proc.devRef .tc main_cst_14)) := by
  rw [← Cert.Line.before_eq ops_writes 118 (a := main_cst_14) (by decide) V]
  refine (Cert.Line.at_written ops_writes 118 _ rfl (by decide) V).trans ?_
  generalize after (List.take 118 ops) V = W
  exact unary_result ..

theorem st_main_v77 (V : Valuation τ sig (Elt F)) :
    after ops V (Proc.devRef .tc main_v77) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v74)) := by
  rw [← Cert.Line.before_eq ops_writes 119 (a := main_v74) (by decide) V]
  refine (Cert.Line.at_written ops_writes 119 _ rfl (by decide) V).trans ?_
  generalize after (List.take 119 ops) V = W
  exact unary_result ..

theorem st_main_v78 (V : Valuation τ sig (Elt F)) :
    after ops V (Proc.devRef .tc main_v78) = (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (after ops V (Proc.devRef .tc main_v76)) (after ops V (Proc.devRef .tc main_v77)) (after ops V (Proc.devRef .tc main_v75)) := by
  rw [← Cert.Line.before_eq ops_writes 120 (a := main_v76) (by decide) V, ← Cert.Line.before_eq ops_writes 120 (a := main_v77) (by decide) V, ← Cert.Line.before_eq ops_writes 120 (a := main_v75) (by decide) V]
  refine (Cert.Line.at_written ops_writes 120 _ rfl (by decide) V).trans ?_
  generalize after (List.take 120 ops) V = W
  exact ternary_result ..

theorem st_main_cst_15 (V : Valuation τ sig (Elt F)) :
    after ops V (Proc.devRef .tc main_cst_15) = ((constant (F := F) S_ .f32 0x00000000#32) : (⟨S_, .f32⟩ : BufTy).Contents (Elt F)) := by
  refine (Cert.Line.at_written ops_writes 121 _ rfl (by decide) V).trans ?_
  generalize after (List.take 121 ops) V = W
  exact nullary_result ..

theorem st_main_v79 (V : Valuation τ sig (Elt F)) :
    after ops V (Proc.devRef .tc main_v79) = ((broadcastInDim S100000 ![] bcast_S_S100000 : (⟨S_, .f32⟩ : BufTy).Contents (Elt F) → (⟨S100000, .f32⟩ : BufTy).Contents (Elt F)) : (⟨S_, .f32⟩ : BufTy).Contents (Elt F) → (⟨S100000, .f32⟩ : BufTy).Contents (Elt F)) (after ops V (Proc.devRef .tc main_cst_15)) := by
  rw [← Cert.Line.before_eq ops_writes 122 (a := main_cst_15) (by decide) V]
  refine (Cert.Line.at_written ops_writes 122 _ rfl (by decide) V).trans ?_
  generalize after (List.take 122 ops) V = W
  exact unary_result ..

theorem st_main_v80 (V : Valuation τ sig (Elt F)) :
    after ops V (Proc.devRef .tc main_v80) = ((cmpf .ogt : (⟨S100000, .f32⟩ : BufTy).Contents (Elt F) → (⟨S100000, .f32⟩ : BufTy).Contents (Elt F) → (⟨S100000, .i1⟩ : BufTy).Contents (Elt F)) : (⟨S100000, .f32⟩ : BufTy).Contents (Elt F) → (⟨S100000, .f32⟩ : BufTy).Contents (Elt F) → (⟨S100000, .i1⟩ : BufTy).Contents (Elt F)) (after ops V (Proc.devRef .tc main_v78)) (after ops V (Proc.devRef .tc main_v79)) := by
  rw [← Cert.Line.before_eq ops_writes 123 (a := main_v78) (by decide) V, ← Cert.Line.before_eq ops_writes 123 (a := main_v79) (by decide) V]
  refine (Cert.Line.at_written ops_writes 123 _ rfl (by decide) V).trans ?_
  generalize after (List.take 123 ops) V = W
  exact binary_result ..

theorem st_main_v81 (V : Valuation τ sig (Elt F)) :
    after ops V (Proc.devRef .tc main_v81) = ((Host.rsqrt : (⟨S100000, .f32⟩ : BufTy).Contents (Elt F) → (⟨S100000, .f32⟩ : BufTy).Contents (Elt F)) : (⟨S100000, .f32⟩ : BufTy).Contents (Elt F) → (⟨S100000, .f32⟩ : BufTy).Contents (Elt F)) (after ops V (Proc.devRef .tc main_v78)) := by
  rw [← Cert.Line.before_eq ops_writes 124 (a := main_v78) (by decide) V]
  refine (Cert.Line.at_written ops_writes 124 _ rfl (by decide) V).trans ?_
  generalize after (List.take 124 ops) V = W
  exact unary_result ..

theorem st_main_cst_16 (V : Valuation τ sig (Elt F)) :
    after ops V (Proc.devRef .tc main_cst_16) = ((constant (F := F) S_ .f32 0x00000000#32) : (⟨S_, .f32⟩ : BufTy).Contents (Elt F)) := by
  refine (Cert.Line.at_written ops_writes 125 _ rfl (by decide) V).trans ?_
  generalize after (List.take 125 ops) V = W
  exact nullary_result ..

theorem st_main_call3_v0 (V : Valuation τ sig (Elt F)) :
    after ops V (Proc.devRef .tc main_call3_v0) = (id : (⟨S_, .f32⟩ : BufTy).Contents (Elt F) → (⟨S_, .f32⟩ : BufTy).Contents (Elt F)) (after ops V (Proc.devRef .tc main_cst_16)) := by
  rw [← Cert.Line.before_eq ops_writes 126 (a := main_cst_16) (by decide) V]
  refine (Cert.Line.at_written ops_writes 126 _ rfl (by decide) V).trans ?_
  generalize after (List.take 126 ops) V = W
  exact unary_result ..

theorem st_main_call3_v1 (V : Valuation τ sig (Elt F)) :
    after ops V (Proc.devRef .tc main_call3_v1) = ((broadcastInDim S100000 ![] bcast_S_S100000) : (⟨S_, .f32⟩ : BufTy).Contents (Elt F) → (⟨S100000, .f32⟩ : BufTy).Contents (Elt F)) (after ops V (Proc.devRef .tc main_call3_v0)) := by
  rw [← Cert.Line.before_eq ops_writes 127 (a := main_call3_v0) (by decide) V]
  refine (Cert.Line.at_written ops_writes 127 _ rfl (by decide) V).trans ?_
  generalize after (List.take 127 ops) V = W
  exact unary_result ..

theorem st_main_v82 (V : Valuation τ sig (Elt F)) :
    after ops V (Proc.devRef .tc main_v82) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v80)) (after ops V (Proc.devRef .tc main_v81)) (after ops V (Proc.devRef .tc main_call3_v1)) := by
  rw [← Cert.Line.before_eq ops_writes 128 (a := main_v80) (by decide) V, ← Cert.Line.before_eq ops_writes 128 (a := main_v81) (by decide) V, ← Cert.Line.before_eq ops_writes 128 (a := main_call3_v1) (by decide) V]
  refine (Cert.Line.at_written ops_writes 128 _ rfl (by decide) V).trans ?_
  generalize after (List.take 128 ops) V = W
  exact ternary_result ..

theorem st_main_c_17 (V : Valuation τ sig (Elt F)) :
    after ops V (Proc.devRef .tc main_c_17) = ((constantI S_ 32 0#32) : (⟨S_, .i32⟩ : BufTy).Contents (Elt F)) := by
  refine (Cert.Line.at_written ops_writes 129 _ rfl (by decide) V).trans ?_
  generalize after (List.take 129 ops) V = W
  exact nullary_result ..

theorem st_main_v83 (V : Valuation τ sig (Elt F)) :
    after ops V (Proc.devRef .tc main_v83) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_17)) := by
  rw [← Cert.Line.before_eq ops_writes 130 (a := main_c_17) (by decide) V]
  refine (Cert.Line.at_written ops_writes 130 _ rfl (by decide) V).trans ?_
  generalize after (List.take 130 ops) V = W
  exact unary_result ..

theorem st_main_v84 (V : Valuation τ sig (Elt F)) :
    after ops V (Proc.devRef .tc main_v84) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v71)) (after ops V (Proc.devRef .tc main_v83)) := by
  rw [← Cert.Line.before_eq ops_writes 131 (a := main_v71) (by decide) V, ← Cert.Line.before_eq ops_writes 131 (a := main_v83) (by decide) V]
  refine (Cert.Line.at_written ops_writes 131 _ rfl (by decide) V).trans ?_
  generalize after (List.take 131 ops) V = W
  exact binary_result ..

theorem st_main_c_18 (V : Valuation τ sig (Elt F)) :
    after ops V (Proc.devRef .tc main_c_18) = ((constantI S_ 32 100000#32) : (⟨S_, .i32⟩ : BufTy).Contents (Elt F)) := by
  refine (Cert.Line.at_written ops_writes 132 _ rfl (by decide) V).trans ?_
  generalize after (List.take 132 ops) V = W
  exact nullary_result ..

theorem st_main_v85 (V : Valuation τ sig (Elt F)) :
    after ops V (Proc.devRef .tc main_v85) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_18)) := by
  rw [← Cert.Line.before_eq ops_writes 133 (a := main_c_18) (by decide) V]
  refine (Cert.Line.at_written ops_writes 133 _ rfl (by decide) V).trans ?_
  generalize after (List.take 133 ops) V = W
  exact unary_result ..

theorem st_main_v86 (V : Valuation τ sig (Elt F)) :
    after ops V (Proc.devRef .tc main_v86) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v71)) (after ops V (Proc.devRef .tc main_v85)) := by
  rw [← Cert.Line.before_eq ops_writes 134 (a := main_v71) (by decide) V, ← Cert.Line.before_eq ops_writes 134 (a := main_v85) (by decide) V]
  refine (Cert.Line.at_written ops_writes 134 _ rfl (by decide) V).trans ?_
  generalize after (List.take 134 ops) V = W
  exact binary_result ..

theorem st_main_v87 (V : Valuation τ sig (Elt F)) :
    after ops V (Proc.devRef .tc main_v87) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v84)) (after ops V (Proc.devRef .tc main_v86)) (after ops V (Proc.devRef .tc main_v71)) := by
  rw [← Cert.Line.before_eq ops_writes 135 (a := main_v84) (by decide) V, ← Cert.Line.before_eq ops_writes 135 (a := main_v86) (by decide) V, ← Cert.Line.before_eq ops_writes 135 (a := main_v71) (by decide) V]
  refine (Cert.Line.at_written ops_writes 135 _ rfl (by decide) V).trans ?_
  generalize after (List.take 135 ops) V = W
  exact ternary_result ..

theorem st_main_v88 (V : Valuation τ sig (Elt F)) :
    after ops V (Proc.devRef .tc main_v88) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v87)) := by
  rw [← Cert.Line.before_eq ops_writes 136 (a := main_v87) (by decide) V]
  refine (Cert.Line.at_written ops_writes 136 _ rfl (by decide) V).trans ?_
  generalize after (List.take 136 ops) V = W
  exact unary_result ..

theorem st_main_v89 (V : Valuation τ sig (Elt F)) :
    after ops V (Proc.devRef .tc main_v89) = (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) : (⟨S100000, .f32⟩ : BufTy).Contents (Elt F) → (⟨S3300000x1, .i32⟩ : BufTy).Contents (Elt F) → (⟨S3300000, .f32⟩ : BufTy).Contents (Elt F)) (after ops V (Proc.devRef .tc main_v82)) (after ops V (Proc.devRef .tc main_v88)) := by
  rw [← Cert.Line.before_eq ops_writes 137 (a := main_v82) (by decide) V, ← Cert.Line.before_eq ops_writes 137 (a := main_v88) (by decide) V]
  refine (Cert.Line.at_written ops_writes 137 _ rfl (by decide) V).trans ?_
  generalize after (List.take 137 ops) V = W
  exact binary_result ..

theorem st_main_c_19 (V : Valuation τ sig (Elt F)) :
    after ops V (Proc.devRef .tc main_c_19) = ((constantI S_ 32 0#32) : (⟨S_, .i32⟩ : BufTy).Contents (Elt F)) := by
  refine (Cert.Line.at_written ops_writes 138 _ rfl (by decide) V).trans ?_
  generalize after (List.take 138 ops) V = W
  exact nullary_result ..

theorem st_main_v90 (V : Valuation τ sig (Elt F)) :
    after ops V (Proc.devRef .tc main_v90) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_19)) := by
  rw [← Cert.Line.before_eq ops_writes 139 (a := main_c_19) (by decide) V]
  refine (Cert.Line.at_written ops_writes 139 _ rfl (by decide) V).trans ?_
  generalize after (List.take 139 ops) V = W
  exact unary_result ..

theorem st_main_v91 (V : Valuation τ sig (Elt F)) :
    after ops V (Proc.devRef .tc main_v91) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v74)) (after ops V (Proc.devRef .tc main_v90)) := by
  rw [← Cert.Line.before_eq ops_writes 140 (a := main_v74) (by decide) V, ← Cert.Line.before_eq ops_writes 140 (a := main_v90) (by decide) V]
  refine (Cert.Line.at_written ops_writes 140 _ rfl (by decide) V).trans ?_
  generalize after (List.take 140 ops) V = W
  exact binary_result ..

theorem st_main_c_20 (V : Valuation τ sig (Elt F)) :
    after ops V (Proc.devRef .tc main_c_20) = ((constantI S_ 32 100000#32) : (⟨S_, .i32⟩ : BufTy).Contents (Elt F)) := by
  refine (Cert.Line.at_written ops_writes 141 _ rfl (by decide) V).trans ?_
  generalize after (List.take 141 ops) V = W
  exact nullary_result ..

theorem st_main_v92 (V : Valuation τ sig (Elt F)) :
    after ops V (Proc.devRef .tc main_v92) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_20)) := by
  rw [← Cert.Line.before_eq ops_writes 142 (a := main_c_20) (by decide) V]
  refine (Cert.Line.at_written ops_writes 142 _ rfl (by decide) V).trans ?_
  generalize after (List.take 142 ops) V = W
  exact unary_result ..

theorem st_main_v93 (V : Valuation τ sig (Elt F)) :
    after ops V (Proc.devRef .tc main_v93) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v74)) (after ops V (Proc.devRef .tc main_v92)) := by
  rw [← Cert.Line.before_eq ops_writes 143 (a := main_v74) (by decide) V, ← Cert.Line.before_eq ops_writes 143 (a := main_v92) (by decide) V]
  refine (Cert.Line.at_written ops_writes 143 _ rfl (by decide) V).trans ?_
  generalize after (List.take 143 ops) V = W
  exact binary_result ..

theorem st_main_v94 (V : Valuation τ sig (Elt F)) :
    after ops V (Proc.devRef .tc main_v94) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v91)) (after ops V (Proc.devRef .tc main_v93)) (after ops V (Proc.devRef .tc main_v74)) := by
  rw [← Cert.Line.before_eq ops_writes 144 (a := main_v91) (by decide) V, ← Cert.Line.before_eq ops_writes 144 (a := main_v93) (by decide) V, ← Cert.Line.before_eq ops_writes 144 (a := main_v74) (by decide) V]
  refine (Cert.Line.at_written ops_writes 144 _ rfl (by decide) V).trans ?_
  generalize after (List.take 144 ops) V = W
  exact ternary_result ..

theorem st_main_v95 (V : Valuation τ sig (Elt F)) :
    after ops V (Proc.devRef .tc main_v95) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v94)) := by
  rw [← Cert.Line.before_eq ops_writes 145 (a := main_v94) (by decide) V]
  refine (Cert.Line.at_written ops_writes 145 _ rfl (by decide) V).trans ?_
  generalize after (List.take 145 ops) V = W
  exact unary_result ..

theorem st_main_v96 (V : Valuation τ sig (Elt F)) :
    after ops V (Proc.devRef .tc main_v96) = (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) : (⟨S100000, .f32⟩ : BufTy).Contents (Elt F) → (⟨S3300000x1, .i32⟩ : BufTy).Contents (Elt F) → (⟨S3300000, .f32⟩ : BufTy).Contents (Elt F)) (after ops V (Proc.devRef .tc main_v82)) (after ops V (Proc.devRef .tc main_v95)) := by
  rw [← Cert.Line.before_eq ops_writes 146 (a := main_v82) (by decide) V, ← Cert.Line.before_eq ops_writes 146 (a := main_v95) (by decide) V]
  refine (Cert.Line.at_written ops_writes 146 _ rfl (by decide) V).trans ?_
  generalize after (List.take 146 ops) V = W
  exact binary_result ..

end Cert.ReferenceIdeal.Hand

end
-- ==== Proof.Ref.Stage2.lean ====
/- THE REFERENCE PROGRAM READ BUFFER BY BUFFER, stretch 2 of three: the contents each buffer of the stretch ends
   with, as its operation's function of the final contents of the operation's operands (every buffer is written
   once, its operands earlier or never). -/
import proofs.«179341_j31447750542019_2_alg».proof.Proof.Ref.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: an operation's function is carried as it is
attribute [local irreducible] Host.reduce Host.reduceAdd Host.gather Host.scatterAdd

theorem st_main_v97 (V : Valuation τ sig (Elt F)) :
    after ops V (Proc.devRef .tc main_v97) = ((mulf : (⟨S3300000, .f32⟩ : BufTy).Contents (Elt F) → (⟨S3300000, .f32⟩ : BufTy).Contents (Elt F) → (⟨S3300000, .f32⟩ : BufTy).Contents (Elt F)) : (⟨S3300000, .f32⟩ : BufTy).Contents (Elt F) → (⟨S3300000, .f32⟩ : BufTy).Contents (Elt F) → (⟨S3300000, .f32⟩ : BufTy).Contents (Elt F)) (after ops V (Proc.devRef .tc main_v89)) (after ops V (Proc.devRef .tc main_v96)) := by
  rw [← Cert.Line.before_eq ops_writes 147 (a := main_v89) (by decide) V, ← Cert.Line.before_eq ops_writes 147 (a := main_v96) (by decide) V]
  refine (Cert.Line.at_written ops_writes 147 _ rfl (by decide) V).trans ?_
  generalize after (List.take 147 ops) V = W
  exact binary_result ..

theorem st_main_c_21 (V : Valuation τ sig (Elt F)) :
    after ops V (Proc.devRef .tc main_c_21) = ((constantI S_ 32 0#32) : (⟨S_, .i32⟩ : BufTy).Contents (Elt F)) := by
  refine (Cert.Line.at_written ops_writes 148 _ rfl (by decide) V).trans ?_
  generalize after (List.take 148 ops) V = W
  exact nullary_result ..

theorem st_main_v98 (V : Valuation τ sig (Elt F)) :
    after ops V (Proc.devRef .tc main_v98) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_21)) := by
  rw [← Cert.Line.before_eq ops_writes 149 (a := main_c_21) (by decide) V]
  refine (Cert.Line.at_written ops_writes 149 _ rfl (by decide) V).trans ?_
  generalize after (List.take 149 ops) V = W
  exact unary_result ..

theorem st_main_v99 (V : Valuation τ sig (Elt F)) :
    after ops V (Proc.devRef .tc main_v99) = ((cmpi .slt : (⟨S3300000, .i32⟩ : BufTy).Contents (Elt F) → (⟨S3300000, .i32⟩ : BufTy).Contents (Elt F) → (⟨S3300000, .i1⟩ : BufTy).Contents (Elt F)) : (⟨S3300000, .i32⟩ : BufTy).Contents (Elt F) → (⟨S3300000, .i32⟩ : BufTy).Contents (Elt F) → (⟨S3300000, .i1⟩ : BufTy).Contents (Elt F)) (after ops V (Proc.devRef .tc main_v71)) (after ops V (Proc.devRef .tc main_v98)) := by
  rw [← Cert.Line.before_eq ops_writes 150 (a := main_v71) (by decide) V, ← Cert.Line.before_eq ops_writes 150 (a := main_v98) (by decide) V]
  refine (Cert.Line.at_written ops_writes 150 _ rfl (by decide) V).trans ?_
  generalize after (List.take 150 ops) V = W
  exact binary_result ..

theorem st_main_c_22 (V : Valuation τ sig (Elt F)) :
    after ops V (Proc.devRef .tc main_c_22) = ((constantI S_ 32 100000#32) : (⟨S_, .i32⟩ : BufTy).Contents (Elt F)) := by
  refine (Cert.Line.at_written ops_writes 151 _ rfl (by decide) V).trans ?_
  generalize after (List.take 151 ops) V = W
  exact nullary_result ..

theorem st_main_v100 (V : Valuation τ sig (Elt F)) :
    after ops V (Proc.devRef .tc main_v100) = ((broadcastInDim S3300000 ![] bcast_S_S3300000 : (⟨S_, .i32⟩ : BufTy).Contents (Elt F) → (⟨S3300000, .i32⟩ : BufTy).Contents (Elt F)) : (⟨S_, .i32⟩ : BufTy).Contents (Elt F) → (⟨S3300000, .i32⟩ : BufTy).Contents (Elt F)) (after ops V (Proc.devRef .tc main_c_22)) := by
  rw [← Cert.Line.before_eq ops_writes 152 (a := main_c_22) (by decide) V]
  refine (Cert.Line.at_written ops_writes 152 _ rfl (by decide) V).trans ?_
  generalize after (List.take 152 ops) V = W
  exact unary_result ..

theorem st_main_v101 (V : Valuation τ sig (Elt F)) :
    after ops V (Proc.devRef .tc main_v101) = ((addi : (⟨S3300000, .i32⟩ : BufTy).Contents (Elt F) → (⟨S3300000, .i32⟩ : BufTy).Contents (Elt F) → (⟨S3300000, .i32⟩ : BufTy).Contents (Elt F)) : (⟨S3300000, .i32⟩ : BufTy).Contents (Elt F) → (⟨S3300000, .i32⟩ : BufTy).Contents (Elt F) → (⟨S3300000, .i32⟩ : BufTy).Contents (Elt F)) (after ops V (Proc.devRef .tc main_v71)) (after ops V (Proc.devRef .tc main_v100)) := by
  rw [← Cert.Line.before_eq ops_writes 153 (a := main_v71) (by decide) V, ← Cert.Line.before_eq ops_writes 153 (a := main_v100) (by decide) V]
  refine (Cert.Line.at_written ops_writes 153 _ rfl (by decide) V).trans ?_
  generalize after (List.take 153 ops) V = W
  exact binary_result ..

theorem st_main_v102 (V : Valuation τ sig (Elt F)) :
    after ops V (Proc.devRef .tc main_v102) = ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (after ops V (Proc.devRef .tc main_v99)) (after ops V (Proc.devRef .tc main_v101)) (after ops V (Proc.devRef .tc main_v71)) := by
  rw [← Cert.Line.before_eq ops_writes 154 (a := main_v99) (by decide) V, ← Cert.Line.before_eq ops_writes 154 (a := main_v101) (by decide) V, ← Cert.Line.before_eq ops_writes 154 (a := main_v71) (by decide) V]
  refine (Cert.Line.at_written ops_writes 154 _ rfl (by decide) V).trans ?_
  generalize after (List.take 154 ops) V = W
  exact ternary_result ..

theorem st_main_v103 (V : Valuation τ sig (Elt F)) :
    after ops V (Proc.devRef .tc main_v103) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v102)) := by
  rw [← Cert.Line.before_eq ops_writes 155 (a := main_v102) (by decide) V]
  refine (Cert.Line.at_written ops_writes 155 _ rfl (by decide) V).trans ?_
  generalize after (List.take 155 ops) V = W
  exact unary_result ..

theorem st_main_v104 (V : Valuation τ sig (Elt F)) :
    after ops V (Proc.devRef .tc main_v104) = (((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)) : (⟨S100000x8, .f32⟩ : BufTy).Contents (Elt F) → (⟨S3300000x1, .i32⟩ : BufTy).Contents (Elt F) → (⟨S3300000x8, .f32⟩ : BufTy).Contents (Elt F)) (after ops V (Proc.devRef .tc main_v67)) (after ops V (Proc.devRef .tc main_v103)) := by
  rw [← Cert.Line.before_eq ops_writes 156 (a := main_v67) (by decide) V, ← Cert.Line.before_eq ops_writes 156 (a := main_v103) (by decide) V]
  refine (Cert.Line.at_written ops_writes 156 _ rfl (by decide) V).trans ?_
  generalize after (List.take 156 ops) V = W
  exact binary_result ..

theorem st_main_v105 (V : Valuation τ sig (Elt F)) :
    after ops V (Proc.devRef .tc main_v105) = ((broadcastInDim S3300000x1 ![0] bcast_S3300000_S3300000x1_0 : (⟨S3300000, .f32⟩ : BufTy).Contents (Elt F) → (⟨S3300000x1, .f32⟩ : BufTy).Contents (Elt F)) : (⟨S3300000, .f32⟩ : BufTy).Contents (Elt F) → (⟨S3300000x1, .f32⟩ : BufTy).Contents (Elt F)) (after ops V (Proc.devRef .tc main_v97)) := by
  rw [← Cert.Line.before_eq ops_writes 157 (a := main_v97) (by decide) V]
  refine (Cert.Line.at_written ops_writes 157 _ rfl (by decide) V).trans ?_
  generalize after (List.take 157 ops) V = W
  exact unary_result ..

theorem st_main_v106 (V : Valuation τ sig (Elt F)) :
    after ops V (Proc.devRef .tc main_v106) = ((broadcastInDim S3300000x8 ![0, 1] bcast_S3300000x1_S3300000x8_0_1 : (⟨S3300000x1, .f32⟩ : BufTy).Contents (Elt F) → (⟨S3300000x8, .f32⟩ : BufTy).Contents (Elt F)) : (⟨S3300000x1, .f32⟩ : BufTy).Contents (Elt F) → (⟨S3300000x8, .f32⟩ : BufTy).Contents (Elt F)) (after ops V (Proc.devRef .tc main_v105)) := by
  rw [← Cert.Line.before_eq ops_writes 158 (a := main_v105) (by decide) V]
  refine (Cert.Line.at_written ops_writes 158 _ rfl (by decide) V).trans ?_
  generalize after (List.take 158 ops) V = W
  exact unary_result ..

theorem st_main_v107 (V : Valuation τ sig (Elt F)) :
    after ops V (Proc.devRef .tc main_v107) = ((mulf : (⟨S3300000x8, .f32⟩ : BufTy).Contents (Elt F) → (⟨S3300000x8, .f32⟩ : BufTy).Contents (Elt F) → (⟨S3300000x8, .f32⟩ : BufTy).Contents (Elt F)) : (⟨S3300000x8, .f32⟩ : BufTy).Contents (Elt F) → (⟨S3300000x8, .f32⟩ : BufTy).Contents (Elt F) → (⟨S3300000x8, .f32⟩ : BufTy).Contents (Elt F)) (after ops V (Proc.devRef .tc main_v104)) (after ops V (Proc.devRef .tc main_v106)) := by
  rw [← Cert.Line.before_eq ops_writes 159 (a := main_v104) (by decide) V, ← Cert.Line.before_eq ops_writes 159 (a := main_v106) (by decide) V]
  refine (Cert.Line.at_written ops_writes 159 _ rfl (by decide) V).trans ?_
  generalize after (List.take 159 ops) V = W
  exact binary_result ..

theorem st_main_cst_23 (V : Valuation τ sig (Elt F)) :
    after ops V (Proc.devRef .tc main_cst_23) = ((constant (F := F) S_ .f32 0x00000000#32) : (⟨S_, .f32⟩ : BufTy).Contents (Elt F)) := by
  refine (Cert.Line.at_written ops_writes 160 _ rfl (by decide) V).trans ?_
  generalize after (List.take 160 ops) V = W
  exact nullary_result ..

theorem st_main_v108 (V : Valuation τ sig (Elt F)) :
    after ops V (Proc.devRef .tc main_v108) = ((broadcastInDim S100000x8 ![] bcast_S_S100000x8 : (⟨S_, .f32⟩ : BufTy).Contents (Elt F) → (⟨S100000x8, .f32⟩ : BufTy).Contents (Elt F)) : (⟨S_, .f32⟩ : BufTy).Contents (Elt F) → (⟨S100000x8, .f32⟩ : BufTy).Contents (Elt F)) (after ops V (Proc.devRef .tc main_cst_23)) := by
  rw [← Cert.Line.before_eq ops_writes 161 (a := main_cst_23) (by decide) V]
  refine (Cert.Line.at_written ops_writes 161 _ rfl (by decide) V).trans ?_
  generalize after (List.take 161 ops) V = W
  exact unary_result ..

theorem st_main_v109 (V : Valuation τ sig (Elt F)) :
    after ops V (Proc.devRef .tc main_v109) = ((broadcastInDim S3300000x1 ![0] bcast_S3300000_S3300000x1_0 : (⟨S3300000, .i32⟩ : BufTy).Contents (Elt F) → (⟨S3300000x1, .i32⟩ : BufTy).Contents (Elt F)) : (⟨S3300000, .i32⟩ : BufTy).Contents (Elt F) → (⟨S3300000x1, .i32⟩ : BufTy).Contents (Elt F)) (after ops V (Proc.devRef .tc main_v74)) := by
  rw [← Cert.Line.before_eq ops_writes 162 (a := main_v74) (by decide) V]
  refine (Cert.Line.at_written ops_writes 162 _ rfl (by decide) V).trans ?_
  generalize after (List.take 162 ops) V = W
  exact unary_result ..

theorem st_main_v110 (V : Valuation τ sig (Elt F)) :
    after ops V (Proc.devRef .tc main_v110) = (((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)) (after ops V (Proc.devRef .tc main_v108)) (after ops V (Proc.devRef .tc main_v109)) (after ops V (Proc.devRef .tc main_v107)) := by
  rw [← Cert.Line.before_eq ops_writes 163 (a := main_v108) (by decide) V, ← Cert.Line.before_eq ops_writes 163 (a := main_v109) (by decide) V, ← Cert.Line.before_eq ops_writes 163 (a := main_v107) (by decide) V]
  refine (Cert.Line.at_written ops_writes 163 _ rfl (by decide) V).trans ?_
  generalize after (List.take 163 ops) V = W
  exact ternary_result ..

theorem st_main_v111 (V : Valuation τ sig (Elt F)) :
    after ops V (Proc.devRef .tc main_v111) = ((broadcastInDim S1x8 ![1] bcast_S8_S1x8_1 : (⟨S8, .f32⟩ : BufTy).Contents (Elt F) → (⟨S1x8, .f32⟩ : BufTy).Contents (Elt F)) : (⟨S8, .f32⟩ : BufTy).Contents (Elt F) → (⟨S1x8, .f32⟩ : BufTy).Contents (Elt F)) (after ops V (Proc.devRef .tc main_arg6)) := by
  rw [← Cert.Line.before_eq ops_writes 164 (a := main_arg6) (by decide) V]
  refine (Cert.Line.at_written ops_writes 164 _ rfl (by decide) V).trans ?_
  generalize after (List.take 164 ops) V = W
  exact unary_result ..

theorem st_main_v112 (V : Valuation τ sig (Elt F)) :
    after ops V (Proc.devRef .tc main_v112) = ((broadcastInDim S100000x8 ![0, 1] bcast_S1x8_S100000x8_0_1 : (⟨S1x8, .f32⟩ : BufTy).Contents (Elt F) → (⟨S100000x8, .f32⟩ : BufTy).Contents (Elt F)) : (⟨S1x8, .f32⟩ : BufTy).Contents (Elt F) → (⟨S100000x8, .f32⟩ : BufTy).Contents (Elt F)) (after ops V (Proc.devRef .tc main_v111)) := by
  rw [← Cert.Line.before_eq ops_writes 165 (a := main_v111) (by decide) V]
  refine (Cert.Line.at_written ops_writes 165 _ rfl (by decide) V).trans ?_
  generalize after (List.take 165 ops) V = W
  exact unary_result ..

theorem st_main_v113 (V : Valuation τ sig (Elt F)) :
    after ops V (Proc.devRef .tc main_v113) = ((addf : (⟨S100000x8, .f32⟩ : BufTy).Contents (Elt F) → (⟨S100000x8, .f32⟩ : BufTy).Contents (Elt F) → (⟨S100000x8, .f32⟩ : BufTy).Contents (Elt F)) : (⟨S100000x8, .f32⟩ : BufTy).Contents (Elt F) → (⟨S100000x8, .f32⟩ : BufTy).Contents (Elt F) → (⟨S100000x8, .f32⟩ : BufTy).Contents (Elt F)) (after ops V (Proc.devRef .tc main_v110)) (after ops V (Proc.devRef .tc main_v112)) := by
  rw [← Cert.Line.before_eq ops_writes 166 (a := main_v110) (by decide) V, ← Cert.Line.before_eq ops_writes 166 (a := main_v112) (by decide) V]
  refine (Cert.Line.at_written ops_writes 166 _ rfl (by decide) V).trans ?_
  generalize after (List.take 166 ops) V = W
  exact binary_result ..

theorem st_main_call4_cst (V : Valuation τ sig (Elt F)) :
    after ops V (Proc.devRef .tc main_call4_cst) = ((constant (F := F) S_ .f32 0xFF800000#32) : (⟨S_, .f32⟩ : BufTy).Contents (Elt F)) := by
  refine (Cert.Line.at_written ops_writes 167 _ rfl (by decide) V).trans ?_
  generalize after (List.take 167 ops) V = W
  exact nullary_result ..

theorem st_main_call4_v0 (V : Valuation τ sig (Elt F)) :
    after ops V (Proc.devRef .tc main_call4_v0) = ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)) (after ops V (Proc.devRef .tc main_v113)) (after ops V (Proc.devRef .tc main_call4_cst)) := by
  rw [← Cert.Line.before_eq ops_writes 168 (a := main_v113) (by decide) V, ← Cert.Line.before_eq ops_writes 168 (a := main_call4_cst) (by decide) V]
  refine (Cert.Line.at_written ops_writes 168 _ rfl (by decide) V).trans ?_
  generalize after (List.take 168 ops) V = W
  exact binary_result ..

theorem st_main_call4_cst_0 (V : Valuation τ sig (Elt F)) :
    after ops V (Proc.devRef .tc main_call4_cst_0) = ((constant (F := F) S_ .f32 0xFF800000#32) : (⟨S_, .f32⟩ : BufTy).Contents (Elt F)) := by
  refine (Cert.Line.at_written ops_writes 169 _ rfl (by decide) V).trans ?_
  generalize after (List.take 169 ops) V = W
  exact nullary_result ..

theorem st_main_call4_v1 (V : Valuation τ sig (Elt F)) :
    after ops V (Proc.devRef .tc main_call4_v1) = ((broadcastInDim S100000 ![] bcast_S_S100000) : (⟨S_, .f32⟩ : BufTy).Contents (Elt F) → (⟨S100000, .f32⟩ : BufTy).Contents (Elt F)) (after ops V (Proc.devRef .tc main_call4_cst_0)) := by
  rw [← Cert.Line.before_eq ops_writes 170 (a := main_call4_cst_0) (by decide) V]
  refine (Cert.Line.at_written ops_writes 170 _ rfl (by decide) V).trans ?_
  generalize after (List.take 170 ops) V = W
  exact unary_result ..

theorem st_main_call4_v2 (V : Valuation τ sig (Elt F)) :
    after ops V (Proc.devRef .tc main_call4_v2) = (maximumf : (⟨S100000, .f32⟩ : BufTy).Contents (Elt F) → (⟨S100000, .f32⟩ : BufTy).Contents (Elt F) → (⟨S100000, .f32⟩ : BufTy).Contents (Elt F)) (after ops V (Proc.devRef .tc main_call4_v1)) (after ops V (Proc.devRef .tc main_call4_v0)) := by
  rw [← Cert.Line.before_eq ops_writes 171 (a := main_call4_v1) (by decide) V, ← Cert.Line.before_eq ops_writes 171 (a := main_call4_v0) (by decide) V]
  refine (Cert.Line.at_written ops_writes 171 _ rfl (by decide) V).trans ?_
  generalize after (List.take 171 ops) V = W
  exact binary_result ..

theorem st_main_call4_v3 (V : Valuation τ sig (Elt F)) :
    after ops V (Proc.devRef .tc main_call4_v3) = ((broadcastInDim S100000x1 ![0] bcast_S100000_S100000x1_0) : (⟨S100000, .f32⟩ : BufTy).Contents (Elt F) → (⟨S100000x1, .f32⟩ : BufTy).Contents (Elt F)) (after ops V (Proc.devRef .tc main_call4_v2)) := by
  rw [← Cert.Line.before_eq ops_writes 172 (a := main_call4_v2) (by decide) V]
  refine (Cert.Line.at_written ops_writes 172 _ rfl (by decide) V).trans ?_
  generalize after (List.take 172 ops) V = W
  exact unary_result ..

theorem st_main_call4_v4 (V : Valuation τ sig (Elt F)) :
    after ops V (Proc.devRef .tc main_call4_v4) = ((broadcastInDim S100000x8 ![0, 1] bcast_S100000x1_S100000x8_0_1) : (⟨S100000x1, .f32⟩ : BufTy).Contents (Elt F) → (⟨S100000x8, .f32⟩ : BufTy).Contents (Elt F)) (after ops V (Proc.devRef .tc main_call4_v3)) := by
  rw [← Cert.Line.before_eq ops_writes 173 (a := main_call4_v3) (by decide) V]
  refine (Cert.Line.at_written ops_writes 173 _ rfl (by decide) V).trans ?_
  generalize after (List.take 173 ops) V = W
  exact unary_result ..

theorem st_main_call4_v5 (V : Valuation τ sig (Elt F)) :
    after ops V (Proc.devRef .tc main_call4_v5) = (subf : (⟨S100000x8, .f32⟩ : BufTy).Contents (Elt F) → (⟨S100000x8, .f32⟩ : BufTy).Contents (Elt F) → (⟨S100000x8, .f32⟩ : BufTy).Contents (Elt F)) (after ops V (Proc.devRef .tc main_v113)) (after ops V (Proc.devRef .tc main_call4_v4)) := by
  rw [← Cert.Line.before_eq ops_writes 174 (a := main_v113) (by decide) V, ← Cert.Line.before_eq ops_writes 174 (a := main_call4_v4) (by decide) V]
  refine (Cert.Line.at_written ops_writes 174 _ rfl (by decide) V).trans ?_
  generalize after (List.take 174 ops) V = W
  exact binary_result ..

theorem st_main_call4_v6 (V : Valuation τ sig (Elt F)) :
    after ops V (Proc.devRef .tc main_call4_v6) = (Host.exp : (⟨S100000x8, .f32⟩ : BufTy).Contents (Elt F) → (⟨S100000x8, .f32⟩ : BufTy).Contents (Elt F)) (after ops V (Proc.devRef .tc main_call4_v5)) := by
  rw [← Cert.Line.before_eq ops_writes 175 (a := main_call4_v5) (by decide) V]
  refine (Cert.Line.at_written ops_writes 175 _ rfl (by decide) V).trans ?_
  generalize after (List.take 175 ops) V = W
  exact unary_result ..

theorem st_main_call4_cst_1 (V : Valuation τ sig (Elt F)) :
    after ops V (Proc.devRef .tc main_call4_cst_1) = ((constant (F := F) S_ .f32 0x00000000#32) : (⟨S_, .f32⟩ : BufTy).Contents (Elt F)) := by
  refine (Cert.Line.at_written ops_writes 176 _ rfl (by decide) V).trans ?_
  generalize after (List.take 176 ops) V = W
  exact nullary_result ..

theorem st_main_call4_v7 (V : Valuation τ sig (Elt F)) :
    after ops V (Proc.devRef .tc main_call4_v7) = ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)) (after ops V (Proc.devRef .tc main_call4_v6)) (after ops V (Proc.devRef .tc main_call4_cst_1)) := by
  rw [← Cert.Line.before_eq ops_writes 177 (a := main_call4_v6) (by decide) V, ← Cert.Line.before_eq ops_writes 177 (a := main_call4_cst_1) (by decide) V]
  refine (Cert.Line.at_written ops_writes 177 _ rfl (by decide) V).trans ?_
  generalize after (List.take 177 ops) V = W
  exact binary_result ..

theorem st_main_call4_v8 (V : Valuation τ sig (Elt F)) :
    after ops V (Proc.devRef .tc main_call4_v8) = ((broadcastInDim S100000x1 ![0] bcast_S100000_S100000x1_0) : (⟨S100000, .f32⟩ : BufTy).Contents (Elt F) → (⟨S100000x1, .f32⟩ : BufTy).Contents (Elt F)) (after ops V (Proc.devRef .tc main_call4_v7)) := by
  rw [← Cert.Line.before_eq ops_writes 178 (a := main_call4_v7) (by decide) V]
  refine (Cert.Line.at_written ops_writes 178 _ rfl (by decide) V).trans ?_
  generalize after (List.take 178 ops) V = W
  exact unary_result ..

theorem st_main_call4_v9 (V : Valuation τ sig (Elt F)) :
    after ops V (Proc.devRef .tc main_call4_v9) = (Host.log : (⟨S100000x1, .f32⟩ : BufTy).Contents (Elt F) → (⟨S100000x1, .f32⟩ : BufTy).Contents (Elt F)) (after ops V (Proc.devRef .tc main_call4_v8)) := by
  rw [← Cert.Line.before_eq ops_writes 179 (a := main_call4_v8) (by decide) V]
  refine (Cert.Line.at_written ops_writes 179 _ rfl (by decide) V).trans ?_
  generalize after (List.take 179 ops) V = W
  exact unary_result ..

theorem st_main_call4_v10 (V : Valuation τ sig (Elt F)) :
    after ops V (Proc.devRef .tc main_call4_v10) = ((broadcastInDim S100000x8 ![0, 1] bcast_S100000x1_S100000x8_0_1) : (⟨S100000x1, .f32⟩ : BufTy).Contents (Elt F) → (⟨S100000x8, .f32⟩ : BufTy).Contents (Elt F)) (after ops V (Proc.devRef .tc main_call4_v9)) := by
  rw [← Cert.Line.before_eq ops_writes 180 (a := main_call4_v9) (by decide) V]
  refine (Cert.Line.at_written ops_writes 180 _ rfl (by decide) V).trans ?_
  generalize after (List.take 180 ops) V = W
  exact unary_result ..

theorem st_main_v114 (V : Valuation τ sig (Elt F)) :
    after ops V (Proc.devRef .tc main_v114) = (subf : (⟨S100000x8, .f32⟩ : BufTy).Contents (Elt F) → (⟨S100000x8, .f32⟩ : BufTy).Contents (Elt F) → (⟨S100000x8, .f32⟩ : BufTy).Contents (Elt F)) (after ops V (Proc.devRef .tc main_call4_v5)) (after ops V (Proc.devRef .tc main_call4_v10)) := by
  rw [← Cert.Line.before_eq ops_writes 181 (a := main_call4_v5) (by decide) V, ← Cert.Line.before_eq ops_writes 181 (a := main_call4_v10) (by decide) V]
  refine (Cert.Line.at_written ops_writes 181 _ rfl (by decide) V).trans ?_
  generalize after (List.take 181 ops) V = W
  exact binary_result ..

end Cert.ReferenceIdeal.Hand

end
-- ==== Proof.Ref.Edges.lean ====
/- THE EDGE COLUMNS AND THE PER-NODE FACTOR, as functions of the edge array (two rows of 3200000 32-bit node
   indices: sources, destinations). One self loop per node is appended to each row (3300000 indices); a possibly
   negative index is wrapped by adding the node count; each column is laid out as [3300000, 1]. The per-node factor
   is the reciprocal square root of the number of edges whose destination (read signed, not wrapped) is the node,
   and zero for a node with none. -/
import proofs.«179341_j31447750542019_2_alg».proof.Proof.Gen.ReferenceIdeal
import proofs.«179341_j31447750542019_2_alg».proof.Proof.LibGatherScatter
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx Cert.LibGatherScatter

variable {F : FTy → Type} [FloatOps F]

/-- The edges' sources followed by the nodes themselves (the self loops). -/
def srcT (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edges' destinations followed by the nodes themselves. -/
def dstT (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- The wrap of a possibly negative index: the node count added where the index is below zero. -/
def wrapT (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A vector of start indices as a one-column array. -/
def colT (v : IVec S3300000 32) : IVec S3300000x1 32 :=
  broadcastInDim S3300000x1 ![0] bcast_S3300000_S3300000x1_0 v

/-- The wrapped source column. -/
def swT (e : IVec S2x3200000 32) : IVec S3300000x1 32 := colT (wrapT (srcT e))
/-- The destination column, not wrapped. -/
def dcolT (e : IVec S2x3200000 32) : IVec S3300000x1 32 := colT (dstT e)
/-- The wrapped destination column. -/
def dwcolT (e : IVec S2x3200000 32) : IVec S3300000x1 32 := colT (wrapT (dstT e))

/-- The number of edges landing on each node: ones added at the destinations into zeros. -/
def degT (e : IVec S2x3200000 32) : FVec F S100000 .f32 :=
  Host.scatterAdd scatter_S100000_S3300000x1_S3300000_n_0_0_1
    (broadcastInDim S100000 ![] bcast_S_S100000 (constant (F := F) S_ .f32 0x00000000#32)) (dcolT e)
    (broadcastInDim S3300000 ![] bcast_S_S3300000 (constant (F := F) S_ .f32 0x3F800000#32))

/-- The per-node factor: the reciprocal square root of the count where it is positive, zero elsewhere. -/
def dvT (e : IVec S2x3200000 32) : FVec F S100000 .f32 :=
  select (cmpf .ogt (degT (F := F) e) (broadcastInDim S100000 ![] bcast_S_S100000 (constant (F := F) S_ .f32 0x00000000#32)))
    (Host.rsqrt (degT (F := F) e))
    (broadcastInDim S100000 ![] bcast_S_S100000 (id (constant (F := F) S_ .f32 0x00000000#32)))

/-- A one-column array read at (i, 0) is the vector at i. -/
theorem colOf_apply (v : IVec S3300000 32) (i : Fin 3300000) : colT v (ix2 i (0 : Fin 1)) = v (ix1 i) := by
  unfold colT
  refine broadcastInDim_apply _ _ _ _ _ fun a => ?_
  match a with
  | ⟨0, _⟩ => exact (if_neg (show ¬ (3300000 : Nat) = 1 by decide)).symm

/-- The wrap read at an index: the scalar wrap of the entry. -/
theorem wrapOf_apply (v : IVec S3300000 32) (j : S3300000.Idx) :
    wrapT v j = Scalar.select (IntOp.cmpi .slt (v j) 0#32) (IntOp.addi (v j) 100000#32) (v j) := by
  unfold wrapT
  rw [select_apply]
  show Scalar.select (IntOp.cmpi .slt (v j) (broadcastInDim S3300000 ![] bcast_S_S3300000 (constantI S_ 32 0#32) j))
      (IntOp.addi (v j) (broadcastInDim S3300000 ![] bcast_S_S3300000 (constantI S_ 32 100000#32) j)) (v j) = _
  rw [broadcastInDim_scalar_apply, broadcastInDim_scalar_apply]
  rfl

/-- Where the destination, read signed, is not negative, the wrapped destination is the destination. -/
theorem hwrapT (e : IVec S2x3200000 32) (i : Fin 3300000) (h : 0 ≤ (dcolT e (ix2 i (0 : Fin 1))).toInt) :
    dwcolT e (ix2 i (0 : Fin 1)) = dcolT e (ix2 i (0 : Fin 1)) := by
  unfold dwcolT dcolT at *
  rw [colOf_apply] at h ⊢
  rw [colOf_apply, wrapOf_apply]
  exact select_wrap_of_nonneg _ _ h

end Cert.ReferenceIdeal.Hand

end
-- ==== Proof.Ref.Terms.lean ====
/- THE REFERENCE PROGRAM'S BLOCKS AS TERMS: each group of operations that computes one mathematical object (a dense
   layer, an aggregation, the column means, the variances, the normalisation, the log-softmax) composed into one
   function of the arrays going in, at the ideal values. -/
import proofs.«179341_j31447750542019_2_alg».proof.Proof.Ref.Edges

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first dense layer. -/
def lin1T (x : FVec Ideal S100000x128 .f32) (W : FVec Ideal S128x16 .f32) : FVec Ideal S100000x16 .f32 :=
  Host.dotGeneral dot_S100000x128_S128x16_S100000x16_1_0_0_1_n_n none x W

/-- The second dense layer. -/
def lin2T (y : FVec Ideal S100000x16 .f32) (W : FVec Ideal S16x8 .f32) : FVec Ideal S100000x8 .f32 :=
  Host.dotGeneral dot_S100000x16_S16x8_S100000x8_1_0_0_1_n_n none y W

/-- The aggregation over the edges of a 16-column array: rows gathered at the sources, each scaled by the two
    factors gathered at the source and at the wrapped destination, added into zeros at the destinations; plus the bias. -/
def aggT16 (H : FVec Ideal S100000x16 .f32) (dv : FVec Ideal S100000 .f32) (sw dcol dwcol : IVec S3300000x1 32)
    (b : FVec Ideal S16 .f32) : FVec Ideal S100000x16 .f32 :=
  addf (Host.scatterAdd scatter_S100000x16_S3300000x1_S3300000x16_1_0_0_1 (broadcastInDim S100000x16 ![] bcast_S_S100000x16 (constant (F := Ideal) S_ .f32 0x00000000#32)) dcol (mulf (Host.gather gather_S100000x16_S3300000x1_S3300000x16_1_0_n_n_0_1_116 H sw) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 dv sw) (Host.gather gather_S100000_S3300000x1_S3300000_n_0_n_n_0_1_1 dv dwcol)))))) (broadcastInDim S100000x16 ![0, 1] bcast_S1x16_S100000x16_0_1 (broadcastInDim S1x16 ![1] bcast_S16_S1x16_1 b))

/-- The same aggregation of an 8-column array. -/
def aggT8 (H : FVec Ideal S100000x8 .f32) (dv : FVec Ideal S100000 .f32) (sw dcol dwcol : IVec S3300000x1 32)
    (b : FVec Ideal S8 .f32) : FVec Ideal S100000x8 .f32 :=
  addf (Host.scatterAdd scatter_S100000x8_S3300000x1_S3300000x8_1_0_0_1 (broadcastInDim S100000x8 ![] bcast_S_S100000x8 (constant (F := Ideal) S_ .f32 0x00000000#32)) dcol (mulf (Host.gather gather_S100000x8_S3300000x1_S3300000x8_1_0_n_n_0_1_18 H sw) (broadcastInDim S3300000x8 ![0, 1] bcast_S3300000x1_S3300000x8_0_1 (broadcastInDim S3300000x1 ![0] bcast_S3300000_S3300000x1_0 (mulf (Host.gather gather_S100000_S3300000x1_S3300000_n_0_n_n_0_1_1 dv sw) (Host.gather gather_S100000_S3300000x1_S3300000_n_0_n_n_0_1_1 dv dwcol)))))) (broadcastInDim S100000x8 ![0, 1] bcast_S1x8_S100000x8_0_1 (broadcastInDim S1x8 ![1] bcast_S8_S1x8_1 b))

/-- The column means. -/
def meanT (a : FVec Ideal S100000x16 .f32) : FVec Ideal S16 .f32 :=
  Host.divf (Host.reduceAdd a (constant (F := Ideal) S_ .f32 0x00000000#32) reducesTo_S100000x16_S16_d0 h_S_) (broadcastInDim S16 ![] bcast_S_S16 (constant (F := Ideal) S_ .f32 0x47C35000#32))

/-- The deviations from the column means (the means taken as a row, repeated along the nodes). -/
def devT (a : FVec Ideal S100000x16 .f32) : FVec Ideal S100000x16 .f32 :=
  subf a (broadcastInDim S100000x16 ![0, 1] bcast_S1x16_S100000x16_0_1 (Host.divf (broadcastInDim S1x16 ![1] bcast_S16_S1x16_1 (Host.reduceAdd a (constant (F := Ideal) S_ .f32 0x00000000#32) reducesTo_S100000x16_S16_d0 h_S_)) (broadcastInDim S1x16 ![] bcast_S_S1x16 (constant (F := Ideal) S_ .f32 0x47C35000#32))))

/-- The column variances: the mean of the squared deviations (the divisor 100000 less a zero count, the quotient kept
    where that divisor is positive). -/
def varT (a : FVec Ideal S100000x16 .f32) : FVec Ideal S16 .f32 :=
  select (broadcastInDim S16 ![] bcast_S_S16 (cmpf .ogt (subf (constant (F := Ideal) S_ .f32 0x47C35000#32) (sitofp .f32 (constantI S_ 32 0#32))) (constant (F := Ideal) S_ .f32 0x00000000#32))) (Host.divf (Host.reduceAdd (mulf ((devT a)) ((devT a))) (constant (F := Ideal) S_ .f32 0x00000000#32) reducesTo_S100000x16_S16_d0 h_S_) (broadcastInDim S16 ![] bcast_S_S16 (subf (constant (F := Ideal) S_ .f32 0x47C35000#32) (sitofp .f32 (constantI S_ 32 0#32))))) (broadcastInDim S16 ![] bcast_S_S16 (id (constant (F := Ideal) S_ .f32 0x7FC00000#32)))

/-- Normalise by the means and variances, scale, shift, clamp below at zero. -/
def bnT (a : FVec Ideal S100000x16 .f32) (mu var g be : FVec Ideal S16 .f32) : FVec Ideal S100000x16 .f32 :=
  maximumf (addf (mulf (mulf (subf a (broadcastInDim S100000x16 ![0, 1] bcast_S1x16_S100000x16_0_1 (broadcastInDim S1x16 ![1] bcast_S16_S1x16_1 mu))) (broadcastInDim S100000x16 ![0, 1] bcast_S1x16_S100000x16_0_1 (broadcastInDim S1x16 ![1] bcast_S16_S1x16_1 (Host.rsqrt (addf var (broadcastInDim S16 ![] bcast_S_S16 (constant (F := Ideal) S_ .f32 0x3727C5AC#32))))))) (broadcastInDim S100000x16 ![0, 1] bcast_S1x16_S100000x16_0_1 (broadcastInDim S1x16 ![1] bcast_S16_S1x16_1 g))) (broadcastInDim S100000x16 ![0, 1] bcast_S1x16_S100000x16_0_1 (broadcastInDim S1x16 ![1] bcast_S16_S1x16_1 be))) (broadcastInDim S100000x16 ![] bcast_S_S100000x16 (constant (F := Ideal) S_ .f32 0x00000000#32))

/-- The rows less their maxima. -/
def shiftT (h : FVec Ideal S100000x8 .f32) : FVec Ideal S100000x8 .f32 :=
  subf h (broadcastInDim S100000x8 ![0, 1] bcast_S100000x1_S100000x8_0_1 (broadcastInDim S100000x1 ![0] bcast_S100000_S100000x1_0 (maximumf (broadcastInDim S100000 ![] bcast_S_S100000 (constant (F := Ideal) S_ .f32 0xFF800000#32)) (Host.reduce FloatOps.maximumf h (constant (F := Ideal) S_ .f32 0xFF800000#32) reducesTo_S100000x8_S100000_d1 h_S_))))

/-- The row-wise log-softmax. -/
def lsmT (h : FVec Ideal S100000x8 .f32) : FVec Ideal S100000x8 .f32 :=
  subf ((shiftT h)) (broadcastInDim S100000x8 ![0, 1] bcast_S100000x1_S100000x8_0_1 (Host.log (broadcastInDim S100000x1 ![0] bcast_S100000_S100000x1_0 (Host.reduceAdd (Host.exp ((shiftT h))) (constant (F := Ideal) S_ .f32 0x00000000#32) reducesTo_S100000x8_S100000_d1 h_S_))))

end Cert.ReferenceIdeal.Hand

end
-- ==== Proof.Ref.Link.lean ====
/- THE REFERENCE PROGRAM'S BUFFERS ARE THE BLOCKS' TERMS: the buffer-by-buffer equations chained, from each block's
   result back to the arrays going in. -/
import proofs.«179341_j31447750542019_2_alg».proof.Proof.Ref.Stage0
import proofs.«179341_j31447750542019_2_alg».proof.Proof.Ref.Stage1
import proofs.«179341_j31447750542019_2_alg».proof.Proof.Ref.Stage2
import proofs.«179341_j31447750542019_2_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

-- the folds and searches inside these are never opened here
attribute [local irreducible] Host.reduce Host.reduceAdd Host.gather Host.scatterAdd

theorem keep_main_arg0 (V : Valuation τ sig (Elt Ideal)) : after ops V (Proc.devRef .tc main_arg0) = V (Proc.devRef .tc main_arg0) :=
  Cert.Line.keep ops_writes V args_not_written.1

theorem keep_main_arg1 (V : Valuation τ sig (Elt Ideal)) : after ops V (Proc.devRef .tc main_arg1) = V (Proc.devRef .tc main_arg1) :=
  Cert.Line.keep ops_writes V args_not_written.2.1

theorem keep_main_arg2 (V : Valuation τ sig (Elt Ideal)) : after ops V (Proc.devRef .tc main_arg2) = V (Proc.devRef .tc main_arg2) :=
  Cert.Line.keep ops_writes V args_not_written.2.2.1

theorem keep_main_arg3 (V : Valuation τ sig (Elt Ideal)) : after ops V (Proc.devRef .tc main_arg3) = V (Proc.devRef .tc main_arg3) :=
  Cert.Line.keep ops_writes V args_not_written.2.2.2.1

theorem keep_main_arg4 (V : Valuation τ sig (Elt Ideal)) : after ops V (Proc.devRef .tc main_arg4) = V (Proc.devRef .tc main_arg4) :=
  Cert.Line.keep ops_writes V args_not_written.2.2.2.2.1

theorem keep_main_arg5 (V : Valuation τ sig (Elt Ideal)) : after ops V (Proc.devRef .tc main_arg5) = V (Proc.devRef .tc main_arg5) :=
  Cert.Line.keep ops_writes V args_not_written.2.2.2.2.2.1

theorem keep_main_arg6 (V : Valuation τ sig (Elt Ideal)) : after ops V (Proc.devRef .tc main_arg6) = V (Proc.devRef .tc main_arg6) :=
  Cert.Line.keep ops_writes V args_not_written.2.2.2.2.2.2.1

theorem keep_main_arg7 (V : Valuation τ sig (Elt Ideal)) : after ops V (Proc.devRef .tc main_arg7) = V (Proc.devRef .tc main_arg7) :=
  Cert.Line.keep ops_writes V args_not_written.2.2.2.2.2.2.2

theorem src_v4 (V : Valuation τ sig (Elt Ideal)) :
    after ops V (Proc.devRef .tc main_v4) = srcT (V (Proc.devRef .tc main_arg7)) := by
  rw [st_main_v4 V, st_main_v3 V, st_main_v2 V, st_main_v1 V, keep_main_arg7 V]
  unfold srcT
  rfl

theorem dst_v7 (V : Valuation τ sig (Elt Ideal)) :
    after ops V (Proc.devRef .tc main_v7) = dstT (V (Proc.devRef .tc main_arg7)) := by
  rw [st_main_v7 V, st_main_v6 V, st_main_v5 V, st_main_v1 V, keep_main_arg7 V]
  unfold dstT
  rfl

theorem src_v71 (V : Valuation τ sig (Elt Ideal)) :
    after ops V (Proc.devRef .tc main_v71) = srcT (V (Proc.devRef .tc main_arg7)) := by
  rw [st_main_v71 V, st_main_v70 V, st_main_v69 V, st_main_v68 V, keep_main_arg7 V]
  unfold srcT
  rfl

theorem dst_v74 (V : Valuation τ sig (Elt Ideal)) :
    after ops V (Proc.devRef .tc main_v74) = dstT (V (Proc.devRef .tc main_arg7)) := by
  rw [st_main_v74 V, st_main_v73 V, st_main_v72 V, st_main_v68 V, keep_main_arg7 V]
  unfold dstT
  rfl

theorem sw_v21 (V : Valuation τ sig (Elt Ideal)) :
    after ops V (Proc.devRef .tc main_v21) = swT (V (Proc.devRef .tc main_arg7)) := by
  rw [st_main_v21 V, st_main_v20 V, st_main_v19 V, st_main_v18 V, st_main_c_3 V, st_main_v17 V, st_main_v16 V, st_main_c V, src_v4 V]
  unfold swT colT wrapT
  rfl

theorem sw_v36 (V : Valuation τ sig (Elt Ideal)) :
    after ops V (Proc.devRef .tc main_v36) = swT (V (Proc.devRef .tc main_arg7)) := by
  rw [st_main_v36 V, st_main_v35 V, st_main_v34 V, st_main_v33 V, st_main_c_7 V, st_main_v32 V, st_main_v31 V, st_main_c_6 V, src_v4 V]
  unfold swT colT wrapT
  rfl

theorem sw_v88 (V : Valuation τ sig (Elt Ideal)) :
    after ops V (Proc.devRef .tc main_v88) = swT (V (Proc.devRef .tc main_arg7)) := by
  rw [st_main_v88 V, st_main_v87 V, st_main_v86 V, st_main_v85 V, st_main_c_18 V, st_main_v84 V, st_main_v83 V, st_main_c_17 V, src_v71 V]
  unfold swT colT wrapT
  rfl

theorem sw_v103 (V : Valuation τ sig (Elt Ideal)) :
    after ops V (Proc.devRef .tc main_v103) = swT (V (Proc.devRef .tc main_arg7)) := by
  rw [st_main_v103 V, st_main_v102 V, st_main_v101 V, st_main_v100 V, st_main_c_22 V, st_main_v99 V, st_main_v98 V, st_main_c_21 V, src_v71 V]
  unfold swT colT wrapT
  rfl

theorem dcol_v10 (V : Valuation τ sig (Elt Ideal)) :
    after ops V (Proc.devRef .tc main_v10) = dcolT (V (Proc.devRef .tc main_arg7)) := by
  rw [st_main_v10 V, dst_v7 V]
  unfold dcolT colT
  rfl

theorem dcol_v42 (V : Valuation τ sig (Elt Ideal)) :
    after ops V (Proc.devRef .tc main_v42) = dcolT (V (Proc.devRef .tc main_arg7)) := by
  rw [st_main_v42 V, dst_v7 V]
  unfold dcolT colT
  rfl

theorem dcol_v77 (V : Valuation τ sig (Elt Ideal)) :
    after ops V (Proc.devRef .tc main_v77) = dcolT (V (Proc.devRef .tc main_arg7)) := by
  rw [st_main_v77 V, dst_v74 V]
  unfold dcolT colT
  rfl

theorem dcol_v109 (V : Valuation τ sig (Elt Ideal)) :
    after ops V (Proc.devRef .tc main_v109) = dcolT (V (Proc.devRef .tc main_arg7)) := by
  rw [st_main_v109 V, dst_v74 V]
  unfold dcolT colT
  rfl

theorem dwcol_v28 (V : Valuation τ sig (Elt Ideal)) :
    after ops V (Proc.devRef .tc main_v28) = dwcolT (V (Proc.devRef .tc main_arg7)) := by
  rw [st_main_v28 V, st_main_v27 V, st_main_v26 V, st_main_v25 V, st_main_c_5 V, st_main_v24 V, st_main_v23 V, st_main_c_4 V, dst_v7 V]
  unfold dwcolT colT wrapT
  rfl

theorem dwcol_v95 (V : Valuation τ sig (Elt Ideal)) :
    after ops V (Proc.devRef .tc main_v95) = dwcolT (V (Proc.devRef .tc main_arg7)) := by
  rw [st_main_v95 V, st_main_v94 V, st_main_v93 V, st_main_v92 V, st_main_c_20 V, st_main_v91 V, st_main_v90 V, st_main_c_19 V, dst_v74 V]
  unfold dwcolT colT wrapT
  rfl

theorem dv_v15 (V : Valuation τ sig (Elt Ideal)) :
    after ops V (Proc.devRef .tc main_v15) = dvT (F := Ideal) (V (Proc.devRef .tc main_arg7)) := by
  rw [st_main_v15 V, st_main_call0_v1 V, st_main_call0_v0 V, st_main_cst_2 V, st_main_v14 V, st_main_v13 V, st_main_v12 V, st_main_cst_1 V, st_main_v11 V, st_main_v9 V, st_main_cst_0 V, st_main_v8 V, st_main_cst V, dcol_v10 V]
  unfold dvT degT
  rfl

theorem dv_v82 (V : Valuation τ sig (Elt Ideal)) :
    after ops V (Proc.devRef .tc main_v82) = dvT (F := Ideal) (V (Proc.devRef .tc main_arg7)) := by
  rw [st_main_v82 V, st_main_call3_v1 V, st_main_call3_v0 V, st_main_cst_16 V, st_main_v81 V, st_main_v80 V, st_main_v79 V, st_main_cst_15 V, st_main_v78 V, st_main_v76 V, st_main_cst_14 V, st_main_v75 V, st_main_cst_13 V, dcol_v77 V]
  unfold dvT degT
  rfl

theorem lin1_v0 (V : Valuation τ sig (Elt Ideal)) :
    after ops V (Proc.devRef .tc main_v0) = lin1T (V (Proc.devRef .tc main_arg0)) (V (Proc.devRef .tc main_arg1)) := by
  rw [st_main_v0 V, keep_main_arg0 V, keep_main_arg1 V]
  unfold lin1T
  rfl

theorem agg_v46 (V : Valuation τ sig (Elt Ideal)) :
    after ops V (Proc.devRef .tc main_v46) = aggT16 (after ops V (Proc.devRef .tc main_v0)) (dvT (F := Ideal) (V (Proc.devRef .tc main_arg7))) (swT (V (Proc.devRef .tc main_arg7))) (dcolT (V (Proc.devRef .tc main_arg7))) (dwcolT (V (Proc.devRef .tc main_arg7))) (V (Proc.devRef .tc main_arg2)) := by
  rw [st_main_v46 V, st_main_v45 V, st_main_v44 V, st_main_v43 V, st_main_v41 V, st_main_cst_8 V, st_main_v40 V, st_main_v39 V, st_main_v38 V, st_main_v37 V, st_main_v30 V, st_main_v29 V, st_main_v22 V, keep_main_arg2 V, dv_v15 V, sw_v21 V, sw_v36 V, dwcol_v28 V, dcol_v42 V]
  unfold aggT16
  rfl

theorem mean_v49 (V : Valuation τ sig (Elt Ideal)) :
    after ops V (Proc.devRef .tc main_v49) = meanT (after ops V (Proc.devRef .tc main_v46)) := by
  rw [st_main_v49 V, st_main_v48 V, st_main_cst_10 V, st_main_v47 V, st_main_cst_9 V]
  unfold meanT
  rfl

theorem dev_call1_v5 (V : Valuation τ sig (Elt Ideal)) :
    after ops V (Proc.devRef .tc main_call1_v5) = devT (after ops V (Proc.devRef .tc main_v46)) := by
  rw [st_main_call1_v5 V, st_main_call1_v4 V, st_main_call1_v3 V, st_main_call1_v2 V, st_main_call1_cst_0 V, st_main_call1_v1 V, st_main_call1_v0 V, st_main_call1_cst V]
  unfold devT
  rfl

theorem var_v50 (V : Valuation τ sig (Elt Ideal)) :
    after ops V (Proc.devRef .tc main_v50) = varT (after ops V (Proc.devRef .tc main_v46)) := by
  rw [st_main_v50 V, st_main_call1_call0_v1 V, st_main_call1_call0_v0 V, st_main_call1_cst_4 V, st_main_call1_v12 V, st_main_call1_cst_3 V, st_main_call1_v11 V, st_main_call1_v10 V, st_main_call1_v9 V, st_main_call1_cst_2 V, st_main_call1_v8 V, st_main_call1_cst_1 V, st_main_call1_v7 V, st_main_call1_v6 V, st_main_c_11 V, dev_call1_v5 V]
  unfold varT
  rfl

theorem bn_v66 (V : Valuation τ sig (Elt Ideal)) :
    after ops V (Proc.devRef .tc main_v66) = bnT (after ops V (Proc.devRef .tc main_v46)) (after ops V (Proc.devRef .tc main_v49)) (after ops V (Proc.devRef .tc main_v50)) (V (Proc.devRef .tc main_arg3)) (V (Proc.devRef .tc main_arg4)) := by
  rw [st_main_v66 V, st_main_call2_v0 V, st_main_call2_cst V, st_main_v65 V, st_main_v64 V, st_main_v63 V, st_main_v62 V, st_main_v61 V, st_main_v60 V, st_main_v59 V, st_main_v58 V, st_main_v57 V, st_main_v56 V, st_main_v55 V, st_main_v54 V, st_main_cst_12 V, st_main_v53 V, st_main_v52 V, st_main_v51 V, keep_main_arg3 V, keep_main_arg4 V]
  unfold bnT
  rfl

theorem lin2_v67 (V : Valuation τ sig (Elt Ideal)) :
    after ops V (Proc.devRef .tc main_v67) = lin2T (after ops V (Proc.devRef .tc main_v66)) (V (Proc.devRef .tc main_arg5)) := by
  rw [st_main_v67 V, keep_main_arg5 V]
  unfold lin2T
  rfl

theorem agg_v113 (V : Valuation τ sig (Elt Ideal)) :
    after ops V (Proc.devRef .tc main_v113) = aggT8 (after ops V (Proc.devRef .tc main_v67)) (dvT (F := Ideal) (V (Proc.devRef .tc main_arg7))) (swT (V (Proc.devRef .tc main_arg7))) (dcolT (V (Proc.devRef .tc main_arg7))) (dwcolT (V (Proc.devRef .tc main_arg7))) (V (Proc.devRef .tc main_arg6)) := by
  rw [st_main_v113 V, st_main_v112 V, st_main_v111 V, st_main_v110 V, st_main_v108 V, st_main_cst_23 V, st_main_v107 V, st_main_v106 V, st_main_v105 V, st_main_v104 V, st_main_v97 V, st_main_v96 V, st_main_v89 V, keep_main_arg6 V, dv_v82 V, sw_v88 V, sw_v103 V, dwcol_v95 V, dcol_v109 V]
  unfold aggT8
  rfl

theorem shift_call4_v5 (V : Valuation τ sig (Elt Ideal)) :
    after ops V (Proc.devRef .tc main_call4_v5) = shiftT (after ops V (Proc.devRef .tc main_v113)) := by
  rw [st_main_call4_v5 V, st_main_call4_v4 V, st_main_call4_v3 V, st_main_call4_v2 V, st_main_call4_v1 V, st_main_call4_cst_0 V, st_main_call4_v0 V, st_main_call4_cst V]
  unfold shiftT
  rfl

theorem lsm_v114 (V : Valuation τ sig (Elt Ideal)) :
    after ops V (Proc.devRef .tc main_v114) = lsmT (after ops V (Proc.devRef .tc main_v113)) := by
  rw [st_main_v114 V, st_main_call4_v10 V, st_main_call4_v9 V, st_main_call4_v8 V, st_main_call4_v7 V, st_main_call4_cst_1 V, st_main_call4_v6 V, shift_call4_v5 V]
  unfold lsmT
  rfl

end Cert.ReferenceIdeal.Hand

end
-- ==== Proof.Ref.EdgesSpec.lean ====
/- THE EDGE COLUMNS AND THE PER-NODE FACTOR, index by index: the operations' composed terms (the edge array cut in
   rows, laid flat, extended by the node indices, wrapped, laid out as a column; the scatter-add of ones and its
   reciprocal square root) are the specification's functions of the edge array. -/
import proofs.«179341_j31447750542019_2_alg».proof.Proof.Ref.Edges
import proofs.«179341_j31447750542019_2_alg».proof.Proof.SpecEdges
import Idealize.ShloMosaic.Lib.ValueLayout

noncomputable section

namespace Cert.ReferenceIdeal.Hand

open Cert.ReferenceIdeal Cert.ReferenceIdeal.Gen Idealize.ShloMosaic Idealize.ShloMosaic.ValueIdx Cert.LibGatherScatter

/-- Row r of the edge array, laid flat and followed by the node indices, at entry j: the array's entry below
    3200000, the word of j - 3200000 from there on. -/
theorem rowT_apply (r : Fin 2) (e : IVec S2x3200000 32) (hs : S2x3200000.Slices ![r.val, 0] S1x3200000) (j : S3300000.Idx) :
    concatenate S3300000 0 [⟨S3200000, shapeCast S3200000 (extractStridedSlice S1x3200000 ![r.val, 0] e hs) shapeCasts_S1x3200000_S3200000⟩,
        ⟨S100000, iotaInDim S100000 32 0⟩] concatenates_S3200000_S100000_S3300000_d0 j
      = Cert.Spec.rowRaw r e j := by
  obtain ⟨i, rfl⟩ : ∃ i : Fin 3300000, j = ix1 i := ⟨j 0, eq_ix1 j⟩
  unfold Cert.Spec.rowRaw
  by_cases h : i.val < 3200000
  · rw [dif_pos (show ((ix1 i : S3300000.Idx) 0).val < 3200000 from h)]
    rw [concatenate_pair_apply_left (0 : Fin S3300000.rank) _ _ concatenates_S3200000_S100000_S3300000_d0 (ix1 i) rfl
      (ix1 (⟨i.val, h⟩ : Fin 3200000)) (fun b => by match b with | ⟨0, _⟩ => rfl)]
    rw [shapeCast_1a_a_apply, slice2_axis0_apply r.val e hs (0 : Fin 1) (⟨i.val, h⟩ : Fin 3200000) r (by simp)]
  · rw [dif_neg (show ¬ ((ix1 i : S3300000.Idx) 0).val < 3200000 from h)]
    have hi := i.isLt
    rw [concatenate_pair_apply_right (0 : Fin S3300000.rank) _ _ concatenates_S3200000_S100000_S3300000_d0 (ix1 i) rfl rfl
      (ix1 (⟨i.val - 3200000, by omega⟩ : Fin 100000))
      (fun b hb => by match b with | ⟨0, _⟩ => exact absurd rfl hb)
      (by show i.val - 3200000 + 3200000 = i.val; omega)]
    rfl

theorem srcT_apply (e : IVec S2x3200000 32) (j : S3300000.Idx) : srcT e j = Cert.Spec.srcRaw e j :=
  rowT_apply 0 e slices_S2x3200000_S1x3200000_0_0 j

theorem dstT_apply (e : IVec S2x3200000 32) (j : S3300000.Idx) : dstT e j = Cert.Spec.dstRaw e j :=
  rowT_apply 1 e slices_S2x3200000_S1x3200000_1_0 j

/-- A flat list laid out as a column is the specification's column of it. -/
theorem colT_eq (v : IVec S3300000 32) : colT v = Cert.Spec.colOf v := by
  funext i
  have hi : i = ix2 (⟨(i 0).val, idx2_lt0 i⟩ : Fin 3300000) (0 : Fin 1) := by
    funext a
    match a with
    | ⟨0, _⟩ => rfl
    | ⟨1, _⟩ => exact Fin.ext (by have := idx2_lt1 i; show (i 1).val = 0; omega)
  rw [hi, colOf_apply]
  rfl

theorem swT_eq (e : IVec S2x3200000 32) : swT e = Cert.Spec.swOf e := by
  unfold swT Cert.Spec.swOf
  rw [colT_eq]
  refine congrArg Cert.Spec.colOf (funext fun j => ?_)
  rw [wrapOf_apply, srcT_apply]
  rfl

theorem dcolT_eq (e : IVec S2x3200000 32) : dcolT e = Cert.Spec.dcolOf e := by
  unfold dcolT Cert.Spec.dcolOf
  rw [colT_eq]
  exact congrArg Cert.Spec.colOf (funext fun j => dstT_apply e j)

theorem dwcolT_eq (e : IVec S2x3200000 32) : dwcolT e = Cert.Spec.dwcolOf e := by
  unfold dwcolT Cert.Spec.dwcolOf
  rw [colT_eq]
  refine congrArg Cert.Spec.colOf (funext fun j => ?_)
  rw [wrapOf_apply, dstT_apply]
  rfl

/-- The host's accumulating scatter at the ideal values is the exact one. -/
theorem scatterAdd_ideal {s si u : Shape} {w : ℕ} {φ : FTy} (d : ScatterDims s si u) (x : FVec Ideal s φ) (idx : IVec si w)
    (upd : FVec Ideal u φ) : Host.scatterAdd d x idx upd = Ideal.hostScatterAdd d x idx upd := rfl

/-- The program's dimension record for the count is the flat row-selection record. -/
theorem scatterv_eq : scatter_S100000_S3300000x1_S3300000_n_0_0_1
    = vecScatter 100000 3300000 scatter_S100000_S3300000x1_S3300000_n_0_0_1_wf := rfl

/-- The count of edges landing on node n. -/
theorem degT_apply (e : IVec S2x3200000 32) (n : Fin 100000) :
    degT (F := Ideal) e (ix1 n) = Cert.Spec.degOf scatter_S100000_S3300000x1_S3300000_n_0_0_1_wf e n := by
  unfold degT Cert.Spec.degOf
  have hx : (broadcastInDim S100000 ![] bcast_S_S100000 (constant (F := Ideal) S_ .f32 0x00000000#32) : S100000.Idx → EReal)
      = fun _ => 0 := funext fun j => by
    rw [broadcastInDim_scalar_apply, constant_apply, Ideal.ofBits_zero_f32]
  have hu : (broadcastInDim S3300000 ![] bcast_S_S3300000 (constant (F := Ideal) S_ .f32 0x3F800000#32) : S3300000.Idx → EReal)
      = fun _ => 1 := funext fun j => by
    rw [broadcastInDim_scalar_apply, constant_apply, Ideal.ofBits_one_f32]
  rw [hx, hu, dcolT_eq, scatterAdd_ideal, scatterv_eq]

theorem hostRsqrt_ideal {s : Shape} {φ : FTy} (x : FVec Ideal s φ) (i : s.Idx) : Host.rsqrt x i = Ideal.rsqrt (x i) := rfl

/-- The per-node factor at node n. -/
theorem dvT_apply (e : IVec S2x3200000 32) (n : Fin 100000) :
    dvT (F := Ideal) e (ix1 n) = Cert.Spec.dvOf scatter_S100000_S3300000x1_S3300000_n_0_0_1_wf e n := by
  unfold dvT Cert.Spec.dvOf
  rw [select_apply, cmpf_apply, hostRsqrt_ideal, broadcastInDim_scalar_apply, broadcastInDim_scalar_apply, id_eq,
    constant_apply, Ideal.ofBits_zero_f32, degT_apply]
  rfl

end Cert.ReferenceIdeal.Hand

end
-- ==== Proof.Ref.Read.lean ====
/- ARRAYS READ AT AN INDEX: the layout and reduction forms this program uses, at the ideal values. A vector laid
   out as a column or as a row, a column or row repeated along the other axis, a sum and a maximum along one axis of
   a matrix, a matrix product's entry; three float words as extended reals. -/
import proofs.«179341_j31447750542019_2_alg».proof.Proof.Spec
import proofs.«179341_j31447750542019_2_alg».proof.Proof.LibDense
import Idealize.ShloMosaic.Lib.IdealHost
import Idealize.ShloMosaic.Lib.Pipeline.Value
import Idealize.ShloMosaic.PureOps.Ideal.Laws

open scoped BigOperators

noncomputable section

namespace Cert.Read

open Idealize.ShloMosaic Idealize.ShloMosaic.ValueIdx Cert.LibGatherScatter

variable {α : Type}

/-- A vector laid out as a column: entry (i, 0) is entry i. -/
theorem bc_a_a1 {a : ℕ} (h : (⟨1, ![a]⟩ : Shape).BroadcastsInDim ⟨2, ![a, 1]⟩ ![0]) (v : (⟨1, ![a]⟩ : Shape).Idx → α)
    (j : (⟨2, ![a, 1]⟩ : Shape).Idx) :
    broadcastInDim ⟨2, ![a, 1]⟩ ![0] h v j = v (ix1 ⟨(j 0).val, idx2_lt0 j⟩) := by
  refine broadcastInDim_apply _ _ _ _ _ fun ax => ?_
  match ax with
  | ⟨0, _⟩ =>
    show (j 0).val = if a = 1 then 0 else (j 0).val
    have := idx2_lt0 j
    split_ifs <;> omega

/-- A column repeated along the second axis: entry (i, c) is the column's entry (i, 0). -/
theorem bc_a1_ab {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (ix2 ⟨(j 0).val, idx2_lt0 j⟩ (0 : Fin 1)) := by
  refine broadcastInDim_apply _ _ _ _ _ fun ax => ?_
  match ax with
  | ⟨0, _⟩ =>
    show (j 0).val = if a = 1 then 0 else (j 0).val
    have := idx2_lt0 j
    split_ifs <;> omega
  | ⟨1, _⟩ => exact (if_pos rfl).symm

/-- A vector laid out as a row: entry (0, c) is entry c. -/
theorem bc_b_1b {b : ℕ} (h : (⟨1, ![b]⟩ : Shape).BroadcastsInDim ⟨2, ![1, b]⟩ ![1]) (v : (⟨1, ![b]⟩ : Shape).Idx → α)
    (j : (⟨2, ![1, b]⟩ : Shape).Idx) :
    broadcastInDim ⟨2, ![1, b]⟩ ![1] h v j = v (ix1 ⟨(j 1).val, idx2_lt1 j⟩) := by
  refine broadcastInDim_apply _ _ _ _ _ fun ax => ?_
  match ax with
  | ⟨0, _⟩ =>
    show (j 1).val = if b = 1 then 0 else (j 1).val
    have := idx2_lt1 j
    split_ifs <;> omega

/-- A row repeated along the first axis: entry (i, c) is the row's entry (0, c). -/
theorem bc_1b_ab {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (ix2 (0 : Fin 1) ⟨(j 1).val, idx2_lt1 j⟩) := by
  refine broadcastInDim_apply _ _ _ _ _ fun ax => ?_
  match ax with
  | ⟨0, _⟩ => exact (if_pos rfl).symm
  | ⟨1, _⟩ =>
    show (j 1).val = if b = 1 then 0 else (j 1).val
    have := idx2_lt1 j
    split_ifs <;> omega

/-- An array of extended reals taken apart by row and column and put back is itself. -/
theorem unc_eta {a b : ℕ} (H : (⟨2, ![a, b]⟩ : Shape).Idx → EReal) : Cert.Spec.unc (fun n j => H (ix2 n j)) = H := by
  funext i
  unfold Cert.Spec.unc
  exact congrArg H (eq_ix2 i).symm

theorem unv_eta {a : ℕ} (v : (⟨1, ![a]⟩ : Shape).Idx → EReal) : Cert.Spec.unv (fun n => v (ix1 n)) = v := by
  funext i
  unfold Cert.Spec.unv
  exact congrArg v (eq_ix1 i).symm

/-- The host's float sum of an [a, b] matrix along its rows, at column j: the initial value plus the sum over the rows. -/
theorem sum_rows {a b : ℕ} {φ : FTy} (x : FVec Ideal ⟨2, ![a, b]⟩ φ) (init : (⟨0, ![]⟩ : Shape).Idx → Ideal φ)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd x init h' hu (ix1 j) = init ix0 + ∑ n : Fin a, x (ix2 n j) := by
  rw [hostReduceAdd_apply, Ideal.hostReduceAdd_single h' h]
  congr 1
  · exact congrArg init (eq_ix0 _)
  · exact Finset.sum_congr rfl fun n _ => congrArg x (funext fun ax => Fin.ext (by
      match ax with
      | ⟨0, _⟩ => rfl
      | ⟨1, _⟩ => rfl))

/-- The host's float sum of an [a, b] matrix along its columns, at row n. -/
theorem sum_cols {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (n : Fin a) :
    Host.reduceAdd x init h' hu (ix1 n) = init ix0 + ∑ c : Fin b, x (ix2 n c) := by
  rw [hostReduceAdd_apply, Ideal.hostReduceAdd_single h' h]
  congr 1
  · exact congrArg init (eq_ix0 _)
  · exact Finset.sum_congr rfl fun c _ => congrArg x (funext fun ax => Fin.ext (by
      match ax with
      | ⟨0, _⟩ => rfl
      | ⟨1, _⟩ => rfl))

/-- The host's maximum of an [a, b] matrix along its columns, at row n: the fold of max from the initial value. -/
theorem max_cols {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (n : Fin a) :
    Host.reduce (FloatOps.maximumf (F := Ideal) (φ := φ)) x init h' hu (ix1 n)
      = (Finset.univ : Finset (Fin b)).fold max (init ix0) (fun c => x (ix2 n c)) := by
  rw [Host.reduce_eq_fold_single (FloatOps.maximumf (F := Ideal) (φ := φ)) x init h' h hu]
  have e0 : init (Shape.Idx.first hu) = init ix0 := congrArg init (eq_ix0 _)
  rw [e0]
  have ef : (x ∘ h.lift (ix1 n)) = fun c : Fin b => x (ix2 n c) := funext fun c => congrArg x (funext fun ax => Fin.ext (by
      match ax with
      | ⟨0, _⟩ => rfl
      | ⟨1, _⟩ => rfl))
  rw [ef]
  rfl

/-- The word of minus infinity denotes the bottom element. -/
theorem ofBits_neg_inf : Ideal.ofBits .f32 0xFF800000#32 = ⊥ := by simp [Ideal.ofBits, Ideal.ieee]

/-- The word of 100000 denotes the real 100000. -/
theorem ofBits_cN : Ideal.ofBits .f32 0x47C35000#32 = ((100000 : ℝ) : EReal) := by
  simp [Ideal.ofBits, Ideal.ieee, -EReal.coe_mul]; norm_num

end Cert.Read

end
-- ==== Proof.Ref.BlockAgg.lean ====
/- THE AGGREGATION BLOCKS READ AT AN INDEX: each is the specification's edge-scaled aggregation. -/
import proofs.«179341_j31447750542019_2_alg».proof.Proof.Ref.Terms
import proofs.«179341_j31447750542019_2_alg».proof.Proof.Ref.Read

open scoped BigOperators

noncomputable section

namespace Cert.ReferenceIdeal.Hand

open Cert.ReferenceIdeal Cert.ReferenceIdeal.Gen Idealize.ShloMosaic Idealize.ShloMosaic.ValueIdx Cert.LibGatherScatter Cert.Read

/-- The host's accumulating scatter at the ideal values is the exact one. -/
theorem scatterAdd_eq {s si u : Shape} {w : ℕ} {φ : FTy} (d : ScatterDims s si u) (x : FVec Ideal s φ) (idx : IVec si w)
    (upd : FVec Ideal u φ) : Host.scatterAdd d x idx upd = Ideal.hostScatterAdd d x idx upd := rfl

theorem gatherv_eq : gather_S100000_S3300000x1_S3300000_n_0_n_n_0_1_1
    = vecGather 100000 3300000 gather_S100000_S3300000x1_S3300000_n_0_n_n_0_1_1_wf := rfl

/-- The program's dimension records for the 16-column aggregation are the row-selection records. -/
theorem scatter16_eq : scatter_S100000x16_S3300000x1_S3300000x16_1_0_0_1 = rowScatter 100000 3300000 16 scatter_S100000x16_S3300000x1_S3300000x16_1_0_0_1_wf := rfl
theorem gather16_eq : gather_S100000x16_S3300000x1_S3300000x16_1_0_n_n_0_1_116 = rowGather 100000 3300000 16 gather_S100000x16_S3300000x1_S3300000x16_1_0_n_n_0_1_116_wf := rfl

/-- THE 16-COLUMN AGGREGATION at (n, j): the specification's edge-scaled aggregation of the array, the factor, the
    three index columns and the bias. -/
theorem aggT16_apply (H : FVec Ideal S100000x16 .f32) (dv : FVec Ideal S100000 .f32) (sw dcol dwcol : IVec S3300000x1 32)
    (b : FVec Ideal S16 .f32) (n : Fin 100000) (j : Fin 16) :
    aggT16 H dv sw dcol dwcol b (ix2 n j)
      = Cert.Spec.aggR (C := 16) gather_S100000x16_S3300000x1_S3300000x16_1_0_n_n_0_1_116_wf gather_S100000_S3300000x1_S3300000_n_0_n_n_0_1_1_wf scatter_S100000x16_S3300000x1_S3300000x16_1_0_0_1_wf
          (fun n => dv (ix1 n)) sw dcol dwcol (fun n j => H (ix2 n j)) (fun j => b (ix1 j)) n j := by
  unfold aggT16 Cert.Spec.aggR
  rw [addf_apply, bc_1b_ab, bc_b_1b, scatterAdd_eq, scatter16_eq, gather16_eq, gatherv_eq]
  refine congrArg₂ (· + ·) ?_ rfl
  refine congrFun (congrArg₂ (fun x u => Ideal.hostScatterAdd (rowScatter 100000 3300000 16 scatter_S100000x16_S3300000x1_S3300000x16_1_0_0_1_wf) x dcol u) ?_ ?_) (ix2 n j)
  · funext i
    rw [broadcastInDim_scalar_apply, constant_apply, Ideal.ofBits_zero_f32]
  · funext y
    rw [mulf_apply, bc_a1_ab, bc_a_a1, mulf_apply, unc_eta, unv_eta]

/-- The program's dimension records for the 8-column aggregation are the row-selection records. -/
theorem scatter8_eq : scatter_S100000x8_S3300000x1_S3300000x8_1_0_0_1 = rowScatter 100000 3300000 8 scatter_S100000x8_S3300000x1_S3300000x8_1_0_0_1_wf := rfl
theorem gather8_eq : gather_S100000x8_S3300000x1_S3300000x8_1_0_n_n_0_1_18 = rowGather 100000 3300000 8 gather_S100000x8_S3300000x1_S3300000x8_1_0_n_n_0_1_18_wf := rfl

/-- THE 8-COLUMN AGGREGATION at (n, j): the specification's edge-scaled aggregation of the array, the factor, the
    three index columns and the bias. -/
theorem aggT8_apply (H : FVec Ideal S100000x8 .f32) (dv : FVec Ideal S100000 .f32) (sw dcol dwcol : IVec S3300000x1 32)
    (b : FVec Ideal S8 .f32) (n : Fin 100000) (j : Fin 8) :
    aggT8 H dv sw dcol dwcol b (ix2 n j)
      = Cert.Spec.aggR (C := 8) gather_S100000x8_S3300000x1_S3300000x8_1_0_n_n_0_1_18_wf gather_S100000_S3300000x1_S3300000_n_0_n_n_0_1_1_wf scatter_S100000x8_S3300000x1_S3300000x8_1_0_0_1_wf
          (fun n => dv (ix1 n)) sw dcol dwcol (fun n j => H (ix2 n j)) (fun j => b (ix1 j)) n j := by
  unfold aggT8 Cert.Spec.aggR
  rw [addf_apply, bc_1b_ab, bc_b_1b, scatterAdd_eq, scatter8_eq, gather8_eq, gatherv_eq]
  refine congrArg₂ (· + ·) ?_ rfl
  refine congrFun (congrArg₂ (fun x u => Ideal.hostScatterAdd (rowScatter 100000 3300000 8 scatter_S100000x8_S3300000x1_S3300000x8_1_0_0_1_wf) x dcol u) ?_ ?_) (ix2 n j)
  · funext i
    rw [broadcastInDim_scalar_apply, constant_apply, Ideal.ofBits_zero_f32]
  · funext y
    rw [mulf_apply, bc_a1_ab, bc_a_a1, mulf_apply, unc_eta, unv_eta]

end Cert.ReferenceIdeal.Hand

end
-- ==== Proof.Ref.BlockDense.lean ====
/- THE DENSE LAYERS READ AT AN INDEX. -/
import proofs.«179341_j31447750542019_2_alg».proof.Proof.Ref.Terms
import proofs.«179341_j31447750542019_2_alg».proof.Proof.Ref.Read

open scoped BigOperators

noncomputable section

namespace Cert.ReferenceIdeal.Hand

open Cert.ReferenceIdeal Cert.ReferenceIdeal.Gen Idealize.ShloMosaic Idealize.ShloMosaic.ValueIdx Cert.LibGatherScatter Cert.Read

/-- The dense layer at (n, j): the sum over the 128 contracted features. -/
theorem lin1T_apply (x : FVec Ideal S100000x128 .f32) (W : FVec Ideal S128x16 .f32) (n : Fin 100000) (j : Fin 16) :
    lin1T x W (ix2 n j) = Cert.Spec.lin1 (fun n k => x (ix2 n k)) (fun k j => W (ix2 k j)) n j := by
  unfold lin1T Cert.Spec.lin1
  simp only [Host.dotGeneral]
  rw [Ideal.dotGeneral_apply]
  exact Cert.LibDense.sum_contr_plain dot_S100000x128_S128x16_S100000x16_1_0_0_1_n_n rfl rfl (ix2 n j)
    (fun q => by
      unfold DotDims.lhsIdx
      rw [dif_neg (show ¬(0 : Fin S100000x128.rank) ∈ dot_S100000x128_S128x16_S100000x16_1_0_0_1_n_n.lhsBatch by decide),
        dif_pos (show (0 : Fin S100000x128.rank) ∈ dot_S100000x128_S128x16_S100000x16_1_0_0_1_n_n.lhsNonContracting by decide)]
      rfl)
    (fun q => dot_S100000x128_S128x16_S100000x16_1_0_0_1_n_n.lhsIdx_val_of_single rfl _ q)
    (fun q => dot_S100000x128_S128x16_S100000x16_1_0_0_1_n_n.rhsIdx_val_of_single rfl _ q)
    (fun q => by
      unfold DotDims.rhsIdx
      rw [dif_neg (show ¬(1 : Fin S128x16.rank) ∈ dot_S100000x128_S128x16_S100000x16_1_0_0_1_n_n.rhsBatch by decide),
        dif_pos (show (1 : Fin S128x16.rank) ∈ dot_S100000x128_S128x16_S100000x16_1_0_0_1_n_n.rhsNonContracting by decide)]
      rfl)
    x W

/-- The dense layer at (n, j): the sum over the 16 contracted features. -/
theorem lin2T_apply (x : FVec Ideal S100000x16 .f32) (W : FVec Ideal S16x8 .f32) (n : Fin 100000) (j : Fin 8) :
    lin2T x W (ix2 n j) = Cert.Spec.lin2 (fun n k => x (ix2 n k)) (fun k j => W (ix2 k j)) n j := by
  unfold lin2T Cert.Spec.lin2
  simp only [Host.dotGeneral]
  rw [Ideal.dotGeneral_apply]
  exact Cert.LibDense.sum_contr_plain dot_S100000x16_S16x8_S100000x8_1_0_0_1_n_n rfl rfl (ix2 n j)
    (fun q => by
      unfold DotDims.lhsIdx
      rw [dif_neg (show ¬(0 : Fin S100000x16.rank) ∈ dot_S100000x16_S16x8_S100000x8_1_0_0_1_n_n.lhsBatch by decide),
        dif_pos (show (0 : Fin S100000x16.rank) ∈ dot_S100000x16_S16x8_S100000x8_1_0_0_1_n_n.lhsNonContracting by decide)]
      rfl)
    (fun q => dot_S100000x16_S16x8_S100000x8_1_0_0_1_n_n.lhsIdx_val_of_single rfl _ q)
    (fun q => dot_S100000x16_S16x8_S100000x8_1_0_0_1_n_n.rhsIdx_val_of_single rfl _ q)
    (fun q => by
      unfold DotDims.rhsIdx
      rw [dif_neg (show ¬(1 : Fin S16x8.rank) ∈ dot_S100000x16_S16x8_S100000x8_1_0_0_1_n_n.rhsBatch by decide),
        dif_pos (show (1 : Fin S16x8.rank) ∈ dot_S100000x16_S16x8_S100000x8_1_0_0_1_n_n.rhsNonContracting by decide)]
      rfl)
    x W

end Cert.ReferenceIdeal.Hand

end
-- ==== Proof.Ref.BlockNorm.lean ====
/- THE NORMALISATION BLOCKS READ AT AN INDEX: the column means, the deviations, the variances (the mean of the squared
   deviations: the divisor is 100000 less the float of the integer zero, which is 100000, and is positive, so the
   guarded quotient is the quotient), and the normalised, scaled, shifted and clamped array. -/
import proofs.«179341_j31447750542019_2_alg».proof.Proof.Ref.Terms
import proofs.«179341_j31447750542019_2_alg».proof.Proof.Ref.Read

open scoped BigOperators

noncomputable section

namespace Cert.ReferenceIdeal.Hand

open Cert.ReferenceIdeal Cert.ReferenceIdeal.Gen Idealize.ShloMosaic Idealize.ShloMosaic.ValueIdx Cert.LibGatherScatter Cert.Read

theorem hostRsqrt_apply {s : Shape} {φ : FTy} (x : FVec Ideal s φ) (i : s.Idx) : Host.rsqrt x i = Ideal.rsqrt (x i) := rfl

/-- The column mean at j. -/
theorem meanT_apply (a : FVec Ideal S100000x16 .f32) (j : Fin 16) :
    meanT a (ix1 j) = Cert.Spec.mean (fun n j => a (ix2 n j)) j := by
  unfold meanT Cert.Spec.mean Cert.Spec.cN
  rw [hostDivf_apply, broadcastInDim_scalar_apply, constant_apply,
    sum_rows a _ reducesTo_S100000x16_S16_d0 (by decide) h_S_ j, constant_apply, Ideal.ofBits_zero_f32, zero_add]

/-- The deviation from the column mean at (n, j). -/
theorem devT_apply (a : FVec Ideal S100000x16 .f32) (n : Fin 100000) (j : Fin 16) :
    devT a (ix2 n j) = a (ix2 n j) - Cert.Spec.mean (fun n j => a (ix2 n j)) j := by
  unfold devT Cert.Spec.mean Cert.Spec.cN
  rw [subf_apply, bc_1b_ab, hostDivf_apply, bc_b_1b, broadcastInDim_scalar_apply, constant_apply,
    sum_rows a _ reducesTo_S100000x16_S16_d0 (by decide) h_S_ _, constant_apply, Ideal.ofBits_zero_f32, zero_add]

/-- The float of the integer zero is zero, so the divisor is the word of 100000. -/
theorem count_eq : (subf (constant (F := Ideal) S_ .f32 0x47C35000#32) (sitofp .f32 (constantI S_ 32 0#32)) : S_.Idx → EReal) ix0
    = Ideal.ofBits .f32 0x47C35000#32 := by
  rw [subf_apply, constant_apply, sitofp_apply]
  show Ideal.ofBits .f32 0x47C35000#32 - (((0#32 : BitVec 32).toInt : ℝ) : EReal) = _
  simp

/-- That divisor is positive. -/
theorem count_pos : Ideal.cmp .ogt (Ideal.ofBits .f32 0x47C35000#32) 0 = 1#1 := by
  rw [ofBits_cN]
  unfold Ideal.cmp
  have : (0 : EReal) < ((100000 : ℝ) : EReal) := by exact_mod_cast (by norm_num : (0 : ℝ) < 100000)
  simp [this]

/-- The column variance at j: the mean of the squared deviations. -/
theorem varT_apply (a : FVec Ideal S100000x16 .f32) (j : Fin 16) :
    varT a (ix1 j) = Cert.Spec.varR (fun n j => a (ix2 n j)) j := by
  unfold varT Cert.Spec.varR
  rw [select_apply]
  rw [broadcastInDim_scalar_apply]
  rw [cmpf_apply]
  rw [count_eq]
  rw [constant_apply, Ideal.ofBits_zero_f32]
  rw [Ideal.cmpf_def, count_pos, select_one]
  rw [hostDivf_apply]
  rw [broadcastInDim_scalar_apply, count_eq]
  rw [sum_rows _ _ reducesTo_S100000x16_S16_d0 (by decide) h_S_ j]
  rw [constant_apply, Ideal.ofBits_zero_f32, zero_add]
  unfold Cert.Spec.cN
  simp only [mulf_apply, devT_apply]

/-- The normalised array at (n, j), from the means and variances given as vectors. -/
theorem bnT_apply (a : FVec Ideal S100000x16 .f32) (mu var g be : FVec Ideal S16 .f32) (n : Fin 100000) (j : Fin 16) :
    bnT a mu var g be (ix2 n j)
      = max ((a (ix2 n j) - mu (ix1 j)) * Ideal.rsqrt (var (ix1 j) + Cert.Spec.cEps) * g (ix1 j) + be (ix1 j)) 0 := by
  unfold bnT Cert.Spec.cEps
  rw [maximumf_apply, addf_apply, mulf_apply, mulf_apply, subf_apply, bc_1b_ab, bc_1b_ab, bc_1b_ab, bc_1b_ab,
    bc_b_1b, bc_b_1b, bc_b_1b, bc_b_1b, hostRsqrt_apply, addf_apply, broadcastInDim_scalar_apply,
    broadcastInDim_scalar_apply, constant_apply, constant_apply, Ideal.ofBits_zero_f32]

end Cert.ReferenceIdeal.Hand

end
-- ==== Proof.Ref.BlockLsm.lean ====
/- THE LOG-SOFTMAX BLOCK READ AT AN INDEX: each row less its maximum (the maximum with minus infinity of the fold of max
   from minus infinity is that fold), less the logarithm of the row's sum of exponentials. -/
import proofs.«179341_j31447750542019_2_alg».proof.Proof.Ref.Terms
import proofs.«179341_j31447750542019_2_alg».proof.Proof.Ref.Read

open scoped BigOperators

noncomputable section

namespace Cert.ReferenceIdeal.Hand

open Cert.ReferenceIdeal Cert.ReferenceIdeal.Gen Idealize.ShloMosaic Idealize.ShloMosaic.ValueIdx Cert.LibGatherScatter Cert.Read

theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The row less its maximum at (n, c). -/
theorem shiftT_apply (h : FVec Ideal S100000x8 .f32) (n : Fin 100000) (c : Fin 8) :
    shiftT h (ix2 n c) = h (ix2 n c) - Cert.Spec.rowMax (fun n c => h (ix2 n c)) n := by
  unfold shiftT Cert.Spec.rowMax
  rw [subf_apply, bc_a1_ab, bc_a_a1, maximumf_apply, broadcastInDim_scalar_apply, constant_apply,
    max_cols h _ reducesTo_S100000x8_S100000_d1 (by decide) h_S_ _, constant_apply, ofBits_neg_inf, max_eq_right bot_le]

/-- The log-softmax at (n, c). -/
theorem lsmT_apply (h : FVec Ideal S100000x8 .f32) (n : Fin 100000) (c : Fin 8) :
    lsmT h (ix2 n c) = Cert.Spec.lsm (fun n c => h (ix2 n c)) n c := by
  unfold lsmT Cert.Spec.lsm
  rw [subf_apply, bc_a1_ab, hostLog_apply, bc_a_a1,
    sum_cols _ _ reducesTo_S100000x8_S100000_d1 (by decide) h_S_ _, constant_apply, Ideal.ofBits_zero_f32, zero_add, shiftT_apply]
  refine congrArg (fun s => _ - Ideal.log s) (Finset.sum_congr rfl fun c' _ => ?_)
  rw [hostExp_apply, shiftT_apply]

end Cert.ReferenceIdeal.Hand

end
-- ==== Proof.Ref.Out.lean ====
/- THE REFERENCE PROGRAM'S RESULT IS THE SPECIFICATION'S: the result buffer after the 182 operations, read at (n, c),
   is the edge-scaled two-layer form of the specification applied to the argument arrays, with the index columns and
   the per-node factor the specification's functions of the edge array. -/
import proofs.«179341_j31447750542019_2_alg».proof.Proof.Ref.Link
import proofs.«179341_j31447750542019_2_alg».proof.Proof.Ref.EdgesSpec
import proofs.«179341_j31447750542019_2_alg».proof.Proof.Ref.BlockAgg
import proofs.«179341_j31447750542019_2_alg».proof.Proof.Ref.BlockDense
import proofs.«179341_j31447750542019_2_alg».proof.Proof.Ref.BlockNorm
import proofs.«179341_j31447750542019_2_alg».proof.Proof.Ref.BlockLsm

open scoped BigOperators

noncomputable section

namespace Cert.ReferenceIdeal.Hand

open Cert.ReferenceIdeal Cert.ReferenceIdeal.Gen Idealize.ShloMosaic Idealize.ShloMosaic.TcCoe Idealize.ShloMosaic.ValueIdx Idealize.ShloMosaic.StableHlo Cert.LibGatherScatter

section
variable (V : Valuation τ sig (Elt Ideal))

/-- The argument arrays, by row and column. -/
def argX : Cert.Spec.M 100000 128 := fun n k => (V (Proc.devRef .tc main_arg0) : S100000x128.Idx → EReal) (ix2 n k)
def argW1 : Cert.Spec.M 128 16 := fun k j => (V (Proc.devRef .tc main_arg1) : S128x16.Idx → EReal) (ix2 k j)
def argB1 : Fin 16 → EReal := fun j => (V (Proc.devRef .tc main_arg2) : S16.Idx → EReal) (ix1 j)
def argG : Fin 16 → EReal := fun j => (V (Proc.devRef .tc main_arg3) : S16.Idx → EReal) (ix1 j)
def argBe : Fin 16 → EReal := fun j => (V (Proc.devRef .tc main_arg4) : S16.Idx → EReal) (ix1 j)
def argW2 : Cert.Spec.M 16 8 := fun j c => (V (Proc.devRef .tc main_arg5) : S16x8.Idx → EReal) (ix2 j c)
def argB2 : Fin 8 → EReal := fun c => (V (Proc.devRef .tc main_arg6) : S8.Idx → EReal) (ix1 c)
/-- The edge array. -/
def argE : Cert.Spec.EdgeArr := (V (Proc.devRef .tc main_arg7) : S2x3200000.Idx → BitVec 32)

/-- The first aggregated layer of the specification at these arguments. -/
def h1S : Cert.Spec.M 100000 16 :=
  Cert.Spec.h1R gather_S100000x16_S3300000x1_S3300000x16_1_0_n_n_0_1_116_wf scatter_S100000x16_S3300000x1_S3300000x16_1_0_0_1_wf gather_S100000_S3300000x1_S3300000_n_0_n_n_0_1_1_wf
    (Cert.Spec.dvOf scatter_S100000_S3300000x1_S3300000_n_0_0_1_wf (argE V)) (Cert.Spec.swOf (argE V)) (Cert.Spec.dcolOf (argE V)) (Cert.Spec.dwcolOf (argE V))
    (argX V) (argW1 V) (argB1 V)

theorem dv_fun : (fun n : Fin 100000 => dvT (F := Ideal) (argE V) (ix1 n)) = Cert.Spec.dvOf scatter_S100000_S3300000x1_S3300000_n_0_0_1_wf (argE V) :=
  funext fun n => dvT_apply (argE V) n

theorem lin1_fun : (fun (n : Fin 100000) (j : Fin 16) => (after ops V (Proc.devRef .tc main_v0) : S100000x16.Idx → EReal) (ix2 n j)) = Cert.Spec.lin1 (argX V) (argW1 V) :=
  funext fun n => funext fun j => by
    rw [lin1_v0, lin1T_apply]
    rfl

theorem h1_fun : (fun (n : Fin 100000) (j : Fin 16) => (after ops V (Proc.devRef .tc main_v46) : S100000x16.Idx → EReal) (ix2 n j)) = h1S V :=
  funext fun n => funext fun j => by
    rw [agg_v46, aggT16_apply]
    show Cert.Spec.aggR _ _ _ (fun n : Fin 100000 => dvT (F := Ideal) (argE V) (ix1 n)) (swT (argE V)) (dcolT (argE V)) (dwcolT (argE V))
      (fun (n : Fin 100000) (j : Fin 16) => (after ops V (Proc.devRef .tc main_v0) : S100000x16.Idx → EReal) (ix2 n j)) (argB1 V) n j = _
    rw [dv_fun, lin1_fun, swT_eq, dcolT_eq, dwcolT_eq]
    rfl

theorem h1_apply (n : Fin 100000) (j : Fin 16) : (after ops V (Proc.devRef .tc main_v46) : S100000x16.Idx → EReal) (ix2 n j) = h1S V n j :=
  congrFun (congrFun (h1_fun V) n) j

theorem mean_apply (j : Fin 16) : (after ops V (Proc.devRef .tc main_v49) : S16.Idx → EReal) (ix1 j) = Cert.Spec.mean (h1S V) j := by
  rw [mean_v49, meanT_apply]
  exact congrArg (fun a => Cert.Spec.mean a j) (h1_fun V)

theorem var_apply (j : Fin 16) : (after ops V (Proc.devRef .tc main_v50) : S16.Idx → EReal) (ix1 j) = Cert.Spec.varR (h1S V) j := by
  rw [var_v50, varT_apply]
  exact congrArg (fun a => Cert.Spec.varR a j) (h1_fun V)

theorem bn_fun : (fun (n : Fin 100000) (j : Fin 16) => (after ops V (Proc.devRef .tc main_v66) : S100000x16.Idx → EReal) (ix2 n j))
    = Cert.Spec.bn (Cert.Spec.varR (h1S V)) (h1S V) (argG V) (argBe V) :=
  funext fun n => funext fun j => by
    rw [bn_v66, bnT_apply, mean_apply, var_apply, h1_apply]
    rfl

theorem lin2_fun : (fun (n : Fin 100000) (c : Fin 8) => (after ops V (Proc.devRef .tc main_v67) : S100000x8.Idx → EReal) (ix2 n c))
    = Cert.Spec.lin2 (Cert.Spec.bn (Cert.Spec.varR (h1S V)) (h1S V) (argG V) (argBe V)) (argW2 V) :=
  funext fun n => funext fun c => by
    rw [lin2_v67, lin2T_apply]
    show Cert.Spec.lin2 (fun (n : Fin 100000) (j : Fin 16) => (after ops V (Proc.devRef .tc main_v66) : S100000x16.Idx → EReal) (ix2 n j)) (argW2 V) n c = _
    rw [bn_fun]

theorem h2_fun : (fun (n : Fin 100000) (c : Fin 8) => (after ops V (Proc.devRef .tc main_v113) : S100000x8.Idx → EReal) (ix2 n c))
    = Cert.Spec.aggR gather_S100000x8_S3300000x1_S3300000x8_1_0_n_n_0_1_18_wf gather_S100000_S3300000x1_S3300000_n_0_n_n_0_1_1_wf scatter_S100000x8_S3300000x1_S3300000x8_1_0_0_1_wf
        (Cert.Spec.dvOf scatter_S100000_S3300000x1_S3300000_n_0_0_1_wf (argE V)) (Cert.Spec.swOf (argE V)) (Cert.Spec.dcolOf (argE V)) (Cert.Spec.dwcolOf (argE V))
        (Cert.Spec.lin2 (Cert.Spec.bn (Cert.Spec.varR (h1S V)) (h1S V) (argG V) (argBe V)) (argW2 V)) (argB2 V) :=
  funext fun n => funext fun c => by
    rw [agg_v113, aggT8_apply]
    show Cert.Spec.aggR _ _ _ (fun n : Fin 100000 => dvT (F := Ideal) (argE V) (ix1 n)) (swT (argE V)) (dcolT (argE V)) (dwcolT (argE V))
      (fun (n : Fin 100000) (c : Fin 8) => (after ops V (Proc.devRef .tc main_v67) : S100000x8.Idx → EReal) (ix2 n c)) (argB2 V) n c = _
    rw [dv_fun, lin2_fun, swT_eq, dcolT_eq, dwcolT_eq]

/-- THE RESULT: the buffer the program returns, after its operations from contents V, at (n, c). -/
theorem ref_out (n : Fin 100000) (c : Fin 8) :
    (after ops V (Proc.devRef .tc main_v114) : S100000x8.Idx → EReal) (ix2 n c)
      = Cert.Spec.outR gather_S100000x16_S3300000x1_S3300000x16_1_0_n_n_0_1_116_wf scatter_S100000x16_S3300000x1_S3300000x16_1_0_0_1_wf gather_S100000x8_S3300000x1_S3300000x8_1_0_n_n_0_1_18_wf scatter_S100000x8_S3300000x1_S3300000x8_1_0_0_1_wf gather_S100000_S3300000x1_S3300000_n_0_n_n_0_1_1_wf
          (Cert.Spec.dvOf scatter_S100000_S3300000x1_S3300000_n_0_0_1_wf (argE V)) (Cert.Spec.swOf (argE V)) (Cert.Spec.dcolOf (argE V)) (Cert.Spec.dwcolOf (argE V))
          (argX V) (argW1 V) (argB1 V) (argG V) (argBe V) (argW2 V) (argB2 V) n c := by
  rw [lsm_v114, lsmT_apply]
  show Cert.Spec.lsm (fun (n : Fin 100000) (c : Fin 8) => (after ops V (Proc.devRef .tc main_v113) : S100000x8.Idx → EReal) (ix2 n c)) n c = _
  rw [h2_fun]
  unfold Cert.Spec.outR h1S
  rfl

end

end Cert.ReferenceIdeal.Hand

end
-- ==== Proof.LibConvLaw.lean ====
/-
  A SCATTER-ADD OF GATHERED ROWS COMMUTES WITH A ROW SCALING, at the ideal instance. Rows of H, each scaled by a
  per-row factor dv, are gathered at the start indices sw and added into the rows the indices dcol name; scaling the
  accumulated row i by dv(i) afterwards is the same as scaling every update by the two factors first, the second
  factor read by a gather at the wrapped indices dwcol: an update that lands on row i has dcol = i there, which is not
  negative, so the wrap leaves it alone and the second gather reads dv(i). The factor dv(i) is a real that is not
  negative, and multiplication by such a factor distributes over a finite sum of extended reals.
  Then two value facts: the reciprocal square root of max x 1 is a real that is not negative, and the f32 pattern of one.
-/
import proofs.«179341_j31447750542019_2_alg».proof.Proof.LibGatherScatter
import Idealize.ShloMosaic.PureOps.Ideal
import Idealize.ShloMosaic.Lib.IdealHost

open scoped BigOperators

namespace Cert.LibConvLaw

open Idealize.ShloMosaic Idealize.ShloMosaic.ValueIdx Cert.LibGatherScatter

/-- Multiplication on the right by a real that is not negative distributes over a finite sum of extended reals. -/
theorem sum_mul_of_real_nonneg {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem scatter_gather_scale {N E C w : ℕ} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (Z H : (⟨2, ![N, C]⟩ : Shape).Idx → EReal) (hZ : ∀ i, Z i = 0)
    (dv : (⟨1, ![N]⟩ : Shape).Idx → EReal) (hdv : ∀ n, ∃ r : ℝ, 0 ≤ r ∧ dv n = (r : EReal))
    (sw dcol dwcol : IVec ⟨2, ![E, 1]⟩ w)
    (hwrap : ∀ e : Fin E, 0 ≤ (dcol (ix2 e (0 : Fin 1))).toInt → dwcol (ix2 e (0 : Fin 1)) = dcol (ix2 e (0 : Fin 1)))
    (i : (⟨2, ![N, C]⟩ : Shape).Idx) :
    Ideal.hostScatterAdd (rowScatter N E C wfs) Z dcol
        (Host.gather (rowGather N E C wfg) (fun j => H j * dv (ix1 ⟨(j 0).val, idx2_lt0 j⟩)) sw) i
        * dv (ix1 ⟨(i 0).val, idx2_lt0 i⟩)
      = Ideal.hostScatterAdd (rowScatter N E C wfs) Z dcol
        (fun y => Host.gather (rowGather N E C wfg) H sw y
          * (Host.gather (vecGather N E wfv) dv sw (ix1 ⟨(y 0).val, idx2_lt0 y⟩)
            * Host.gather (vecGather N E wfv) dv dwcol (ix1 ⟨(y 0).val, idx2_lt0 y⟩))) i := by
  obtain ⟨r, hr, hc⟩ := hdv (ix1 ⟨(i 0).val, idx2_lt0 i⟩)
  unfold Ideal.hostScatterAdd
  rw [hZ i, zero_add, zero_add, hc, sum_mul_of_real_nonneg _ _ r hr]
  refine Finset.sum_congr rfl fun y hy => ?_
  have hland : (rowScatter N E C wfs).resultIdx? y dcol = some i := (Finset.mem_filter.mp hy).2
  have hrow := rowScatter_lands wfs dcol y i hland
  have hi0 := idx2_lt0 i
  -- the wrapped index at this update is the start index itself, which is row i
  have hdw : dwcol (ix2 ⟨(y 0).val, idx2_lt0 y⟩ (0 : Fin 1)) = dcol (ix2 ⟨(y 0).val, idx2_lt0 y⟩ (0 : Fin 1)) :=
    hwrap ⟨(y 0).val, idx2_lt0 y⟩ (by rw [hrow]; exact Int.natCast_nonneg _)
  -- the three gathers read at their operand indices
  have hg1 : Host.gather (rowGather N E C wfg) (fun j => H j * dv (ix1 ⟨(j 0).val, idx2_lt0 j⟩)) sw y
      = H ((rowGather N E C wfg).operandIdx y sw)
        * dv (ix1 ⟨min (sw (ix2 ⟨(y 0).val, idx2_lt0 y⟩ (0 : Fin 1))).toInt.toNat (N - 1), by omega⟩) := by
    show H ((rowGather N E C wfg).operandIdx y sw)
        * dv (ix1 ⟨(((rowGather N E C wfg).operandIdx y sw) 0).val, _⟩) = _
    congr 2
    rw [rowGather_operandIdx hN]
    rfl
  have hg2 : Host.gather (vecGather N E wfv) dv sw (ix1 ⟨(y 0).val, idx2_lt0 y⟩)
      = dv (ix1 ⟨min (sw (ix2 ⟨(y 0).val, idx2_lt0 y⟩ (0 : Fin 1))).toInt.toNat (N - 1), by omega⟩) := by
    show dv ((vecGather N E wfv).operandIdx (ix1 ⟨(y 0).val, idx2_lt0 y⟩) sw) = _
    rw [vecGather_operandIdx hN]
    rfl
  have hg3 : Host.gather (vecGather N E wfv) dv dwcol (ix1 ⟨(y 0).val, idx2_lt0 y⟩) = (r : EReal) := by
    show dv ((vecGather N E wfv).operandIdx (ix1 ⟨(y 0).val, idx2_lt0 y⟩) dwcol) = _
    rw [vecGather_operandIdx hN, ← hc]
    congr 1
    refine congrArg (fun a => ix1 a) (Fin.ext ?_)
    show min (dwcol (ix2 ⟨(y 0).val, idx2_lt0 y⟩ (0 : Fin 1))).toInt.toNat (N - 1) = (i 0).val
    rw [hdw]
    exact clamp_of_lt _ _ hrow hi0
  beta_reduce
  rw [hg1, hg2, hg3]
  show H ((rowGather N E C wfg).operandIdx y sw) * _ * _ = H ((rowGather N E C wfg).operandIdx y sw) * (_ * _)
  rw [mul_assoc]

/-! ## Two value facts -/

/-- The reciprocal square root of a real that is at least one is the real reciprocal of its square root. -/
theorem rsqrt_real_of_one_le (a : ℝ) (ha : 1 ≤ a) : Ideal.rsqrt (a : EReal) = (((Real.sqrt a)⁻¹ : ℝ) : EReal) := by
  have hpos : (0 : ℝ) < a := lt_of_lt_of_le one_pos ha
  rw [Ideal.rsqrt_coe, if_neg (not_lt.mpr hpos.le), if_neg hpos.ne']

/-- The reciprocal square root of a value clamped below at one is a real that is not negative (at the top element it
    is zero). -/
theorem rsqrt_max_one_real (x : EReal) : ∃ r : ℝ, 0 ≤ r ∧ Ideal.rsqrt (max x 1) = (r : EReal) := by
  induction x using EReal.rec with
  | bot =>
    refine ⟨(Real.sqrt 1)⁻¹, by positivity, ?_⟩
    rw [max_eq_right bot_le, ← EReal.coe_one, rsqrt_real_of_one_le 1 le_rfl]
  | top => exact ⟨0, le_refl _, by rw [max_eq_left le_top, Ideal.rsqrt_top, EReal.coe_zero]⟩
  | coe a =>
    rcases le_total a 1 with h | h
    · refine ⟨(Real.sqrt 1)⁻¹, by positivity, ?_⟩
      rw [max_eq_right (by rw [← EReal.coe_one]; exact EReal.coe_le_coe_iff.mpr h), ← EReal.coe_one,
        rsqrt_real_of_one_le 1 le_rfl]
    · refine ⟨(Real.sqrt a)⁻¹, by positivity, ?_⟩
      rw [max_eq_left (by rw [← EReal.coe_one]; exact EReal.coe_le_coe_iff.mpr h), rsqrt_real_of_one_le a h]

/-- The f32 pattern 0x3F800000 is the extended real one (the library's Ideal.ofBits_one_f32). -/
theorem ofBits_one : Ideal.ofBits .f32 0x3F800000#32 = (1 : EReal) := Ideal.ofBits_one_f32

end Cert.LibConvLaw
-- ==== Proof.SpecAgg.lean ====
/-
  THE TWO AGGREGATIONS ARE ONE FUNCTION, and an aggregation of reals is real.

  Scaling row n of the accumulated array by dv n after the scatter-add is scaling every update that lands on row n by
  dv n first: dv n is a real that is not negative, and multiplication by such a factor distributes over a finite sum of
  extended reals. An update that lands on row n has start index n, which is not negative, so the wrapped column reads
  the same word there and the gather by wrapped destination reads dv n. No finiteness of the array is needed.

  An entry of the aggregated array is a finite sum of products of three entries (one of the array, two of the factor)
  plus a bias entry, so it is a real when these are; an entry of a dense layer is a finite sum of products of reals.
-/
import proofs.«179341_j31447750542019_2_alg».proof.Proof.Spec
import proofs.«179341_j31447750542019_2_alg».proof.Proof.LibConvLaw

open scoped BigOperators

noncomputable section

namespace Cert.Spec

open Idealize.ShloMosaic Idealize.ShloMosaic.ValueIdx Cert.LibGatherScatter Cert.LibConvLaw

/-- Scaling around the aggregation against scaling every edge by both factors: the same array. -/
theorem aggK_eq_aggR {C : Nat}
    (wfg : GatherDims.WF ⟨2, ![100000, C]⟩ ⟨2, ![3300000, 1]⟩ ⟨2, ![3300000, C]⟩ [1] [0] [] [0] [] 1 ![1, C])
    (wfv : GatherDims.WF ⟨1, ![100000]⟩ ⟨2, ![3300000, 1]⟩ ⟨1, ![3300000]⟩ [] [0] [] [0] [] 1 ![1])
    (wfs : ScatterDims.WF ⟨2, ![100000, C]⟩ ⟨2, ![3300000, 1]⟩ ⟨2, ![3300000, C]⟩ [1] [0] [0] 1)
    (dv : Fin 100000 → EReal) (hdv : ∀ n, ∃ r : ℝ, 0 ≤ r ∧ dv n = (r : EReal))
    (sw dcol dwcol : ICol)
    (hwrap : ∀ e : Fin 3300000, 0 ≤ (dcol (ValueIdx.ix2 e (0 : Fin 1))).toInt →
      dwcol (ValueIdx.ix2 e (0 : Fin 1)) = dcol (ValueIdx.ix2 e (0 : Fin 1)))
    (H : M 100000 C) (b : Fin C → EReal) :
    aggK wfg wfs dv sw dcol H b = aggR wfg wfv wfs dv sw dcol dwcol H b := by
  funext n c
  unfold aggK aggR
  refine congrArg (· + b c) ?_
  exact scatter_gather_scale (N := 100000) (E := 3300000) (C := C) (by norm_num) wfg wfv wfs (fun _ => 0) (unc H)
    (fun _ => rfl) (unv dv) (fun i => hdv ⟨(i 0).val, idx1_lt0 i⟩) sw dcol dwcol hwrap (ix2 n c)

/-! ## Reals stay reals -/

/-- A finite sum of reals is a real. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨p, hp⟩ := hf a (Finset.mem_insert_self a s)
    obtain ⟨q, hq⟩ := ih (fun i hi => hf i (Finset.mem_insert_of_mem hi))
    exact ⟨p + q, by rw [Finset.sum_insert ha, hp, hq, EReal.coe_add]⟩

/-- A product of two reals is a real. -/
theorem mul_real {x y : EReal} (hx : ∃ r : ℝ, x = (r : EReal)) (hy : ∃ r : ℝ, y = (r : EReal)) :
    ∃ r : ℝ, x * y = (r : EReal) := by
  obtain ⟨p, rfl⟩ := hx
  obtain ⟨q, rfl⟩ := hy
  exact ⟨p * q, (EReal.coe_mul p q).symm⟩

/-- A sum of two reals is a real. -/
theorem add_real {x y : EReal} (hx : ∃ r : ℝ, x = (r : EReal)) (hy : ∃ r : ℝ, y = (r : EReal)) :
    ∃ r : ℝ, x + y = (r : EReal) := by
  obtain ⟨p, rfl⟩ := hx
  obtain ⟨q, rfl⟩ := hy
  exact ⟨p + q, (EReal.coe_add p q).symm⟩

/-- The aggregation (in the form that scales every edge) of a real array by real factors and a real bias is real. -/
theorem aggR_real {C : Nat}
    (wfg : GatherDims.WF ⟨2, ![100000, C]⟩ ⟨2, ![3300000, 1]⟩ ⟨2, ![3300000, C]⟩ [1] [0] [] [0] [] 1 ![1, C])
    (wfv : GatherDims.WF ⟨1, ![100000]⟩ ⟨2, ![3300000, 1]⟩ ⟨1, ![3300000]⟩ [] [0] [] [0] [] 1 ![1])
    (wfs : ScatterDims.WF ⟨2, ![100000, C]⟩ ⟨2, ![3300000, 1]⟩ ⟨2, ![3300000, C]⟩ [1] [0] [0] 1)
    (dv : Fin 100000 → EReal) (hdv : ∀ n, ∃ r : ℝ, dv n = (r : EReal))
    (sw dcol dwcol : ICol) (H : M 100000 C) (hH : ∀ n j, ∃ r : ℝ, H n j = (r : EReal))
    (b : Fin C → EReal) (hb : ∀ c, ∃ r : ℝ, b c = (r : EReal)) (n : Fin 100000) (c : Fin C) :
    ∃ r : ℝ, aggR wfg wfv wfs dv sw dcol dwcol H b n c = (r : EReal) := by
  unfold aggR Ideal.hostScatterAdd
  refine add_real (add_real ⟨0, EReal.coe_zero.symm⟩ (sum_real _ _ fun y _ => ?_)) (hb c)
  refine mul_real ?_ (mul_real ?_ ?_)
  · exact hH _ _
  · exact hdv _
  · exact hdv _

/-- The aggregation in the form that scales rows around the scatter-add, likewise (it is the same array). -/
theorem aggK_real {C : Nat}
    (wfg : GatherDims.WF ⟨2, ![100000, C]⟩ ⟨2, ![3300000, 1]⟩ ⟨2, ![3300000, C]⟩ [1] [0] [] [0] [] 1 ![1, C])
    (wfs : ScatterDims.WF ⟨2, ![100000, C]⟩ ⟨2, ![3300000, 1]⟩ ⟨2, ![3300000, C]⟩ [1] [0] [0] 1)
    (dv : Fin 100000 → EReal) (hdv : ∀ n, ∃ r : ℝ, dv n = (r : EReal))
    (sw dcol : ICol) (H : M 100000 C) (hH : ∀ n j, ∃ r : ℝ, H n j = (r : EReal))
    (b : Fin C → EReal) (hb : ∀ c, ∃ r : ℝ, b c = (r : EReal)) (n : Fin 100000) (c : Fin C) :
    ∃ r : ℝ, aggK wfg wfs dv sw dcol H b n c = (r : EReal) := by
  unfold aggK Ideal.hostScatterAdd
  refine add_real (mul_real (add_real ⟨0, EReal.coe_zero.symm⟩ (sum_real _ _ fun y _ => ?_)) (hdv n)) (hb c)
  exact mul_real (hH _ _) (hdv _)

/-- An entry of the first dense layer of real arrays is real. -/
theorem lin1_real (x : M 100000 128) (W : M 128 16) (hx : ∀ n k, ∃ r : ℝ, x n k = (r : EReal))
    (hW : ∀ k j, ∃ r : ℝ, W k j = (r : EReal)) (n : Fin 100000) (j : Fin 16) :
    ∃ r : ℝ, lin1 x W n j = (r : EReal) :=
  sum_real _ _ fun k _ => mul_real (hx n k) (hW k j)

/-- An entry of the second dense layer of real arrays is real. -/
theorem lin2_real (y : M 100000 16) (W : M 16 8) (hy : ∀ n j, ∃ r : ℝ, y n j = (r : EReal))
    (hW : ∀ j c, ∃ r : ℝ, W j c = (r : EReal)) (n : Fin 100000) (c : Fin 8) :
    ∃ r : ℝ, lin2 y W n c = (r : EReal) :=
  sum_real _ _ fun j _ => mul_real (hy n j) (hW j c)

end Cert.Spec

end
-- ==== Proof.SpecVar.lean ====
/-
  THE TWO VARIANCES ARE ONE FUNCTION on a real column.

  For a column of reals f over the 100000 nodes, with S the sum, Q the sum of the squares and m = S / 100000:
    the sum of (f n - m)^2 is Q - 2 m S + 100000 m^2 = Q - 100000 m^2,
  so the mean of the squared deviations is Q / 100000 - m^2, the mean of the squares less the squared mean; being a
  mean of squares it is not negative, so clamping it below at zero changes nothing. The word cN is the real 100000, a
  quotient by it is the product with 1 / 100000, and a finite sum of reals read in the extended reals is the sum of the
  readings: both forms are the reading of one real.
-/
import proofs.«179341_j31447750542019_2_alg».proof.Proof.Spec
import proofs.«179341_j31447750542019_2_alg».proof.Proof.LibExtReal

open scoped BigOperators

noncomputable section

namespace Cert.Spec

open Idealize.ShloMosaic Cert.LibExtReal

/-- The word cN is the real 100000. -/
theorem cN_eq : cN = ((100000 : ℝ) : EReal) := by
  simp [cN, Ideal.ofBits, Ideal.ieee, -EReal.coe_mul]; norm_num

/-- A quotient by cN is the product with the real 1 / 100000. -/
theorem div_cN (x : EReal) : Ideal.div x cN = x * (((1 : ℝ) / 100000 : ℝ) : EReal) := by
  rw [cN_eq, Ideal.div_coe (by norm_num)]

/-- The identity over the reals: the mean of the squares less the squared mean is the mean of the squared deviations. -/
theorem var_real (f : Fin 100000 → ℝ) :
    (∑ n, f n * f n) * (1 / 100000) - ((∑ n, f n) * (1 / 100000)) * ((∑ n, f n) * (1 / 100000))
      = (∑ n, (f n - (∑ n, f n) * (1 / 100000)) * (f n - (∑ n, f n) * (1 / 100000))) * (1 / 100000) := by
  generalize hm : (∑ n, f n) * (1 / 100000 : ℝ) = m
  have hS : ∑ n, f n = 100000 * m := by rw [← hm]; ring
  have hdev : ∀ n, (f n - m) * (f n - m) = f n * f n - 2 * m * f n + m * m := fun n => by ring
  rw [Finset.sum_congr rfl (fun n _ => hdev n), Finset.sum_add_distrib, Finset.sum_sub_distrib, ← Finset.mul_sum, hS,
    Finset.sum_const, Finset.card_univ, Fintype.card_fin, nsmul_eq_mul]
  push_cast
  ring

/-- The mean of the squared deviations of a real column is not negative. -/
theorem var_real_nonneg (f : Fin 100000 → ℝ) (m : ℝ) : 0 ≤ (∑ n, (f n - m) * (f n - m)) * (1 / 100000 : ℝ) :=
  mul_nonneg (Finset.sum_nonneg fun n _ => mul_self_nonneg _) (by norm_num)

/-- The mean of a real column is the reading of the real mean. -/
theorem mean_coe (a : M 100000 16) (f : Fin 100000 → ℝ) (j : Fin 16) (hf : ∀ n, a n j = (f n : EReal)) :
    mean a j = (((∑ n, f n) * (1 / 100000) : ℝ) : EReal) := by
  unfold mean
  rw [div_cN, Finset.sum_congr rfl (fun n _ => hf n), ← coe_sum, ← EReal.coe_mul]

/-- The one-pass variance (clamped below at zero) of a real column is its two-pass variance. -/
theorem varK_eq_varR (a : M 100000 16) (ha : ∀ n j, ∃ r : ℝ, a n j = (r : EReal)) (j : Fin 16) :
    varK a j = varR a j := by
  choose g hg using ha
  have hf : ∀ n, a n j = ((g n j : ℝ) : EReal) := fun n => hg n j
  unfold varK varR
  rw [mean_coe a (fun n => g n j) j hf, div_cN, div_cN,
    Finset.sum_congr rfl (fun n _ => show a n j * a n j = ((g n j * g n j : ℝ) : EReal) by
      rw [hf n, EReal.coe_mul]),
    Finset.sum_congr rfl (fun n _ => show
      (a n j - (((∑ n, g n j) * (1 / 100000) : ℝ) : EReal)) * (a n j - (((∑ n, g n j) * (1 / 100000) : ℝ) : EReal))
        = (((g n j - (∑ n, g n j) * (1 / 100000)) * (g n j - (∑ n, g n j) * (1 / 100000)) : ℝ) : EReal) by
      rw [hf n, ← EReal.coe_sub, ← EReal.coe_mul]),
    ← coe_sum, ← coe_sum, ← EReal.coe_mul, ← EReal.coe_mul, ← EReal.coe_mul, ← EReal.coe_sub,
    var_real (fun n => g n j)]
  exact max_eq_left (EReal.coe_nonneg.mpr (var_real_nonneg _ _))

/-- The variance of a real column is a real that is not negative. -/
theorem varR_real (a : M 100000 16) (ha : ∀ n j, ∃ r : ℝ, a n j = (r : EReal)) (j : Fin 16) :
    ∃ r : ℝ, 0 ≤ r ∧ varR a j = (r : EReal) := by
  choose g hg using ha
  have hf : ∀ n, a n j = ((g n j : ℝ) : EReal) := fun n => hg n j
  refine ⟨_, var_real_nonneg (fun n => g n j) ((∑ n, g n j) * (1 / 100000)), ?_⟩
  unfold varR
  rw [mean_coe a (fun n => g n j) j hf, div_cN,
    Finset.sum_congr rfl (fun n _ => show
      (a n j - (((∑ n, g n j) * (1 / 100000) : ℝ) : EReal)) * (a n j - (((∑ n, g n j) * (1 / 100000) : ℝ) : EReal))
        = (((g n j - (∑ n, g n j) * (1 / 100000)) * (g n j - (∑ n, g n j) * (1 / 100000)) : ℝ) : EReal) by
      rw [hf n, ← EReal.coe_sub, ← EReal.coe_mul]),
    ← coe_sum, ← EReal.coe_mul]

end Cert.Spec

end
-- ==== Proof.SpecLaw.lean ====
/-
  THE LAW: the two forms of the result are one function.

  The first aggregated layer is the same array in both forms (the aggregation law, which needs only that the per-node
  factor is a real that is not negative). That array is real when the input, the first weights and the first bias are,
  so its one-pass and two-pass variances agree column by column. The second aggregation is again the same in both
  forms, whatever array it is applied to. The normalisation, the second dense layer and the log-softmax are the same
  expressions on both sides and are never opened.
-/
import proofs.«179341_j31447750542019_2_alg».proof.Proof.SpecAgg
import proofs.«179341_j31447750542019_2_alg».proof.Proof.SpecVar

open scoped BigOperators

noncomputable section

namespace Cert.Spec

open Idealize.ShloMosaic Idealize.ShloMosaic.ValueIdx Cert.LibGatherScatter

theorem outK_eq_outR
    (wfg16 : GatherDims.WF ⟨2, ![100000, 16]⟩ ⟨2, ![3300000, 1]⟩ ⟨2, ![3300000, 16]⟩ [1] [0] [] [0] [] 1 ![1, 16])
    (wfs16 : ScatterDims.WF ⟨2, ![100000, 16]⟩ ⟨2, ![3300000, 1]⟩ ⟨2, ![3300000, 16]⟩ [1] [0] [0] 1)
    (wfg8 : GatherDims.WF ⟨2, ![100000, 8]⟩ ⟨2, ![3300000, 1]⟩ ⟨2, ![3300000, 8]⟩ [1] [0] [] [0] [] 1 ![1, 8])
    (wfs8 : ScatterDims.WF ⟨2, ![100000, 8]⟩ ⟨2, ![3300000, 1]⟩ ⟨2, ![3300000, 8]⟩ [1] [0] [0] 1)
    (wfv : GatherDims.WF ⟨1, ![100000]⟩ ⟨2, ![3300000, 1]⟩ ⟨1, ![3300000]⟩ [] [0] [] [0] [] 1 ![1])
    (dv : Fin 100000 → EReal) (hdv : ∀ n, ∃ r : ℝ, 0 ≤ r ∧ dv n = (r : EReal))
    (sw dcol dwcol : ICol)
    (hwrap : ∀ e : Fin 3300000, 0 ≤ (dcol (ValueIdx.ix2 e (0 : Fin 1))).toInt →
      dwcol (ValueIdx.ix2 e (0 : Fin 1)) = dcol (ValueIdx.ix2 e (0 : Fin 1)))
    (x : M 100000 128) (W1 : M 128 16) (b1 γ β : Fin 16 → EReal) (W2 : M 16 8) (b2 : Fin 8 → EReal)
    (hx : ∀ n k, ∃ r : ℝ, x n k = (r : EReal)) (hW1 : ∀ k j, ∃ r : ℝ, W1 k j = (r : EReal))
    (hb1 : ∀ j, ∃ r : ℝ, b1 j = (r : EReal)) :
    outK wfg16 wfs16 wfg8 wfs8 dv sw dcol x W1 b1 γ β W2 b2
      = outR wfg16 wfs16 wfg8 wfs8 wfv dv sw dcol dwcol x W1 b1 γ β W2 b2 := by
  -- the first aggregated layer is the same array
  have h1 : h1K wfg16 wfs16 dv sw dcol x W1 b1 = h1R wfg16 wfs16 wfv dv sw dcol dwcol x W1 b1 :=
    aggK_eq_aggR wfg16 wfv wfs16 dv hdv sw dcol dwcol hwrap (lin1 x W1) b1
  -- and it is real
  have hreal : ∀ n j, ∃ r : ℝ, h1R wfg16 wfs16 wfv dv sw dcol dwcol x W1 b1 n j = (r : EReal) := fun n j =>
    aggR_real wfg16 wfv wfs16 dv (fun n => (hdv n).imp fun _ h => h.2) sw dcol dwcol (lin1 x W1)
      (lin1_real x W1 hx hW1) b1 hb1 n j
  -- so its two variances agree
  have hvar : varK (h1R wfg16 wfs16 wfv dv sw dcol dwcol x W1 b1) = varR (h1R wfg16 wfs16 wfv dv sw dcol dwcol x W1 b1) :=
    funext fun j => varK_eq_varR _ hreal j
  unfold outK outR
  rw [h1, hvar, aggK_eq_aggR wfg8 wfv wfs8 dv hdv sw dcol dwcol hwrap]

end Cert.Spec

end
-- ==== Proof.Finite.lean ====
/-
  FROM THE PRECONDITION TO REAL ENTRIES. The precondition is the conjunction, over the seven float arguments, of
  "every entry's absolute value is below plus infinity". Read over the extended reals, an entry whose absolute value
  max x (-x) is below the top element is a real number. The equality of the two results needs this of the input
  features, the first weight and the first bias only.
-/
import proofs.«179341_j31447750542019_2_alg».proof.Pre_finite_inputs
import proofs.«179341_j31447750542019_2_alg».proof.Proof.LibExtReal
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

variable [Cert.Pre_finite_inputs.Facts]

instance : Subsingleton S_.Idx := ⟨fun a b => funext fun d => d.elim0⟩

/-- An entry whose absolute value compares below the word of plus infinity is a real. -/
theorem real_of_lt_inf (x : EReal)
    (h : Ideal.cmp .olt (max x (-x)) (Ideal.ofBits .f32 0x7F800000#32) = 1#1) : ∃ r : ℝ, x = (r : EReal) :=
  Cert.LibExtReal.real_of_abs_lt_top x (by rw [← Cert.LibExtReal.ofBits_inf]; exact Cert.LibExtReal.lt_of_cmp_olt h)

/-- Under the precondition every entry of the first three float arguments is a real. -/
theorem real_of_pre (a0 : FVec Ideal S100000x128 .f32) (a1 : FVec Ideal S128x16 .f32) (a2 a3 a4 : FVec Ideal S16 .f32)
    (a5 : FVec Ideal S16x8 .f32) (a6 : FVec Ideal S8 .f32) (a7 : IVec S2x3200000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, hb1⟩ := IntOp.andi_eq_one.1 h4
  obtain ⟨hx, hW⟩ := IntOp.andi_eq_one.1 h5
  refine ⟨fun i => real_of_lt_inf _ (Host.reduce_andi_all _ _ _ _ _ hx i), fun i => real_of_lt_inf _ (Host.reduce_andi_all _ _ _ _ _ hW i),
    fun i => real_of_lt_inf _ (Host.reduce_andi_all _ _ _ _ _ hb1 i)⟩

end Cert.Finite

end
-- ==== Proof.Bridge.lean ====
/-
  THE TWO RESULTS ARE ONE ARRAY. From memories that agree on the eight arguments, the reference's result, read index by
  index, is the specification's second form of the argument arrays, and the kernel program's is its first form; the two
  forms are equal when the input features, the first weight and the first bias are real (which the precondition says)
  because the degree factor is a real that is not negative and the wrapped destination index is the destination index
  wherever an update lands.
-/
import proofs.«179341_j31447750542019_2_alg».proof.Defs
import proofs.«179341_j31447750542019_2_alg».proof.Proof.KI.Value
import proofs.«179341_j31447750542019_2_alg».proof.Proof.Ref.Out
import proofs.«179341_j31447750542019_2_alg».proof.Proof.SpecLaw
import proofs.«179341_j31447750542019_2_alg».proof.Proof.SpecEdges
import proofs.«179341_j31447750542019_2_alg».proof.Proof.Finite
import proofs.«179341_j31447750542019_2_alg».proof.Proof.Gen.Kernel
import proofs.«179341_j31447750542019_2_alg».proof.Proof.Gen.KernelIdeal
import proofs.«179341_j31447750542019_2_alg».proof.Proof.Gen.ReferenceIdeal
import proofs.«179341_j31447750542019_2_alg».proof.Proof.Gen.Pre_finite_inputs

noncomputable section

namespace Cert.Bridge

open Idealize.ShloMosaic Idealize.SL.Sem Idealize.ShloMosaic.ValueIdx

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    StableHlo.after (Cert.ReferenceIdeal.Hand.ops (F := Ideal)) (StableHlo.launchContents m' c) (Proc.devRef .tc Cert.ReferenceIdeal.main_v114)
      = Cert.KernelIdeal.Hand.W9 (F := Ideal) m ρ c (Proc.devRef .tc Cert.KernelIdeal.main_v66) := by
  obtain ⟨hx, hW1, hb1⟩ := Cert.Finite.real_of_pre _ _ _ _ _ _ _ _ hpre
  obtain ⟨h0, h1, h2, h3, h4, h5, h6, h7⟩ := hag
  -- the reference's argument arrays are the kernel program's
  have eX : Cert.ReferenceIdeal.Hand.argX (StableHlo.launchContents m' c) = Cert.KernelIdeal.Hand.argX m c :=
    funext fun n => funext fun k => congrFun h0 (ix2 n k)
  have eW1 : Cert.ReferenceIdeal.Hand.argW1 (StableHlo.launchContents m' c) = Cert.KernelIdeal.Hand.argW1 m c :=
    funext fun k => funext fun j => congrFun h1 (ix2 k j)
  have eB1 : Cert.ReferenceIdeal.Hand.argB1 (StableHlo.launchContents m' c) = Cert.KernelIdeal.Hand.argB1 m c :=
    funext fun j => congrFun h2 (ix1 j)
  have eG : Cert.ReferenceIdeal.Hand.argG (StableHlo.launchContents m' c) = Cert.KernelIdeal.Hand.argG m c :=
    funext fun j => congrFun h3 (ix1 j)
  have eBe : Cert.ReferenceIdeal.Hand.argBe (StableHlo.launchContents m' c) = Cert.KernelIdeal.Hand.argBt m c :=
    funext fun j => congrFun h4 (ix1 j)
  have eW2 : Cert.ReferenceIdeal.Hand.argW2 (StableHlo.launchContents m' c) = Cert.KernelIdeal.Hand.argW2 m c :=
    funext fun j => funext fun k => congrFun h5 (ix2 j k)
  have eB2 : Cert.ReferenceIdeal.Hand.argB2 (StableHlo.launchContents m' c) = Cert.KernelIdeal.Hand.argB2 m c :=
    funext fun j => congrFun h6 (ix1 j)
  have eE : Cert.ReferenceIdeal.Hand.argE (StableHlo.launchContents m' c) = Cert.KernelIdeal.Hand.argEi m c := h7
  funext i
  obtain ⟨n, cc, rfl⟩ : ∃ (n : Fin 100000) (cc : Fin 8), i = ix2 n cc := ⟨i 0, i 1, eq_ix2 i⟩
  refine (Cert.ReferenceIdeal.Hand.ref_out (StableHlo.launchContents m' c) n cc).trans ?_
  refine Eq.trans ?_ (Cert.KernelIdeal.Hand.kernel_value' m ρ c n cc).symm
  rw [eX, eW1, eB1, eG, eBe, eW2, eB2, eE]
  exact (congrFun (congrFun (Cert.Spec.outK_eq_outR _ _ _ _ _ _
    (Cert.Spec.hdv_of _ (Cert.KernelIdeal.Hand.argEi m c)) _ _ _ (Cert.Spec.hwrap_of (Cert.KernelIdeal.Hand.argEi m c))
    _ _ _ _ _ _ _ (fun n k => hx (ix2 n k)) (fun k j => hW1 (ix2 k j)) (fun j => hb1 (ix1 j))) n) cc).symm

end Cert.Bridge

end
-- ==== Proof.lean ====
/-
  THE CERTIFICATE'S CLAIM. A two-layer graph convolution on 100000 nodes and 3300000 edges (the given ones and one self
  loop per node): dense layer, degree-normalised aggregation, batch normalisation and max(., 0), dense layer,
  aggregation, row-wise log-softmax; the kernel program does the dense layers, the column statistics, the
  normalisation and the log-softmax in four pallas_call regions of 20 blocks of 5000 rows each, the reference does
  everything by host operations.

  THE FRAMES. The kernel program (at either instance) is four regions among five stretches of host operations; each
  region's body is run once at a symbolic grid point (the statistics region in its three control cases: first point,
  middle points, last point, with its two scratch rows carried between points), and the run of the whole program is the
  chain of the segments (Proof/K/Run.lean, Proof/KI/Run.lean). The reference is one straight line of host operations
  (Proof/Ref/Run.lean).

  THE EQUALITY OF THE RESULTS, over the extended reals. Both results are read index by index as one function of the
  argument arrays (Proof/Spec.lean): the kernel's through its regions' arrays and its host stretches (Proof/KI/Value.lean),
  the reference's operation by operation (Proof/Ref/Out.lean). The two functions differ in two places: the aggregation
  scales rows by the factor 1/sqrt(degree) before the gather and after the scatter-add on one side and scales every edge by
  both factors on the other — equal because the factor is a real that is not negative, and such a factor distributes
  over a finite sum of extended reals; and the variance is the mean of squares less the squared mean, clamped at zero,
  on one side and the mean of squared deviations on the other — equal for real entries, which the aggregated layer
  has because the input features, the first weight and the first bias are finite (the precondition) and the degree
  factor is real (Proof/SpecLaw.lean). Nothing was rewritten by the idealisation, so its soundness claim is trivial.
-/
import proofs.«179341_j31447750542019_2_alg».proof.Defs
import proofs.«179341_j31447750542019_2_alg».proof.Proof.K.Run
import proofs.«179341_j31447750542019_2_alg».proof.Proof.KI.Run
import proofs.«179341_j31447750542019_2_alg».proof.Proof.Ref.Run
import proofs.«179341_j31447750542019_2_alg».proof.Proof.Bridge
import proofs.«179341_j31447750542019_2_alg».proof.Proof.Gen.Kernel
import proofs.«179341_j31447750542019_2_alg».proof.Proof.Gen.KernelIdeal
import proofs.«179341_j31447750542019_2_alg».proof.Proof.Gen.ReferenceIdeal
import proofs.«179341_j31447750542019_2_alg».proof.Proof.Gen.Pre_finite_inputs
import Idealize.ShloMosaic.Adequacy
import Idealize.ShloMosaic.Init

noncomputable section

namespace Cert.Proof

open Idealize.ShloMosaic Idealize.SL.Sem

/-- The kernel program at the word level runs to the end and leaves its arguments as launched. -/
theorem frame_k : Cert.frame_Kernel := fun m ρ _ => Cert.Kernel.Hand.frame m ρ

/-- The same of the kernel program read over the extended reals. -/
theorem frame_ki : Cert.frame_KernelIdeal := fun m ρ _ => Cert.KernelIdeal.Hand.frame m ρ

/-- The reference runs to the end and leaves its arguments as launched: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments, under the precondition, both programs end with the same result array. -/
theorem algebraic : Cert.algebraic_KernelIdeal_ReferenceIdeal := by
  intro m ρ m' ρ' hpre hagree
  refine ⟨fun c => Cert.KernelIdeal.Hand.W9 (F := Ideal) m ρ c (Proc.devRef .tc Cert.KernelIdeal.main_v66), ?_, ?_⟩
  · exact (θ_run Cert.KernelIdeal.defs _ _).mono (fun r h c =>
      ⟨h c _ (Cert.KernelIdeal.Hand.mem_uc Cert.KernelIdeal.main_v66 (by decide)),
       (h c _ (Cert.KernelIdeal.Hand.mem_uc Cert.KernelIdeal.main_arg0 (by decide))).trans (Cert.KernelIdeal.Hand.W9_main_arg0 m ρ c),
       (h c _ (Cert.KernelIdeal.Hand.mem_uc Cert.KernelIdeal.main_arg1 (by decide))).trans (Cert.KernelIdeal.Hand.W9_main_arg1 m ρ c),
       (h c _ (Cert.KernelIdeal.Hand.mem_uc Cert.KernelIdeal.main_arg2 (by decide))).trans (Cert.KernelIdeal.Hand.W9_main_arg2 m ρ c),
       (h c _ (Cert.KernelIdeal.Hand.mem_uc Cert.KernelIdeal.main_arg3 (by decide))).trans (Cert.KernelIdeal.Hand.W9_main_arg3 m ρ c),
       (h c _ (Cert.KernelIdeal.Hand.mem_uc Cert.KernelIdeal.main_arg4 (by decide))).trans (Cert.KernelIdeal.Hand.W9_main_arg4 m ρ c),
       (h c _ (Cert.KernelIdeal.Hand.mem_uc Cert.KernelIdeal.main_arg5 (by decide))).trans (Cert.KernelIdeal.Hand.W9_main_arg5 m ρ c),
       (h c _ (Cert.KernelIdeal.Hand.mem_uc Cert.KernelIdeal.main_arg6 (by decide))).trans (Cert.KernelIdeal.Hand.W9_main_arg6 m ρ c),
       (h c _ (Cert.KernelIdeal.Hand.mem_uc Cert.KernelIdeal.main_arg7 (by decide))).trans (Cert.KernelIdeal.Hand.W9_main_arg7 m ρ c)⟩)
      (Cert.KernelIdeal.Hand.run_all (F := Ideal) m ρ)
  · exact (θ_run Cert.ReferenceIdeal.defs _ _).mono (fun r h c =>
      ⟨(h c).1.trans (Cert.Bridge.result_eq m ρ m' c (hpre c) (hagree c)), (h c).2⟩)
      (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
